-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v179)) (v1 : (c : Dev Cert.KernelIdeal.nD) → Buf (Elt Ideal) ((c.tc : Thread Cert.KernelIdeal.nD Cert.KernelIdeal.τ).loc Cert.KernelIdeal.main_v149)) (v2 : (c : Dev Cert.KernelIdeal.nD) → Buf (Elt Ideal) ((c.tc : Thread Cert.KernelIdeal.nD Cert.KernelIdeal.τ).loc Cert.KernelIdeal.main_v223)) (v3 : (c : Dev Cert.KernelIdeal.nD) → Buf (Elt Ideal) ((c.tc : Thread Cert.KernelIdeal.nD Cert.KernelIdeal.τ).loc Cert.KernelIdeal.main_v224)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_v149) = v1 c
          ∧ r.2.mem ((c.tc : Thread Cert.KernelIdeal.nD Cert.KernelIdeal.τ).loc Cert.KernelIdeal.main_v223) = v2 c
          ∧ r.2.mem ((c.tc : Thread Cert.KernelIdeal.nD Cert.KernelIdeal.τ).loc Cert.KernelIdeal.main_v224) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_v277) = v2 c
          ∧ r.2.mem ((c.tc : Thread Cert.ReferenceIdeal.nD Cert.ReferenceIdeal.τ).loc Cert.ReferenceIdeal.main_v293) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x2x128x128 : Shape := ⟨4, ![2, 2, 128, 128]⟩
abbrev S2x2x128 : Shape := ⟨3, ![2, 2, 128]⟩
abbrev S2x128x64 : Shape := ⟨3, ![2, 128, 64]⟩
abbrev S2x64 : Shape := ⟨2, ![2, 64]⟩
abbrev S1000000 : Shape := ⟨1, ![1000000]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg7 : FVec F S2x64 .f32) (main_arg8 : FVec F S2x128x64 .f32) (main_arg9 : FVec F S2x64 .f32) (main_v33 : IVec S_ 1) : IVec S_ 1 :=
  let main_v34 : FVec F S2x64 .f32 := Host.absf main_arg7
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x128x64 .f32 := Host.absf main_arg8
  let main_cst_14 : FVec F S_ .f32 := constant S_ .f32 0x7F800000#32
  let main_v40 : FVec F S2x128x64 .f32 := broadcastInDim S2x128x64 ![] bcast_S_S2x128x64 main_cst_14
  let main_v41 : IVec S2x128x64 1 := cmpf .olt main_v39 main_v40
  let main_c_15 : IVec S_ 1 := constantI S_ 1 1#1
  let main_v42 : IVec S_ 1 := (fun x v => Host.reduce IntOp.andi x v reducesTo_S2x128x64_S_d0_1_2 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  main_v48

def fn_part1 {F : FTy → Type} [FloatOps F] (main_arg4 : FVec F S2x2x128x128 .f32) (main_arg5 : FVec F S2x2x128 .f32) (main_arg6 : FVec F S2x128x64 .f32) (main_arg7 : FVec F S2x64 .f32) (main_arg8 : FVec F S2x128x64 .f32) (main_arg9 : FVec F S2x64 .f32) (main_v13 : IVec S_ 1) (main_v16 : IVec S2x2x128 1) : IVec S_ 1 :=
  let main_c_5 : IVec S_ 1 := constantI S_ 1 1#1
  let main_v17 : IVec S_ 1 := (fun x v => Host.reduce IntOp.andi x v reducesTo_S2x2x128_S_d0_1_2 h_S_) main_v16 main_c_5
  let main_v18 : IVec S_ 1 := andi main_v13 main_v17
  let main_v19 : FVec F S2x2x128x128 .f32 := Host.absf main_arg4
  let main_cst_6 : FVec F S_ .f32 := constant S_ .f32 0x7F800000#32
  let main_v20 : FVec F S2x2x128x128 .f32 := broadcastInDim S2x2x128x128 ![] bcast_S_S2x2x128x128 main_cst_6
  let main_v21 : IVec S2x2x128x128 1 := cmpf .olt main_v19 main_v20
  let main_c_7 : IVec S_ 1 := constantI S_ 1 1#1
  let main_v22 : IVec S_ 1 := (fun x v => Host.reduce IntOp.andi x v reducesTo_S2x2x128x128_S_d0_1_2_3 h_S_) main_v21 main_c_7
  let main_v23 : IVec S_ 1 := andi main_v18 main_v22
  let main_v24 : FVec F S2x2x128 .f32 := Host.absf main_arg5
  let main_cst_8 : FVec F S_ .f32 := constant S_ .f32 0x7F800000#32
  let main_v25 : FVec F S2x2x128 .f32 := broadcastInDim S2x2x128 ![] bcast_S_S2x2x128 main_cst_8
  let main_v26 : IVec S2x2x128 1 := cmpf .olt main_v24 main_v25
  let main_c_9 : IVec S_ 1 := constantI S_ 1 1#1
  let main_v27 : IVec S_ 1 := (fun x v => Host.reduce IntOp.andi x v reducesTo_S2x2x128_S_d0_1_2 h_S_) main_v26 main_c_9
  let main_v28 : IVec S_ 1 := andi main_v23 main_v27
  let main_v29 : FVec F S2x128x64 .f32 := Host.absf main_arg6
  let main_cst_10 : FVec F S_ .f32 := constant S_ .f32 0x7F800000#32
  let main_v30 : FVec F S2x128x64 .f32 := broadcastInDim S2x128x64 ![] bcast_S_S2x128x64 main_cst_10
  let main_v31 : IVec S2x128x64 1 := cmpf .olt main_v29 main_v30
  let main_c_11 : IVec S_ 1 := constantI S_ 1 1#1
  let main_v32 : IVec S_ 1 := (fun x v => Host.reduce IntOp.andi x v reducesTo_S2x128x64_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S2x2x128x128 .f32) (main_arg3 : FVec F S2x2x128 .f32) (main_arg4 : FVec F S2x2x128x128 .f32) (main_arg5 : FVec F S2x2x128 .f32) (main_arg6 : FVec F S2x128x64 .f32) (main_arg7 : FVec F S2x64 .f32) (main_arg8 : FVec F S2x128x64 .f32) (main_arg9 : FVec F S2x64 .f32) (main_arg10 : IVec S1000000 32) (main_arg11 : IVec S1000000 32) (main_arg12 : IVec S1000000 32) (main_arg13 : IVec S1000000 32) (main_arg14 : IVec S500000 32) (main_arg15 : IVec S500000 32) (main_arg16 : IVec S500000 32) (main_arg17 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x2x128x128 .f32 := Host.absf main_arg2
  let main_cst_2 : FVec F S_ .f32 := constant S_ .f32 0x7F800000#32
  let main_v10 : FVec F S2x2x128x128 .f32 := broadcastInDim S2x2x128x128 ![] bcast_S_S2x2x128x128 main_cst_2
  let main_v11 : IVec S2x2x128x128 1 := cmpf .olt main_v9 main_v10
  let main_c_3 : IVec S_ 1 := constantI S_ 1 1#1
  let main_v12 : IVec S_ 1 := (fun x v => Host.reduce IntOp.andi x v reducesTo_S2x2x128x128_S_d0_1_2_3 h_S_) main_v11 main_c_3
  let main_v13 : IVec S_ 1 := andi main_v8 main_v12
  let main_v14 : FVec F S2x2x128 .f32 := Host.absf main_arg3
  let main_cst_4 : FVec F S_ .f32 := constant S_ .f32 0x7F800000#32
  let main_v15 : FVec F S2x2x128 .f32 := broadcastInDim S2x2x128 ![] bcast_S_S2x2x128 main_cst_4
  let main_v16 : IVec S2x2x128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S2x2x128x128 : Shape := ⟨4, ![2, 2, 128, 128]⟩
abbrev S2x2x128 : Shape := ⟨3, ![2, 2, 128]⟩
abbrev S2x128x64 : Shape := ⟨3, ![2, 128, 64]⟩
abbrev S2x64 : Shape := ⟨2, ![2, 64]⟩
abbrev S1000000 : Shape := ⟨1, ![1000000]⟩
abbrev S500000 : Shape := ⟨1, ![500000]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S100000 : Shape := ⟨1, ![100000]⟩
abbrev S100000x1 : Shape := ⟨2, ![100000, 1]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S50000x64 : Shape := ⟨2, ![50000, 64]⟩
abbrev S5000x64 : Shape := ⟨2, ![5000, 64]⟩
abbrev S100000x64 : Shape := ⟨2, ![100000, 64]⟩
abbrev S500000x1 : Shape := ⟨2, ![500000, 1]⟩
abbrev S500000x64 : Shape := ⟨2, ![500000, 64]⟩
abbrev S1000000x64 : Shape := ⟨2, ![1000000, 64]⟩

abbrev nBuf : Space → Nat
  | .hbm => 297
  | .vmem => 66
  | .smem => 0
  | _ => 0

abbrev hbmTy0_0 (i : Nat) : BufTy := match i % 128 with
  | 0 => ⟨S100000x128, .f32⟩
  | 1 => ⟨S50000x128, .f32⟩
  | 2 => ⟨S2x2x128x128, .f32⟩
  | 3 => ⟨S2x2x128, .f32⟩
  | 4 => ⟨S2x2x128x128, .f32⟩
  | 5 => ⟨S2x2x128, .f32⟩
  | 6 => ⟨S2x128x64, .f32⟩
  | 7 => ⟨S2x64, .f32⟩
  | 8 => ⟨S2x128x64, .f32⟩
  | 9 => ⟨S2x64, .f32⟩
  | 10 => ⟨S1000000, .i32⟩
  | 11 => ⟨S1000000, .i32⟩
  | 12 => ⟨S1000000, .i32⟩
  | 13 => ⟨S1000000, .i32⟩
  | 14 => ⟨S500000, .i32⟩
  | 15 => ⟨S500000, .i32⟩
  | 16 => ⟨S500000, .i32⟩
  | 17 => ⟨S500000, .i32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x128, .f32⟩
  | 27 => ⟨S_, .f32⟩
  | 28 => ⟨S50000x128, .f32⟩
  | 29 => ⟨S1000000x1, .i32⟩
  | 30 => ⟨S50000x128, .f32⟩
  | 31 => ⟨S_, .f32⟩
  | 32 => ⟨S1000000, .f32⟩
  | 33 => ⟨S_, .f32⟩
  | 34 => ⟨S50000, .f32⟩
  | 35 => ⟨S1000000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S1x1x128x128, .f32⟩
  | 44 => ⟨S128x128, .f32⟩
  | 45 => ⟨S1x1x128, .f32⟩
  | 46 => ⟨S128, .f32⟩
  | 47 => ⟨S1x1x128x128, .f32⟩
  | 48 => ⟨S128x128, .f32⟩
  | 49 => ⟨S1x1x128, .f32⟩
  | 50 => ⟨S128, .f32⟩
  | 51 => ⟨S1x128, .f32⟩
  | 52 => ⟨S1x128, .f32⟩
  | 53 => ⟨S50000x128, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x128, .f32⟩
  | 63 => ⟨S_, .f32⟩
  | 64 => ⟨S100000x128, .f32⟩
  | 65 => ⟨S1000000x1, .i32⟩
  | 66 => ⟨S100000x128, .f32⟩
  | 67 => ⟨S_, .f32⟩
  | 68 => ⟨S1000000, .f32⟩
  | 69 => ⟨S_, .f32⟩
  | 70 => ⟨S100000, .f32⟩
  | 71 => ⟨S1000000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S1x1x128x128, .f32⟩
  | 80 => ⟨S128x128, .f32⟩
  | 81 => ⟨S1x1x128, .f32⟩
  | 82 => ⟨S128, .f32⟩
  | 83 => ⟨S1x1x128x128, .f32⟩
  | 84 => ⟨S128x128, .f32⟩
  | 85 => ⟨S1x1x128, .f32⟩
  | 86 => ⟨S128, .f32⟩
  | 87 => ⟨S1x128, .f32⟩
  | 88 => ⟨S1x128, .f32⟩
  | 89 => ⟨S100000x128, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x128, .f32⟩
  | 99 => ⟨S_, .f32⟩
  | 100 => ⟨S50000x128, .f32⟩
  | 101 => ⟨S1000000x1, .i32⟩
  | 102 => ⟨S50000x128, .f32⟩
  | 103 => ⟨S_, .f32⟩
  | 104 => ⟨S1000000, .f32⟩
  | 105 => ⟨S_, .f32⟩
  | 106 => ⟨S50000, .f32⟩
  | 107 => ⟨S1000000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S1x1x128x128, .f32⟩
  | 116 => ⟨S128x128, .f32⟩
  | 117 => ⟨S1x1x128, .f32⟩
  | 118 => ⟨S128, .f32⟩
  | 119 => ⟨S1x1x128x128, .f32⟩
  | 120 => ⟨S128x128, .f32⟩
  | 121 => ⟨S1x1x128, .f32⟩
  | 122 => ⟨S128, .f32⟩
  | 123 => ⟨S1x128, .f32⟩
  | 124 => ⟨S1x128, .f32⟩
  | 125 => ⟨S50000x128, .f32⟩
  | 126 => ⟨S_, .i32⟩
  | 127 => ⟨S1000000, .i32⟩
  | _ => ⟨S100000x128, .f32⟩

abbrev hbmTy0_1 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000x128, .f32⟩
  | 7 => ⟨S_, .f32⟩
  | 8 => ⟨S100000x128, .f32⟩
  | 9 => ⟨S1000000x1, .i32⟩
  | 10 => ⟨S100000x128, .f32⟩
  | 11 => ⟨S_, .f32⟩
  | 12 => ⟨S1000000, .f32⟩
  | 13 => ⟨S_, .f32⟩
  | 14 => ⟨S100000, .f32⟩
  | 15 => ⟨S1000000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S100000x128, .f32⟩
  | 22 => ⟨S100000x128, .f32⟩
  | 23 => ⟨S1x1x128x128, .f32⟩
  | 24 => ⟨S128x128, .f32⟩
  | 25 => ⟨S1x1x128, .f32⟩
  | 26 => ⟨S128, .f32⟩
  | 27 => ⟨S1x1x128x128, .f32⟩
  | 28 => ⟨S128x128, .f32⟩
  | 29 => ⟨S1x1x128, .f32⟩
  | 30 => ⟨S128, .f32⟩
  | 31 => ⟨S1x128, .f32⟩
  | 32 => ⟨S1x128, .f32⟩
  | 33 => ⟨S100000x128, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x128, .f32⟩
  | 43 => ⟨S_, .f32⟩
  | 44 => ⟨S50000x128, .f32⟩
  | 45 => ⟨S1000000x1, .i32⟩
  | 46 => ⟨S50000x128, .f32⟩
  | 47 => ⟨S_, .f32⟩
  | 48 => ⟨S1000000, .f32⟩
  | 49 => ⟨S_, .f32⟩
  | 50 => ⟨S50000, .f32⟩
  | 51 => ⟨S1000000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S1x128x64, .f32⟩
  | 60 => ⟨S128x64, .f32⟩
  | 61 => ⟨S1x64, .f32⟩
  | 62 => ⟨S64, .f32⟩
  | 63 => ⟨S1x128x64, .f32⟩
  | 64 => ⟨S128x64, .f32⟩
  | 65 => ⟨S1x64, .f32⟩
  | 66 => ⟨S64, .f32⟩
  | 67 => ⟨S1x64, .f32⟩
  | 68 => ⟨S1x64, .f32⟩
  | 69 => ⟨S50000x64, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x128, .f32⟩
  | 79 => ⟨S_, .f32⟩
  | 80 => ⟨S100000x128, .f32⟩
  | 81 => ⟨S1000000x1, .i32⟩
  | 82 => ⟨S100000x128, .f32⟩
  | 83 => ⟨S_, .f32⟩
  | 84 => ⟨S1000000, .f32⟩
  | 85 => ⟨S_, .f32⟩
  | 86 => ⟨S100000, .f32⟩
  | 87 => ⟨S1000000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S1x128x64, .f32⟩
  | 96 => ⟨S128x64, .f32⟩
  | 97 => ⟨S1x64, .f32⟩
  | 98 => ⟨S64, .f32⟩
  | 99 => ⟨S1x128x64, .f32⟩
  | 100 => ⟨S128x64, .f32⟩
  | 101 => ⟨S1x64, .f32⟩
  | 102 => ⟨S64, .f32⟩
  | 103 => ⟨S1x64, .f32⟩
  | 104 => ⟨S1x64, .f32⟩
  | 105 => ⟨S100000x64, .f32⟩
  | 106 => ⟨S100000x64, .f32⟩
  | 107 => ⟨S_, .f32⟩
  | 108 => ⟨S100000, .f32⟩
  | 109 => ⟨S100000x1, .f32⟩
  | 110 => ⟨S100000x1, .f32⟩
  | 111 => ⟨S_, .f32⟩
  | 112 => ⟨S100000x1, .f32⟩
  | 113 => ⟨S100000x1, .f32⟩
  | 114 => ⟨S100000x64, .f32⟩
  | 115 => ⟨S100000x64, .f32⟩
  | 116 => ⟨S50000x64, .f32⟩
  | 117 => ⟨S_, .f32⟩
  | 118 => ⟨S50000, .f32⟩
  | 119 => ⟨S50000x1, .f32⟩
  | 120 => ⟨S50000x1, .f32⟩
  | 121 => ⟨S_, .f32⟩
  | 122 => ⟨S50000x1, .f32⟩
  | 123 => ⟨S50000x1, .f32⟩
  | 124 => ⟨S50000x64, .f32⟩
  | 125 => ⟨S50000x64, .f32⟩
  | 126 => ⟨S_, .i32⟩
  | 127 => ⟨S500000, .i32⟩
  | _ => ⟨S100000x128, .f32⟩

abbrev hbmTy0_2 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x64, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S1000000x64, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x64, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x64, .f32⟩
  | 35 => ⟨S1000000x64, .f32⟩
  | 36 => ⟨S1000000x64, .f32⟩
  | 37 => ⟨S1000000x1, .f32⟩
  | 38 => ⟨S1000000, .f32⟩
  | 39 => ⟨S500000, .f32⟩
  | 40 => ⟨S500000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S1x64, .f32⟩
  | .local _ .vmem, ⟨46, _⟩ => ⟨S128x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x64, .f32⟩
  | .local _ .vmem, ⟨55, _⟩ => ⟨S1x64, .f32⟩
  | .local _ .vmem, ⟨56, _⟩ => ⟨S128x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_16 : Ref sig .tc := ⟨.hbm, 126, rfl⟩
abbrev main_v90 : Ref sig .tc := ⟨.hbm, 127, rfl⟩
abbrev main_v91 : Ref sig .tc := ⟨.hbm, 128, rfl⟩
abbrev main_c_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_19 : Ref sig .tc := ⟨.hbm, 139, rfl⟩
abbrev main_v100 : Ref sig .tc := ⟨.hbm, 140, rfl⟩
abbrev main_cst_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_21 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_22 : Ref sig .tc := ⟨.hbm, 162, rfl⟩
abbrev main_v120 : Ref sig .tc := ⟨.hbm, 163, rfl⟩
abbrev main_v121 : Ref sig .tc := ⟨.hbm, 164, rfl⟩
abbrev main_c_23 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_25 : Ref sig .tc := ⟨.hbm, 175, rfl⟩
abbrev main_v130 : Ref sig .tc := ⟨.hbm, 176, rfl⟩
abbrev main_cst_26 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_27 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_c_28 : Ref sig .tc := ⟨.hbm, 198, rfl⟩
abbrev main_v150 : Ref sig .tc := ⟨.hbm, 199, rfl⟩
abbrev main_v151 : Ref sig .tc := ⟨.hbm, 200, rfl⟩
abbrev main_c_29 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_30 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_31 : Ref sig .tc := ⟨.hbm, 211, rfl⟩
abbrev main_v160 : Ref sig .tc := ⟨.hbm, 212, rfl⟩
abbrev main_cst_32 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_33 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_call0_v0 : Ref sig .tc := ⟨.hbm, 234, rfl⟩
abbrev main_call0_cst : Ref sig .tc := ⟨.hbm, 235, rfl⟩
abbrev main_call0_v1 : Ref sig .tc := ⟨.hbm, 236, rfl⟩
abbrev main_call0_v2 : Ref sig .tc := ⟨.hbm, 237, rfl⟩
abbrev main_v180 : Ref sig .tc := ⟨.hbm, 238, rfl⟩
abbrev main_cst_34 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_call1_v0 : Ref sig .tc := ⟨.hbm, 244, rfl⟩
abbrev main_call1_cst : Ref sig .tc := ⟨.hbm, 245, rfl⟩
abbrev main_call1_v1 : Ref sig .tc := ⟨.hbm, 246, rfl⟩
abbrev main_call1_v2 : Ref sig .tc := ⟨.hbm, 247, rfl⟩
abbrev main_v185 : Ref sig .tc := ⟨.hbm, 248, rfl⟩
abbrev main_cst_35 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_c_36 : Ref sig .tc := ⟨.hbm, 254, rfl⟩
abbrev main_v190 : Ref sig .tc := ⟨.hbm, 255, rfl⟩
abbrev main_v191 : Ref sig .tc := ⟨.hbm, 256, rfl⟩
abbrev main_c_37 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_c_38 : Ref sig .tc := ⟨.hbm, 263, rfl⟩
abbrev main_v197 : Ref sig .tc := ⟨.hbm, 264, rfl⟩
abbrev main_v198 : Ref sig .tc := ⟨.hbm, 265, rfl⟩
abbrev main_c_39 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_c_40 : Ref sig .tc := ⟨.hbm, 273, rfl⟩
abbrev main_v205 : Ref sig .tc := ⟨.hbm, 274, rfl⟩
abbrev main_v206 : Ref sig .tc := ⟨.hbm, 275, rfl⟩
abbrev main_c_41 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_c_42 : Ref sig .tc := ⟨.hbm, 282, rfl⟩
abbrev main_v212 : Ref sig .tc := ⟨.hbm, 283, rfl⟩
abbrev main_v213 : Ref sig .tc := ⟨.hbm, 284, rfl⟩
abbrev main_c_43 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x2x128x128_S1x1x128x128_0_0_0_0 : S2x2x128x128.Slices ![0, 0, 0, 0] S1x1x128x128
  shapeCasts_S1x1x128x128_S128x128 : S1x1x128x128.ShapeCasts S128x128
  slices_S2x2x128_S1x1x128_0_0_0 : S2x2x128.Slices ![0, 0, 0] S1x1x128
  shapeCasts_S1x1x128_S128 : S1x1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x2x128x128_S1x1x128x128_0_1_0_0 : S2x2x128x128.Slices ![0, 1, 0, 0] S1x1x128x128
  slices_S2x2x128_S1x1x128_0_1_0 : S2x2x128.Slices ![0, 1, 0] S1x1x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  slices_S2x128x64_S1x128x64_1_0_0 : S2x128x64.Slices ![1, 0, 0] S1x128x64
  slices_S2x64_S1x64_1_0 : S2x64.Slices ![1, 0] S1x64
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S50000x64_S50000_d1 : S50000x64.ReducesTo [1] S50000
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S1000000x64_d0 : Shape.Concatenates [S500000x64, S500000x64] S1000000x64 0
  shapeCasts_S5000x64_S5000x64 : S5000x64.ShapeCasts S5000x64
  shapeCasts_S5000x1_S5000x1 : S5000x1.ShapeCasts S5000x1
  slices_S1000000x64_S1000000x1_0_0 : S1000000x64.Slices ![0, 0] S1000000x1
  shapeCasts_S1000000x1_S1000000 : S1000000x1.ShapeCasts S1000000
  slices_S1000000_S500000_0 : S1000000.Slices ![0] S500000
  slices_S1000000_S500000_500000 : S1000000.Slices ![500000] S500000
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S5000x128_S128x128_S5000x128_1_0_0_1_n_n_wf : DotDims.WF S5000x128 S128x128 S5000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S5000x128_S128x64_S5000x64_1_0_0_1_n_n_wf : DotDims.WF S5000x128 S128x64 S5000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x64.size a ≤ S128x64.size a
  hwx5_4 : ∀ i : grid5.Coords, EltTy.bits .f32 = 32 ∨ (Rect.block (s := S128x64) S128x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S1000000x64.size a
  hwx6_0 : ∀ i : grid6.Coords, EltTy.bits .f32 = 32 ∨ (Rect.block (s := S1000000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S1000000x64.size a
  hwx6_1 : ∀ i : grid6.Coords, EltTy.bits .f32 = 32 ∨ (Rect.block (s := S1000000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S1000000x64.size a
  hwx6_2 : ∀ i : grid6.Coords, EltTy.bits .f32 = 32 ∨ (Rect.block (s := S1000000x64) S5000x64.size (cc6_transform_2 i) (hinb6_2 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v78) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v89) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v108) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v110) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v117) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v114) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v118) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v119) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v138) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v140) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v147) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v144) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v148) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v149) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v168) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v170) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v177) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v174) S128x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v178) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v179) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v204) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v219) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v220) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x2x128x128 : Shape := ⟨4, ![2, 2, 128, 128]⟩
abbrev S2x2x128 : Shape := ⟨3, ![2, 2, 128]⟩
abbrev S2x128x64 : Shape := ⟨3, ![2, 128, 64]⟩
abbrev S2x64 : Shape := ⟨2, ![2, 64]⟩
abbrev S1000000 : Shape := ⟨1, ![1000000]⟩
abbrev S500000 : Shape := ⟨1, ![500000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S1x128 : Shape := ⟨2, ![1, 128]⟩
abbrev S100000 : Shape := ⟨1, ![100000]⟩
abbrev S100000x1 : Shape := ⟨2, ![100000, 1]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S50000x64 : Shape := ⟨2, ![50000, 64]⟩
abbrev S100000x64 : Shape := ⟨2, ![100000, 64]⟩
abbrev S500000x1 : Shape := ⟨2, ![500000, 1]⟩
abbrev S500000x64 : Shape := ⟨2, ![500000, 64]⟩

abbrev nBuf : Space → Nat
  | .hbm => 410
  | .vmem => 0
  | .smem => 0
  | _ => 0

abbrev hbmTy0_0 (i : Nat) : BufTy := match i % 128 with
  | 0 => ⟨S100000x128, .f32⟩
  | 1 => ⟨S50000x128, .f32⟩
  | 2 => ⟨S2x2x128x128, .f32⟩
  | 3 => ⟨S2x2x128, .f32⟩
  | 4 => ⟨S2x2x128x128, .f32⟩
  | 5 => ⟨S2x2x128, .f32⟩
  | 6 => ⟨S2x128x64, .f32⟩
  | 7 => ⟨S2x64, .f32⟩
  | 8 => ⟨S2x128x64, .f32⟩
  | 9 => ⟨S2x64, .f32⟩
  | 10 => ⟨S1000000, .i32⟩
  | 11 => ⟨S1000000, .i32⟩
  | 12 => ⟨S1000000, .i32⟩
  | 13 => ⟨S1000000, .i32⟩
  | 14 => ⟨S500000, .i32⟩
  | 15 => ⟨S500000, .i32⟩
  | 16 => ⟨S500000, .i32⟩
  | 17 => ⟨S500000, .i32⟩
  | 18 => ⟨S1x1x128x128, .f32⟩
  | 19 => ⟨S128x128, .f32⟩
  | 20 => ⟨S1x1x128, .f32⟩
  | 21 => ⟨S128, .f32⟩
  | 22 => ⟨S1x1x128x128, .f32⟩
  | 23 => ⟨S128x128, .f32⟩
  | 24 => ⟨S1x1x128, .f32⟩
  | 25 => ⟨S128, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x128, .f32⟩
  | 35 => ⟨S_, .f32⟩
  | 36 => ⟨S50000x128, .f32⟩
  | 37 => ⟨S1000000x1, .i32⟩
  | 38 => ⟨S50000x128, .f32⟩
  | 39 => ⟨S_, .f32⟩
  | 40 => ⟨S1000000, .f32⟩
  | 41 => ⟨S_, .f32⟩
  | 42 => ⟨S50000, .f32⟩
  | 43 => ⟨S1000000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S_, .f32⟩
  | 65 => ⟨S50000, .f32⟩
  | 66 => ⟨S50000x1, .f32⟩
  | 67 => ⟨S50000x1, .f32⟩
  | 68 => ⟨S_, .f32⟩
  | 69 => ⟨S50000x1, .f32⟩
  | 70 => ⟨S50000x1, .f32⟩
  | 71 => ⟨S50000x128, .f32⟩
  | 72 => ⟨S50000x128, .f32⟩
  | 73 => ⟨S1x1x128x128, .f32⟩
  | 74 => ⟨S128x128, .f32⟩
  | 75 => ⟨S1x1x128, .f32⟩
  | 76 => ⟨S128, .f32⟩
  | 77 => ⟨S1x1x128x128, .f32⟩
  | 78 => ⟨S128x128, .f32⟩
  | 79 => ⟨S1x1x128, .f32⟩
  | 80 => ⟨S128, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S_, .f32⟩
  | 91 => ⟨S100000x128, .f32⟩
  | 92 => ⟨S1000000x1, .i32⟩
  | 93 => ⟨S100000x128, .f32⟩
  | 94 => ⟨S_, .f32⟩
  | 95 => ⟨S1000000, .f32⟩
  | 96 => ⟨S_, .f32⟩
  | 97 => ⟨S100000, .f32⟩
  | 98 => ⟨S1000000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S1x1x128x128, .f32⟩
  | 1 => ⟨S128x128, .f32⟩
  | 2 => ⟨S1x1x128, .f32⟩
  | 3 => ⟨S128, .f32⟩
  | 4 => ⟨S1x1x128x128, .f32⟩
  | 5 => ⟨S128x128, .f32⟩
  | 6 => ⟨S1x1x128, .f32⟩
  | 7 => ⟨S128, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x128, .f32⟩
  | 17 => ⟨S_, .f32⟩
  | 18 => ⟨S50000x128, .f32⟩
  | 19 => ⟨S1000000x1, .i32⟩
  | 20 => ⟨S50000x128, .f32⟩
  | 21 => ⟨S_, .f32⟩
  | 22 => ⟨S1000000, .f32⟩
  | 23 => ⟨S_, .f32⟩
  | 24 => ⟨S50000, .f32⟩
  | 25 => ⟨S1000000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S50000x1, .f32⟩
  | 50 => ⟨S_, .f32⟩
  | 51 => ⟨S50000x1, .f32⟩
  | 52 => ⟨S50000x1, .f32⟩
  | 53 => ⟨S50000x128, .f32⟩
  | 54 => ⟨S50000x128, .f32⟩
  | 55 => ⟨S1x1x128x128, .f32⟩
  | 56 => ⟨S128x128, .f32⟩
  | 57 => ⟨S1x1x128, .f32⟩
  | 58 => ⟨S128, .f32⟩
  | 59 => ⟨S1x1x128x128, .f32⟩
  | 60 => ⟨S128x128, .f32⟩
  | 61 => ⟨S1x1x128, .f32⟩
  | 62 => ⟨S128, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x128, .f32⟩
  | 72 => ⟨S_, .f32⟩
  | 73 => ⟨S100000x128, .f32⟩
  | 74 => ⟨S1000000x1, .i32⟩
  | 75 => ⟨S100000x128, .f32⟩
  | 76 => ⟨S_, .f32⟩
  | 77 => ⟨S1000000, .f32⟩
  | 78 => ⟨S_, .f32⟩
  | 79 => ⟨S100000, .f32⟩
  | 80 => ⟨S1000000x1, .i32⟩
  | 81 => ⟨S100000, .f32⟩
  | 82 => ⟨S_, .f32⟩
  | 83 => ⟨S100000, .f32⟩
  | 84 => ⟨S100000, .f32⟩
  | 85 => ⟨S100000x1, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .f32⟩
  | 102 => ⟨S100000, .f32⟩
  | 103 => ⟨S100000x1, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S1x128x64, .f32⟩
  | 111 => ⟨S128x64, .f32⟩
  | 112 => ⟨S1x64, .f32⟩
  | 113 => ⟨S64, .f32⟩
  | 114 => ⟨S1x128x64, .f32⟩
  | 115 => ⟨S128x64, .f32⟩
  | 116 => ⟨S1x64, .f32⟩
  | 117 => ⟨S64, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x128, .f32⟩
  | 127 => ⟨S_, .f32⟩
  | _ => ⟨S100000x128, .f32⟩

abbrev hbmTy0_2 (i : Nat) : BufTy := match i % 128 with
  | 0 => ⟨S50000x128, .f32⟩
  | 1 => ⟨S1000000x1, .i32⟩
  | 2 => ⟨S50000x128, .f32⟩
  | 3 => ⟨S_, .f32⟩
  | 4 => ⟨S1000000, .f32⟩
  | 5 => ⟨S_, .f32⟩
  | 6 => ⟨S50000, .f32⟩
  | 7 => ⟨S1000000x1, .i32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x128, .f32⟩
  | 14 => ⟨S50000x128, .f32⟩
  | 15 => ⟨S50000x64, .f32⟩
  | 16 => ⟨S1x64, .f32⟩
  | 17 => ⟨S50000x64, .f32⟩
  | 18 => ⟨S50000x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S_, .f32⟩
  | 29 => ⟨S50000, .f32⟩
  | 30 => ⟨S50000x1, .f32⟩
  | 31 => ⟨S50000x1, .f32⟩
  | 32 => ⟨S_, .f32⟩
  | 33 => ⟨S50000x1, .f32⟩
  | 34 => ⟨S50000x1, .f32⟩
  | 35 => ⟨S50000x64, .f32⟩
  | 36 => ⟨S50000x64, .f32⟩
  | 37 => ⟨S1x128x64, .f32⟩
  | 38 => ⟨S128x64, .f32⟩
  | 39 => ⟨S1x64, .f32⟩
  | 40 => ⟨S64, .f32⟩
  | 41 => ⟨S1x128x64, .f32⟩
  | 42 => ⟨S128x64, .f32⟩
  | 43 => ⟨S1x64, .f32⟩
  | 44 => ⟨S64, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x128, .f32⟩
  | 54 => ⟨S_, .f32⟩
  | 55 => ⟨S100000x128, .f32⟩
  | 56 => ⟨S1000000x1, .i32⟩
  | 57 => ⟨S100000x128, .f32⟩
  | 58 => ⟨S_, .f32⟩
  | 59 => ⟨S1000000, .f32⟩
  | 60 => ⟨S_, .f32⟩
  | 61 => ⟨S100000, .f32⟩
  | 62 => ⟨S1000000x1, .i32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x128, .f32⟩
  | 69 => ⟨S100000x128, .f32⟩
  | 70 => ⟨S100000x64, .f32⟩
  | 71 => ⟨S1x64, .f32⟩
  | 72 => ⟨S100000x64, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000, .f32⟩
  | 85 => ⟨S100000x1, .f32⟩
  | 86 => ⟨S100000x1, .f32⟩
  | 87 => ⟨S_, .f32⟩
  | 88 => ⟨S100000x1, .f32⟩
  | 89 => ⟨S100000x1, .f32⟩
  | 90 => ⟨S100000x64, .f32⟩
  | 91 => ⟨S100000x64, .f32⟩
  | 92 => ⟨S100000x64, .f32⟩
  | 93 => ⟨S_, .f32⟩
  | 94 => ⟨S100000, .f32⟩
  | 95 => ⟨S100000x1, .f32⟩
  | 96 => ⟨S100000x1, .f32⟩
  | 97 => ⟨S_, .f32⟩
  | 98 => ⟨S100000x1, .f32⟩
  | 99 => ⟨S100000x1, .f32⟩
  | 100 => ⟨S100000x64, .f32⟩
  | 101 => ⟨S100000x64, .f32⟩
  | 102 => ⟨S50000x64, .f32⟩
  | 103 => ⟨S_, .f32⟩
  | 104 => ⟨S50000, .f32⟩
  | 105 => ⟨S50000x1, .f32⟩
  | 106 => ⟨S50000x1, .f32⟩
  | 107 => ⟨S_, .f32⟩
  | 108 => ⟨S50000x1, .f32⟩
  | 109 => ⟨S50000x1, .f32⟩
  | 110 => ⟨S50000x64, .f32⟩
  | 111 => ⟨S50000x64, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000x64, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S100000x128, .f32⟩

abbrev hbmTy0_3 (i : Nat) : BufTy := match i % 128 with
  | 0 => ⟨S500000x1, .i32⟩
  | 1 => ⟨S500000x64, .f32⟩
  | 2 => ⟨S500000x64, .f32⟩
  | 3 => ⟨S_, .f32⟩
  | 4 => ⟨S500000, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x64, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x64, .f32⟩
  | 23 => ⟨S500000x64, .f32⟩
  | 24 => ⟨S_, .f32⟩
  | 25 => ⟨S500000, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call0_cst : Ref sig .tc := ⟨.hbm, 60, rfl⟩
abbrev main_call0_v0 : Ref sig .tc := ⟨.hbm, 61, rfl⟩
abbrev main_v36 : Ref sig .tc := ⟨.hbm, 62, rfl⟩
abbrev main_call1_v0 : Ref sig .tc := ⟨.hbm, 63, rfl⟩
abbrev main_call1_cst : Ref sig .tc := ⟨.hbm, 64, rfl⟩
abbrev main_call1_v1 : Ref sig .tc := ⟨.hbm, 65, rfl⟩
abbrev main_call1_v2 : Ref sig .tc := ⟨.hbm, 66, rfl⟩
abbrev main_v37 : Ref sig .tc := ⟨.hbm, 67, rfl⟩
abbrev main_cst_4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_5 : Ref sig .tc := ⟨.hbm, 81, rfl⟩
abbrev main_v50 : Ref sig .tc := ⟨.hbm, 82, rfl⟩
abbrev main_v51 : Ref sig .tc := ⟨.hbm, 83, rfl⟩
abbrev main_c_6 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_8 : Ref sig .tc := ⟨.hbm, 94, rfl⟩
abbrev main_v60 : Ref sig .tc := ⟨.hbm, 95, rfl⟩
abbrev main_cst_9 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_10 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call2_cst : Ref sig .tc := ⟨.hbm, 115, rfl⟩
abbrev main_call2_v0 : Ref sig .tc := ⟨.hbm, 116, rfl⟩
abbrev main_v78 : Ref sig .tc := ⟨.hbm, 117, rfl⟩
abbrev main_call3_v0 : Ref sig .tc := ⟨.hbm, 118, rfl⟩
abbrev main_call3_cst : Ref sig .tc := ⟨.hbm, 119, rfl⟩
abbrev main_call3_v1 : Ref sig .tc := ⟨.hbm, 120, rfl⟩
abbrev main_call3_v2 : Ref sig .tc := ⟨.hbm, 121, rfl⟩
abbrev main_v79 : Ref sig .tc := ⟨.hbm, 122, rfl⟩
abbrev main_cst_11 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_12 : Ref sig .tc := ⟨.hbm, 136, rfl⟩
abbrev main_v92 : Ref sig .tc := ⟨.hbm, 137, rfl⟩
abbrev main_v93 : Ref sig .tc := ⟨.hbm, 138, rfl⟩
abbrev main_c_13 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_14 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_15 : Ref sig .tc := ⟨.hbm, 149, rfl⟩
abbrev main_v102 : Ref sig .tc := ⟨.hbm, 150, rfl⟩
abbrev main_cst_16 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_17 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_call4_cst : Ref sig .tc := ⟨.hbm, 170, rfl⟩
abbrev main_call4_v0 : Ref sig .tc := ⟨.hbm, 171, rfl⟩
abbrev main_v120 : Ref sig .tc := ⟨.hbm, 172, rfl⟩
abbrev main_call5_v0 : Ref sig .tc := ⟨.hbm, 173, rfl⟩
abbrev main_call5_cst : Ref sig .tc := ⟨.hbm, 174, rfl⟩
abbrev main_call5_v1 : Ref sig .tc := ⟨.hbm, 175, rfl⟩
abbrev main_call5_v2 : Ref sig .tc := ⟨.hbm, 176, rfl⟩
abbrev main_v121 : Ref sig .tc := ⟨.hbm, 177, rfl⟩
abbrev main_cst_18 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_c_19 : Ref sig .tc := ⟨.hbm, 191, rfl⟩
abbrev main_v134 : Ref sig .tc := ⟨.hbm, 192, rfl⟩
abbrev main_v135 : Ref sig .tc := ⟨.hbm, 193, rfl⟩
abbrev main_c_20 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_21 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_22 : Ref sig .tc := ⟨.hbm, 204, rfl⟩
abbrev main_v144 : Ref sig .tc := ⟨.hbm, 205, rfl⟩
abbrev main_cst_23 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_24 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_call6_cst : Ref sig .tc := ⟨.hbm, 225, rfl⟩
abbrev main_call6_v0 : Ref sig .tc := ⟨.hbm, 226, rfl⟩
abbrev main_v162 : Ref sig .tc := ⟨.hbm, 227, rfl⟩
abbrev main_call7_v0 : Ref sig .tc := ⟨.hbm, 228, rfl⟩
abbrev main_call7_cst : Ref sig .tc := ⟨.hbm, 229, rfl⟩
abbrev main_call7_v1 : Ref sig .tc := ⟨.hbm, 230, rfl⟩
abbrev main_call7_v2 : Ref sig .tc := ⟨.hbm, 231, rfl⟩
abbrev main_v163 : Ref sig .tc := ⟨.hbm, 232, rfl⟩
abbrev main_cst_25 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_c_26 : Ref sig .tc := ⟨.hbm, 246, rfl⟩
abbrev main_v176 : Ref sig .tc := ⟨.hbm, 247, rfl⟩
abbrev main_v177 : Ref sig .tc := ⟨.hbm, 248, rfl⟩
abbrev main_c_27 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_cst_28 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_cst_29 : Ref sig .tc := ⟨.hbm, 259, rfl⟩
abbrev main_v186 : Ref sig .tc := ⟨.hbm, 260, rfl⟩
abbrev main_cst_30 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_cst_31 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_call8_cst : Ref sig .tc := ⟨.hbm, 280, rfl⟩
abbrev main_call8_v0 : Ref sig .tc := ⟨.hbm, 281, rfl⟩
abbrev main_v204 : Ref sig .tc := ⟨.hbm, 282, rfl⟩
abbrev main_call9_v0 : Ref sig .tc := ⟨.hbm, 283, rfl⟩
abbrev main_call9_cst : Ref sig .tc := ⟨.hbm, 284, rfl⟩
abbrev main_call9_v1 : Ref sig .tc := ⟨.hbm, 285, rfl⟩
abbrev main_call9_v2 : Ref sig .tc := ⟨.hbm, 286, rfl⟩
abbrev main_v205 : Ref sig .tc := ⟨.hbm, 287, rfl⟩
abbrev main_cst_32 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_c_33 : Ref sig .tc := ⟨.hbm, 301, rfl⟩
abbrev main_v218 : Ref sig .tc := ⟨.hbm, 302, rfl⟩
abbrev main_v219 : Ref sig .tc := ⟨.hbm, 303, rfl⟩
abbrev main_c_34 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_cst_35 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_cst_36 : Ref sig .tc := ⟨.hbm, 314, rfl⟩
abbrev main_v228 : Ref sig .tc := ⟨.hbm, 315, rfl⟩
abbrev main_cst_37 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_cst_38 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_call10_cst : Ref sig .tc := ⟨.hbm, 335, rfl⟩
abbrev main_call10_v0 : Ref sig .tc := ⟨.hbm, 336, rfl⟩
abbrev main_v246 : Ref sig .tc := ⟨.hbm, 337, rfl⟩
abbrev main_call11_v0 : Ref sig .tc := ⟨.hbm, 338, rfl⟩
abbrev main_call11_cst : Ref sig .tc := ⟨.hbm, 339, rfl⟩
abbrev main_call11_v1 : Ref sig .tc := ⟨.hbm, 340, rfl⟩
abbrev main_call11_v2 : Ref sig .tc := ⟨.hbm, 341, rfl⟩
abbrev main_v247 : Ref sig .tc := ⟨.hbm, 342, rfl⟩
abbrev main_cst_39 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_call12_v0 : Ref sig .tc := ⟨.hbm, 348, rfl⟩
abbrev main_call12_cst : Ref sig .tc := ⟨.hbm, 349, rfl⟩
abbrev main_call12_v1 : Ref sig .tc := ⟨.hbm, 350, rfl⟩
abbrev main_call12_v2 : Ref sig .tc := ⟨.hbm, 351, rfl⟩
abbrev main_v252 : Ref sig .tc := ⟨.hbm, 352, rfl⟩
abbrev main_cst_40 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_v256 : Ref sig .tc := ⟨.hbm, 357, rfl⟩
abbrev main_call13_v0 : Ref sig .tc := ⟨.hbm, 358, rfl⟩
abbrev main_call13_cst : Ref sig .tc := ⟨.hbm, 359, rfl⟩
abbrev main_call13_v1 : Ref sig .tc := ⟨.hbm, 360, rfl⟩
abbrev main_call13_v2 : Ref sig .tc := ⟨.hbm, 361, rfl⟩
abbrev main_v257 : Ref sig .tc := ⟨.hbm, 362, rfl⟩
abbrev main_cst_41 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_c_42 : Ref sig .tc := ⟨.hbm, 368, rfl⟩
abbrev main_v262 : Ref sig .tc := ⟨.hbm, 369, rfl⟩
abbrev main_v263 : Ref sig .tc := ⟨.hbm, 370, rfl⟩
abbrev main_c_43 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_c_44 : Ref sig .tc := ⟨.hbm, 377, rfl⟩
abbrev main_v269 : Ref sig .tc := ⟨.hbm, 378, rfl⟩
abbrev main_v270 : Ref sig .tc := ⟨.hbm, 379, rfl⟩
abbrev main_c_45 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_v276 : Ref sig .tc := ⟨.hbm, 386, rfl⟩
abbrev main_cst_46 : Ref sig .tc := ⟨.hbm, 387, rfl⟩
abbrev main_v277 : Ref sig .tc := ⟨.hbm, 388, rfl⟩
abbrev main_c_47 : Ref sig .tc := ⟨.hbm, 389, rfl⟩
abbrev main_v278 : Ref sig .tc := ⟨.hbm, 390, rfl⟩
abbrev main_v279 : Ref sig .tc := ⟨.hbm, 391, rfl⟩
abbrev main_c_48 : Ref sig .tc := ⟨.hbm, 392, rfl⟩
abbrev main_v280 : Ref sig .tc := ⟨.hbm, 393, rfl⟩
abbrev main_v281 : Ref sig .tc := ⟨.hbm, 394, rfl⟩
abbrev main_v282 : Ref sig .tc := ⟨.hbm, 395, rfl⟩
abbrev main_v283 : Ref sig .tc := ⟨.hbm, 396, rfl⟩
abbrev main_v284 : Ref sig .tc := ⟨.hbm, 397, rfl⟩
abbrev main_c_49 : Ref sig .tc := ⟨.hbm, 398, rfl⟩
abbrev main_v285 : Ref sig .tc := ⟨.hbm, 399, rfl⟩
abbrev main_v286 : Ref sig .tc := ⟨.hbm, 400, rfl⟩
abbrev main_c_50 : Ref sig .tc := ⟨.hbm, 401, rfl⟩
abbrev main_v287 : Ref sig .tc := ⟨.hbm, 402, rfl⟩
abbrev main_v288 : Ref sig .tc := ⟨.hbm, 403, rfl⟩
abbrev main_v289 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_cst_51 : Ref sig .tc := ⟨.hbm, 408, rfl⟩
abbrev main_v293 : Ref sig .tc := ⟨.hbm, 409, rfl⟩

abbrev nD : Nat := 1
abbrev τ : Topo := Topo.v7x

variable {F : FTy → Type} [FloatOps F]

class Facts₀ : Prop where
  slices_S2x2x128x128_S1x1x128x128_0_0_0_0 : S2x2x128x128.Slices ![0, 0, 0, 0] S1x1x128x128
  shapeCasts_S1x1x128x128_S128x128 : S1x1x128x128.ShapeCasts S128x128
  slices_S2x2x128_S1x1x128_0_0_0 : S2x2x128.Slices ![0, 0, 0] S1x1x128
  shapeCasts_S1x1x128_S128 : S1x1x128.ShapeCasts S128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S2x2x128x128_S1x1x128x128_0_1_0_0 : S2x2x128x128.Slices ![0, 1, 0, 0] S1x1x128x128
  slices_S2x2x128_S1x1x128_0_1_0 : S2x2x128.Slices ![0, 1, 0] S1x1x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  bcast_S_S100000x1 : S_.BroadcastsInDim S100000x1 (![] : Fin 0 → Fin S100000x1.rank)
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  slices_S2x128x64_S1x128x64_1_0_0 : S2x128x64.Slices ![1, 0, 0] S1x128x64
  slices_S2x64_S1x64_1_0 : S2x64.Slices ![1, 0] S1x64
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  dot_S50000x128_S128x64_S50000x64_1_0_0_1_n_n_wf : DotDims.WF S50000x128 S128x64 S50000x64 [1] [0] [0] [1] [] []
  dot_S100000x128_S128x64_S100000x64_1_0_0_1_n_n_wf : DotDims.WF S100000x128 S128x64 S100000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

class Facts : Prop extends Facts₀ where

variable [Facts]
-- ==== Proof.RunAll.lean ====
/- The idealized kernel program's run with its four results named.

   The program is a chain of host stretches and seven kernel regions.  At every boundary of that chain the contents of
   every unscoped buffer are a fold from the launch memory (`Gen.W0` … `Gen.W18`: a stretch's operations applied in
   order; a region's arrays at what its write-backs leave, every other buffer as the region found it).  Every weakly
   fair execution ends with every unscoped buffer holding what the last boundary `Gen.W18` says.  Read at the four
   result buffers and at the eighteen argument arrays this gives: each result ends holding its value under the fold,
   and each argument ends as launched (no host operation writes an argument, and a region only reads one, through an
   input window). -/
import proofs.«153211_j15264313770095_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the TensorCores, from any memory with zero counters, terminates
    without a fault; in the final state each of the four result buffers holds what the boundary fold `Gen.W18` assigns
    to it, and each of the eighteen argument arrays is as launched. -/
theorem run_all : θ_run defs (onTc (τ := τ) (main (F := F))) ⟨m, fun _ => 0, ρ⟩ (fun r => ∀ c : Dev nD,
      r.2.mem ((c.tc : Thread nD τ).loc main_v179) = Gen.W18 m ρ c (Proc.devRef .tc main_v179)
      ∧ r.2.mem ((c.tc : Thread nD τ).loc main_v149) = Gen.W18 m ρ c (Proc.devRef .tc main_v149)
      ∧ r.2.mem ((c.tc : Thread nD τ).loc main_v223) = Gen.W18 m ρ c (Proc.devRef .tc main_v223)
      ∧ r.2.mem ((c.tc : Thread nD τ).loc main_v224) = Gen.W18 m ρ c (Proc.devRef .tc main_v224)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v179 (by decide)),
       h c _ (mem_uc main_v149 (by decide)),
       h c _ (mem_uc main_v223 (by decide)),
       h c _ (mem_uc main_v224 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c)⟩)

end Cert.KernelIdeal.RunAll

end
-- ==== Proof.HostChain.lean ====
/- The host side of the idealized kernel program: what every kernel region finds in its input arrays, and what the four
   results are, as explicit terms of the arguments' launch contents and of the earlier regions' outputs.

   The program runs seven kernel regions among stretches of host operations.  `Gen.W0` … `Gen.W18` are the contents of
   the unscoped buffers at the boundaries of that chain: `W0` the launch memory; after a stretch, the stretch's operations
   applied in order to the boundary before it; at a region's exit, the region's arrays at what its pipeline leaves (an
   input array unchanged, the output array at the fold of its write-backs) and every other buffer as at its entry.
   Regions 0 … 5 are the six combine steps of the three layers (items, users, items, users, items, users): each reads
   the mean of its neighbours' features (window 0: a gather along the edges' sources, a scatter-add to their
   destinations, divided by the destination's degree clamped below at one), its own features (window 1), and two weight
   matrices and two bias rows sliced out of the stacked parameters (windows 2 … 5).  Region 6 multiplies and sums the
   rows of two tables (windows 0 and 1): the last layer's user and item features, each row divided by its Euclidean
   norm clamped below, gathered at the positive and then the negative pairs.  The results are the last two regions'
   outputs of the layers and the two halves of column 0 of region 6's output.

   Three families of statements, for a buffer `b` and a boundary `j`:
   * `skip_<stretch>_<b>`: a stretch that does not write `b` leaves it as it was (for any contents before it);
   * `comp_<stretch>_<b>`: a stretch that writes `b` leaves there the composed term of its operations, over the
     contents of the buffers the stretch reads from outside (for any contents before it);
   * `at<j>_<b>`: the contents of `b` at boundary `j`, walked back boundary by boundary to the launch contents of the
     arguments and to the regions' outputs `out0` … `out6`.
   From these: `entry<K>_<w>` (input window `w` of region `K`), `result_<b>` (the four results), and `run_values`
   (the run with the four results at those terms).  Everything holds for any float values `F`. -/
import proofs.«153211_j15264313770095_1_alg».proof.Proof.RunAll

set_option maxRecDepth 16384

noncomputable section

namespace Cert.KernelIdeal.HostChain

open Idealize.ShloMosaic Idealize.ShloMosaic.TcCoe Idealize.ShloMosaic.Tactic
open Idealize.SL.Sem
open Cert.KernelIdeal.Gen

variable {F : FTy → Type} [FloatOps F]
variable (m : (ℓ : Loc nD τ sig) → Buf (Elt F) ℓ) (ρ : Dev nD → PrngReg)

/-! ## The regions' outputs -/

/-- What region 0 leaves in its output array (window 6) after its last grid point, from the contents it was entered with. -/
def out0 (c : Dev nD) : (⟨S50000x128, .f32⟩ : BufTy).Contents (Elt F) := (Gen.dat0 (Gen.V1 m ρ) c).arrAt 6 cfg0.N
/-- What region 1 leaves in its output array (window 6) after its last grid point, from the contents it was entered with. -/
def out1 (c : Dev nD) : (⟨S100000x128, .f32⟩ : BufTy).Contents (Elt F) := (Gen.dat1 (Gen.V3 m ρ) c).arrAt 6 cfg1.N
/-- What region 2 leaves in its output array (window 6) after its last grid point, from the contents it was entered with. -/
def out2 (c : Dev nD) : (⟨S50000x128, .f32⟩ : BufTy).Contents (Elt F) := (Gen.dat2 (Gen.V5 m ρ) c).arrAt 6 cfg2.N
/-- What region 3 leaves in its output array (window 6) after its last grid point, from the contents it was entered with. -/
def out3 (c : Dev nD) : (⟨S100000x128, .f32⟩ : BufTy).Contents (Elt F) := (Gen.dat3 (Gen.V7 m ρ) c).arrAt 6 cfg3.N
/-- What region 4 leaves in its output array (window 6) after its last grid point, from the contents it was entered with. -/
def out4 (c : Dev nD) : (⟨S50000x64, .f32⟩ : BufTy).Contents (Elt F) := (Gen.dat4 (Gen.V9 m ρ) c).arrAt 6 cfg4.N
/-- What region 5 leaves in its output array (window 6) after its last grid point, from the contents it was entered with. -/
def out5 (c : Dev nD) : (⟨S100000x64, .f32⟩ : BufTy).Contents (Elt F) := (Gen.dat5 (Gen.V11 m ρ) c).arrAt 6 cfg5.N
/-- What region 6 leaves in its output array (window 2) after its last grid point, from the contents it was entered with. -/
def out6 (c : Dev nD) : (⟨S1000000x64, .f32⟩ : BufTy).Contents (Elt F) := (Gen.dat6 (Gen.V16 m ρ) c).arrAt 2 cfg6.N

/-! ## Reading a stretch -/

/-- A buffer that no operation of a stretch writes keeps its contents: the fold peeled one operation at a time. -/
macro "host_skip" : tactic => `(tactic| (after_results_simp))
/-- A buffer a stretch writes holds the composed term of the operations that reach it: the fold peeled one operation at a
    time, each result read at its own buffer; what is left is the same term on both sides. -/
macro "host_line" : tactic => `(tactic| (after_results_simp <;> rfl))

/-! ## The boundaries, buffer by buffer -/

theorem comp_hostOps0_v18 (X : Valuation τ sig (Elt F)) (x_arg11 : (Proc.devRef .tc main_arg11 : DevRef τ sig).ty.Contents (Elt F)) (x_arg0 : (Proc.devRef .tc main_arg0 : DevRef τ sig).ty.Contents (Elt F)) (x_arg10 : (Proc.devRef .tc main_arg10 : DevRef τ sig).ty.Contents (Elt F))
    (h_arg11 : X (Proc.devRef .tc main_arg11) = x_arg11) (h_arg0 : X (Proc.devRef .tc main_arg0) = x_arg0) (h_arg10 : X (Proc.devRef .tc main_arg10) = x_arg10) :
    StableHlo.after hostOps0 X (Proc.devRef .tc main_v18) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_arg0) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32))))) := by
  subst h_arg11 h_arg0 h_arg10
  host_line

theorem at0_arg11 (c : Dev nD) :
    Gen.W0 m ρ c (Proc.devRef .tc main_arg11) =
      m ((c.tc : Thread nD τ).loc main_arg11) :=
  rfl

theorem at0_arg0 (c : Dev nD) :
    Gen.W0 m ρ c (Proc.devRef .tc main_arg0) =
      m ((c.tc : Thread nD τ).loc main_arg0) :=
  rfl

theorem at0_arg10 (c : Dev nD) :
    Gen.W0 m ρ c (Proc.devRef .tc main_arg10) =
      m ((c.tc : Thread nD τ).loc main_arg10) :=
  rfl

theorem at1_v18 (c : Dev nD) :
    Gen.W1 m ρ c (Proc.devRef .tc main_v18) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (m ((c.tc : Thread nD τ).loc main_arg0)) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32))))) :=
  comp_hostOps0_v18 (Gen.W0 m ρ c) _ _ _ (at0_arg11 m ρ c) (at0_arg0 m ρ c) (at0_arg10 m ρ c)

theorem at0_arg1 (c : Dev nD) :
    Gen.W0 m ρ c (Proc.devRef .tc main_arg1) =
      m ((c.tc : Thread nD τ).loc main_arg1) :=
  rfl

theorem skip_hostOps0_arg1 (X : Valuation τ sig (Elt F)) :
    StableHlo.after hostOps0 X (Proc.devRef .tc main_arg1) = X (Proc.devRef .tc main_arg1) := by
  host_skip

theorem at1_arg1 (c : Dev nD) :
    Gen.W1 m ρ c (Proc.devRef .tc main_arg1) =
      m ((c.tc : Thread nD τ).loc main_arg1) :=
  (skip_hostOps0_arg1 (Gen.W0 m ρ c)).trans (at0_arg1 m ρ c)

theorem comp_hostOps0_v20 (X : Valuation τ sig (Elt F)) (x_arg2 : (Proc.devRef .tc main_arg2 : DevRef τ sig).ty.Contents (Elt F))
    (h_arg2 : X (Proc.devRef .tc main_arg2) = x_arg2) :
    StableHlo.after hostOps0 X (Proc.devRef .tc main_v20) =
      shapeCast _ (extractStridedSlice S1x1x128x128 ![0, 0, 0, 0] (x_arg2) slices_S2x2x128x128_S1x1x128x128_0_0_0_0) shapeCasts_S1x1x128x128_S128x128 := by
  subst h_arg2
  host_line

theorem at0_arg2 (c : Dev nD) :
    Gen.W0 m ρ c (Proc.devRef .tc main_arg2) =
      m ((c.tc : Thread nD τ).loc main_arg2) :=
  rfl

theorem at1_v20 (c : Dev nD) :
    Gen.W1 m ρ c (Proc.devRef .tc main_v20) =
      shapeCast _ (extractStridedSlice S1x1x128x128 ![0, 0, 0, 0] (m ((c.tc : Thread nD τ).loc main_arg2)) slices_S2x2x128x128_S1x1x128x128_0_0_0_0) shapeCasts_S1x1x128x128_S128x128 :=
  comp_hostOps0_v20 (Gen.W0 m ρ c) _ (at0_arg2 m ρ c)

theorem comp_hostOps0_v27 (X : Valuation τ sig (Elt F)) (x_arg3 : (Proc.devRef .tc main_arg3 : DevRef τ sig).ty.Contents (Elt F))
    (h_arg3 : X (Proc.devRef .tc main_arg3) = x_arg3) :
    StableHlo.after hostOps0 X (Proc.devRef .tc main_v27) =
      shapeCast _ (shapeCast _ (extractStridedSlice S1x1x128 ![0, 0, 0] (x_arg3) slices_S2x2x128_S1x1x128_0_0_0) shapeCasts_S1x1x128_S128) shapeCasts_S128_S1x128 := by
  subst h_arg3
  host_line

theorem at0_arg3 (c : Dev nD) :
    Gen.W0 m ρ c (Proc.devRef .tc main_arg3) =
      m ((c.tc : Thread nD τ).loc main_arg3) :=
  rfl

theorem at1_v27 (c : Dev nD) :
    Gen.W1 m ρ c (Proc.devRef .tc main_v27) =
      shapeCast _ (shapeCast _ (extractStridedSlice S1x1x128 ![0, 0, 0] (m ((c.tc : Thread nD τ).loc main_arg3)) slices_S2x2x128_S1x1x128_0_0_0) shapeCasts_S1x1x128_S128) shapeCasts_S128_S1x128 :=
  comp_hostOps0_v27 (Gen.W0 m ρ c) _ (at0_arg3 m ρ c)

theorem comp_hostOps0_v24 (X : Valuation τ sig (Elt F)) (x_arg4 : (Proc.devRef .tc main_arg4 : DevRef τ sig).ty.Contents (Elt F))
    (h_arg4 : X (Proc.devRef .tc main_arg4) = x_arg4) :
    StableHlo.after hostOps0 X (Proc.devRef .tc main_v24) =
      shapeCast _ (extractStridedSlice S1x1x128x128 ![0, 0, 0, 0] (x_arg4) slices_S2x2x128x128_S1x1x128x128_0_0_0_0) shapeCasts_S1x1x128x128_S128x128 := by
  subst h_arg4
  host_line

theorem at0_arg4 (c : Dev nD) :
    Gen.W0 m ρ c (Proc.devRef .tc main_arg4) =
      m ((c.tc : Thread nD τ).loc main_arg4) :=
  rfl

theorem at1_v24 (c : Dev nD) :
    Gen.W1 m ρ c (Proc.devRef .tc main_v24) =
      shapeCast _ (extractStridedSlice S1x1x128x128 ![0, 0, 0, 0] (m ((c.tc : Thread nD τ).loc main_arg4)) slices_S2x2x128x128_S1x1x128x128_0_0_0_0) shapeCasts_S1x1x128x128_S128x128 :=
  comp_hostOps0_v24 (Gen.W0 m ρ c) _ (at0_arg4 m ρ c)

theorem comp_hostOps0_v28 (X : Valuation τ sig (Elt F)) (x_arg5 : (Proc.devRef .tc main_arg5 : DevRef τ sig).ty.Contents (Elt F))
    (h_arg5 : X (Proc.devRef .tc main_arg5) = x_arg5) :
    StableHlo.after hostOps0 X (Proc.devRef .tc main_v28) =
      shapeCast _ (shapeCast _ (extractStridedSlice S1x1x128 ![0, 0, 0] (x_arg5) slices_S2x2x128_S1x1x128_0_0_0) shapeCasts_S1x1x128_S128) shapeCasts_S128_S1x128 := by
  subst h_arg5
  host_line

theorem at0_arg5 (c : Dev nD) :
    Gen.W0 m ρ c (Proc.devRef .tc main_arg5) =
      m ((c.tc : Thread nD τ).loc main_arg5) :=
  rfl

theorem at1_v28 (c : Dev nD) :
    Gen.W1 m ρ c (Proc.devRef .tc main_v28) =
      shapeCast _ (shapeCast _ (extractStridedSlice S1x1x128 ![0, 0, 0] (m ((c.tc : Thread nD τ).loc main_arg5)) slices_S2x2x128_S1x1x128_0_0_0) shapeCasts_S1x1x128_S128) shapeCasts_S128_S1x128 :=
  comp_hostOps0_v28 (Gen.W0 m ρ c) _ (at0_arg5 m ρ c)

theorem comp_hostOps1_v48 (X : Valuation τ sig (Elt F)) (x_arg13 : (Proc.devRef .tc main_arg13 : DevRef τ sig).ty.Contents (Elt F)) (x_arg1 : (Proc.devRef .tc main_arg1 : DevRef τ sig).ty.Contents (Elt F)) (x_arg12 : (Proc.devRef .tc main_arg12 : DevRef τ sig).ty.Contents (Elt F))
    (h_arg13 : X (Proc.devRef .tc main_arg13) = x_arg13) (h_arg1 : X (Proc.devRef .tc main_arg1) = x_arg1) (h_arg12 : X (Proc.devRef .tc main_arg12) = x_arg12) :
    StableHlo.after hostOps1 X (Proc.devRef .tc main_v48) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_arg1) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32))))) := by
  subst h_arg13 h_arg1 h_arg12
  host_line

theorem at0_arg13 (c : Dev nD) :
    Gen.W0 m ρ c (Proc.devRef .tc main_arg13) =
      m ((c.tc : Thread nD τ).loc main_arg13) :=
  rfl

theorem skip_hostOps0_arg13 (X : Valuation τ sig (Elt F)) :
    StableHlo.after hostOps0 X (Proc.devRef .tc main_arg13) = X (Proc.devRef .tc main_arg13) := by
  host_skip

theorem at1_arg13 (c : Dev nD) :
    Gen.W1 m ρ c (Proc.devRef .tc main_arg13) =
      m ((c.tc : Thread nD τ).loc main_arg13) :=
  (skip_hostOps0_arg13 (Gen.W0 m ρ c)).trans (at0_arg13 m ρ c)

theorem at2_arg13 (c : Dev nD) :
    Gen.W2 m ρ c (Proc.devRef .tc main_arg13) =
      m ((c.tc : Thread nD τ).loc main_arg13) :=
  (Gen.W2_of_ne m ρ c main_arg13 (by decide)).trans (at1_arg13 m ρ c)

theorem at2_arg1 (c : Dev nD) :
    Gen.W2 m ρ c (Proc.devRef .tc main_arg1) =
      m ((c.tc : Thread nD τ).loc main_arg1) :=
  (Gen.W2_arr m ρ c 1).trans (((Gen.dat0 (Gen.V1 m ρ) c).arrAt_in 1 rfl _).trans ((Gen.A_eq0 (Gen.V1 m ρ) c 1).trans (at1_arg1 m ρ c)))

theorem at0_arg12 (c : Dev nD) :
    Gen.W0 m ρ c (Proc.devRef .tc main_arg12) =
      m ((c.tc : Thread nD τ).loc main_arg12) :=
  rfl

theorem skip_hostOps0_arg12 (X : Valuation τ sig (Elt F)) :
    StableHlo.after hostOps0 X (Proc.devRef .tc main_arg12) = X (Proc.devRef .tc main_arg12) := by
  host_skip

theorem at1_arg12 (c : Dev nD) :
    Gen.W1 m ρ c (Proc.devRef .tc main_arg12) =
      m ((c.tc : Thread nD τ).loc main_arg12) :=
  (skip_hostOps0_arg12 (Gen.W0 m ρ c)).trans (at0_arg12 m ρ c)

theorem at2_arg12 (c : Dev nD) :
    Gen.W2 m ρ c (Proc.devRef .tc main_arg12) =
      m ((c.tc : Thread nD τ).loc main_arg12) :=
  (Gen.W2_of_ne m ρ c main_arg12 (by decide)).trans (at1_arg12 m ρ c)

theorem at3_v48 (c : Dev nD) :
    Gen.W3 m ρ c (Proc.devRef .tc main_v48) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (m ((c.tc : Thread nD τ).loc main_arg1)) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32))))) :=
  comp_hostOps1_v48 (Gen.W2 m ρ c) _ _ _ (at2_arg13 m ρ c) (at2_arg1 m ρ c) (at2_arg12 m ρ c)

theorem skip_hostOps0_arg0 (X : Valuation τ sig (Elt F)) :
    StableHlo.after hostOps0 X (Proc.devRef .tc main_arg0) = X (Proc.devRef .tc main_arg0) := by
  host_skip

theorem at1_arg0 (c : Dev nD) :
    Gen.W1 m ρ c (Proc.devRef .tc main_arg0) =
      m ((c.tc : Thread nD τ).loc main_arg0) :=
  (skip_hostOps0_arg0 (Gen.W0 m ρ c)).trans (at0_arg0 m ρ c)

theorem at2_arg0 (c : Dev nD) :
    Gen.W2 m ρ c (Proc.devRef .tc main_arg0) =
      m ((c.tc : Thread nD τ).loc main_arg0) :=
  (Gen.W2_of_ne m ρ c main_arg0 (by decide)).trans (at1_arg0 m ρ c)

theorem skip_hostOps1_arg0 (X : Valuation τ sig (Elt F)) :
    StableHlo.after hostOps1 X (Proc.devRef .tc main_arg0) = X (Proc.devRef .tc main_arg0) := by
  host_skip

theorem at3_arg0 (c : Dev nD) :
    Gen.W3 m ρ c (Proc.devRef .tc main_arg0) =
      m ((c.tc : Thread nD τ).loc main_arg0) :=
  (skip_hostOps1_arg0 (Gen.W2 m ρ c)).trans (at2_arg0 m ρ c)

theorem comp_hostOps1_v50 (X : Valuation τ sig (Elt F)) (x_arg2 : (Proc.devRef .tc main_arg2 : DevRef τ sig).ty.Contents (Elt F))
    (h_arg2 : X (Proc.devRef .tc main_arg2) = x_arg2) :
    StableHlo.after hostOps1 X (Proc.devRef .tc main_v50) =
      shapeCast _ (extractStridedSlice S1x1x128x128 ![0, 1, 0, 0] (x_arg2) slices_S2x2x128x128_S1x1x128x128_0_1_0_0) shapeCasts_S1x1x128x128_S128x128 := by
  subst h_arg2
  host_line

theorem skip_hostOps0_arg2 (X : Valuation τ sig (Elt F)) :
    StableHlo.after hostOps0 X (Proc.devRef .tc main_arg2) = X (Proc.devRef .tc main_arg2) := by
  host_skip

theorem at1_arg2 (c : Dev nD) :
    Gen.W1 m ρ c (Proc.devRef .tc main_arg2) =
      m ((c.tc : Thread nD τ).loc main_arg2) :=
  (skip_hostOps0_arg2 (Gen.W0 m ρ c)).trans (at0_arg2 m ρ c)

theorem at2_arg2 (c : Dev nD) :
    Gen.W2 m ρ c (Proc.devRef .tc main_arg2) =
      m ((c.tc : Thread nD τ).loc main_arg2) :=
  (Gen.W2_of_ne m ρ c main_arg2 (by decide)).trans (at1_arg2 m ρ c)

theorem at3_v50 (c : Dev nD) :
    Gen.W3 m ρ c (Proc.devRef .tc main_v50) =
      shapeCast _ (extractStridedSlice S1x1x128x128 ![0, 1, 0, 0] (m ((c.tc : Thread nD τ).loc main_arg2)) slices_S2x2x128x128_S1x1x128x128_0_1_0_0) shapeCasts_S1x1x128x128_S128x128 :=
  comp_hostOps1_v50 (Gen.W2 m ρ c) _ (at2_arg2 m ρ c)

theorem comp_hostOps1_v57 (X : Valuation τ sig (Elt F)) (x_arg3 : (Proc.devRef .tc main_arg3 : DevRef τ sig).ty.Contents (Elt F))
    (h_arg3 : X (Proc.devRef .tc main_arg3) = x_arg3) :
    StableHlo.after hostOps1 X (Proc.devRef .tc main_v57) =
      shapeCast _ (shapeCast _ (extractStridedSlice S1x1x128 ![0, 1, 0] (x_arg3) slices_S2x2x128_S1x1x128_0_1_0) shapeCasts_S1x1x128_S128) shapeCasts_S128_S1x128 := by
  subst h_arg3
  host_line

theorem skip_hostOps0_arg3 (X : Valuation τ sig (Elt F)) :
    StableHlo.after hostOps0 X (Proc.devRef .tc main_arg3) = X (Proc.devRef .tc main_arg3) := by
  host_skip

theorem at1_arg3 (c : Dev nD) :
    Gen.W1 m ρ c (Proc.devRef .tc main_arg3) =
      m ((c.tc : Thread nD τ).loc main_arg3) :=
  (skip_hostOps0_arg3 (Gen.W0 m ρ c)).trans (at0_arg3 m ρ c)

theorem at2_arg3 (c : Dev nD) :
    Gen.W2 m ρ c (Proc.devRef .tc main_arg3) =
      m ((c.tc : Thread nD τ).loc main_arg3) :=
  (Gen.W2_of_ne m ρ c main_arg3 (by decide)).trans (at1_arg3 m ρ c)

theorem at3_v57 (c : Dev nD) :
    Gen.W3 m ρ c (Proc.devRef .tc main_v57) =
      shapeCast _ (shapeCast _ (extractStridedSlice S1x1x128 ![0, 1, 0] (m ((c.tc : Thread nD τ).loc main_arg3)) slices_S2x2x128_S1x1x128_0_1_0) shapeCasts_S1x1x128_S128) shapeCasts_S128_S1x128 :=
  comp_hostOps1_v57 (Gen.W2 m ρ c) _ (at2_arg3 m ρ c)

theorem comp_hostOps1_v54 (X : Valuation τ sig (Elt F)) (x_arg4 : (Proc.devRef .tc main_arg4 : DevRef τ sig).ty.Contents (Elt F))
    (h_arg4 : X (Proc.devRef .tc main_arg4) = x_arg4) :
    StableHlo.after hostOps1 X (Proc.devRef .tc main_v54) =
      shapeCast _ (extractStridedSlice S1x1x128x128 ![0, 1, 0, 0] (x_arg4) slices_S2x2x128x128_S1x1x128x128_0_1_0_0) shapeCasts_S1x1x128x128_S128x128 := by
  subst h_arg4
  host_line

theorem skip_hostOps0_arg4 (X : Valuation τ sig (Elt F)) :
    StableHlo.after hostOps0 X (Proc.devRef .tc main_arg4) = X (Proc.devRef .tc main_arg4) := by
  host_skip

theorem at1_arg4 (c : Dev nD) :
    Gen.W1 m ρ c (Proc.devRef .tc main_arg4) =
      m ((c.tc : Thread nD τ).loc main_arg4) :=
  (skip_hostOps0_arg4 (Gen.W0 m ρ c)).trans (at0_arg4 m ρ c)

theorem at2_arg4 (c : Dev nD) :
    Gen.W2 m ρ c (Proc.devRef .tc main_arg4) =
      m ((c.tc : Thread nD τ).loc main_arg4) :=
  (Gen.W2_of_ne m ρ c main_arg4 (by decide)).trans (at1_arg4 m ρ c)

theorem at3_v54 (c : Dev nD) :
    Gen.W3 m ρ c (Proc.devRef .tc main_v54) =
      shapeCast _ (extractStridedSlice S1x1x128x128 ![0, 1, 0, 0] (m ((c.tc : Thread nD τ).loc main_arg4)) slices_S2x2x128x128_S1x1x128x128_0_1_0_0) shapeCasts_S1x1x128x128_S128x128 :=
  comp_hostOps1_v54 (Gen.W2 m ρ c) _ (at2_arg4 m ρ c)

theorem comp_hostOps1_v58 (X : Valuation τ sig (Elt F)) (x_arg5 : (Proc.devRef .tc main_arg5 : DevRef τ sig).ty.Contents (Elt F))
    (h_arg5 : X (Proc.devRef .tc main_arg5) = x_arg5) :
    StableHlo.after hostOps1 X (Proc.devRef .tc main_v58) =
      shapeCast _ (shapeCast _ (extractStridedSlice S1x1x128 ![0, 1, 0] (x_arg5) slices_S2x2x128_S1x1x128_0_1_0) shapeCasts_S1x1x128_S128) shapeCasts_S128_S1x128 := by
  subst h_arg5
  host_line

theorem skip_hostOps0_arg5 (X : Valuation τ sig (Elt F)) :
    StableHlo.after hostOps0 X (Proc.devRef .tc main_arg5) = X (Proc.devRef .tc main_arg5) := by
  host_skip

theorem at1_arg5 (c : Dev nD) :
    Gen.W1 m ρ c (Proc.devRef .tc main_arg5) =
      m ((c.tc : Thread nD τ).loc main_arg5) :=
  (skip_hostOps0_arg5 (Gen.W0 m ρ c)).trans (at0_arg5 m ρ c)

theorem at2_arg5 (c : Dev nD) :
    Gen.W2 m ρ c (Proc.devRef .tc main_arg5) =
      m ((c.tc : Thread nD τ).loc main_arg5) :=
  (Gen.W2_of_ne m ρ c main_arg5 (by decide)).trans (at1_arg5 m ρ c)

theorem at3_v58 (c : Dev nD) :
    Gen.W3 m ρ c (Proc.devRef .tc main_v58) =
      shapeCast _ (shapeCast _ (extractStridedSlice S1x1x128 ![0, 1, 0] (m ((c.tc : Thread nD τ).loc main_arg5)) slices_S2x2x128_S1x1x128_0_1_0) shapeCasts_S1x1x128_S128) shapeCasts_S128_S1x128 :=
  comp_hostOps1_v58 (Gen.W2 m ρ c) _ (at2_arg5 m ρ c)

theorem comp_hostOps2_v78 (X : Valuation τ sig (Elt F)) (x_arg11 : (Proc.devRef .tc main_arg11 : DevRef τ sig).ty.Contents (Elt F)) (x_v59 : (Proc.devRef .tc main_v59 : DevRef τ sig).ty.Contents (Elt F)) (x_arg10 : (Proc.devRef .tc main_arg10 : DevRef τ sig).ty.Contents (Elt F))
    (h_arg11 : X (Proc.devRef .tc main_arg11) = x_arg11) (h_v59 : X (Proc.devRef .tc main_v59) = x_v59) (h_arg10 : X (Proc.devRef .tc main_arg10) = x_arg10) :
    StableHlo.after hostOps2 X (Proc.devRef .tc main_v78) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v59) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32))))) := by
  subst h_arg11 h_v59 h_arg10
  host_line

theorem skip_hostOps0_arg11 (X : Valuation τ sig (Elt F)) :
    StableHlo.after hostOps0 X (Proc.devRef .tc main_arg11) = X (Proc.devRef .tc main_arg11) := by
  host_skip

theorem at1_arg11 (c : Dev nD) :
    Gen.W1 m ρ c (Proc.devRef .tc main_arg11) =
      m ((c.tc : Thread nD τ).loc main_arg11) :=
  (skip_hostOps0_arg11 (Gen.W0 m ρ c)).trans (at0_arg11 m ρ c)

theorem at2_arg11 (c : Dev nD) :
    Gen.W2 m ρ c (Proc.devRef .tc main_arg11) =
      m ((c.tc : Thread nD τ).loc main_arg11) :=
  (Gen.W2_of_ne m ρ c main_arg11 (by decide)).trans (at1_arg11 m ρ c)

theorem skip_hostOps1_arg11 (X : Valuation τ sig (Elt F)) :
    StableHlo.after hostOps1 X (Proc.devRef .tc main_arg11) = X (Proc.devRef .tc main_arg11) := by
  host_skip

theorem at3_arg11 (c : Dev nD) :
    Gen.W3 m ρ c (Proc.devRef .tc main_arg11) =
      m ((c.tc : Thread nD τ).loc main_arg11) :=
  (skip_hostOps1_arg11 (Gen.W2 m ρ c)).trans (at2_arg11 m ρ c)

theorem at4_arg11 (c : Dev nD) :
    Gen.W4 m ρ c (Proc.devRef .tc main_arg11) =
      m ((c.tc : Thread nD τ).loc main_arg11) :=
  (Gen.W4_of_ne m ρ c main_arg11 (by decide)).trans (at3_arg11 m ρ c)

theorem at4_v59 (c : Dev nD) :
    Gen.W4 m ρ c (Proc.devRef .tc main_v59) =
      out1 m ρ c :=
  Gen.W4_arr m ρ c 6

theorem skip_hostOps0_arg10 (X : Valuation τ sig (Elt F)) :
    StableHlo.after hostOps0 X (Proc.devRef .tc main_arg10) = X (Proc.devRef .tc main_arg10) := by
  host_skip

theorem at1_arg10 (c : Dev nD) :
    Gen.W1 m ρ c (Proc.devRef .tc main_arg10) =
      m ((c.tc : Thread nD τ).loc main_arg10) :=
  (skip_hostOps0_arg10 (Gen.W0 m ρ c)).trans (at0_arg10 m ρ c)

theorem at2_arg10 (c : Dev nD) :
    Gen.W2 m ρ c (Proc.devRef .tc main_arg10) =
      m ((c.tc : Thread nD τ).loc main_arg10) :=
  (Gen.W2_of_ne m ρ c main_arg10 (by decide)).trans (at1_arg10 m ρ c)

theorem skip_hostOps1_arg10 (X : Valuation τ sig (Elt F)) :
    StableHlo.after hostOps1 X (Proc.devRef .tc main_arg10) = X (Proc.devRef .tc main_arg10) := by
  host_skip

theorem at3_arg10 (c : Dev nD) :
    Gen.W3 m ρ c (Proc.devRef .tc main_arg10) =
      m ((c.tc : Thread nD τ).loc main_arg10) :=
  (skip_hostOps1_arg10 (Gen.W2 m ρ c)).trans (at2_arg10 m ρ c)

theorem at4_arg10 (c : Dev nD) :
    Gen.W4 m ρ c (Proc.devRef .tc main_arg10) =
      m ((c.tc : Thread nD τ).loc main_arg10) :=
  (Gen.W4_of_ne m ρ c main_arg10 (by decide)).trans (at3_arg10 m ρ c)

theorem at5_v78 (c : Dev nD) :
    Gen.W5 m ρ c (Proc.devRef .tc main_v78) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (out1 m ρ c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32))))) :=
  comp_hostOps2_v78 (Gen.W4 m ρ c) _ _ _ (at4_arg11 m ρ c) (at4_v59 m ρ c) (at4_arg10 m ρ c)

theorem at2_v29 (c : Dev nD) :
    Gen.W2 m ρ c (Proc.devRef .tc main_v29) =
      out0 m ρ c :=
  Gen.W2_arr m ρ c 6

theorem skip_hostOps1_v29 (X : Valuation τ sig (Elt F)) :
    StableHlo.after hostOps1 X (Proc.devRef .tc main_v29) = X (Proc.devRef .tc main_v29) := by
  host_skip

theorem at3_v29 (c : Dev nD) :
    Gen.W3 m ρ c (Proc.devRef .tc main_v29) =
      out0 m ρ c :=
  (skip_hostOps1_v29 (Gen.W2 m ρ c)).trans (at2_v29 m ρ c)

theorem at4_v29 (c : Dev nD) :
    Gen.W4 m ρ c (Proc.devRef .tc main_v29) =
      out0 m ρ c :=
  (Gen.W4_of_ne m ρ c main_v29 (by decide)).trans (at3_v29 m ρ c)

theorem skip_hostOps2_v29 (X : Valuation τ sig (Elt F)) :
    StableHlo.after hostOps2 X (Proc.devRef .tc main_v29) = X (Proc.devRef .tc main_v29) := by
  host_skip

theorem at5_v29 (c : Dev nD) :
    Gen.W5 m ρ c (Proc.devRef .tc main_v29) =
      out0 m ρ c :=
  (skip_hostOps2_v29 (Gen.W4 m ρ c)).trans (at4_v29 m ρ c)

theorem comp_hostOps2_v80 (X : Valuation τ sig (Elt F)) (x_arg2 : (Proc.devRef .tc main_arg2 : DevRef τ sig).ty.Contents (Elt F))
    (h_arg2 : X (Proc.devRef .tc main_arg2) = x_arg2) :
    StableHlo.after hostOps2 X (Proc.devRef .tc main_v80) =
      shapeCast _ (extractStridedSlice S1x1x128x128 ![1, 0, 0, 0] (x_arg2) slices_S2x2x128x128_S1x1x128x128_1_0_0_0) shapeCasts_S1x1x128x128_S128x128 := by
  subst h_arg2
  host_line

theorem skip_hostOps1_arg2 (X : Valuation τ sig (Elt F)) :
    StableHlo.after hostOps1 X (Proc.devRef .tc main_arg2) = X (Proc.devRef .tc main_arg2) := by
  host_skip

theorem at3_arg2 (c : Dev nD) :
    Gen.W3 m ρ c (Proc.devRef .tc main_arg2) =
      m ((c.tc : Thread nD τ).loc main_arg2) :=
  (skip_hostOps1_arg2 (Gen.W2 m ρ c)).trans (at2_arg2 m ρ c)

theorem at4_arg2 (c : Dev nD) :
    Gen.W4 m ρ c (Proc.devRef .tc main_arg2) =
      m ((c.tc : Thread nD τ).loc main_arg2) :=
  (Gen.W4_of_ne m ρ c main_arg2 (by decide)).trans (at3_arg2 m ρ c)

theorem at5_v80 (c : Dev nD) :
    Gen.W5 m ρ c (Proc.devRef .tc main_v80) =
      shapeCast _ (extractStridedSlice S1x1x128x128 ![1, 0, 0, 0] (m ((c.tc : Thread nD τ).loc main_arg2)) slices_S2x2x128x128_S1x1x128x128_1_0_0_0) shapeCasts_S1x1x128x128_S128x128 :=
  comp_hostOps2_v80 (Gen.W4 m ρ c) _ (at4_arg2 m ρ c)

theorem comp_hostOps2_v87 (X : Valuation τ sig (Elt F)) (x_arg3 : (Proc.devRef .tc main_arg3 : DevRef τ sig).ty.Contents (Elt F))
    (h_arg3 : X (Proc.devRef .tc main_arg3) = x_arg3) :
    StableHlo.after hostOps2 X (Proc.devRef .tc main_v87) =
      shapeCast _ (shapeCast _ (extractStridedSlice S1x1x128 ![1, 0, 0] (x_arg3) slices_S2x2x128_S1x1x128_1_0_0) shapeCasts_S1x1x128_S128) shapeCasts_S128_S1x128 := by
  subst h_arg3
  host_line

theorem skip_hostOps1_arg3 (X : Valuation τ sig (Elt F)) :
    StableHlo.after hostOps1 X (Proc.devRef .tc main_arg3) = X (Proc.devRef .tc main_arg3) := by
  host_skip

theorem at3_arg3 (c : Dev nD) :
    Gen.W3 m ρ c (Proc.devRef .tc main_arg3) =
      m ((c.tc : Thread nD τ).loc main_arg3) :=
  (skip_hostOps1_arg3 (Gen.W2 m ρ c)).trans (at2_arg3 m ρ c)

theorem at4_arg3 (c : Dev nD) :
    Gen.W4 m ρ c (Proc.devRef .tc main_arg3) =
      m ((c.tc : Thread nD τ).loc main_arg3) :=
  (Gen.W4_of_ne m ρ c main_arg3 (by decide)).trans (at3_arg3 m ρ c)

theorem at5_v87 (c : Dev nD) :
    Gen.W5 m ρ c (Proc.devRef .tc main_v87) =
      shapeCast _ (shapeCast _ (extractStridedSlice S1x1x128 ![1, 0, 0] (m ((c.tc : Thread nD τ).loc main_arg3)) slices_S2x2x128_S1x1x128_1_0_0) shapeCasts_S1x1x128_S128) shapeCasts_S128_S1x128 :=
  comp_hostOps2_v87 (Gen.W4 m ρ c) _ (at4_arg3 m ρ c)

theorem comp_hostOps2_v84 (X : Valuation τ sig (Elt F)) (x_arg4 : (Proc.devRef .tc main_arg4 : DevRef τ sig).ty.Contents (Elt F))
    (h_arg4 : X (Proc.devRef .tc main_arg4) = x_arg4) :
    StableHlo.after hostOps2 X (Proc.devRef .tc main_v84) =
      shapeCast _ (extractStridedSlice S1x1x128x128 ![1, 0, 0, 0] (x_arg4) slices_S2x2x128x128_S1x1x128x128_1_0_0_0) shapeCasts_S1x1x128x128_S128x128 := by
  subst h_arg4
  host_line

theorem skip_hostOps1_arg4 (X : Valuation τ sig (Elt F)) :
    StableHlo.after hostOps1 X (Proc.devRef .tc main_arg4) = X (Proc.devRef .tc main_arg4) := by
  host_skip

theorem at3_arg4 (c : Dev nD) :
    Gen.W3 m ρ c (Proc.devRef .tc main_arg4) =
      m ((c.tc : Thread nD τ).loc main_arg4) :=
  (skip_hostOps1_arg4 (Gen.W2 m ρ c)).trans (at2_arg4 m ρ c)

theorem at4_arg4 (c : Dev nD) :
    Gen.W4 m ρ c (Proc.devRef .tc main_arg4) =
      m ((c.tc : Thread nD τ).loc main_arg4) :=
  (Gen.W4_of_ne m ρ c main_arg4 (by decide)).trans (at3_arg4 m ρ c)

theorem at5_v84 (c : Dev nD) :
    Gen.W5 m ρ c (Proc.devRef .tc main_v84) =
      shapeCast _ (extractStridedSlice S1x1x128x128 ![1, 0, 0, 0] (m ((c.tc : Thread nD τ).loc main_arg4)) slices_S2x2x128x128_S1x1x128x128_1_0_0_0) shapeCasts_S1x1x128x128_S128x128 :=
  comp_hostOps2_v84 (Gen.W4 m ρ c) _ (at4_arg4 m ρ c)

theorem comp_hostOps2_v88 (X : Valuation τ sig (Elt F)) (x_arg5 : (Proc.devRef .tc main_arg5 : DevRef τ sig).ty.Contents (Elt F))
    (h_arg5 : X (Proc.devRef .tc main_arg5) = x_arg5) :
    StableHlo.after hostOps2 X (Proc.devRef .tc main_v88) =
      shapeCast _ (shapeCast _ (extractStridedSlice S1x1x128 ![1, 0, 0] (x_arg5) slices_S2x2x128_S1x1x128_1_0_0) shapeCasts_S1x1x128_S128) shapeCasts_S128_S1x128 := by
  subst h_arg5
  host_line

theorem skip_hostOps1_arg5 (X : Valuation τ sig (Elt F)) :
    StableHlo.after hostOps1 X (Proc.devRef .tc main_arg5) = X (Proc.devRef .tc main_arg5) := by
  host_skip

theorem at3_arg5 (c : Dev nD) :
    Gen.W3 m ρ c (Proc.devRef .tc main_arg5) =
      m ((c.tc : Thread nD τ).loc main_arg5) :=
  (skip_hostOps1_arg5 (Gen.W2 m ρ c)).trans (at2_arg5 m ρ c)

theorem at4_arg5 (c : Dev nD) :
    Gen.W4 m ρ c (Proc.devRef .tc main_arg5) =
      m ((c.tc : Thread nD τ).loc main_arg5) :=
  (Gen.W4_of_ne m ρ c main_arg5 (by decide)).trans (at3_arg5 m ρ c)

theorem at5_v88 (c : Dev nD) :
    Gen.W5 m ρ c (Proc.devRef .tc main_v88) =
      shapeCast _ (shapeCast _ (extractStridedSlice S1x1x128 ![1, 0, 0] (m ((c.tc : Thread nD τ).loc main_arg5)) slices_S2x2x128_S1x1x128_1_0_0) shapeCasts_S1x1x128_S128) shapeCasts_S128_S1x128 :=
  comp_hostOps2_v88 (Gen.W4 m ρ c) _ (at4_arg5 m ρ c)

theorem comp_hostOps3_v108 (X : Valuation τ sig (Elt F)) (x_arg13 : (Proc.devRef .tc main_arg13 : DevRef τ sig).ty.Contents (Elt F)) (x_v29 : (Proc.devRef .tc main_v29 : DevRef τ sig).ty.Contents (Elt F)) (x_arg12 : (Proc.devRef .tc main_arg12 : DevRef τ sig).ty.Contents (Elt F))
    (h_arg13 : X (Proc.devRef .tc main_arg13) = x_arg13) (h_v29 : X (Proc.devRef .tc main_v29) = x_v29) (h_arg12 : X (Proc.devRef .tc main_arg12) = x_arg12) :
    StableHlo.after hostOps3 X (Proc.devRef .tc main_v108) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v29) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32))))) := by
  subst h_arg13 h_v29 h_arg12
  host_line

theorem skip_hostOps1_arg13 (X : Valuation τ sig (Elt F)) :
    StableHlo.after hostOps1 X (Proc.devRef .tc main_arg13) = X (Proc.devRef .tc main_arg13) := by
  host_skip

theorem at3_arg13 (c : Dev nD) :
    Gen.W3 m ρ c (Proc.devRef .tc main_arg13) =
      m ((c.tc : Thread nD τ).loc main_arg13) :=
  (skip_hostOps1_arg13 (Gen.W2 m ρ c)).trans (at2_arg13 m ρ c)

theorem at4_arg13 (c : Dev nD) :
    Gen.W4 m ρ c (Proc.devRef .tc main_arg13) =
      m ((c.tc : Thread nD τ).loc main_arg13) :=
  (Gen.W4_of_ne m ρ c main_arg13 (by decide)).trans (at3_arg13 m ρ c)

theorem skip_hostOps2_arg13 (X : Valuation τ sig (Elt F)) :
    StableHlo.after hostOps2 X (Proc.devRef .tc main_arg13) = X (Proc.devRef .tc main_arg13) := by
  host_skip

theorem at5_arg13 (c : Dev nD) :
    Gen.W5 m ρ c (Proc.devRef .tc main_arg13) =
      m ((c.tc : Thread nD τ).loc main_arg13) :=
  (skip_hostOps2_arg13 (Gen.W4 m ρ c)).trans (at4_arg13 m ρ c)

theorem at6_arg13 (c : Dev nD) :
    Gen.W6 m ρ c (Proc.devRef .tc main_arg13) =
      m ((c.tc : Thread nD τ).loc main_arg13) :=
  (Gen.W6_of_ne m ρ c main_arg13 (by decide)).trans (at5_arg13 m ρ c)

theorem at6_v29 (c : Dev nD) :
    Gen.W6 m ρ c (Proc.devRef .tc main_v29) =
      out0 m ρ c :=
  (Gen.W6_arr m ρ c 1).trans (((Gen.dat2 (Gen.V5 m ρ) c).arrAt_in 1 rfl _).trans ((Gen.A_eq2 (Gen.V5 m ρ) c 1).trans (at5_v29 m ρ c)))

theorem skip_hostOps1_arg12 (X : Valuation τ sig (Elt F)) :
    StableHlo.after hostOps1 X (Proc.devRef .tc main_arg12) = X (Proc.devRef .tc main_arg12) := by
  host_skip

theorem at3_arg12 (c : Dev nD) :
    Gen.W3 m ρ c (Proc.devRef .tc main_arg12) =
      m ((c.tc : Thread nD τ).loc main_arg12) :=
  (skip_hostOps1_arg12 (Gen.W2 m ρ c)).trans (at2_arg12 m ρ c)

theorem at4_arg12 (c : Dev nD) :
    Gen.W4 m ρ c (Proc.devRef .tc main_arg12) =
      m ((c.tc : Thread nD τ).loc main_arg12) :=
  (Gen.W4_of_ne m ρ c main_arg12 (by decide)).trans (at3_arg12 m ρ c)

theorem skip_hostOps2_arg12 (X : Valuation τ sig (Elt F)) :
    StableHlo.after hostOps2 X (Proc.devRef .tc main_arg12) = X (Proc.devRef .tc main_arg12) := by
  host_skip

theorem at5_arg12 (c : Dev nD) :
    Gen.W5 m ρ c (Proc.devRef .tc main_arg12) =
      m ((c.tc : Thread nD τ).loc main_arg12) :=
  (skip_hostOps2_arg12 (Gen.W4 m ρ c)).trans (at4_arg12 m ρ c)

theorem at6_arg12 (c : Dev nD) :
    Gen.W6 m ρ c (Proc.devRef .tc main_arg12) =
      m ((c.tc : Thread nD τ).loc main_arg12) :=
  (Gen.W6_of_ne m ρ c main_arg12 (by decide)).trans (at5_arg12 m ρ c)

theorem at7_v108 (c : Dev nD) :
    Gen.W7 m ρ c (Proc.devRef .tc main_v108) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (out0 m ρ c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32))))) :=
  comp_hostOps3_v108 (Gen.W6 m ρ c) _ _ _ (at6_arg13 m ρ c) (at6_v29 m ρ c) (at6_arg12 m ρ c)

theorem skip_hostOps2_v59 (X : Valuation τ sig (Elt F)) :
    StableHlo.after hostOps2 X (Proc.devRef .tc main_v59) = X (Proc.devRef .tc main_v59) := by
  host_skip

theorem at5_v59 (c : Dev nD) :
    Gen.W5 m ρ c (Proc.devRef .tc main_v59) =
      out1 m ρ c :=
  (skip_hostOps2_v59 (Gen.W4 m ρ c)).trans (at4_v59 m ρ c)

theorem at6_v59 (c : Dev nD) :
    Gen.W6 m ρ c (Proc.devRef .tc main_v59) =
      out1 m ρ c :=
  (Gen.W6_of_ne m ρ c main_v59 (by decide)).trans (at5_v59 m ρ c)

theorem skip_hostOps3_v59 (X : Valuation τ sig (Elt F)) :
    StableHlo.after hostOps3 X (Proc.devRef .tc main_v59) = X (Proc.devRef .tc main_v59) := by
  host_skip

theorem at7_v59 (c : Dev nD) :
    Gen.W7 m ρ c (Proc.devRef .tc main_v59) =
      out1 m ρ c :=
  (skip_hostOps3_v59 (Gen.W6 m ρ c)).trans (at6_v59 m ρ c)

theorem comp_hostOps3_v110 (X : Valuation τ sig (Elt F)) (x_arg2 : (Proc.devRef .tc main_arg2 : DevRef τ sig).ty.Contents (Elt F))
    (h_arg2 : X (Proc.devRef .tc main_arg2) = x_arg2) :
    StableHlo.after hostOps3 X (Proc.devRef .tc main_v110) =
      shapeCast _ (extractStridedSlice S1x1x128x128 ![1, 1, 0, 0] (x_arg2) slices_S2x2x128x128_S1x1x128x128_1_1_0_0) shapeCasts_S1x1x128x128_S128x128 := by
  subst h_arg2
  host_line

theorem skip_hostOps2_arg2 (X : Valuation τ sig (Elt F)) :
    StableHlo.after hostOps2 X (Proc.devRef .tc main_arg2) = X (Proc.devRef .tc main_arg2) := by
  host_skip

theorem at5_arg2 (c : Dev nD) :
    Gen.W5 m ρ c (Proc.devRef .tc main_arg2) =
      m ((c.tc : Thread nD τ).loc main_arg2) :=
  (skip_hostOps2_arg2 (Gen.W4 m ρ c)).trans (at4_arg2 m ρ c)

theorem at6_arg2 (c : Dev nD) :
    Gen.W6 m ρ c (Proc.devRef .tc main_arg2) =
      m ((c.tc : Thread nD τ).loc main_arg2) :=
  (Gen.W6_of_ne m ρ c main_arg2 (by decide)).trans (at5_arg2 m ρ c)

theorem at7_v110 (c : Dev nD) :
    Gen.W7 m ρ c (Proc.devRef .tc main_v110) =
      shapeCast _ (extractStridedSlice S1x1x128x128 ![1, 1, 0, 0] (m ((c.tc : Thread nD τ).loc main_arg2)) slices_S2x2x128x128_S1x1x128x128_1_1_0_0) shapeCasts_S1x1x128x128_S128x128 :=
  comp_hostOps3_v110 (Gen.W6 m ρ c) _ (at6_arg2 m ρ c)

theorem comp_hostOps3_v117 (X : Valuation τ sig (Elt F)) (x_arg3 : (Proc.devRef .tc main_arg3 : DevRef τ sig).ty.Contents (Elt F))
    (h_arg3 : X (Proc.devRef .tc main_arg3) = x_arg3) :
    StableHlo.after hostOps3 X (Proc.devRef .tc main_v117) =
      shapeCast _ (shapeCast _ (extractStridedSlice S1x1x128 ![1, 1, 0] (x_arg3) slices_S2x2x128_S1x1x128_1_1_0) shapeCasts_S1x1x128_S128) shapeCasts_S128_S1x128 := by
  subst h_arg3
  host_line

theorem skip_hostOps2_arg3 (X : Valuation τ sig (Elt F)) :
    StableHlo.after hostOps2 X (Proc.devRef .tc main_arg3) = X (Proc.devRef .tc main_arg3) := by
  host_skip

theorem at5_arg3 (c : Dev nD) :
    Gen.W5 m ρ c (Proc.devRef .tc main_arg3) =
      m ((c.tc : Thread nD τ).loc main_arg3) :=
  (skip_hostOps2_arg3 (Gen.W4 m ρ c)).trans (at4_arg3 m ρ c)

theorem at6_arg3 (c : Dev nD) :
    Gen.W6 m ρ c (Proc.devRef .tc main_arg3) =
      m ((c.tc : Thread nD τ).loc main_arg3) :=
  (Gen.W6_of_ne m ρ c main_arg3 (by decide)).trans (at5_arg3 m ρ c)

theorem at7_v117 (c : Dev nD) :
    Gen.W7 m ρ c (Proc.devRef .tc main_v117) =
      shapeCast _ (shapeCast _ (extractStridedSlice S1x1x128 ![1, 1, 0] (m ((c.tc : Thread nD τ).loc main_arg3)) slices_S2x2x128_S1x1x128_1_1_0) shapeCasts_S1x1x128_S128) shapeCasts_S128_S1x128 :=
  comp_hostOps3_v117 (Gen.W6 m ρ c) _ (at6_arg3 m ρ c)

theorem comp_hostOps3_v114 (X : Valuation τ sig (Elt F)) (x_arg4 : (Proc.devRef .tc main_arg4 : DevRef τ sig).ty.Contents (Elt F))
    (h_arg4 : X (Proc.devRef .tc main_arg4) = x_arg4) :
    StableHlo.after hostOps3 X (Proc.devRef .tc main_v114) =
      shapeCast _ (extractStridedSlice S1x1x128x128 ![1, 1, 0, 0] (x_arg4) slices_S2x2x128x128_S1x1x128x128_1_1_0_0) shapeCasts_S1x1x128x128_S128x128 := by
  subst h_arg4
  host_line

theorem skip_hostOps2_arg4 (X : Valuation τ sig (Elt F)) :
    StableHlo.after hostOps2 X (Proc.devRef .tc main_arg4) = X (Proc.devRef .tc main_arg4) := by
  host_skip

theorem at5_arg4 (c : Dev nD) :
    Gen.W5 m ρ c (Proc.devRef .tc main_arg4) =
      m ((c.tc : Thread nD τ).loc main_arg4) :=
  (skip_hostOps2_arg4 (Gen.W4 m ρ c)).trans (at4_arg4 m ρ c)

theorem at6_arg4 (c : Dev nD) :
    Gen.W6 m ρ c (Proc.devRef .tc main_arg4) =
      m ((c.tc : Thread nD τ).loc main_arg4) :=
  (Gen.W6_of_ne m ρ c main_arg4 (by decide)).trans (at5_arg4 m ρ c)

theorem at7_v114 (c : Dev nD) :
    Gen.W7 m ρ c (Proc.devRef .tc main_v114) =
      shapeCast _ (extractStridedSlice S1x1x128x128 ![1, 1, 0, 0] (m ((c.tc : Thread nD τ).loc main_arg4)) slices_S2x2x128x128_S1x1x128x128_1_1_0_0) shapeCasts_S1x1x128x128_S128x128 :=
  comp_hostOps3_v114 (Gen.W6 m ρ c) _ (at6_arg4 m ρ c)

theorem comp_hostOps3_v118 (X : Valuation τ sig (Elt F)) (x_arg5 : (Proc.devRef .tc main_arg5 : DevRef τ sig).ty.Contents (Elt F))
    (h_arg5 : X (Proc.devRef .tc main_arg5) = x_arg5) :
    StableHlo.after hostOps3 X (Proc.devRef .tc main_v118) =
      shapeCast _ (shapeCast _ (extractStridedSlice S1x1x128 ![1, 1, 0] (x_arg5) slices_S2x2x128_S1x1x128_1_1_0) shapeCasts_S1x1x128_S128) shapeCasts_S128_S1x128 := by
  subst h_arg5
  host_line

theorem skip_hostOps2_arg5 (X : Valuation τ sig (Elt F)) :
    StableHlo.after hostOps2 X (Proc.devRef .tc main_arg5) = X (Proc.devRef .tc main_arg5) := by
  host_skip

theorem at5_arg5 (c : Dev nD) :
    Gen.W5 m ρ c (Proc.devRef .tc main_arg5) =
      m ((c.tc : Thread nD τ).loc main_arg5) :=
  (skip_hostOps2_arg5 (Gen.W4 m ρ c)).trans (at4_arg5 m ρ c)

theorem at6_arg5 (c : Dev nD) :
    Gen.W6 m ρ c (Proc.devRef .tc main_arg5) =
      m ((c.tc : Thread nD τ).loc main_arg5) :=
  (Gen.W6_of_ne m ρ c main_arg5 (by decide)).trans (at5_arg5 m ρ c)

theorem at7_v118 (c : Dev nD) :
    Gen.W7 m ρ c (Proc.devRef .tc main_v118) =
      shapeCast _ (shapeCast _ (extractStridedSlice S1x1x128 ![1, 1, 0] (m ((c.tc : Thread nD τ).loc main_arg5)) slices_S2x2x128_S1x1x128_1_1_0) shapeCasts_S1x1x128_S128) shapeCasts_S128_S1x128 :=
  comp_hostOps3_v118 (Gen.W6 m ρ c) _ (at6_arg5 m ρ c)

theorem comp_hostOps4_v138 (X : Valuation τ sig (Elt F)) (x_arg11 : (Proc.devRef .tc main_arg11 : DevRef τ sig).ty.Contents (Elt F)) (x_v119 : (Proc.devRef .tc main_v119 : DevRef τ sig).ty.Contents (Elt F)) (x_arg10 : (Proc.devRef .tc main_arg10 : DevRef τ sig).ty.Contents (Elt F))
    (h_arg11 : X (Proc.devRef .tc main_arg11) = x_arg11) (h_v119 : X (Proc.devRef .tc main_v119) = x_v119) (h_arg10 : X (Proc.devRef .tc main_arg10) = x_arg10) :
    StableHlo.after hostOps4 X (Proc.devRef .tc main_v138) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v119) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32))))) := by
  subst h_arg11 h_v119 h_arg10
  host_line

theorem skip_hostOps2_arg11 (X : Valuation τ sig (Elt F)) :
    StableHlo.after hostOps2 X (Proc.devRef .tc main_arg11) = X (Proc.devRef .tc main_arg11) := by
  host_skip

theorem at5_arg11 (c : Dev nD) :
    Gen.W5 m ρ c (Proc.devRef .tc main_arg11) =
      m ((c.tc : Thread nD τ).loc main_arg11) :=
  (skip_hostOps2_arg11 (Gen.W4 m ρ c)).trans (at4_arg11 m ρ c)

theorem at6_arg11 (c : Dev nD) :
    Gen.W6 m ρ c (Proc.devRef .tc main_arg11) =
      m ((c.tc : Thread nD τ).loc main_arg11) :=
  (Gen.W6_of_ne m ρ c main_arg11 (by decide)).trans (at5_arg11 m ρ c)

theorem skip_hostOps3_arg11 (X : Valuation τ sig (Elt F)) :
    StableHlo.after hostOps3 X (Proc.devRef .tc main_arg11) = X (Proc.devRef .tc main_arg11) := by
  host_skip

theorem at7_arg11 (c : Dev nD) :
    Gen.W7 m ρ c (Proc.devRef .tc main_arg11) =
      m ((c.tc : Thread nD τ).loc main_arg11) :=
  (skip_hostOps3_arg11 (Gen.W6 m ρ c)).trans (at6_arg11 m ρ c)

theorem at8_arg11 (c : Dev nD) :
    Gen.W8 m ρ c (Proc.devRef .tc main_arg11) =
      m ((c.tc : Thread nD τ).loc main_arg11) :=
  (Gen.W8_of_ne m ρ c main_arg11 (by decide)).trans (at7_arg11 m ρ c)

theorem at8_v119 (c : Dev nD) :
    Gen.W8 m ρ c (Proc.devRef .tc main_v119) =
      out3 m ρ c :=
  Gen.W8_arr m ρ c 6

theorem skip_hostOps2_arg10 (X : Valuation τ sig (Elt F)) :
    StableHlo.after hostOps2 X (Proc.devRef .tc main_arg10) = X (Proc.devRef .tc main_arg10) := by
  host_skip

theorem at5_arg10 (c : Dev nD) :
    Gen.W5 m ρ c (Proc.devRef .tc main_arg10) =
      m ((c.tc : Thread nD τ).loc main_arg10) :=
  (skip_hostOps2_arg10 (Gen.W4 m ρ c)).trans (at4_arg10 m ρ c)

theorem at6_arg10 (c : Dev nD) :
    Gen.W6 m ρ c (Proc.devRef .tc main_arg10) =
      m ((c.tc : Thread nD τ).loc main_arg10) :=
  (Gen.W6_of_ne m ρ c main_arg10 (by decide)).trans (at5_arg10 m ρ c)

theorem skip_hostOps3_arg10 (X : Valuation τ sig (Elt F)) :
    StableHlo.after hostOps3 X (Proc.devRef .tc main_arg10) = X (Proc.devRef .tc main_arg10) := by
  host_skip

theorem at7_arg10 (c : Dev nD) :
    Gen.W7 m ρ c (Proc.devRef .tc main_arg10) =
      m ((c.tc : Thread nD τ).loc main_arg10) :=
  (skip_hostOps3_arg10 (Gen.W6 m ρ c)).trans (at6_arg10 m ρ c)

theorem at8_arg10 (c : Dev nD) :
    Gen.W8 m ρ c (Proc.devRef .tc main_arg10) =
      m ((c.tc : Thread nD τ).loc main_arg10) :=
  (Gen.W8_of_ne m ρ c main_arg10 (by decide)).trans (at7_arg10 m ρ c)

theorem at9_v138 (c : Dev nD) :
    Gen.W9 m ρ c (Proc.devRef .tc main_v138) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (out3 m ρ c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32))))) :=
  comp_hostOps4_v138 (Gen.W8 m ρ c) _ _ _ (at8_arg11 m ρ c) (at8_v119 m ρ c) (at8_arg10 m ρ c)

theorem at6_v89 (c : Dev nD) :
    Gen.W6 m ρ c (Proc.devRef .tc main_v89) =
      out2 m ρ c :=
  Gen.W6_arr m ρ c 6

theorem skip_hostOps3_v89 (X : Valuation τ sig (Elt F)) :
    StableHlo.after hostOps3 X (Proc.devRef .tc main_v89) = X (Proc.devRef .tc main_v89) := by
  host_skip

theorem at7_v89 (c : Dev nD) :
    Gen.W7 m ρ c (Proc.devRef .tc main_v89) =
      out2 m ρ c :=
  (skip_hostOps3_v89 (Gen.W6 m ρ c)).trans (at6_v89 m ρ c)

theorem at8_v89 (c : Dev nD) :
    Gen.W8 m ρ c (Proc.devRef .tc main_v89) =
      out2 m ρ c :=
  (Gen.W8_of_ne m ρ c main_v89 (by decide)).trans (at7_v89 m ρ c)

theorem skip_hostOps4_v89 (X : Valuation τ sig (Elt F)) :
    StableHlo.after hostOps4 X (Proc.devRef .tc main_v89) = X (Proc.devRef .tc main_v89) := by
  host_skip

theorem at9_v89 (c : Dev nD) :
    Gen.W9 m ρ c (Proc.devRef .tc main_v89) =
      out2 m ρ c :=
  (skip_hostOps4_v89 (Gen.W8 m ρ c)).trans (at8_v89 m ρ c)

theorem comp_hostOps4_v140 (X : Valuation τ sig (Elt F)) (x_arg6 : (Proc.devRef .tc main_arg6 : DevRef τ sig).ty.Contents (Elt F))
    (h_arg6 : X (Proc.devRef .tc main_arg6) = x_arg6) :
    StableHlo.after hostOps4 X (Proc.devRef .tc main_v140) =
      shapeCast _ (extractStridedSlice S1x128x64 ![0, 0, 0] (x_arg6) slices_S2x128x64_S1x128x64_0_0_0) shapeCasts_S1x128x64_S128x64 := by
  subst h_arg6
  host_line

theorem at0_arg6 (c : Dev nD) :
    Gen.W0 m ρ c (Proc.devRef .tc main_arg6) =
      m ((c.tc : Thread nD τ).loc main_arg6) :=
  rfl

theorem skip_hostOps0_arg6 (X : Valuation τ sig (Elt F)) :
    StableHlo.after hostOps0 X (Proc.devRef .tc main_arg6) = X (Proc.devRef .tc main_arg6) := by
  host_skip

theorem at1_arg6 (c : Dev nD) :
    Gen.W1 m ρ c (Proc.devRef .tc main_arg6) =
      m ((c.tc : Thread nD τ).loc main_arg6) :=
  (skip_hostOps0_arg6 (Gen.W0 m ρ c)).trans (at0_arg6 m ρ c)

theorem at2_arg6 (c : Dev nD) :
    Gen.W2 m ρ c (Proc.devRef .tc main_arg6) =
      m ((c.tc : Thread nD τ).loc main_arg6) :=
  (Gen.W2_of_ne m ρ c main_arg6 (by decide)).trans (at1_arg6 m ρ c)

theorem skip_hostOps1_arg6 (X : Valuation τ sig (Elt F)) :
    StableHlo.after hostOps1 X (Proc.devRef .tc main_arg6) = X (Proc.devRef .tc main_arg6) := by
  host_skip

theorem at3_arg6 (c : Dev nD) :
    Gen.W3 m ρ c (Proc.devRef .tc main_arg6) =
      m ((c.tc : Thread nD τ).loc main_arg6) :=
  (skip_hostOps1_arg6 (Gen.W2 m ρ c)).trans (at2_arg6 m ρ c)

theorem at4_arg6 (c : Dev nD) :
    Gen.W4 m ρ c (Proc.devRef .tc main_arg6) =
      m ((c.tc : Thread nD τ).loc main_arg6) :=
  (Gen.W4_of_ne m ρ c main_arg6 (by decide)).trans (at3_arg6 m ρ c)

theorem skip_hostOps2_arg6 (X : Valuation τ sig (Elt F)) :
    StableHlo.after hostOps2 X (Proc.devRef .tc main_arg6) = X (Proc.devRef .tc main_arg6) := by
  host_skip

theorem at5_arg6 (c : Dev nD) :
    Gen.W5 m ρ c (Proc.devRef .tc main_arg6) =
      m ((c.tc : Thread nD τ).loc main_arg6) :=
  (skip_hostOps2_arg6 (Gen.W4 m ρ c)).trans (at4_arg6 m ρ c)

theorem at6_arg6 (c : Dev nD) :
    Gen.W6 m ρ c (Proc.devRef .tc main_arg6) =
      m ((c.tc : Thread nD τ).loc main_arg6) :=
  (Gen.W6_of_ne m ρ c main_arg6 (by decide)).trans (at5_arg6 m ρ c)

theorem skip_hostOps3_arg6 (X : Valuation τ sig (Elt F)) :
    StableHlo.after hostOps3 X (Proc.devRef .tc main_arg6) = X (Proc.devRef .tc main_arg6) := by
  host_skip

theorem at7_arg6 (c : Dev nD) :
    Gen.W7 m ρ c (Proc.devRef .tc main_arg6) =
      m ((c.tc : Thread nD τ).loc main_arg6) :=
  (skip_hostOps3_arg6 (Gen.W6 m ρ c)).trans (at6_arg6 m ρ c)

theorem at8_arg6 (c : Dev nD) :
    Gen.W8 m ρ c (Proc.devRef .tc main_arg6) =
      m ((c.tc : Thread nD τ).loc main_arg6) :=
  (Gen.W8_of_ne m ρ c main_arg6 (by decide)).trans (at7_arg6 m ρ c)

theorem at9_v140 (c : Dev nD) :
    Gen.W9 m ρ c (Proc.devRef .tc main_v140) =
      shapeCast _ (extractStridedSlice S1x128x64 ![0, 0, 0] (m ((c.tc : Thread nD τ).loc main_arg6)) slices_S2x128x64_S1x128x64_0_0_0) shapeCasts_S1x128x64_S128x64 :=
  comp_hostOps4_v140 (Gen.W8 m ρ c) _ (at8_arg6 m ρ c)

theorem comp_hostOps4_v147 (X : Valuation τ sig (Elt F)) (x_arg7 : (Proc.devRef .tc main_arg7 : DevRef τ sig).ty.Contents (Elt F))
    (h_arg7 : X (Proc.devRef .tc main_arg7) = x_arg7) :
    StableHlo.after hostOps4 X (Proc.devRef .tc main_v147) =
      shapeCast _ (shapeCast _ (extractStridedSlice S1x64 ![0, 0] (x_arg7) slices_S2x64_S1x64_0_0) shapeCasts_S1x64_S64) shapeCasts_S64_S1x64 := by
  subst h_arg7
  host_line

theorem at0_arg7 (c : Dev nD) :
    Gen.W0 m ρ c (Proc.devRef .tc main_arg7) =
      m ((c.tc : Thread nD τ).loc main_arg7) :=
  rfl

theorem skip_hostOps0_arg7 (X : Valuation τ sig (Elt F)) :
    StableHlo.after hostOps0 X (Proc.devRef .tc main_arg7) = X (Proc.devRef .tc main_arg7) := by
  host_skip

theorem at1_arg7 (c : Dev nD) :
    Gen.W1 m ρ c (Proc.devRef .tc main_arg7) =
      m ((c.tc : Thread nD τ).loc main_arg7) :=
  (skip_hostOps0_arg7 (Gen.W0 m ρ c)).trans (at0_arg7 m ρ c)

theorem at2_arg7 (c : Dev nD) :
    Gen.W2 m ρ c (Proc.devRef .tc main_arg7) =
      m ((c.tc : Thread nD τ).loc main_arg7) :=
  (Gen.W2_of_ne m ρ c main_arg7 (by decide)).trans (at1_arg7 m ρ c)

theorem skip_hostOps1_arg7 (X : Valuation τ sig (Elt F)) :
    StableHlo.after hostOps1 X (Proc.devRef .tc main_arg7) = X (Proc.devRef .tc main_arg7) := by
  host_skip

theorem at3_arg7 (c : Dev nD) :
    Gen.W3 m ρ c (Proc.devRef .tc main_arg7) =
      m ((c.tc : Thread nD τ).loc main_arg7) :=
  (skip_hostOps1_arg7 (Gen.W2 m ρ c)).trans (at2_arg7 m ρ c)

theorem at4_arg7 (c : Dev nD) :
    Gen.W4 m ρ c (Proc.devRef .tc main_arg7) =
      m ((c.tc : Thread nD τ).loc main_arg7) :=
  (Gen.W4_of_ne m ρ c main_arg7 (by decide)).trans (at3_arg7 m ρ c)

theorem skip_hostOps2_arg7 (X : Valuation τ sig (Elt F)) :
    StableHlo.after hostOps2 X (Proc.devRef .tc main_arg7) = X (Proc.devRef .tc main_arg7) := by
  host_skip

theorem at5_arg7 (c : Dev nD) :
    Gen.W5 m ρ c (Proc.devRef .tc main_arg7) =
      m ((c.tc : Thread nD τ).loc main_arg7) :=
  (skip_hostOps2_arg7 (Gen.W4 m ρ c)).trans (at4_arg7 m ρ c)

theorem at6_arg7 (c : Dev nD) :
    Gen.W6 m ρ c (Proc.devRef .tc main_arg7) =
      m ((c.tc : Thread nD τ).loc main_arg7) :=
  (Gen.W6_of_ne m ρ c main_arg7 (by decide)).trans (at5_arg7 m ρ c)

theorem skip_hostOps3_arg7 (X : Valuation τ sig (Elt F)) :
    StableHlo.after hostOps3 X (Proc.devRef .tc main_arg7) = X (Proc.devRef .tc main_arg7) := by
  host_skip

theorem at7_arg7 (c : Dev nD) :
    Gen.W7 m ρ c (Proc.devRef .tc main_arg7) =
      m ((c.tc : Thread nD τ).loc main_arg7) :=
  (skip_hostOps3_arg7 (Gen.W6 m ρ c)).trans (at6_arg7 m ρ c)

theorem at8_arg7 (c : Dev nD) :
    Gen.W8 m ρ c (Proc.devRef .tc main_arg7) =
      m ((c.tc : Thread nD τ).loc main_arg7) :=
  (Gen.W8_of_ne m ρ c main_arg7 (by decide)).trans (at7_arg7 m ρ c)

theorem at9_v147 (c : Dev nD) :
    Gen.W9 m ρ c (Proc.devRef .tc main_v147) =
      shapeCast _ (shapeCast _ (extractStridedSlice S1x64 ![0, 0] (m ((c.tc : Thread nD τ).loc main_arg7)) slices_S2x64_S1x64_0_0) shapeCasts_S1x64_S64) shapeCasts_S64_S1x64 :=
  comp_hostOps4_v147 (Gen.W8 m ρ c) _ (at8_arg7 m ρ c)

theorem comp_hostOps4_v144 (X : Valuation τ sig (Elt F)) (x_arg8 : (Proc.devRef .tc main_arg8 : DevRef τ sig).ty.Contents (Elt F))
    (h_arg8 : X (Proc.devRef .tc main_arg8) = x_arg8) :
    StableHlo.after hostOps4 X (Proc.devRef .tc main_v144) =
      shapeCast _ (extractStridedSlice S1x128x64 ![0, 0, 0] (x_arg8) slices_S2x128x64_S1x128x64_0_0_0) shapeCasts_S1x128x64_S128x64 := by
  subst h_arg8
  host_line

theorem at0_arg8 (c : Dev nD) :
    Gen.W0 m ρ c (Proc.devRef .tc main_arg8) =
      m ((c.tc : Thread nD τ).loc main_arg8) :=
  rfl

theorem skip_hostOps0_arg8 (X : Valuation τ sig (Elt F)) :
    StableHlo.after hostOps0 X (Proc.devRef .tc main_arg8) = X (Proc.devRef .tc main_arg8) := by
  host_skip

theorem at1_arg8 (c : Dev nD) :
    Gen.W1 m ρ c (Proc.devRef .tc main_arg8) =
      m ((c.tc : Thread nD τ).loc main_arg8) :=
  (skip_hostOps0_arg8 (Gen.W0 m ρ c)).trans (at0_arg8 m ρ c)

theorem at2_arg8 (c : Dev nD) :
    Gen.W2 m ρ c (Proc.devRef .tc main_arg8) =
      m ((c.tc : Thread nD τ).loc main_arg8) :=
  (Gen.W2_of_ne m ρ c main_arg8 (by decide)).trans (at1_arg8 m ρ c)

theorem skip_hostOps1_arg8 (X : Valuation τ sig (Elt F)) :
    StableHlo.after hostOps1 X (Proc.devRef .tc main_arg8) = X (Proc.devRef .tc main_arg8) := by
  host_skip

theorem at3_arg8 (c : Dev nD) :
    Gen.W3 m ρ c (Proc.devRef .tc main_arg8) =
      m ((c.tc : Thread nD τ).loc main_arg8) :=
  (skip_hostOps1_arg8 (Gen.W2 m ρ c)).trans (at2_arg8 m ρ c)

theorem at4_arg8 (c : Dev nD) :
    Gen.W4 m ρ c (Proc.devRef .tc main_arg8) =
      m ((c.tc : Thread nD τ).loc main_arg8) :=
  (Gen.W4_of_ne m ρ c main_arg8 (by decide)).trans (at3_arg8 m ρ c)

theorem skip_hostOps2_arg8 (X : Valuation τ sig (Elt F)) :
    StableHlo.after hostOps2 X (Proc.devRef .tc main_arg8) = X (Proc.devRef .tc main_arg8) := by
  host_skip

theorem at5_arg8 (c : Dev nD) :
    Gen.W5 m ρ c (Proc.devRef .tc main_arg8) =
      m ((c.tc : Thread nD τ).loc main_arg8) :=
  (skip_hostOps2_arg8 (Gen.W4 m ρ c)).trans (at4_arg8 m ρ c)

theorem at6_arg8 (c : Dev nD) :
    Gen.W6 m ρ c (Proc.devRef .tc main_arg8) =
      m ((c.tc : Thread nD τ).loc main_arg8) :=
  (Gen.W6_of_ne m ρ c main_arg8 (by decide)).trans (at5_arg8 m ρ c)

theorem skip_hostOps3_arg8 (X : Valuation τ sig (Elt F)) :
    StableHlo.after hostOps3 X (Proc.devRef .tc main_arg8) = X (Proc.devRef .tc main_arg8) := by
  host_skip

theorem at7_arg8 (c : Dev nD) :
    Gen.W7 m ρ c (Proc.devRef .tc main_arg8) =
      m ((c.tc : Thread nD τ).loc main_arg8) :=
  (skip_hostOps3_arg8 (Gen.W6 m ρ c)).trans (at6_arg8 m ρ c)

theorem at8_arg8 (c : Dev nD) :
    Gen.W8 m ρ c (Proc.devRef .tc main_arg8) =
      m ((c.tc : Thread nD τ).loc main_arg8) :=
  (Gen.W8_of_ne m ρ c main_arg8 (by decide)).trans (at7_arg8 m ρ c)

theorem at9_v144 (c : Dev nD) :
    Gen.W9 m ρ c (Proc.devRef .tc main_v144) =
      shapeCast _ (extractStridedSlice S1x128x64 ![0, 0, 0] (m ((c.tc : Thread nD τ).loc main_arg8)) slices_S2x128x64_S1x128x64_0_0_0) shapeCasts_S1x128x64_S128x64 :=
  comp_hostOps4_v144 (Gen.W8 m ρ c) _ (at8_arg8 m ρ c)

theorem comp_hostOps4_v148 (X : Valuation τ sig (Elt F)) (x_arg9 : (Proc.devRef .tc main_arg9 : DevRef τ sig).ty.Contents (Elt F))
    (h_arg9 : X (Proc.devRef .tc main_arg9) = x_arg9) :
    StableHlo.after hostOps4 X (Proc.devRef .tc main_v148) =
      shapeCast _ (shapeCast _ (extractStridedSlice S1x64 ![0, 0] (x_arg9) slices_S2x64_S1x64_0_0) shapeCasts_S1x64_S64) shapeCasts_S64_S1x64 := by
  subst h_arg9
  host_line

theorem at0_arg9 (c : Dev nD) :
    Gen.W0 m ρ c (Proc.devRef .tc main_arg9) =
      m ((c.tc : Thread nD τ).loc main_arg9) :=
  rfl

theorem skip_hostOps0_arg9 (X : Valuation τ sig (Elt F)) :
    StableHlo.after hostOps0 X (Proc.devRef .tc main_arg9) = X (Proc.devRef .tc main_arg9) := by
  host_skip

theorem at1_arg9 (c : Dev nD) :
    Gen.W1 m ρ c (Proc.devRef .tc main_arg9) =
      m ((c.tc : Thread nD τ).loc main_arg9) :=
  (skip_hostOps0_arg9 (Gen.W0 m ρ c)).trans (at0_arg9 m ρ c)

theorem at2_arg9 (c : Dev nD) :
    Gen.W2 m ρ c (Proc.devRef .tc main_arg9) =
      m ((c.tc : Thread nD τ).loc main_arg9) :=
  (Gen.W2_of_ne m ρ c main_arg9 (by decide)).trans (at1_arg9 m ρ c)

theorem skip_hostOps1_arg9 (X : Valuation τ sig (Elt F)) :
    StableHlo.after hostOps1 X (Proc.devRef .tc main_arg9) = X (Proc.devRef .tc main_arg9) := by
  host_skip

theorem at3_arg9 (c : Dev nD) :
    Gen.W3 m ρ c (Proc.devRef .tc main_arg9) =
      m ((c.tc : Thread nD τ).loc main_arg9) :=
  (skip_hostOps1_arg9 (Gen.W2 m ρ c)).trans (at2_arg9 m ρ c)

theorem at4_arg9 (c : Dev nD) :
    Gen.W4 m ρ c (Proc.devRef .tc main_arg9) =
      m ((c.tc : Thread nD τ).loc main_arg9) :=
  (Gen.W4_of_ne m ρ c main_arg9 (by decide)).trans (at3_arg9 m ρ c)

theorem skip_hostOps2_arg9 (X : Valuation τ sig (Elt F)) :
    StableHlo.after hostOps2 X (Proc.devRef .tc main_arg9) = X (Proc.devRef .tc main_arg9) := by
  host_skip

theorem at5_arg9 (c : Dev nD) :
    Gen.W5 m ρ c (Proc.devRef .tc main_arg9) =
      m ((c.tc : Thread nD τ).loc main_arg9) :=
  (skip_hostOps2_arg9 (Gen.W4 m ρ c)).trans (at4_arg9 m ρ c)

theorem at6_arg9 (c : Dev nD) :
    Gen.W6 m ρ c (Proc.devRef .tc main_arg9) =
      m ((c.tc : Thread nD τ).loc main_arg9) :=
  (Gen.W6_of_ne m ρ c main_arg9 (by decide)).trans (at5_arg9 m ρ c)

theorem skip_hostOps3_arg9 (X : Valuation τ sig (Elt F)) :
    StableHlo.after hostOps3 X (Proc.devRef .tc main_arg9) = X (Proc.devRef .tc main_arg9) := by
  host_skip

theorem at7_arg9 (c : Dev nD) :
    Gen.W7 m ρ c (Proc.devRef .tc main_arg9) =
      m ((c.tc : Thread nD τ).loc main_arg9) :=
  (skip_hostOps3_arg9 (Gen.W6 m ρ c)).trans (at6_arg9 m ρ c)

theorem at8_arg9 (c : Dev nD) :
    Gen.W8 m ρ c (Proc.devRef .tc main_arg9) =
      m ((c.tc : Thread nD τ).loc main_arg9) :=
  (Gen.W8_of_ne m ρ c main_arg9 (by decide)).trans (at7_arg9 m ρ c)

theorem at9_v148 (c : Dev nD) :
    Gen.W9 m ρ c (Proc.devRef .tc main_v148) =
      shapeCast _ (shapeCast _ (extractStridedSlice S1x64 ![0, 0] (m ((c.tc : Thread nD τ).loc main_arg9)) slices_S2x64_S1x64_0_0) shapeCasts_S1x64_S64) shapeCasts_S64_S1x64 :=
  comp_hostOps4_v148 (Gen.W8 m ρ c) _ (at8_arg9 m ρ c)

theorem comp_hostOps5_v168 (X : Valuation τ sig (Elt F)) (x_arg13 : (Proc.devRef .tc main_arg13 : DevRef τ sig).ty.Contents (Elt F)) (x_v89 : (Proc.devRef .tc main_v89 : DevRef τ sig).ty.Contents (Elt F)) (x_arg12 : (Proc.devRef .tc main_arg12 : DevRef τ sig).ty.Contents (Elt F))
    (h_arg13 : X (Proc.devRef .tc main_arg13) = x_arg13) (h_v89 : X (Proc.devRef .tc main_v89) = x_v89) (h_arg12 : X (Proc.devRef .tc main_arg12) = x_arg12) :
    StableHlo.after hostOps5 X (Proc.devRef .tc main_v168) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v89) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32))))) := by
  subst h_arg13 h_v89 h_arg12
  host_line

theorem skip_hostOps3_arg13 (X : Valuation τ sig (Elt F)) :
    StableHlo.after hostOps3 X (Proc.devRef .tc main_arg13) = X (Proc.devRef .tc main_arg13) := by
  host_skip

theorem at7_arg13 (c : Dev nD) :
    Gen.W7 m ρ c (Proc.devRef .tc main_arg13) =
      m ((c.tc : Thread nD τ).loc main_arg13) :=
  (skip_hostOps3_arg13 (Gen.W6 m ρ c)).trans (at6_arg13 m ρ c)

theorem at8_arg13 (c : Dev nD) :
    Gen.W8 m ρ c (Proc.devRef .tc main_arg13) =
      m ((c.tc : Thread nD τ).loc main_arg13) :=
  (Gen.W8_of_ne m ρ c main_arg13 (by decide)).trans (at7_arg13 m ρ c)

theorem skip_hostOps4_arg13 (X : Valuation τ sig (Elt F)) :
    StableHlo.after hostOps4 X (Proc.devRef .tc main_arg13) = X (Proc.devRef .tc main_arg13) := by
  host_skip

theorem at9_arg13 (c : Dev nD) :
    Gen.W9 m ρ c (Proc.devRef .tc main_arg13) =
      m ((c.tc : Thread nD τ).loc main_arg13) :=
  (skip_hostOps4_arg13 (Gen.W8 m ρ c)).trans (at8_arg13 m ρ c)

theorem at10_arg13 (c : Dev nD) :
    Gen.W10 m ρ c (Proc.devRef .tc main_arg13) =
      m ((c.tc : Thread nD τ).loc main_arg13) :=
  (Gen.W10_of_ne m ρ c main_arg13 (by decide)).trans (at9_arg13 m ρ c)

theorem at10_v89 (c : Dev nD) :
    Gen.W10 m ρ c (Proc.devRef .tc main_v89) =
      out2 m ρ c :=
  (Gen.W10_arr m ρ c 1).trans (((Gen.dat4 (Gen.V9 m ρ) c).arrAt_in 1 rfl _).trans ((Gen.A_eq4 (Gen.V9 m ρ) c 1).trans (at9_v89 m ρ c)))

theorem skip_hostOps3_arg12 (X : Valuation τ sig (Elt F)) :
    StableHlo.after hostOps3 X (Proc.devRef .tc main_arg12) = X (Proc.devRef .tc main_arg12) := by
  host_skip

theorem at7_arg12 (c : Dev nD) :
    Gen.W7 m ρ c (Proc.devRef .tc main_arg12) =
      m ((c.tc : Thread nD τ).loc main_arg12) :=
  (skip_hostOps3_arg12 (Gen.W6 m ρ c)).trans (at6_arg12 m ρ c)

theorem at8_arg12 (c : Dev nD) :
    Gen.W8 m ρ c (Proc.devRef .tc main_arg12) =
      m ((c.tc : Thread nD τ).loc main_arg12) :=
  (Gen.W8_of_ne m ρ c main_arg12 (by decide)).trans (at7_arg12 m ρ c)

theorem skip_hostOps4_arg12 (X : Valuation τ sig (Elt F)) :
    StableHlo.after hostOps4 X (Proc.devRef .tc main_arg12) = X (Proc.devRef .tc main_arg12) := by
  host_skip

theorem at9_arg12 (c : Dev nD) :
    Gen.W9 m ρ c (Proc.devRef .tc main_arg12) =
      m ((c.tc : Thread nD τ).loc main_arg12) :=
  (skip_hostOps4_arg12 (Gen.W8 m ρ c)).trans (at8_arg12 m ρ c)

theorem at10_arg12 (c : Dev nD) :
    Gen.W10 m ρ c (Proc.devRef .tc main_arg12) =
      m ((c.tc : Thread nD τ).loc main_arg12) :=
  (Gen.W10_of_ne m ρ c main_arg12 (by decide)).trans (at9_arg12 m ρ c)

theorem at11_v168 (c : Dev nD) :
    Gen.W11 m ρ c (Proc.devRef .tc main_v168) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (out2 m ρ c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32))))) :=
  comp_hostOps5_v168 (Gen.W10 m ρ c) _ _ _ (at10_arg13 m ρ c) (at10_v89 m ρ c) (at10_arg12 m ρ c)

theorem skip_hostOps4_v119 (X : Valuation τ sig (Elt F)) :
    StableHlo.after hostOps4 X (Proc.devRef .tc main_v119) = X (Proc.devRef .tc main_v119) := by
  host_skip

theorem at9_v119 (c : Dev nD) :
    Gen.W9 m ρ c (Proc.devRef .tc main_v119) =
      out3 m ρ c :=
  (skip_hostOps4_v119 (Gen.W8 m ρ c)).trans (at8_v119 m ρ c)

theorem at10_v119 (c : Dev nD) :
    Gen.W10 m ρ c (Proc.devRef .tc main_v119) =
      out3 m ρ c :=
  (Gen.W10_of_ne m ρ c main_v119 (by decide)).trans (at9_v119 m ρ c)

theorem skip_hostOps5_v119 (X : Valuation τ sig (Elt F)) :
    StableHlo.after hostOps5 X (Proc.devRef .tc main_v119) = X (Proc.devRef .tc main_v119) := by
  host_skip

theorem at11_v119 (c : Dev nD) :
    Gen.W11 m ρ c (Proc.devRef .tc main_v119) =
      out3 m ρ c :=
  (skip_hostOps5_v119 (Gen.W10 m ρ c)).trans (at10_v119 m ρ c)

theorem comp_hostOps5_v170 (X : Valuation τ sig (Elt F)) (x_arg6 : (Proc.devRef .tc main_arg6 : DevRef τ sig).ty.Contents (Elt F))
    (h_arg6 : X (Proc.devRef .tc main_arg6) = x_arg6) :
    StableHlo.after hostOps5 X (Proc.devRef .tc main_v170) =
      shapeCast _ (extractStridedSlice S1x128x64 ![1, 0, 0] (x_arg6) slices_S2x128x64_S1x128x64_1_0_0) shapeCasts_S1x128x64_S128x64 := by
  subst h_arg6
  host_line

theorem skip_hostOps4_arg6 (X : Valuation τ sig (Elt F)) :
    StableHlo.after hostOps4 X (Proc.devRef .tc main_arg6) = X (Proc.devRef .tc main_arg6) := by
  host_skip

theorem at9_arg6 (c : Dev nD) :
    Gen.W9 m ρ c (Proc.devRef .tc main_arg6) =
      m ((c.tc : Thread nD τ).loc main_arg6) :=
  (skip_hostOps4_arg6 (Gen.W8 m ρ c)).trans (at8_arg6 m ρ c)

theorem at10_arg6 (c : Dev nD) :
    Gen.W10 m ρ c (Proc.devRef .tc main_arg6) =
      m ((c.tc : Thread nD τ).loc main_arg6) :=
  (Gen.W10_of_ne m ρ c main_arg6 (by decide)).trans (at9_arg6 m ρ c)

theorem at11_v170 (c : Dev nD) :
    Gen.W11 m ρ c (Proc.devRef .tc main_v170) =
      shapeCast _ (extractStridedSlice S1x128x64 ![1, 0, 0] (m ((c.tc : Thread nD τ).loc main_arg6)) slices_S2x128x64_S1x128x64_1_0_0) shapeCasts_S1x128x64_S128x64 :=
  comp_hostOps5_v170 (Gen.W10 m ρ c) _ (at10_arg6 m ρ c)

theorem comp_hostOps5_v177 (X : Valuation τ sig (Elt F)) (x_arg7 : (Proc.devRef .tc main_arg7 : DevRef τ sig).ty.Contents (Elt F))
    (h_arg7 : X (Proc.devRef .tc main_arg7) = x_arg7) :
    StableHlo.after hostOps5 X (Proc.devRef .tc main_v177) =
      shapeCast _ (shapeCast _ (extractStridedSlice S1x64 ![1, 0] (x_arg7) slices_S2x64_S1x64_1_0) shapeCasts_S1x64_S64) shapeCasts_S64_S1x64 := by
  subst h_arg7
  host_line

theorem skip_hostOps4_arg7 (X : Valuation τ sig (Elt F)) :
    StableHlo.after hostOps4 X (Proc.devRef .tc main_arg7) = X (Proc.devRef .tc main_arg7) := by
  host_skip

theorem at9_arg7 (c : Dev nD) :
    Gen.W9 m ρ c (Proc.devRef .tc main_arg7) =
      m ((c.tc : Thread nD τ).loc main_arg7) :=
  (skip_hostOps4_arg7 (Gen.W8 m ρ c)).trans (at8_arg7 m ρ c)

theorem at10_arg7 (c : Dev nD) :
    Gen.W10 m ρ c (Proc.devRef .tc main_arg7) =
      m ((c.tc : Thread nD τ).loc main_arg7) :=
  (Gen.W10_of_ne m ρ c main_arg7 (by decide)).trans (at9_arg7 m ρ c)

theorem at11_v177 (c : Dev nD) :
    Gen.W11 m ρ c (Proc.devRef .tc main_v177) =
      shapeCast _ (shapeCast _ (extractStridedSlice S1x64 ![1, 0] (m ((c.tc : Thread nD τ).loc main_arg7)) slices_S2x64_S1x64_1_0) shapeCasts_S1x64_S64) shapeCasts_S64_S1x64 :=
  comp_hostOps5_v177 (Gen.W10 m ρ c) _ (at10_arg7 m ρ c)

theorem comp_hostOps5_v174 (X : Valuation τ sig (Elt F)) (x_arg8 : (Proc.devRef .tc main_arg8 : DevRef τ sig).ty.Contents (Elt F))
    (h_arg8 : X (Proc.devRef .tc main_arg8) = x_arg8) :
    StableHlo.after hostOps5 X (Proc.devRef .tc main_v174) =
      shapeCast _ (extractStridedSlice S1x128x64 ![1, 0, 0] (x_arg8) slices_S2x128x64_S1x128x64_1_0_0) shapeCasts_S1x128x64_S128x64 := by
  subst h_arg8
  host_line

theorem skip_hostOps4_arg8 (X : Valuation τ sig (Elt F)) :
    StableHlo.after hostOps4 X (Proc.devRef .tc main_arg8) = X (Proc.devRef .tc main_arg8) := by
  host_skip

theorem at9_arg8 (c : Dev nD) :
    Gen.W9 m ρ c (Proc.devRef .tc main_arg8) =
      m ((c.tc : Thread nD τ).loc main_arg8) :=
  (skip_hostOps4_arg8 (Gen.W8 m ρ c)).trans (at8_arg8 m ρ c)

theorem at10_arg8 (c : Dev nD) :
    Gen.W10 m ρ c (Proc.devRef .tc main_arg8) =
      m ((c.tc : Thread nD τ).loc main_arg8) :=
  (Gen.W10_of_ne m ρ c main_arg8 (by decide)).trans (at9_arg8 m ρ c)

theorem at11_v174 (c : Dev nD) :
    Gen.W11 m ρ c (Proc.devRef .tc main_v174) =
      shapeCast _ (extractStridedSlice S1x128x64 ![1, 0, 0] (m ((c.tc : Thread nD τ).loc main_arg8)) slices_S2x128x64_S1x128x64_1_0_0) shapeCasts_S1x128x64_S128x64 :=
  comp_hostOps5_v174 (Gen.W10 m ρ c) _ (at10_arg8 m ρ c)

theorem comp_hostOps5_v178 (X : Valuation τ sig (Elt F)) (x_arg9 : (Proc.devRef .tc main_arg9 : DevRef τ sig).ty.Contents (Elt F))
    (h_arg9 : X (Proc.devRef .tc main_arg9) = x_arg9) :
    StableHlo.after hostOps5 X (Proc.devRef .tc main_v178) =
      shapeCast _ (shapeCast _ (extractStridedSlice S1x64 ![1, 0] (x_arg9) slices_S2x64_S1x64_1_0) shapeCasts_S1x64_S64) shapeCasts_S64_S1x64 := by
  subst h_arg9
  host_line

theorem skip_hostOps4_arg9 (X : Valuation τ sig (Elt F)) :
    StableHlo.after hostOps4 X (Proc.devRef .tc main_arg9) = X (Proc.devRef .tc main_arg9) := by
  host_skip

theorem at9_arg9 (c : Dev nD) :
    Gen.W9 m ρ c (Proc.devRef .tc main_arg9) =
      m ((c.tc : Thread nD τ).loc main_arg9) :=
  (skip_hostOps4_arg9 (Gen.W8 m ρ c)).trans (at8_arg9 m ρ c)

theorem at10_arg9 (c : Dev nD) :
    Gen.W10 m ρ c (Proc.devRef .tc main_arg9) =
      m ((c.tc : Thread nD τ).loc main_arg9) :=
  (Gen.W10_of_ne m ρ c main_arg9 (by decide)).trans (at9_arg9 m ρ c)

theorem at11_v178 (c : Dev nD) :
    Gen.W11 m ρ c (Proc.devRef .tc main_v178) =
      shapeCast _ (shapeCast _ (extractStridedSlice S1x64 ![1, 0] (m ((c.tc : Thread nD τ).loc main_arg9)) slices_S2x64_S1x64_1_0) shapeCasts_S1x64_S64) shapeCasts_S64_S1x64 :=
  comp_hostOps5_v178 (Gen.W10 m ρ c) _ (at10_arg9 m ρ c)

theorem comp_hostOps6_3_v204 (X : Valuation τ sig (Elt F)) (x_v184 : (Proc.devRef .tc main_v184 : DevRef τ sig).ty.Contents (Elt F)) (x_arg14 : (Proc.devRef .tc main_arg14 : DevRef τ sig).ty.Contents (Elt F)) (x_arg16 : (Proc.devRef .tc main_arg16 : DevRef τ sig).ty.Contents (Elt F))
    (h_v184 : X (Proc.devRef .tc main_v184) = x_v184) (h_arg14 : X (Proc.devRef .tc main_arg14) = x_arg14) (h_arg16 : X (Proc.devRef .tc main_arg16) = x_arg16) :
    StableHlo.after hostOps6_3 X (Proc.devRef .tc main_v204) =
      concatenate S1000000x64 0 [⟨S500000x64, (Host.gather gather_S100000x64_S500000x1_S500000x64_1_0_n_n_0_1_164 (x_v184) (broadcastInDim S500000x1 ![0] bcast_S500000_S500000x1_0 (select (cmpi .slt (x_arg14) (broadcastInDim S500000 ![] bcast_S_S500000 (constantI S_ 32 0#32))) (addi (x_arg14) (broadcastInDim S500000 ![] bcast_S_S500000 (constantI S_ 32 100000#32))) (x_arg14))))⟩, ⟨S500000x64, (Host.gather gather_S100000x64_S500000x1_S500000x64_1_0_n_n_0_1_164 (x_v184) (broadcastInDim S500000x1 ![0] bcast_S500000_S500000x1_0 (select (cmpi .slt (x_arg16) (broadcastInDim S500000 ![] bcast_S_S500000 (constantI S_ 32 0#32))) (addi (x_arg16) (broadcastInDim S500000 ![] bcast_S_S500000 (constantI S_ 32 100000#32))) (x_arg16))))⟩] concatenates_S500000x64_S500000x64_S1000000x64_d0 := by
  subst h_v184 h_arg14 h_arg16
  host_line

theorem comp_hostOps6_1_v184 (X : Valuation τ sig (Elt F)) (x_v179 : (Proc.devRef .tc main_v179 : DevRef τ sig).ty.Contents (Elt F)) (x_v180 : (Proc.devRef .tc main_v180 : DevRef τ sig).ty.Contents (Elt F))
    (h_v179 : X (Proc.devRef .tc main_v179) = x_v179) (h_v180 : X (Proc.devRef .tc main_v180) = x_v180) :
    StableHlo.after hostOps6_1 X (Proc.devRef .tc main_v184) =
      Host.divf (x_v179) (broadcastInDim S100000x64 ![0, 1] bcast_S100000x1_S100000x64_0_1 (maximumf (x_v180) (broadcastInDim S100000x1 ![] bcast_S_S100000x1 (constant S_ .f32 0x2B8CBCCC#32)))) := by
  subst h_v179 h_v180
  host_line

theorem at12_v179 (c : Dev nD) :
    Gen.W12 m ρ c (Proc.devRef .tc main_v179) =
      out5 m ρ c :=
  Gen.W12_arr m ρ c 6

theorem skip_hostOps6_v179 (X : Valuation τ sig (Elt F)) :
    StableHlo.after hostOps6 X (Proc.devRef .tc main_v179) = X (Proc.devRef .tc main_v179) := by
  host_skip

theorem at13_v179 (c : Dev nD) :
    Gen.W13 m ρ c (Proc.devRef .tc main_v179) =
      out5 m ρ c :=
  (skip_hostOps6_v179 (Gen.W12 m ρ c)).trans (at12_v179 m ρ c)

theorem comp_hostOps6_v180 (X : Valuation τ sig (Elt F)) (x_v179 : (Proc.devRef .tc main_v179 : DevRef τ sig).ty.Contents (Elt F))
    (h_v179 : X (Proc.devRef .tc main_v179) = x_v179) :
    StableHlo.after hostOps6 X (Proc.devRef .tc main_v180) =
      Host.sqrt (broadcastInDim S100000x1 ![0] bcast_S100000_S100000x1_0 (Host.reduceAdd (mulf (x_v179) (x_v179)) (constant S_ .f32 0x00000000#32) reducesTo_S100000x64_S100000_d1 h_S_)) := by
  subst h_v179
  host_line

theorem at13_v180 (c : Dev nD) :
    Gen.W13 m ρ c (Proc.devRef .tc main_v180) =
      Host.sqrt (broadcastInDim S100000x1 ![0] bcast_S100000_S100000x1_0 (Host.reduceAdd (mulf (out5 m ρ c) (out5 m ρ c)) (constant S_ .f32 0x00000000#32) reducesTo_S100000x64_S100000_d1 h_S_)) :=
  comp_hostOps6_v180 (Gen.W12 m ρ c) _ (at12_v179 m ρ c)

theorem at14_v184 (c : Dev nD) :
    Gen.W14 m ρ c (Proc.devRef .tc main_v184) =
      Host.divf (out5 m ρ c) (broadcastInDim S100000x64 ![0, 1] bcast_S100000x1_S100000x64_0_1 (maximumf (Host.sqrt (broadcastInDim S100000x1 ![0] bcast_S100000_S100000x1_0 (Host.reduceAdd (mulf (out5 m ρ c) (out5 m ρ c)) (constant S_ .f32 0x00000000#32) reducesTo_S100000x64_S100000_d1 h_S_))) (broadcastInDim S100000x1 ![] bcast_S_S100000x1 (constant S_ .f32 0x2B8CBCCC#32)))) :=
  comp_hostOps6_1_v184 (Gen.W13 m ρ c) _ _ (at13_v179 m ρ c) (at13_v180 m ρ c)

theorem skip_hostOps6_2_v184 (X : Valuation τ sig (Elt F)) :
    StableHlo.after hostOps6_2 X (Proc.devRef .tc main_v184) = X (Proc.devRef .tc main_v184) := by
  host_skip

theorem at15_v184 (c : Dev nD) :
    Gen.W15 m ρ c (Proc.devRef .tc main_v184) =
      Host.divf (out5 m ρ c) (broadcastInDim S100000x64 ![0, 1] bcast_S100000x1_S100000x64_0_1 (maximumf (Host.sqrt (broadcastInDim S100000x1 ![0] bcast_S100000_S100000x1_0 (Host.reduceAdd (mulf (out5 m ρ c) (out5 m ρ c)) (constant S_ .f32 0x00000000#32) reducesTo_S100000x64_S100000_d1 h_S_))) (broadcastInDim S100000x1 ![] bcast_S_S100000x1 (constant S_ .f32 0x2B8CBCCC#32)))) :=
  (skip_hostOps6_2_v184 (Gen.W14 m ρ c)).trans (at14_v184 m ρ c)

theorem at0_arg14 (c : Dev nD) :
    Gen.W0 m ρ c (Proc.devRef .tc main_arg14) =
      m ((c.tc : Thread nD τ).loc main_arg14) :=
  rfl

theorem skip_hostOps0_arg14 (X : Valuation τ sig (Elt F)) :
    StableHlo.after hostOps0 X (Proc.devRef .tc main_arg14) = X (Proc.devRef .tc main_arg14) := by
  host_skip

theorem at1_arg14 (c : Dev nD) :
    Gen.W1 m ρ c (Proc.devRef .tc main_arg14) =
      m ((c.tc : Thread nD τ).loc main_arg14) :=
  (skip_hostOps0_arg14 (Gen.W0 m ρ c)).trans (at0_arg14 m ρ c)

theorem at2_arg14 (c : Dev nD) :
    Gen.W2 m ρ c (Proc.devRef .tc main_arg14) =
      m ((c.tc : Thread nD τ).loc main_arg14) :=
  (Gen.W2_of_ne m ρ c main_arg14 (by decide)).trans (at1_arg14 m ρ c)

theorem skip_hostOps1_arg14 (X : Valuation τ sig (Elt F)) :
    StableHlo.after hostOps1 X (Proc.devRef .tc main_arg14) = X (Proc.devRef .tc main_arg14) := by
  host_skip

theorem at3_arg14 (c : Dev nD) :
    Gen.W3 m ρ c (Proc.devRef .tc main_arg14) =
      m ((c.tc : Thread nD τ).loc main_arg14) :=
  (skip_hostOps1_arg14 (Gen.W2 m ρ c)).trans (at2_arg14 m ρ c)

theorem at4_arg14 (c : Dev nD) :
    Gen.W4 m ρ c (Proc.devRef .tc main_arg14) =
      m ((c.tc : Thread nD τ).loc main_arg14) :=
  (Gen.W4_of_ne m ρ c main_arg14 (by decide)).trans (at3_arg14 m ρ c)

theorem skip_hostOps2_arg14 (X : Valuation τ sig (Elt F)) :
    StableHlo.after hostOps2 X (Proc.devRef .tc main_arg14) = X (Proc.devRef .tc main_arg14) := by
  host_skip

theorem at5_arg14 (c : Dev nD) :
    Gen.W5 m ρ c (Proc.devRef .tc main_arg14) =
      m ((c.tc : Thread nD τ).loc main_arg14) :=
  (skip_hostOps2_arg14 (Gen.W4 m ρ c)).trans (at4_arg14 m ρ c)

theorem at6_arg14 (c : Dev nD) :
    Gen.W6 m ρ c (Proc.devRef .tc main_arg14) =
      m ((c.tc : Thread nD τ).loc main_arg14) :=
  (Gen.W6_of_ne m ρ c main_arg14 (by decide)).trans (at5_arg14 m ρ c)

theorem skip_hostOps3_arg14 (X : Valuation τ sig (Elt F)) :
    StableHlo.after hostOps3 X (Proc.devRef .tc main_arg14) = X (Proc.devRef .tc main_arg14) := by
  host_skip

theorem at7_arg14 (c : Dev nD) :
    Gen.W7 m ρ c (Proc.devRef .tc main_arg14) =
      m ((c.tc : Thread nD τ).loc main_arg14) :=
  (skip_hostOps3_arg14 (Gen.W6 m ρ c)).trans (at6_arg14 m ρ c)

theorem at8_arg14 (c : Dev nD) :
    Gen.W8 m ρ c (Proc.devRef .tc main_arg14) =
      m ((c.tc : Thread nD τ).loc main_arg14) :=
  (Gen.W8_of_ne m ρ c main_arg14 (by decide)).trans (at7_arg14 m ρ c)

theorem skip_hostOps4_arg14 (X : Valuation τ sig (Elt F)) :
    StableHlo.after hostOps4 X (Proc.devRef .tc main_arg14) = X (Proc.devRef .tc main_arg14) := by
  host_skip

theorem at9_arg14 (c : Dev nD) :
    Gen.W9 m ρ c (Proc.devRef .tc main_arg14) =
      m ((c.tc : Thread nD τ).loc main_arg14) :=
  (skip_hostOps4_arg14 (Gen.W8 m ρ c)).trans (at8_arg14 m ρ c)

theorem at10_arg14 (c : Dev nD) :
    Gen.W10 m ρ c (Proc.devRef .tc main_arg14) =
      m ((c.tc : Thread nD τ).loc main_arg14) :=
  (Gen.W10_of_ne m ρ c main_arg14 (by decide)).trans (at9_arg14 m ρ c)

theorem skip_hostOps5_arg14 (X : Valuation τ sig (Elt F)) :
    StableHlo.after hostOps5 X (Proc.devRef .tc main_arg14) = X (Proc.devRef .tc main_arg14) := by
  host_skip

theorem at11_arg14 (c : Dev nD) :
    Gen.W11 m ρ c (Proc.devRef .tc main_arg14) =
      m ((c.tc : Thread nD τ).loc main_arg14) :=
  (skip_hostOps5_arg14 (Gen.W10 m ρ c)).trans (at10_arg14 m ρ c)

theorem at12_arg14 (c : Dev nD) :
    Gen.W12 m ρ c (Proc.devRef .tc main_arg14) =
      m ((c.tc : Thread nD τ).loc main_arg14) :=
  (Gen.W12_of_ne m ρ c main_arg14 (by decide)).trans (at11_arg14 m ρ c)

theorem skip_hostOps6_arg14 (X : Valuation τ sig (Elt F)) :
    StableHlo.after hostOps6 X (Proc.devRef .tc main_arg14) = X (Proc.devRef .tc main_arg14) := by
  host_skip

theorem at13_arg14 (c : Dev nD) :
    Gen.W13 m ρ c (Proc.devRef .tc main_arg14) =
      m ((c.tc : Thread nD τ).loc main_arg14) :=
  (skip_hostOps6_arg14 (Gen.W12 m ρ c)).trans (at12_arg14 m ρ c)

theorem skip_hostOps6_1_arg14 (X : Valuation τ sig (Elt F)) :
    StableHlo.after hostOps6_1 X (Proc.devRef .tc main_arg14) = X (Proc.devRef .tc main_arg14) := by
  host_skip

theorem at14_arg14 (c : Dev nD) :
    Gen.W14 m ρ c (Proc.devRef .tc main_arg14) =
      m ((c.tc : Thread nD τ).loc main_arg14) :=
  (skip_hostOps6_1_arg14 (Gen.W13 m ρ c)).trans (at13_arg14 m ρ c)

theorem skip_hostOps6_2_arg14 (X : Valuation τ sig (Elt F)) :
    StableHlo.after hostOps6_2 X (Proc.devRef .tc main_arg14) = X (Proc.devRef .tc main_arg14) := by
  host_skip

theorem at15_arg14 (c : Dev nD) :
    Gen.W15 m ρ c (Proc.devRef .tc main_arg14) =
      m ((c.tc : Thread nD τ).loc main_arg14) :=
  (skip_hostOps6_2_arg14 (Gen.W14 m ρ c)).trans (at14_arg14 m ρ c)

theorem at0_arg16 (c : Dev nD) :
    Gen.W0 m ρ c (Proc.devRef .tc main_arg16) =
      m ((c.tc : Thread nD τ).loc main_arg16) :=
  rfl

theorem skip_hostOps0_arg16 (X : Valuation τ sig (Elt F)) :
    StableHlo.after hostOps0 X (Proc.devRef .tc main_arg16) = X (Proc.devRef .tc main_arg16) := by
  host_skip

theorem at1_arg16 (c : Dev nD) :
    Gen.W1 m ρ c (Proc.devRef .tc main_arg16) =
      m ((c.tc : Thread nD τ).loc main_arg16) :=
  (skip_hostOps0_arg16 (Gen.W0 m ρ c)).trans (at0_arg16 m ρ c)

theorem at2_arg16 (c : Dev nD) :
    Gen.W2 m ρ c (Proc.devRef .tc main_arg16) =
      m ((c.tc : Thread nD τ).loc main_arg16) :=
  (Gen.W2_of_ne m ρ c main_arg16 (by decide)).trans (at1_arg16 m ρ c)

theorem skip_hostOps1_arg16 (X : Valuation τ sig (Elt F)) :
    StableHlo.after hostOps1 X (Proc.devRef .tc main_arg16) = X (Proc.devRef .tc main_arg16) := by
  host_skip

theorem at3_arg16 (c : Dev nD) :
    Gen.W3 m ρ c (Proc.devRef .tc main_arg16) =
      m ((c.tc : Thread nD τ).loc main_arg16) :=
  (skip_hostOps1_arg16 (Gen.W2 m ρ c)).trans (at2_arg16 m ρ c)

theorem at4_arg16 (c : Dev nD) :
    Gen.W4 m ρ c (Proc.devRef .tc main_arg16) =
      m ((c.tc : Thread nD τ).loc main_arg16) :=
  (Gen.W4_of_ne m ρ c main_arg16 (by decide)).trans (at3_arg16 m ρ c)

theorem skip_hostOps2_arg16 (X : Valuation τ sig (Elt F)) :
    StableHlo.after hostOps2 X (Proc.devRef .tc main_arg16) = X (Proc.devRef .tc main_arg16) := by
  host_skip

theorem at5_arg16 (c : Dev nD) :
    Gen.W5 m ρ c (Proc.devRef .tc main_arg16) =
      m ((c.tc : Thread nD τ).loc main_arg16) :=
  (skip_hostOps2_arg16 (Gen.W4 m ρ c)).trans (at4_arg16 m ρ c)

theorem at6_arg16 (c : Dev nD) :
    Gen.W6 m ρ c (Proc.devRef .tc main_arg16) =
      m ((c.tc : Thread nD τ).loc main_arg16) :=
  (Gen.W6_of_ne m ρ c main_arg16 (by decide)).trans (at5_arg16 m ρ c)

theorem skip_hostOps3_arg16 (X : Valuation τ sig (Elt F)) :
    StableHlo.after hostOps3 X (Proc.devRef .tc main_arg16) = X (Proc.devRef .tc main_arg16) := by
  host_skip

theorem at7_arg16 (c : Dev nD) :
    Gen.W7 m ρ c (Proc.devRef .tc main_arg16) =
      m ((c.tc : Thread nD τ).loc main_arg16) :=
  (skip_hostOps3_arg16 (Gen.W6 m ρ c)).trans (at6_arg16 m ρ c)

theorem at8_arg16 (c : Dev nD) :
    Gen.W8 m ρ c (Proc.devRef .tc main_arg16) =
      m ((c.tc : Thread nD τ).loc main_arg16) :=
  (Gen.W8_of_ne m ρ c main_arg16 (by decide)).trans (at7_arg16 m ρ c)

theorem skip_hostOps4_arg16 (X : Valuation τ sig (Elt F)) :
    StableHlo.after hostOps4 X (Proc.devRef .tc main_arg16) = X (Proc.devRef .tc main_arg16) := by
  host_skip

theorem at9_arg16 (c : Dev nD) :
    Gen.W9 m ρ c (Proc.devRef .tc main_arg16) =
      m ((c.tc : Thread nD τ).loc main_arg16) :=
  (skip_hostOps4_arg16 (Gen.W8 m ρ c)).trans (at8_arg16 m ρ c)

theorem at10_arg16 (c : Dev nD) :
    Gen.W10 m ρ c (Proc.devRef .tc main_arg16) =
      m ((c.tc : Thread nD τ).loc main_arg16) :=
  (Gen.W10_of_ne m ρ c main_arg16 (by decide)).trans (at9_arg16 m ρ c)

theorem skip_hostOps5_arg16 (X : Valuation τ sig (Elt F)) :
    StableHlo.after hostOps5 X (Proc.devRef .tc main_arg16) = X (Proc.devRef .tc main_arg16) := by
  host_skip

theorem at11_arg16 (c : Dev nD) :
    Gen.W11 m ρ c (Proc.devRef .tc main_arg16) =
      m ((c.tc : Thread nD τ).loc main_arg16) :=
  (skip_hostOps5_arg16 (Gen.W10 m ρ c)).trans (at10_arg16 m ρ c)

theorem at12_arg16 (c : Dev nD) :
    Gen.W12 m ρ c (Proc.devRef .tc main_arg16) =
      m ((c.tc : Thread nD τ).loc main_arg16) :=
  (Gen.W12_of_ne m ρ c main_arg16 (by decide)).trans (at11_arg16 m ρ c)

theorem skip_hostOps6_arg16 (X : Valuation τ sig (Elt F)) :
    StableHlo.after hostOps6 X (Proc.devRef .tc main_arg16) = X (Proc.devRef .tc main_arg16) := by
  host_skip

theorem at13_arg16 (c : Dev nD) :
    Gen.W13 m ρ c (Proc.devRef .tc main_arg16) =
      m ((c.tc : Thread nD τ).loc main_arg16) :=
  (skip_hostOps6_arg16 (Gen.W12 m ρ c)).trans (at12_arg16 m ρ c)

theorem skip_hostOps6_1_arg16 (X : Valuation τ sig (Elt F)) :
    StableHlo.after hostOps6_1 X (Proc.devRef .tc main_arg16) = X (Proc.devRef .tc main_arg16) := by
  host_skip

theorem at14_arg16 (c : Dev nD) :
    Gen.W14 m ρ c (Proc.devRef .tc main_arg16) =
      m ((c.tc : Thread nD τ).loc main_arg16) :=
  (skip_hostOps6_1_arg16 (Gen.W13 m ρ c)).trans (at13_arg16 m ρ c)

theorem skip_hostOps6_2_arg16 (X : Valuation τ sig (Elt F)) :
    StableHlo.after hostOps6_2 X (Proc.devRef .tc main_arg16) = X (Proc.devRef .tc main_arg16) := by
  host_skip

theorem at15_arg16 (c : Dev nD) :
    Gen.W15 m ρ c (Proc.devRef .tc main_arg16) =
      m ((c.tc : Thread nD τ).loc main_arg16) :=
  (skip_hostOps6_2_arg16 (Gen.W14 m ρ c)).trans (at14_arg16 m ρ c)

theorem at16_v204 (c : Dev nD) :
    Gen.W16 m ρ c (Proc.devRef .tc main_v204) =
      concatenate S1000000x64 0 [⟨S500000x64, (Host.gather gather_S100000x64_S500000x1_S500000x64_1_0_n_n_0_1_164 (Host.divf (out5 m ρ c) (broadcastInDim S100000x64 ![0, 1] bcast_S100000x1_S100000x64_0_1 (maximumf (Host.sqrt (broadcastInDim S100000x1 ![0] bcast_S100000_S100000x1_0 (Host.reduceAdd (mulf (out5 m ρ c) (out5 m ρ c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg14)) (broadcastInDim S500000 ![] bcast_S_S500000 (constantI S_ 32 0#32))) (addi (m ((c.tc : Thread nD τ).loc main_arg14)) (broadcastInDim S500000 ![] bcast_S_S500000 (constantI S_ 32 100000#32))) (m ((c.tc : Thread nD τ).loc main_arg14)))))⟩, ⟨S500000x64, (Host.gather gather_S100000x64_S500000x1_S500000x64_1_0_n_n_0_1_164 (Host.divf (out5 m ρ c) (broadcastInDim S100000x64 ![0, 1] bcast_S100000x1_S100000x64_0_1 (maximumf (Host.sqrt (broadcastInDim S100000x1 ![0] bcast_S100000_S100000x1_0 (Host.reduceAdd (mulf (out5 m ρ c) (out5 m ρ c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg16)) (broadcastInDim S500000 ![] bcast_S_S500000 (constantI S_ 32 0#32))) (addi (m ((c.tc : Thread nD τ).loc main_arg16)) (broadcastInDim S500000 ![] bcast_S_S500000 (constantI S_ 32 100000#32))) (m ((c.tc : Thread nD τ).loc main_arg16)))))⟩] concatenates_S500000x64_S500000x64_S1000000x64_d0 :=
  comp_hostOps6_3_v204 (Gen.W15 m ρ c) _ _ _ (at15_v184 m ρ c) (at15_arg14 m ρ c) (at15_arg16 m ρ c)

theorem comp_hostOps6_3_v219 (X : Valuation τ sig (Elt F)) (x_v149 : (Proc.devRef .tc main_v149 : DevRef τ sig).ty.Contents (Elt F)) (x_v185 : (Proc.devRef .tc main_v185 : DevRef τ sig).ty.Contents (Elt F)) (x_arg15 : (Proc.devRef .tc main_arg15 : DevRef τ sig).ty.Contents (Elt F)) (x_arg17 : (Proc.devRef .tc main_arg17 : DevRef τ sig).ty.Contents (Elt F))
    (h_v149 : X (Proc.devRef .tc main_v149) = x_v149) (h_v185 : X (Proc.devRef .tc main_v185) = x_v185) (h_arg15 : X (Proc.devRef .tc main_arg15) = x_arg15) (h_arg17 : X (Proc.devRef .tc main_arg17) = x_arg17) :
    StableHlo.after hostOps6_3 X (Proc.devRef .tc main_v219) =
      concatenate S1000000x64 0 [⟨S500000x64, (Host.gather gather_S50000x64_S500000x1_S500000x64_1_0_n_n_0_1_164 (Host.divf (x_v149) (broadcastInDim S50000x64 ![0, 1] bcast_S50000x1_S50000x64_0_1 (maximumf (x_v185) (broadcastInDim S50000x1 ![] bcast_S_S50000x1 (constant S_ .f32 0x2B8CBCCC#32))))) (broadcastInDim S500000x1 ![0] bcast_S500000_S500000x1_0 (select (cmpi .slt (x_arg15) (broadcastInDim S500000 ![] bcast_S_S500000 (constantI S_ 32 0#32))) (addi (x_arg15) (broadcastInDim S500000 ![] bcast_S_S500000 (constantI S_ 32 50000#32))) (x_arg15))))⟩, ⟨S500000x64, (Host.gather gather_S50000x64_S500000x1_S500000x64_1_0_n_n_0_1_164 (Host.divf (x_v149) (broadcastInDim S50000x64 ![0, 1] bcast_S50000x1_S50000x64_0_1 (maximumf (x_v185) (broadcastInDim S50000x1 ![] bcast_S_S50000x1 (constant S_ .f32 0x2B8CBCCC#32))))) (broadcastInDim S500000x1 ![0] bcast_S500000_S500000x1_0 (select (cmpi .slt (x_arg17) (broadcastInDim S500000 ![] bcast_S_S500000 (constantI S_ 32 0#32))) (addi (x_arg17) (broadcastInDim S500000 ![] bcast_S_S500000 (constantI S_ 32 50000#32))) (x_arg17))))⟩] concatenates_S500000x64_S500000x64_S1000000x64_d0 := by
  subst h_v149 h_v185 h_arg15 h_arg17
  host_line

theorem at10_v149 (c : Dev nD) :
    Gen.W10 m ρ c (Proc.devRef .tc main_v149) =
      out4 m ρ c :=
  Gen.W10_arr m ρ c 6

theorem skip_hostOps5_v149 (X : Valuation τ sig (Elt F)) :
    StableHlo.after hostOps5 X (Proc.devRef .tc main_v149) = X (Proc.devRef .tc main_v149) := by
  host_skip

theorem at11_v149 (c : Dev nD) :
    Gen.W11 m ρ c (Proc.devRef .tc main_v149) =
      out4 m ρ c :=
  (skip_hostOps5_v149 (Gen.W10 m ρ c)).trans (at10_v149 m ρ c)

theorem at12_v149 (c : Dev nD) :
    Gen.W12 m ρ c (Proc.devRef .tc main_v149) =
      out4 m ρ c :=
  (Gen.W12_of_ne m ρ c main_v149 (by decide)).trans (at11_v149 m ρ c)

theorem skip_hostOps6_v149 (X : Valuation τ sig (Elt F)) :
    StableHlo.after hostOps6 X (Proc.devRef .tc main_v149) = X (Proc.devRef .tc main_v149) := by
  host_skip

theorem at13_v149 (c : Dev nD) :
    Gen.W13 m ρ c (Proc.devRef .tc main_v149) =
      out4 m ρ c :=
  (skip_hostOps6_v149 (Gen.W12 m ρ c)).trans (at12_v149 m ρ c)

theorem skip_hostOps6_1_v149 (X : Valuation τ sig (Elt F)) :
    StableHlo.after hostOps6_1 X (Proc.devRef .tc main_v149) = X (Proc.devRef .tc main_v149) := by
  host_skip

theorem at14_v149 (c : Dev nD) :
    Gen.W14 m ρ c (Proc.devRef .tc main_v149) =
      out4 m ρ c :=
  (skip_hostOps6_1_v149 (Gen.W13 m ρ c)).trans (at13_v149 m ρ c)

theorem skip_hostOps6_2_v149 (X : Valuation τ sig (Elt F)) :
    StableHlo.after hostOps6_2 X (Proc.devRef .tc main_v149) = X (Proc.devRef .tc main_v149) := by
  host_skip

theorem at15_v149 (c : Dev nD) :
    Gen.W15 m ρ c (Proc.devRef .tc main_v149) =
      out4 m ρ c :=
  (skip_hostOps6_2_v149 (Gen.W14 m ρ c)).trans (at14_v149 m ρ c)

theorem comp_hostOps6_2_v185 (X : Valuation τ sig (Elt F)) (x_v149 : (Proc.devRef .tc main_v149 : DevRef τ sig).ty.Contents (Elt F))
    (h_v149 : X (Proc.devRef .tc main_v149) = x_v149) :
    StableHlo.after hostOps6_2 X (Proc.devRef .tc main_v185) =
      Host.sqrt (broadcastInDim S50000x1 ![0] bcast_S50000_S50000x1_0 (Host.reduceAdd (mulf (x_v149) (x_v149)) (constant S_ .f32 0x00000000#32) reducesTo_S50000x64_S50000_d1 h_S_)) := by
  subst h_v149
  host_line

theorem at15_v185 (c : Dev nD) :
    Gen.W15 m ρ c (Proc.devRef .tc main_v185) =
      Host.sqrt (broadcastInDim S50000x1 ![0] bcast_S50000_S50000x1_0 (Host.reduceAdd (mulf (out4 m ρ c) (out4 m ρ c)) (constant S_ .f32 0x00000000#32) reducesTo_S50000x64_S50000_d1 h_S_)) :=
  comp_hostOps6_2_v185 (Gen.W14 m ρ c) _ (at14_v149 m ρ c)

theorem at0_arg15 (c : Dev nD) :
    Gen.W0 m ρ c (Proc.devRef .tc main_arg15) =
      m ((c.tc : Thread nD τ).loc main_arg15) :=
  rfl

theorem skip_hostOps0_arg15 (X : Valuation τ sig (Elt F)) :
    StableHlo.after hostOps0 X (Proc.devRef .tc main_arg15) = X (Proc.devRef .tc main_arg15) := by
  host_skip

theorem at1_arg15 (c : Dev nD) :
    Gen.W1 m ρ c (Proc.devRef .tc main_arg15) =
      m ((c.tc : Thread nD τ).loc main_arg15) :=
  (skip_hostOps0_arg15 (Gen.W0 m ρ c)).trans (at0_arg15 m ρ c)

theorem at2_arg15 (c : Dev nD) :
    Gen.W2 m ρ c (Proc.devRef .tc main_arg15) =
      m ((c.tc : Thread nD τ).loc main_arg15) :=
  (Gen.W2_of_ne m ρ c main_arg15 (by decide)).trans (at1_arg15 m ρ c)

theorem skip_hostOps1_arg15 (X : Valuation τ sig (Elt F)) :
    StableHlo.after hostOps1 X (Proc.devRef .tc main_arg15) = X (Proc.devRef .tc main_arg15) := by
  host_skip

theorem at3_arg15 (c : Dev nD) :
    Gen.W3 m ρ c (Proc.devRef .tc main_arg15) =
      m ((c.tc : Thread nD τ).loc main_arg15) :=
  (skip_hostOps1_arg15 (Gen.W2 m ρ c)).trans (at2_arg15 m ρ c)

theorem at4_arg15 (c : Dev nD) :
    Gen.W4 m ρ c (Proc.devRef .tc main_arg15) =
      m ((c.tc : Thread nD τ).loc main_arg15) :=
  (Gen.W4_of_ne m ρ c main_arg15 (by decide)).trans (at3_arg15 m ρ c)

theorem skip_hostOps2_arg15 (X : Valuation τ sig (Elt F)) :
    StableHlo.after hostOps2 X (Proc.devRef .tc main_arg15) = X (Proc.devRef .tc main_arg15) := by
  host_skip

theorem at5_arg15 (c : Dev nD) :
    Gen.W5 m ρ c (Proc.devRef .tc main_arg15) =
      m ((c.tc : Thread nD τ).loc main_arg15) :=
  (skip_hostOps2_arg15 (Gen.W4 m ρ c)).trans (at4_arg15 m ρ c)

theorem at6_arg15 (c : Dev nD) :
    Gen.W6 m ρ c (Proc.devRef .tc main_arg15) =
      m ((c.tc : Thread nD τ).loc main_arg15) :=
  (Gen.W6_of_ne m ρ c main_arg15 (by decide)).trans (at5_arg15 m ρ c)

theorem skip_hostOps3_arg15 (X : Valuation τ sig (Elt F)) :
    StableHlo.after hostOps3 X (Proc.devRef .tc main_arg15) = X (Proc.devRef .tc main_arg15) := by
  host_skip

theorem at7_arg15 (c : Dev nD) :
    Gen.W7 m ρ c (Proc.devRef .tc main_arg15) =
      m ((c.tc : Thread nD τ).loc main_arg15) :=
  (skip_hostOps3_arg15 (Gen.W6 m ρ c)).trans (at6_arg15 m ρ c)

theorem at8_arg15 (c : Dev nD) :
    Gen.W8 m ρ c (Proc.devRef .tc main_arg15) =
      m ((c.tc : Thread nD τ).loc main_arg15) :=
  (Gen.W8_of_ne m ρ c main_arg15 (by decide)).trans (at7_arg15 m ρ c)

theorem skip_hostOps4_arg15 (X : Valuation τ sig (Elt F)) :
    StableHlo.after hostOps4 X (Proc.devRef .tc main_arg15) = X (Proc.devRef .tc main_arg15) := by
  host_skip

theorem at9_arg15 (c : Dev nD) :
    Gen.W9 m ρ c (Proc.devRef .tc main_arg15) =
      m ((c.tc : Thread nD τ).loc main_arg15) :=
  (skip_hostOps4_arg15 (Gen.W8 m ρ c)).trans (at8_arg15 m ρ c)

theorem at10_arg15 (c : Dev nD) :
    Gen.W10 m ρ c (Proc.devRef .tc main_arg15) =
      m ((c.tc : Thread nD τ).loc main_arg15) :=
  (Gen.W10_of_ne m ρ c main_arg15 (by decide)).trans (at9_arg15 m ρ c)

theorem skip_hostOps5_arg15 (X : Valuation τ sig (Elt F)) :
    StableHlo.after hostOps5 X (Proc.devRef .tc main_arg15) = X (Proc.devRef .tc main_arg15) := by
  host_skip

theorem at11_arg15 (c : Dev nD) :
    Gen.W11 m ρ c (Proc.devRef .tc main_arg15) =
      m ((c.tc : Thread nD τ).loc main_arg15) :=
  (skip_hostOps5_arg15 (Gen.W10 m ρ c)).trans (at10_arg15 m ρ c)

theorem at12_arg15 (c : Dev nD) :
    Gen.W12 m ρ c (Proc.devRef .tc main_arg15) =
      m ((c.tc : Thread nD τ).loc main_arg15) :=
  (Gen.W12_of_ne m ρ c main_arg15 (by decide)).trans (at11_arg15 m ρ c)

theorem skip_hostOps6_arg15 (X : Valuation τ sig (Elt F)) :
    StableHlo.after hostOps6 X (Proc.devRef .tc main_arg15) = X (Proc.devRef .tc main_arg15) := by
  host_skip

theorem at13_arg15 (c : Dev nD) :
    Gen.W13 m ρ c (Proc.devRef .tc main_arg15) =
      m ((c.tc : Thread nD τ).loc main_arg15) :=
  (skip_hostOps6_arg15 (Gen.W12 m ρ c)).trans (at12_arg15 m ρ c)

theorem skip_hostOps6_1_arg15 (X : Valuation τ sig (Elt F)) :
    StableHlo.after hostOps6_1 X (Proc.devRef .tc main_arg15) = X (Proc.devRef .tc main_arg15) := by
  host_skip

theorem at14_arg15 (c : Dev nD) :
    Gen.W14 m ρ c (Proc.devRef .tc main_arg15) =
      m ((c.tc : Thread nD τ).loc main_arg15) :=
  (skip_hostOps6_1_arg15 (Gen.W13 m ρ c)).trans (at13_arg15 m ρ c)

theorem skip_hostOps6_2_arg15 (X : Valuation τ sig (Elt F)) :
    StableHlo.after hostOps6_2 X (Proc.devRef .tc main_arg15) = X (Proc.devRef .tc main_arg15) := by
  host_skip

theorem at15_arg15 (c : Dev nD) :
    Gen.W15 m ρ c (Proc.devRef .tc main_arg15) =
      m ((c.tc : Thread nD τ).loc main_arg15) :=
  (skip_hostOps6_2_arg15 (Gen.W14 m ρ c)).trans (at14_arg15 m ρ c)

theorem at0_arg17 (c : Dev nD) :
    Gen.W0 m ρ c (Proc.devRef .tc main_arg17) =
      m ((c.tc : Thread nD τ).loc main_arg17) :=
  rfl

theorem skip_hostOps0_arg17 (X : Valuation τ sig (Elt F)) :
    StableHlo.after hostOps0 X (Proc.devRef .tc main_arg17) = X (Proc.devRef .tc main_arg17) := by
  host_skip

theorem at1_arg17 (c : Dev nD) :
    Gen.W1 m ρ c (Proc.devRef .tc main_arg17) =
      m ((c.tc : Thread nD τ).loc main_arg17) :=
  (skip_hostOps0_arg17 (Gen.W0 m ρ c)).trans (at0_arg17 m ρ c)

theorem at2_arg17 (c : Dev nD) :
    Gen.W2 m ρ c (Proc.devRef .tc main_arg17) =
      m ((c.tc : Thread nD τ).loc main_arg17) :=
  (Gen.W2_of_ne m ρ c main_arg17 (by decide)).trans (at1_arg17 m ρ c)

theorem skip_hostOps1_arg17 (X : Valuation τ sig (Elt F)) :
    StableHlo.after hostOps1 X (Proc.devRef .tc main_arg17) = X (Proc.devRef .tc main_arg17) := by
  host_skip

theorem at3_arg17 (c : Dev nD) :
    Gen.W3 m ρ c (Proc.devRef .tc main_arg17) =
      m ((c.tc : Thread nD τ).loc main_arg17) :=
  (skip_hostOps1_arg17 (Gen.W2 m ρ c)).trans (at2_arg17 m ρ c)

theorem at4_arg17 (c : Dev nD) :
    Gen.W4 m ρ c (Proc.devRef .tc main_arg17) =
      m ((c.tc : Thread nD τ).loc main_arg17) :=
  (Gen.W4_of_ne m ρ c main_arg17 (by decide)).trans (at3_arg17 m ρ c)

theorem skip_hostOps2_arg17 (X : Valuation τ sig (Elt F)) :
    StableHlo.after hostOps2 X (Proc.devRef .tc main_arg17) = X (Proc.devRef .tc main_arg17) := by
  host_skip

theorem at5_arg17 (c : Dev nD) :
    Gen.W5 m ρ c (Proc.devRef .tc main_arg17) =
      m ((c.tc : Thread nD τ).loc main_arg17) :=
  (skip_hostOps2_arg17 (Gen.W4 m ρ c)).trans (at4_arg17 m ρ c)

theorem at6_arg17 (c : Dev nD) :
    Gen.W6 m ρ c (Proc.devRef .tc main_arg17) =
      m ((c.tc : Thread nD τ).loc main_arg17) :=
  (Gen.W6_of_ne m ρ c main_arg17 (by decide)).trans (at5_arg17 m ρ c)

theorem skip_hostOps3_arg17 (X : Valuation τ sig (Elt F)) :
    StableHlo.after hostOps3 X (Proc.devRef .tc main_arg17) = X (Proc.devRef .tc main_arg17) := by
  host_skip

theorem at7_arg17 (c : Dev nD) :
    Gen.W7 m ρ c (Proc.devRef .tc main_arg17) =
      m ((c.tc : Thread nD τ).loc main_arg17) :=
  (skip_hostOps3_arg17 (Gen.W6 m ρ c)).trans (at6_arg17 m ρ c)

theorem at8_arg17 (c : Dev nD) :
    Gen.W8 m ρ c (Proc.devRef .tc main_arg17) =
      m ((c.tc : Thread nD τ).loc main_arg17) :=
  (Gen.W8_of_ne m ρ c main_arg17 (by decide)).trans (at7_arg17 m ρ c)

theorem skip_hostOps4_arg17 (X : Valuation τ sig (Elt F)) :
    StableHlo.after hostOps4 X (Proc.devRef .tc main_arg17) = X (Proc.devRef .tc main_arg17) := by
  host_skip

theorem at9_arg17 (c : Dev nD) :
    Gen.W9 m ρ c (Proc.devRef .tc main_arg17) =
      m ((c.tc : Thread nD τ).loc main_arg17) :=
  (skip_hostOps4_arg17 (Gen.W8 m ρ c)).trans (at8_arg17 m ρ c)

theorem at10_arg17 (c : Dev nD) :
    Gen.W10 m ρ c (Proc.devRef .tc main_arg17) =
      m ((c.tc : Thread nD τ).loc main_arg17) :=
  (Gen.W10_of_ne m ρ c main_arg17 (by decide)).trans (at9_arg17 m ρ c)

theorem skip_hostOps5_arg17 (X : Valuation τ sig (Elt F)) :
    StableHlo.after hostOps5 X (Proc.devRef .tc main_arg17) = X (Proc.devRef .tc main_arg17) := by
  host_skip

theorem at11_arg17 (c : Dev nD) :
    Gen.W11 m ρ c (Proc.devRef .tc main_arg17) =
      m ((c.tc : Thread nD τ).loc main_arg17) :=
  (skip_hostOps5_arg17 (Gen.W10 m ρ c)).trans (at10_arg17 m ρ c)

theorem at12_arg17 (c : Dev nD) :
    Gen.W12 m ρ c (Proc.devRef .tc main_arg17) =
      m ((c.tc : Thread nD τ).loc main_arg17) :=
  (Gen.W12_of_ne m ρ c main_arg17 (by decide)).trans (at11_arg17 m ρ c)

theorem skip_hostOps6_arg17 (X : Valuation τ sig (Elt F)) :
    StableHlo.after hostOps6 X (Proc.devRef .tc main_arg17) = X (Proc.devRef .tc main_arg17) := by
  host_skip

theorem at13_arg17 (c : Dev nD) :
    Gen.W13 m ρ c (Proc.devRef .tc main_arg17) =
      m ((c.tc : Thread nD τ).loc main_arg17) :=
  (skip_hostOps6_arg17 (Gen.W12 m ρ c)).trans (at12_arg17 m ρ c)

theorem skip_hostOps6_1_arg17 (X : Valuation τ sig (Elt F)) :
    StableHlo.after hostOps6_1 X (Proc.devRef .tc main_arg17) = X (Proc.devRef .tc main_arg17) := by
  host_skip

theorem at14_arg17 (c : Dev nD) :
    Gen.W14 m ρ c (Proc.devRef .tc main_arg17) =
      m ((c.tc : Thread nD τ).loc main_arg17) :=
  (skip_hostOps6_1_arg17 (Gen.W13 m ρ c)).trans (at13_arg17 m ρ c)

theorem skip_hostOps6_2_arg17 (X : Valuation τ sig (Elt F)) :
    StableHlo.after hostOps6_2 X (Proc.devRef .tc main_arg17) = X (Proc.devRef .tc main_arg17) := by
  host_skip

theorem at15_arg17 (c : Dev nD) :
    Gen.W15 m ρ c (Proc.devRef .tc main_arg17) =
      m ((c.tc : Thread nD τ).loc main_arg17) :=
  (skip_hostOps6_2_arg17 (Gen.W14 m ρ c)).trans (at14_arg17 m ρ c)

theorem at16_v219 (c : Dev nD) :
    Gen.W16 m ρ c (Proc.devRef .tc main_v219) =
      concatenate S1000000x64 0 [⟨S500000x64, (Host.gather gather_S50000x64_S500000x1_S500000x64_1_0_n_n_0_1_164 (Host.divf (out4 m ρ c) (broadcastInDim S50000x64 ![0, 1] bcast_S50000x1_S50000x64_0_1 (maximumf (Host.sqrt (broadcastInDim S50000x1 ![0] bcast_S50000_S50000x1_0 (Host.reduceAdd (mulf (out4 m ρ c) (out4 m ρ c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg15)) (broadcastInDim S500000 ![] bcast_S_S500000 (constantI S_ 32 0#32))) (addi (m ((c.tc : Thread nD τ).loc main_arg15)) (broadcastInDim S500000 ![] bcast_S_S500000 (constantI S_ 32 50000#32))) (m ((c.tc : Thread nD τ).loc main_arg15)))))⟩, ⟨S500000x64, (Host.gather gather_S50000x64_S500000x1_S500000x64_1_0_n_n_0_1_164 (Host.divf (out4 m ρ c) (broadcastInDim S50000x64 ![0, 1] bcast_S50000x1_S50000x64_0_1 (maximumf (Host.sqrt (broadcastInDim S50000x1 ![0] bcast_S50000_S50000x1_0 (Host.reduceAdd (mulf (out4 m ρ c) (out4 m ρ c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg17)) (broadcastInDim S500000 ![] bcast_S_S500000 (constantI S_ 32 0#32))) (addi (m ((c.tc : Thread nD τ).loc main_arg17)) (broadcastInDim S500000 ![] bcast_S_S500000 (constantI S_ 32 50000#32))) (m ((c.tc : Thread nD τ).loc main_arg17)))))⟩] concatenates_S500000x64_S500000x64_S1000000x64_d0 :=
  comp_hostOps6_3_v219 (Gen.W15 m ρ c) _ _ _ _ (at15_v149 m ρ c) (at15_v185 m ρ c) (at15_arg15 m ρ c) (at15_arg17 m ρ c)

theorem skip_hostOps6_1_v179 (X : Valuation τ sig (Elt F)) :
    StableHlo.after hostOps6_1 X (Proc.devRef .tc main_v179) = X (Proc.devRef .tc main_v179) := by
  host_skip

theorem at14_v179 (c : Dev nD) :
    Gen.W14 m ρ c (Proc.devRef .tc main_v179) =
      out5 m ρ c :=
  (skip_hostOps6_1_v179 (Gen.W13 m ρ c)).trans (at13_v179 m ρ c)

theorem skip_hostOps6_2_v179 (X : Valuation τ sig (Elt F)) :
    StableHlo.after hostOps6_2 X (Proc.devRef .tc main_v179) = X (Proc.devRef .tc main_v179) := by
  host_skip

theorem at15_v179 (c : Dev nD) :
    Gen.W15 m ρ c (Proc.devRef .tc main_v179) =
      out5 m ρ c :=
  (skip_hostOps6_2_v179 (Gen.W14 m ρ c)).trans (at14_v179 m ρ c)

theorem skip_hostOps6_3_v179 (X : Valuation τ sig (Elt F)) :
    StableHlo.after hostOps6_3 X (Proc.devRef .tc main_v179) = X (Proc.devRef .tc main_v179) := by
  host_skip

theorem at16_v179 (c : Dev nD) :
    Gen.W16 m ρ c (Proc.devRef .tc main_v179) =
      out5 m ρ c :=
  (skip_hostOps6_3_v179 (Gen.W15 m ρ c)).trans (at15_v179 m ρ c)

theorem at17_v179 (c : Dev nD) :
    Gen.W17 m ρ c (Proc.devRef .tc main_v179) =
      out5 m ρ c :=
  (Gen.W17_of_ne m ρ c main_v179 (by decide)).trans (at16_v179 m ρ c)

theorem skip_hostOps7_v179 (X : Valuation τ sig (Elt F)) :
    StableHlo.after hostOps7 X (Proc.devRef .tc main_v179) = X (Proc.devRef .tc main_v179) := by
  host_skip

theorem at18_v179 (c : Dev nD) :
    Gen.W18 m ρ c (Proc.devRef .tc main_v179) =
      out5 m ρ c :=
  (skip_hostOps7_v179 (Gen.W17 m ρ c)).trans (at17_v179 m ρ c)

theorem skip_hostOps6_3_v149 (X : Valuation τ sig (Elt F)) :
    StableHlo.after hostOps6_3 X (Proc.devRef .tc main_v149) = X (Proc.devRef .tc main_v149) := by
  host_skip

theorem at16_v149 (c : Dev nD) :
    Gen.W16 m ρ c (Proc.devRef .tc main_v149) =
      out4 m ρ c :=
  (skip_hostOps6_3_v149 (Gen.W15 m ρ c)).trans (at15_v149 m ρ c)

theorem at17_v149 (c : Dev nD) :
    Gen.W17 m ρ c (Proc.devRef .tc main_v149) =
      out4 m ρ c :=
  (Gen.W17_of_ne m ρ c main_v149 (by decide)).trans (at16_v149 m ρ c)

theorem skip_hostOps7_v149 (X : Valuation τ sig (Elt F)) :
    StableHlo.after hostOps7 X (Proc.devRef .tc main_v149) = X (Proc.devRef .tc main_v149) := by
  host_skip

theorem at18_v149 (c : Dev nD) :
    Gen.W18 m ρ c (Proc.devRef .tc main_v149) =
      out4 m ρ c :=
  (skip_hostOps7_v149 (Gen.W17 m ρ c)).trans (at17_v149 m ρ c)

theorem comp_hostOps7_v223 (X : Valuation τ sig (Elt F)) (x_v220 : (Proc.devRef .tc main_v220 : DevRef τ sig).ty.Contents (Elt F))
    (h_v220 : X (Proc.devRef .tc main_v220) = x_v220) :
    StableHlo.after hostOps7 X (Proc.devRef .tc main_v223) =
      extractStridedSlice S500000 ![0] (shapeCast _ (extractStridedSlice S1000000x1 ![0, 0] (x_v220) slices_S1000000x64_S1000000x1_0_0) shapeCasts_S1000000x1_S1000000) slices_S1000000_S500000_0 := by
  subst h_v220
  host_line

theorem at17_v220 (c : Dev nD) :
    Gen.W17 m ρ c (Proc.devRef .tc main_v220) =
      out6 m ρ c :=
  Gen.W17_arr m ρ c 2

theorem at18_v223 (c : Dev nD) :
    Gen.W18 m ρ c (Proc.devRef .tc main_v223) =
      extractStridedSlice S500000 ![0] (shapeCast _ (extractStridedSlice S1000000x1 ![0, 0] (out6 m ρ c) slices_S1000000x64_S1000000x1_0_0) shapeCasts_S1000000x1_S1000000) slices_S1000000_S500000_0 :=
  comp_hostOps7_v223 (Gen.W17 m ρ c) _ (at17_v220 m ρ c)

theorem comp_hostOps7_v224 (X : Valuation τ sig (Elt F)) (x_v220 : (Proc.devRef .tc main_v220 : DevRef τ sig).ty.Contents (Elt F))
    (h_v220 : X (Proc.devRef .tc main_v220) = x_v220) :
    StableHlo.after hostOps7 X (Proc.devRef .tc main_v224) =
      extractStridedSlice S500000 ![500000] (shapeCast _ (extractStridedSlice S1000000x1 ![0, 0] (x_v220) slices_S1000000x64_S1000000x1_0_0) shapeCasts_S1000000x1_S1000000) slices_S1000000_S500000_500000 := by
  subst h_v220
  host_line

theorem at18_v224 (c : Dev nD) :
    Gen.W18 m ρ c (Proc.devRef .tc main_v224) =
      extractStridedSlice S500000 ![500000] (shapeCast _ (extractStridedSlice S1000000x1 ![0, 0] (out6 m ρ c) slices_S1000000x64_S1000000x1_0_0) shapeCasts_S1000000x1_S1000000) slices_S1000000_S500000_500000 :=
  comp_hostOps7_v224 (Gen.W17 m ρ c) _ (at17_v220 m ρ c)

/-! ## What each region finds in its input windows -/

/-- Region 0, window 0: the array the region finds. -/
theorem entry0_0 (c : Dev nD) :
    Gen.V1 m ρ c (Pipeline.arrRef spec0 0) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (m ((c.tc : Thread nD τ).loc main_arg0)) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32))))) :=
  at1_v18 m ρ c

/-- Region 0, window 1: the array the region finds. -/
theorem entry0_1 (c : Dev nD) :
    Gen.V1 m ρ c (Pipeline.arrRef spec0 1) =
      m ((c.tc : Thread nD τ).loc main_arg1) :=
  at1_arg1 m ρ c

/-- Region 0, window 2: the array the region finds. -/
theorem entry0_2 (c : Dev nD) :
    Gen.V1 m ρ c (Pipeline.arrRef spec0 2) =
      shapeCast _ (extractStridedSlice S1x1x128x128 ![0, 0, 0, 0] (m ((c.tc : Thread nD τ).loc main_arg2)) slices_S2x2x128x128_S1x1x128x128_0_0_0_0) shapeCasts_S1x1x128x128_S128x128 :=
  at1_v20 m ρ c

/-- Region 0, window 3: the array the region finds. -/
theorem entry0_3 (c : Dev nD) :
    Gen.V1 m ρ c (Pipeline.arrRef spec0 3) =
      shapeCast _ (shapeCast _ (extractStridedSlice S1x1x128 ![0, 0, 0] (m ((c.tc : Thread nD τ).loc main_arg3)) slices_S2x2x128_S1x1x128_0_0_0) shapeCasts_S1x1x128_S128) shapeCasts_S128_S1x128 :=
  at1_v27 m ρ c

/-- Region 0, window 4: the array the region finds. -/
theorem entry0_4 (c : Dev nD) :
    Gen.V1 m ρ c (Pipeline.arrRef spec0 4) =
      shapeCast _ (extractStridedSlice S1x1x128x128 ![0, 0, 0, 0] (m ((c.tc : Thread nD τ).loc main_arg4)) slices_S2x2x128x128_S1x1x128x128_0_0_0_0) shapeCasts_S1x1x128x128_S128x128 :=
  at1_v24 m ρ c

/-- Region 0, window 5: the array the region finds. -/
theorem entry0_5 (c : Dev nD) :
    Gen.V1 m ρ c (Pipeline.arrRef spec0 5) =
      shapeCast _ (shapeCast _ (extractStridedSlice S1x1x128 ![0, 0, 0] (m ((c.tc : Thread nD τ).loc main_arg5)) slices_S2x2x128_S1x1x128_0_0_0) shapeCasts_S1x1x128_S128) shapeCasts_S128_S1x128 :=
  at1_v28 m ρ c

/-- Region 1, window 0: the array the region finds. -/
theorem entry1_0 (c : Dev nD) :
    Gen.V3 m ρ c (Pipeline.arrRef spec1 0) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (m ((c.tc : Thread nD τ).loc main_arg1)) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32))))) :=
  at3_v48 m ρ c

/-- Region 1, window 1: the array the region finds. -/
theorem entry1_1 (c : Dev nD) :
    Gen.V3 m ρ c (Pipeline.arrRef spec1 1) =
      m ((c.tc : Thread nD τ).loc main_arg0) :=
  at3_arg0 m ρ c

/-- Region 1, window 2: the array the region finds. -/
theorem entry1_2 (c : Dev nD) :
    Gen.V3 m ρ c (Pipeline.arrRef spec1 2) =
      shapeCast _ (extractStridedSlice S1x1x128x128 ![0, 1, 0, 0] (m ((c.tc : Thread nD τ).loc main_arg2)) slices_S2x2x128x128_S1x1x128x128_0_1_0_0) shapeCasts_S1x1x128x128_S128x128 :=
  at3_v50 m ρ c

/-- Region 1, window 3: the array the region finds. -/
theorem entry1_3 (c : Dev nD) :
    Gen.V3 m ρ c (Pipeline.arrRef spec1 3) =
      shapeCast _ (shapeCast _ (extractStridedSlice S1x1x128 ![0, 1, 0] (m ((c.tc : Thread nD τ).loc main_arg3)) slices_S2x2x128_S1x1x128_0_1_0) shapeCasts_S1x1x128_S128) shapeCasts_S128_S1x128 :=
  at3_v57 m ρ c

/-- Region 1, window 4: the array the region finds. -/
theorem entry1_4 (c : Dev nD) :
    Gen.V3 m ρ c (Pipeline.arrRef spec1 4) =
      shapeCast _ (extractStridedSlice S1x1x128x128 ![0, 1, 0, 0] (m ((c.tc : Thread nD τ).loc main_arg4)) slices_S2x2x128x128_S1x1x128x128_0_1_0_0) shapeCasts_S1x1x128x128_S128x128 :=
  at3_v54 m ρ c

/-- Region 1, window 5: the array the region finds. -/
theorem entry1_5 (c : Dev nD) :
    Gen.V3 m ρ c (Pipeline.arrRef spec1 5) =
      shapeCast _ (shapeCast _ (extractStridedSlice S1x1x128 ![0, 1, 0] (m ((c.tc : Thread nD τ).loc main_arg5)) slices_S2x2x128_S1x1x128_0_1_0) shapeCasts_S1x1x128_S128) shapeCasts_S128_S1x128 :=
  at3_v58 m ρ c

/-- Region 2, window 0: the array the region finds. -/
theorem entry2_0 (c : Dev nD) :
    Gen.V5 m ρ c (Pipeline.arrRef spec2 0) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (out1 m ρ c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32))))) :=
  at5_v78 m ρ c

/-- Region 2, window 1: the array the region finds. -/
theorem entry2_1 (c : Dev nD) :
    Gen.V5 m ρ c (Pipeline.arrRef spec2 1) =
      out0 m ρ c :=
  at5_v29 m ρ c

/-- Region 2, window 2: the array the region finds. -/
theorem entry2_2 (c : Dev nD) :
    Gen.V5 m ρ c (Pipeline.arrRef spec2 2) =
      shapeCast _ (extractStridedSlice S1x1x128x128 ![1, 0, 0, 0] (m ((c.tc : Thread nD τ).loc main_arg2)) slices_S2x2x128x128_S1x1x128x128_1_0_0_0) shapeCasts_S1x1x128x128_S128x128 :=
  at5_v80 m ρ c

/-- Region 2, window 3: the array the region finds. -/
theorem entry2_3 (c : Dev nD) :
    Gen.V5 m ρ c (Pipeline.arrRef spec2 3) =
      shapeCast _ (shapeCast _ (extractStridedSlice S1x1x128 ![1, 0, 0] (m ((c.tc : Thread nD τ).loc main_arg3)) slices_S2x2x128_S1x1x128_1_0_0) shapeCasts_S1x1x128_S128) shapeCasts_S128_S1x128 :=
  at5_v87 m ρ c

/-- Region 2, window 4: the array the region finds. -/
theorem entry2_4 (c : Dev nD) :
    Gen.V5 m ρ c (Pipeline.arrRef spec2 4) =
      shapeCast _ (extractStridedSlice S1x1x128x128 ![1, 0, 0, 0] (m ((c.tc : Thread nD τ).loc main_arg4)) slices_S2x2x128x128_S1x1x128x128_1_0_0_0) shapeCasts_S1x1x128x128_S128x128 :=
  at5_v84 m ρ c

/-- Region 2, window 5: the array the region finds. -/
theorem entry2_5 (c : Dev nD) :
    Gen.V5 m ρ c (Pipeline.arrRef spec2 5) =
      shapeCast _ (shapeCast _ (extractStridedSlice S1x1x128 ![1, 0, 0] (m ((c.tc : Thread nD τ).loc main_arg5)) slices_S2x2x128_S1x1x128_1_0_0) shapeCasts_S1x1x128_S128) shapeCasts_S128_S1x128 :=
  at5_v88 m ρ c

/-- Region 3, window 0: the array the region finds. -/
theorem entry3_0 (c : Dev nD) :
    Gen.V7 m ρ c (Pipeline.arrRef spec3 0) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (out0 m ρ c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32))))) :=
  at7_v108 m ρ c

/-- Region 3, window 1: the array the region finds. -/
theorem entry3_1 (c : Dev nD) :
    Gen.V7 m ρ c (Pipeline.arrRef spec3 1) =
      out1 m ρ c :=
  at7_v59 m ρ c

/-- Region 3, window 2: the array the region finds. -/
theorem entry3_2 (c : Dev nD) :
    Gen.V7 m ρ c (Pipeline.arrRef spec3 2) =
      shapeCast _ (extractStridedSlice S1x1x128x128 ![1, 1, 0, 0] (m ((c.tc : Thread nD τ).loc main_arg2)) slices_S2x2x128x128_S1x1x128x128_1_1_0_0) shapeCasts_S1x1x128x128_S128x128 :=
  at7_v110 m ρ c

/-- Region 3, window 3: the array the region finds. -/
theorem entry3_3 (c : Dev nD) :
    Gen.V7 m ρ c (Pipeline.arrRef spec3 3) =
      shapeCast _ (shapeCast _ (extractStridedSlice S1x1x128 ![1, 1, 0] (m ((c.tc : Thread nD τ).loc main_arg3)) slices_S2x2x128_S1x1x128_1_1_0) shapeCasts_S1x1x128_S128) shapeCasts_S128_S1x128 :=
  at7_v117 m ρ c

/-- Region 3, window 4: the array the region finds. -/
theorem entry3_4 (c : Dev nD) :
    Gen.V7 m ρ c (Pipeline.arrRef spec3 4) =
      shapeCast _ (extractStridedSlice S1x1x128x128 ![1, 1, 0, 0] (m ((c.tc : Thread nD τ).loc main_arg4)) slices_S2x2x128x128_S1x1x128x128_1_1_0_0) shapeCasts_S1x1x128x128_S128x128 :=
  at7_v114 m ρ c

/-- Region 3, window 5: the array the region finds. -/
theorem entry3_5 (c : Dev nD) :
    Gen.V7 m ρ c (Pipeline.arrRef spec3 5) =
      shapeCast _ (shapeCast _ (extractStridedSlice S1x1x128 ![1, 1, 0] (m ((c.tc : Thread nD τ).loc main_arg5)) slices_S2x2x128_S1x1x128_1_1_0) shapeCasts_S1x1x128_S128) shapeCasts_S128_S1x128 :=
  at7_v118 m ρ c

/-- Region 4, window 0: the array the region finds. -/
theorem entry4_0 (c : Dev nD) :
    Gen.V9 m ρ c (Pipeline.arrRef spec4 0) =
      Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (out3 m ρ c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32))))) :=
  at9_v138 m ρ c

/-- Region 4, window 1: the array the region finds. -/
theorem entry4_1 (c : Dev nD) :
    Gen.V9 m ρ c (Pipeline.arrRef spec4 1) =
      out2 m ρ c :=
  at9_v89 m ρ c

/-- Region 4, window 2: the array the region finds. -/
theorem entry4_2 (c : Dev nD) :
    Gen.V9 m ρ c (Pipeline.arrRef spec4 2) =
      shapeCast _ (extractStridedSlice S1x128x64 ![0, 0, 0] (m ((c.tc : Thread nD τ).loc main_arg6)) slices_S2x128x64_S1x128x64_0_0_0) shapeCasts_S1x128x64_S128x64 :=
  at9_v140 m ρ c

/-- Region 4, window 3: the array the region finds. -/
theorem entry4_3 (c : Dev nD) :
    Gen.V9 m ρ c (Pipeline.arrRef spec4 3) =
      shapeCast _ (shapeCast _ (extractStridedSlice S1x64 ![0, 0] (m ((c.tc : Thread nD τ).loc main_arg7)) slices_S2x64_S1x64_0_0) shapeCasts_S1x64_S64) shapeCasts_S64_S1x64 :=
  at9_v147 m ρ c

/-- Region 4, window 4: the array the region finds. -/
theorem entry4_4 (c : Dev nD) :
    Gen.V9 m ρ c (Pipeline.arrRef spec4 4) =
      shapeCast _ (extractStridedSlice S1x128x64 ![0, 0, 0] (m ((c.tc : Thread nD τ).loc main_arg8)) slices_S2x128x64_S1x128x64_0_0_0) shapeCasts_S1x128x64_S128x64 :=
  at9_v144 m ρ c

/-- Region 4, window 5: the array the region finds. -/
theorem entry4_5 (c : Dev nD) :
    Gen.V9 m ρ c (Pipeline.arrRef spec4 5) =
      shapeCast _ (shapeCast _ (extractStridedSlice S1x64 ![0, 0] (m ((c.tc : Thread nD τ).loc main_arg9)) slices_S2x64_S1x64_0_0) shapeCasts_S1x64_S64) shapeCasts_S64_S1x64 :=
  at9_v148 m ρ c

/-- Region 5, window 0: the array the region finds. -/
theorem entry5_0 (c : Dev nD) :
    Gen.V11 m ρ c (Pipeline.arrRef spec5 0) =
      Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (out2 m ρ c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32))))) :=
  at11_v168 m ρ c

/-- Region 5, window 1: the array the region finds. -/
theorem entry5_1 (c : Dev nD) :
    Gen.V11 m ρ c (Pipeline.arrRef spec5 1) =
      out3 m ρ c :=
  at11_v119 m ρ c

/-- Region 5, window 2: the array the region finds. -/
theorem entry5_2 (c : Dev nD) :
    Gen.V11 m ρ c (Pipeline.arrRef spec5 2) =
      shapeCast _ (extractStridedSlice S1x128x64 ![1, 0, 0] (m ((c.tc : Thread nD τ).loc main_arg6)) slices_S2x128x64_S1x128x64_1_0_0) shapeCasts_S1x128x64_S128x64 :=
  at11_v170 m ρ c

/-- Region 5, window 3: the array the region finds. -/
theorem entry5_3 (c : Dev nD) :
    Gen.V11 m ρ c (Pipeline.arrRef spec5 3) =
      shapeCast _ (shapeCast _ (extractStridedSlice S1x64 ![1, 0] (m ((c.tc : Thread nD τ).loc main_arg7)) slices_S2x64_S1x64_1_0) shapeCasts_S1x64_S64) shapeCasts_S64_S1x64 :=
  at11_v177 m ρ c

/-- Region 5, window 4: the array the region finds. -/
theorem entry5_4 (c : Dev nD) :
    Gen.V11 m ρ c (Pipeline.arrRef spec5 4) =
      shapeCast _ (extractStridedSlice S1x128x64 ![1, 0, 0] (m ((c.tc : Thread nD τ).loc main_arg8)) slices_S2x128x64_S1x128x64_1_0_0) shapeCasts_S1x128x64_S128x64 :=
  at11_v174 m ρ c

/-- Region 5, window 5: the array the region finds. -/
theorem entry5_5 (c : Dev nD) :
    Gen.V11 m ρ c (Pipeline.arrRef spec5 5) =
      shapeCast _ (shapeCast _ (extractStridedSlice S1x64 ![1, 0] (m ((c.tc : Thread nD τ).loc main_arg9)) slices_S2x64_S1x64_1_0) shapeCasts_S1x64_S64) shapeCasts_S64_S1x64 :=
  at11_v178 m ρ c

/-- Region 6, window 0: the array the region finds. -/
theorem entry6_0 (c : Dev nD) :
    Gen.V16 m ρ c (Pipeline.arrRef spec6 0) =
      concatenate S1000000x64 0 [⟨S500000x64, (Host.gather gather_S100000x64_S500000x1_S500000x64_1_0_n_n_0_1_164 (Host.divf (out5 m ρ c) (broadcastInDim S100000x64 ![0, 1] bcast_S100000x1_S100000x64_0_1 (maximumf (Host.sqrt (broadcastInDim S100000x1 ![0] bcast_S100000_S100000x1_0 (Host.reduceAdd (mulf (out5 m ρ c) (out5 m ρ c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg14)) (broadcastInDim S500000 ![] bcast_S_S500000 (constantI S_ 32 0#32))) (addi (m ((c.tc : Thread nD τ).loc main_arg14)) (broadcastInDim S500000 ![] bcast_S_S500000 (constantI S_ 32 100000#32))) (m ((c.tc : Thread nD τ).loc main_arg14)))))⟩, ⟨S500000x64, (Host.gather gather_S100000x64_S500000x1_S500000x64_1_0_n_n_0_1_164 (Host.divf (out5 m ρ c) (broadcastInDim S100000x64 ![0, 1] bcast_S100000x1_S100000x64_0_1 (maximumf (Host.sqrt (broadcastInDim S100000x1 ![0] bcast_S100000_S100000x1_0 (Host.reduceAdd (mulf (out5 m ρ c) (out5 m ρ c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg16)) (broadcastInDim S500000 ![] bcast_S_S500000 (constantI S_ 32 0#32))) (addi (m ((c.tc : Thread nD τ).loc main_arg16)) (broadcastInDim S500000 ![] bcast_S_S500000 (constantI S_ 32 100000#32))) (m ((c.tc : Thread nD τ).loc main_arg16)))))⟩] concatenates_S500000x64_S500000x64_S1000000x64_d0 :=
  at16_v204 m ρ c

/-- Region 6, window 1: the array the region finds. -/
theorem entry6_1 (c : Dev nD) :
    Gen.V16 m ρ c (Pipeline.arrRef spec6 1) =
      concatenate S1000000x64 0 [⟨S500000x64, (Host.gather gather_S50000x64_S500000x1_S500000x64_1_0_n_n_0_1_164 (Host.divf (out4 m ρ c) (broadcastInDim S50000x64 ![0, 1] bcast_S50000x1_S50000x64_0_1 (maximumf (Host.sqrt (broadcastInDim S50000x1 ![0] bcast_S50000_S50000x1_0 (Host.reduceAdd (mulf (out4 m ρ c) (out4 m ρ c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg15)) (broadcastInDim S500000 ![] bcast_S_S500000 (constantI S_ 32 0#32))) (addi (m ((c.tc : Thread nD τ).loc main_arg15)) (broadcastInDim S500000 ![] bcast_S_S500000 (constantI S_ 32 50000#32))) (m ((c.tc : Thread nD τ).loc main_arg15)))))⟩, ⟨S500000x64, (Host.gather gather_S50000x64_S500000x1_S500000x64_1_0_n_n_0_1_164 (Host.divf (out4 m ρ c) (broadcastInDim S50000x64 ![0, 1] bcast_S50000x1_S50000x64_0_1 (maximumf (Host.sqrt (broadcastInDim S50000x1 ![0] bcast_S50000_S50000x1_0 (Host.reduceAdd (mulf (out4 m ρ c) (out4 m ρ c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg17)) (broadcastInDim S500000 ![] bcast_S_S500000 (constantI S_ 32 0#32))) (addi (m ((c.tc : Thread nD τ).loc main_arg17)) (broadcastInDim S500000 ![] bcast_S_S500000 (constantI S_ 32 50000#32))) (m ((c.tc : Thread nD τ).loc main_arg17)))))⟩] concatenates_S500000x64_S500000x64_S1000000x64_d0 :=
  at16_v219 m ρ c

/-! ## The four results -/

/-- The result buffer `main_v179` at the end of the chain. -/
theorem result_v179 (c : Dev nD) :
    Gen.W18 m ρ c (Proc.devRef .tc main_v179) =
      out5 m ρ c :=
  at18_v179 m ρ c

/-- The result buffer `main_v149` at the end of the chain. -/
theorem result_v149 (c : Dev nD) :
    Gen.W18 m ρ c (Proc.devRef .tc main_v149) =
      out4 m ρ c :=
  at18_v149 m ρ c

/-- The result buffer `main_v223` at the end of the chain. -/
theorem result_v223 (c : Dev nD) :
    Gen.W18 m ρ c (Proc.devRef .tc main_v223) =
      extractStridedSlice S500000 ![0] (shapeCast _ (extractStridedSlice S1000000x1 ![0, 0] (out6 m ρ c) slices_S1000000x64_S1000000x1_0_0) shapeCasts_S1000000x1_S1000000) slices_S1000000_S500000_0 :=
  at18_v223 m ρ c

/-- The result buffer `main_v224` at the end of the chain. -/
theorem result_v224 (c : Dev nD) :
    Gen.W18 m ρ c (Proc.devRef .tc main_v224) =
      extractStridedSlice S500000 ![500000] (shapeCast _ (extractStridedSlice S1000000x1 ![0, 0] (out6 m ρ c) slices_S1000000x64_S1000000x1_0_0) shapeCasts_S1000000x1_S1000000) slices_S1000000_S500000_500000 :=
  at18_v224 m ρ c

/-! ## The run with its results at their terms -/

/-- Every weakly fair execution of the program terminates without a fault; the two feature results are the outputs of
    regions 5 and 4, the two score results are the two halves of column 0 of region 6's output, and the arguments end as
    launched. -/
theorem run_values : θ_run defs (onTc (τ := τ) (main (F := F))) ⟨m, fun _ => 0, ρ⟩ (fun r => ∀ c : Dev nD,
      r.2.mem ((c.tc : Thread nD τ).loc main_v179) = out5 m ρ c
      ∧ r.2.mem ((c.tc : Thread nD τ).loc main_v149) = out4 m ρ c
      ∧ r.2.mem ((c.tc : Thread nD τ).loc main_v223) =
          extractStridedSlice S500000 ![0] (shapeCast _ (extractStridedSlice S1000000x1 ![0, 0] (out6 m ρ c) slices_S1000000x64_S1000000x1_0_0) shapeCasts_S1000000x1_S1000000) slices_S1000000_S500000_0
      ∧ r.2.mem ((c.tc : Thread nD τ).loc main_v224) =
          extractStridedSlice S500000 ![500000] (shapeCast _ (extractStridedSlice S1000000x1 ![0, 0] (out6 m ρ c) slices_S1000000x64_S1000000x1_0_0) shapeCasts_S1000000x1_S1000000) slices_S1000000_S500000_500000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c).1.trans (result_v179 m ρ c), (h c).2.1.trans (result_v149 m ρ c), (h c).2.2.1.trans (result_v223 m ρ c),
      (h c).2.2.2.1.trans (result_v224 m ρ c), (h c).2.2.2.2⟩) (RunAll.run_all m ρ)

end Cert.KernelIdeal.HostChain

end
-- ==== Proof.ConvRow.lean ====
/-
  One row of the graph-convolution "combine" step, as a function of extended reals.

  For a destination node with aggregated neighbour features `xn` and own features `xd` (128 numbers each), weights
  `Wn`, `Ws` (128 × D) and biases `bn`, `bs` (D numbers), the layer's activation in column `q` is
      a q = max ((((Σ_k xn k · Wn k q) + bn q) + Σ_k xd k · Ws k q) + bs q) 0
  (the four summands associated to the left, as both programs add them), and the layer's output is the activation row
  divided by the larger of its Euclidean norm and the clamp ε:
      out q = a q / max (sqrt (Σ_j a j · a j)) ε.
  Every entry of the output depends on one row of each feature matrix only: this is what lets a row-blocked kernel and a
  whole-array program agree block by block. The zero and ε are kept as the programs' own binary words.
-/
import Idealize.ShloMosaic.PureOps.Ideal

noncomputable section

namespace Cert.ConvRow

open Idealize.ShloMosaic

/-- The zero the activation is clamped at, as the programs spell it. -/
abbrev zero32 : EReal := Ideal.ofBits .f32 0x00000000#32
/-- The clamp ε of the normalisation, as the programs spell it. -/
abbrev eps32 : EReal := Ideal.ofBits .f32 0x2B8CBCCC#32

/-- The activation of one row in column `q`: the two matrix products and the two biases, summed left to right, clamped
    at zero from below. -/
def rowAct {D : ℕ} (xn xd : Fin 128 → EReal) (Wn Ws : Fin 128 → Fin D → EReal) (bn bs : Fin D → EReal) (q : Fin D) : EReal :=
  max ((((∑ k : Fin 128, xn k * Wn k q) + bn q) + ∑ k : Fin 128, xd k * Ws k q) + bs q) zero32

/-- The layer's output in column `q`: the activation over the larger of the row's Euclidean norm and ε. -/
def rowOut {D : ℕ} (xn xd : Fin 128 → EReal) (Wn Ws : Fin 128 → Fin D → EReal) (bn bs : Fin D → EReal) (q : Fin D) : EReal :=
  Ideal.div (rowAct xn xd Wn Ws bn bs q)
    (max (Ideal.sqrt (∑ j : Fin D, rowAct xn xd Wn Ws bn bs j * rowAct xn xd Wn Ws bn bs j)) eps32)

end Cert.ConvRow

end
-- ==== Proof.RefConv.lean ====
/-
  The whole-array program's convolution, read at an index.

  One convolution of the whole-array program forms the activation array (two matrix products, the two bias vectors made
  rows and spread over the rows, the clamp at a zero spread over the array), sums each row's squares, takes the square
  root, clamps it at ε and divides. At every (r, q) the result is the row convolution of row r of the two feature arrays:
  a matrix product at (r, q) is the sum over the 128 shared coordinates, a spread bias reads its column, the row sum at r
  is the sum over the row from a zero initial value, and the norm column spread over the columns reads its row.
-/
import proofs.«153211_j15264313770095_1_alg».proof.Proof.Gen.ReferenceIdeal
import proofs.«153211_j15264313770095_1_alg».proof.Proof.ConvRow
import Idealize.ShloMosaic.Lib.Pipeline.Value
import Idealize.ShloMosaic.Lib.ValueIdx
import Idealize.ShloMosaic.PureOps.Ideal.Laws

noncomputable section

namespace Cert.ReferenceIdeal.RefConv

open Idealize.ShloMosaic Idealize.ShloMosaic.ValueIdx Cert.ReferenceIdeal Cert.ReferenceIdeal.Gen Cert.ConvRow

/-- The program's division and square root, read at an index. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-! ## 50000 rows, 128 output columns -/

theorem lhs_50000_128_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_50000_128_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhs_50000_128_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhs_50000_128_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A [50000,128] × [128,128] product read at (r, q): the sum over the 128 shared coordinates. -/
theorem dot_50000_128_apply (a : FVec Ideal S50000x128 .f32) (b : FVec Ideal S128x128 .f32) (r : Fin 50000) (q : Fin 128) :
    Host.dotGeneral dot_S50000x128_S128x128_S50000x128_1_0_0_1_n_n none a b (ix2 r q) = ∑ k : Fin 128, a (ix2 r k) * b (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact lhs_50000_128_0 _ _
    | ⟨1, _⟩ => exact (lhs_50000_128_1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (rhs_50000_128_0 _ _).trans hk
    | ⟨1, _⟩ => exact rhs_50000_128_1 _ _)
  rw [el, er]

/-- A bias vector made a row and spread over the 50000 rows, read at (r, q): the bias in column q. -/
theorem bias_50000_128_apply (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) := by
  refine (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero spread over the whole array, read anywhere. -/
theorem zeros_50000_128_apply (r : Fin 50000) (q : Fin 128) :
    broadcastInDim S50000x128 ![] bcast_S_S50000x128 (constant (F := Ideal) S_ .f32 0x00000000#32) (ix2 r q) = zero32 :=
  broadcastInDim_apply _ bcast_S_S50000x128 _ (ix2 r q) ix0 (fun a => a.elim0)

/-- The clamp spread over a column, read anywhere. -/
theorem eps_50000_128_apply (r : Fin 50000) :
    broadcastInDim S50000x1 ![] bcast_S_S50000x1 (constant (F := Ideal) S_ .f32 0x2B8CBCCC#32) (ix2 r (0 : Fin 1)) = eps32 :=
  broadcastInDim_apply _ bcast_S_S50000x1 _ (ix2 r (0 : Fin 1)) ix0 (fun a => a.elim0)

/-- A vector made a column, read at (r, 0): its entry r. -/
theorem col_50000_128_apply (v : FVec Ideal S50000 .f32) (r : Fin 50000) :
    broadcastInDim S50000x1 ![0] bcast_S50000_S50000x1_0 v (ix2 r (0 : Fin 1)) = v (ix1 r) :=
  broadcastInDim_apply _ bcast_S50000_S50000x1_0 v (ix2 r (0 : Fin 1)) (ix1 r) (fun a => match a with
    | ⟨0, _⟩ => by show r.val = if (50000 : Nat) = 1 then 0 else r.val; rw [if_neg (by decide)])

/-- A column spread over the 128 columns, read at (r, q): the column's entry in row r. -/
theorem spread_50000_128_apply (v : FVec Ideal S50000x1 .f32) (r : Fin 50000) (q : Fin 128) :
    broadcastInDim S50000x128 ![0, 1] bcast_S50000x1_S50000x128_0_1 v (ix2 r q) = v (ix2 r (0 : Fin 1)) :=
  broadcastInDim_apply _ bcast_S50000x1_S50000x128_0_1 v (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- The sum of a [50000,128] array along its rows from the zero word, read at r: the sum over the 128 columns of row r. -/
theorem rowSum_50000_128_apply (x : FVec Ideal S50000x128 .f32) (r : Fin 50000) :
    Host.reduceAdd x (constant (F := Ideal) S_ .f32 0x00000000#32) reducesTo_S50000x128_S50000_d1 h_S_ (ix1 r) = ∑ k : Fin 128, x (ix2 r k) := by
  simp only [Host.reduceAdd, Ideal.hostReduceAdd_def]
  rw [Ideal.hostReduceAdd_single reducesTo_S50000x128_S50000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The activation array of one convolution, as the program composes it. -/
def actRef_50000_128 (hn hdst : FVec Ideal S50000x128 .f32) (Wn Ws : FVec Ideal S128x128 .f32) (bn bs : FVec Ideal S128 .f32) : FVec Ideal S50000x128 .f32 :=
  maximumf (addf (addf (addf (Host.dotGeneral dot_S50000x128_S128x128_S50000x128_1_0_0_1_n_n none hn Wn) (broadcastInDim S50000x128 ![0, 1] bcast_S1x128_S50000x128_0_1 (broadcastInDim S1x128 ![1] bcast_S128_S1x128_1 bn))) (Host.dotGeneral dot_S50000x128_S128x128_S50000x128_1_0_0_1_n_n none hdst Ws)) (broadcastInDim S50000x128 ![0, 1] bcast_S1x128_S50000x128_0_1 (broadcastInDim S1x128 ![1] bcast_S128_S1x128_1 bs))) (broadcastInDim S50000x128 ![] bcast_S_S50000x128 (constant S_ .f32 0x00000000#32))

/-- One convolution's result: the activation array over its clamped row norms. -/
def convRef_50000_128 (hn hdst : FVec Ideal S50000x128 .f32) (Wn Ws : FVec Ideal S128x128 .f32) (bn bs : FVec Ideal S128 .f32) : FVec Ideal S50000x128 .f32 :=
  Host.divf (actRef_50000_128 hn hdst Wn Ws bn bs) (broadcastInDim S50000x128 ![0, 1] bcast_S50000x1_S50000x128_0_1 (maximumf (Host.sqrt (broadcastInDim S50000x1 ![0] bcast_S50000_S50000x1_0 (Host.reduceAdd (mulf (actRef_50000_128 hn hdst Wn Ws bn bs) (actRef_50000_128 hn hdst Wn Ws bn bs)) (constant S_ .f32 0x00000000#32) reducesTo_S50000x128_S50000_d1 h_S_))) (broadcastInDim S50000x1 ![] bcast_S_S50000x1 (constant S_ .f32 0x2B8CBCCC#32))))

/-- The activation array at (r, q) is the row activation of row r in column q. -/
theorem actRef_50000_128_apply (hn hdst : FVec Ideal S50000x128 .f32) (Wn Ws : FVec Ideal S128x128 .f32) (bn bs : FVec Ideal S128 .f32) (r : Fin 50000) (q : Fin 128) :
    actRef_50000_128 hn hdst Wn Ws bn bs (ix2 r q)
      = rowAct (fun k => hn (ix2 r k)) (fun k => hdst (ix2 r k)) (fun k j => Wn (ix2 k j)) (fun k j => Ws (ix2 k j))
          (fun j => bn (ix1 j)) (fun j => bs (ix1 j)) q := by
  unfold actRef_50000_128
  rw [maximumf_apply, addf_apply, addf_apply, addf_apply, dot_50000_128_apply, dot_50000_128_apply, bias_50000_128_apply, bias_50000_128_apply, zeros_50000_128_apply]
  rfl

/-- THE CONVOLUTION at (r, q): the layer's output for row r, column q. -/
theorem convRef_50000_128_apply (hn hdst : FVec Ideal S50000x128 .f32) (Wn Ws : FVec Ideal S128x128 .f32) (bn bs : FVec Ideal S128 .f32) (r : Fin 50000) (q : Fin 128) :
    convRef_50000_128 hn hdst Wn Ws bn bs (ix2 r q)
      = rowOut (fun k => hn (ix2 r k)) (fun k => hdst (ix2 r k)) (fun k j => Wn (ix2 k j)) (fun k j => Ws (ix2 k j))
          (fun j => bn (ix1 j)) (fun j => bs (ix1 j)) q := by
  unfold convRef_50000_128
  have hs : Host.reduceAdd (mulf (actRef_50000_128 hn hdst Wn Ws bn bs) (actRef_50000_128 hn hdst Wn Ws bn bs)) (constant (F := Ideal) S_ .f32 0x00000000#32) reducesTo_S50000x128_S50000_d1 h_S_ (ix1 r)
      = ∑ j : Fin 128, rowAct (fun k => hn (ix2 r k)) (fun k => hdst (ix2 r k)) (fun k j => Wn (ix2 k j)) (fun k j => Ws (ix2 k j))
          (fun j => bn (ix1 j)) (fun j => bs (ix1 j)) j * rowAct (fun k => hn (ix2 r k)) (fun k => hdst (ix2 r k)) (fun k j => Wn (ix2 k j)) (fun k j => Ws (ix2 k j))
          (fun j => bn (ix1 j)) (fun j => bs (ix1 j)) j := by
    rw [rowSum_50000_128_apply]
    refine Finset.sum_congr rfl fun j _ => ?_
    rw [mulf_apply, actRef_50000_128_apply]
  rw [hostDivf_apply, spread_50000_128_apply, actRef_50000_128_apply, maximumf_apply, hostSqrt_apply, col_50000_128_apply, eps_50000_128_apply, hs]
  rfl

/-! ## 100000 rows, 128 output columns -/

theorem lhs_100000_128_0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_100000_128_1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs_100000_128_0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs_100000_128_1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- A [100000,128] × [128,128] product read at (r, q): the sum over the 128 shared coordinates. -/
theorem dot_100000_128_apply (a : FVec Ideal S100000x128 .f32) (b : FVec Ideal S128x128 .f32) (r : Fin 100000) (q : Fin 128) :
    Host.dotGeneral dot_S100000x128_S128x128_S100000x128_1_0_0_1_n_n none a b (ix2 r q) = ∑ k : Fin 128, a (ix2 r k) * b (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact lhs_100000_128_0 _ _
    | ⟨1, _⟩ => exact (lhs_100000_128_1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (rhs_100000_128_0 _ _).trans hk
    | ⟨1, _⟩ => exact rhs_100000_128_1 _ _)
  rw [el, er]

/-- A bias vector made a row and spread over the 100000 rows, read at (r, q): the bias in column q. -/
theorem bias_100000_128_apply (b : FVec Ideal S128 .f32) (r : Fin 100000) (q : Fin 128) :
    broadcastInDim S100000x128 ![0, 1] bcast_S1x128_S100000x128_0_1 (broadcastInDim S1x128 ![1] bcast_S128_S1x128_1 b) (ix2 r q) = b (ix1 q) := by
  refine (broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero spread over the whole array, read anywhere. -/
theorem zeros_100000_128_apply (r : Fin 100000) (q : Fin 128) :
    broadcastInDim S100000x128 ![] bcast_S_S100000x128 (constant (F := Ideal) S_ .f32 0x00000000#32) (ix2 r q) = zero32 :=
  broadcastInDim_apply _ bcast_S_S100000x128 _ (ix2 r q) ix0 (fun a => a.elim0)

/-- The clamp spread over a column, read anywhere. -/
theorem eps_100000_128_apply (r : Fin 100000) :
    broadcastInDim S100000x1 ![] bcast_S_S100000x1 (constant (F := Ideal) S_ .f32 0x2B8CBCCC#32) (ix2 r (0 : Fin 1)) = eps32 :=
  broadcastInDim_apply _ bcast_S_S100000x1 _ (ix2 r (0 : Fin 1)) ix0 (fun a => a.elim0)

/-- A vector made a column, read at (r, 0): its entry r. -/
theorem col_100000_128_apply (v : FVec Ideal S100000 .f32) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- A column spread over the 128 columns, read at (r, q): the column's entry in row r. -/
theorem spread_100000_128_apply (v : FVec Ideal S100000x1 .f32) (r : Fin 100000) (q : Fin 128) :
    broadcastInDim S100000x128 ![0, 1] bcast_S100000x1_S100000x128_0_1 v (ix2 r q) = v (ix2 r (0 : Fin 1)) :=
  broadcastInDim_apply _ bcast_S100000x1_S100000x128_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The sum of a [100000,128] array along its rows from the zero word, read at r: the sum over the 128 columns of row r. -/
theorem rowSum_100000_128_apply (x : FVec Ideal S100000x128 .f32) (r : Fin 100000) :
    Host.reduceAdd x (constant (F := Ideal) S_ .f32 0x00000000#32) reducesTo_S100000x128_S100000_d1 h_S_ (ix1 r) = ∑ k : Fin 128, x (ix2 r k) := by
  simp only [Host.reduceAdd, Ideal.hostReduceAdd_def]
  rw [Ideal.hostReduceAdd_single reducesTo_S100000x128_S100000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The activation array of one convolution, as the program composes it. -/
def actRef_100000_128 (hn hdst : FVec Ideal S100000x128 .f32) (Wn Ws : FVec Ideal S128x128 .f32) (bn bs : FVec Ideal S128 .f32) : FVec Ideal S100000x128 .f32 :=
  maximumf (addf (addf (addf (Host.dotGeneral dot_S100000x128_S128x128_S100000x128_1_0_0_1_n_n none hn Wn) (broadcastInDim S100000x128 ![0, 1] bcast_S1x128_S100000x128_0_1 (broadcastInDim S1x128 ![1] bcast_S128_S1x128_1 bn))) (Host.dotGeneral dot_S100000x128_S128x128_S100000x128_1_0_0_1_n_n none hdst Ws)) (broadcastInDim S100000x128 ![0, 1] bcast_S1x128_S100000x128_0_1 (broadcastInDim S1x128 ![1] bcast_S128_S1x128_1 bs))) (broadcastInDim S100000x128 ![] bcast_S_S100000x128 (constant S_ .f32 0x00000000#32))

/-- One convolution's result: the activation array over its clamped row norms. -/
def convRef_100000_128 (hn hdst : FVec Ideal S100000x128 .f32) (Wn Ws : FVec Ideal S128x128 .f32) (bn bs : FVec Ideal S128 .f32) : FVec Ideal S100000x128 .f32 :=
  Host.divf (actRef_100000_128 hn hdst Wn Ws bn bs) (broadcastInDim S100000x128 ![0, 1] bcast_S100000x1_S100000x128_0_1 (maximumf (Host.sqrt (broadcastInDim S100000x1 ![0] bcast_S100000_S100000x1_0 (Host.reduceAdd (mulf (actRef_100000_128 hn hdst Wn Ws bn bs) (actRef_100000_128 hn hdst Wn Ws bn bs)) (constant S_ .f32 0x00000000#32) reducesTo_S100000x128_S100000_d1 h_S_))) (broadcastInDim S100000x1 ![] bcast_S_S100000x1 (constant S_ .f32 0x2B8CBCCC#32))))

/-- The activation array at (r, q) is the row activation of row r in column q. -/
theorem actRef_100000_128_apply (hn hdst : FVec Ideal S100000x128 .f32) (Wn Ws : FVec Ideal S128x128 .f32) (bn bs : FVec Ideal S128 .f32) (r : Fin 100000) (q : Fin 128) :
    actRef_100000_128 hn hdst Wn Ws bn bs (ix2 r q)
      = rowAct (fun k => hn (ix2 r k)) (fun k => hdst (ix2 r k)) (fun k j => Wn (ix2 k j)) (fun k j => Ws (ix2 k j))
          (fun j => bn (ix1 j)) (fun j => bs (ix1 j)) q := by
  unfold actRef_100000_128
  rw [maximumf_apply, addf_apply, addf_apply, addf_apply, dot_100000_128_apply, dot_100000_128_apply, bias_100000_128_apply, bias_100000_128_apply, zeros_100000_128_apply]
  rfl

/-- THE CONVOLUTION at (r, q): the layer's output for row r, column q. -/
theorem convRef_100000_128_apply (hn hdst : FVec Ideal S100000x128 .f32) (Wn Ws : FVec Ideal S128x128 .f32) (bn bs : FVec Ideal S128 .f32) (r : Fin 100000) (q : Fin 128) :
    convRef_100000_128 hn hdst Wn Ws bn bs (ix2 r q)
      = rowOut (fun k => hn (ix2 r k)) (fun k => hdst (ix2 r k)) (fun k j => Wn (ix2 k j)) (fun k j => Ws (ix2 k j))
          (fun j => bn (ix1 j)) (fun j => bs (ix1 j)) q := by
  unfold convRef_100000_128
  have hs : Host.reduceAdd (mulf (actRef_100000_128 hn hdst Wn Ws bn bs) (actRef_100000_128 hn hdst Wn Ws bn bs)) (constant (F := Ideal) S_ .f32 0x00000000#32) reducesTo_S100000x128_S100000_d1 h_S_ (ix1 r)
      = ∑ j : Fin 128, rowAct (fun k => hn (ix2 r k)) (fun k => hdst (ix2 r k)) (fun k j => Wn (ix2 k j)) (fun k j => Ws (ix2 k j))
          (fun j => bn (ix1 j)) (fun j => bs (ix1 j)) j * rowAct (fun k => hn (ix2 r k)) (fun k => hdst (ix2 r k)) (fun k j => Wn (ix2 k j)) (fun k j => Ws (ix2 k j))
          (fun j => bn (ix1 j)) (fun j => bs (ix1 j)) j := by
    rw [rowSum_100000_128_apply]
    refine Finset.sum_congr rfl fun j _ => ?_
    rw [mulf_apply, actRef_100000_128_apply]
  rw [hostDivf_apply, spread_100000_128_apply, actRef_100000_128_apply, maximumf_apply, hostSqrt_apply, col_100000_128_apply, eps_100000_128_apply, hs]
  rfl

/-! ## 50000 rows, 64 output columns -/

theorem lhs_50000_64_0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_50000_64_1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem rhs_50000_64_0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem rhs_50000_64_1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- A [50000,128] × [128,64] product read at (r, q): the sum over the 128 shared coordinates. -/
theorem dot_50000_64_apply (a : FVec Ideal S50000x128 .f32) (b : FVec Ideal S128x64 .f32) (r : Fin 50000) (q : Fin 64) :
    Host.dotGeneral dot_S50000x128_S128x64_S50000x64_1_0_0_1_n_n none a b (ix2 r q) = ∑ k : Fin 128, a (ix2 r k) * b (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 r q) ((ValueIdx.contrEquiv1 dot_S50000x128_S128x64_S50000x64_1_0_0_1_n_n 128 rfl rfl).symm k) = ix2 r k := funext fun a => Fin.ext (by
    match a with
    | ⟨0, _⟩ => exact lhs_50000_64_0 _ _
    | ⟨1, _⟩ => exact (lhs_50000_64_1 _ _).trans hk)
  have er : dot_S50000x128_S128x64_S50000x64_1_0_0_1_n_n.rhsIdx (ix2 r q) ((ValueIdx.contrEquiv1 dot_S50000x128_S128x64_S50000x64_1_0_0_1_n_n 128 rfl rfl).symm k) = ix2 k q := funext fun a => Fin.ext (by
    match a with
    | ⟨0, _⟩ => exact (rhs_50000_64_0 _ _).trans hk
    | ⟨1, _⟩ => exact rhs_50000_64_1 _ _)
  rw [el, er]

/-- A bias vector made a row and spread over the 50000 rows, read at (r, q): the bias in column q. -/
theorem bias_50000_64_apply (b : FVec Ideal S64 .f32) (r : Fin 50000) (q : Fin 64) :
    broadcastInDim S50000x64 ![0, 1] bcast_S1x64_S50000x64_0_1 (broadcastInDim S1x64 ![1] bcast_S64_S1x64_1 b) (ix2 r q) = b (ix1 q) := by
  refine (broadcastInDim_apply _ bcast_S1x64_S50000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The zero spread over the whole array, read anywhere. -/
theorem zeros_50000_64_apply (r : Fin 50000) (q : Fin 64) :
    broadcastInDim S50000x64 ![] bcast_S_S50000x64 (constant (F := Ideal) S_ .f32 0x00000000#32) (ix2 r q) = zero32 :=
  broadcastInDim_apply _ bcast_S_S50000x64 _ (ix2 r q) ix0 (fun a => a.elim0)

/-- The clamp spread over a column, read anywhere. -/
theorem eps_50000_64_apply (r : Fin 50000) :
    broadcastInDim S50000x1 ![] bcast_S_S50000x1 (constant (F := Ideal) S_ .f32 0x2B8CBCCC#32) (ix2 r (0 : Fin 1)) = eps32 :=
  broadcastInDim_apply _ bcast_S_S50000x1 _ (ix2 r (0 : Fin 1)) ix0 (fun a => a.elim0)

/-- A vector made a column, read at (r, 0): its entry r. -/
theorem col_50000_64_apply (v : FVec Ideal S50000 .f32) (r : Fin 50000) :
    broadcastInDim S50000x1 ![0] bcast_S50000_S50000x1_0 v (ix2 r (0 : Fin 1)) = v (ix1 r) :=
  broadcastInDim_apply _ bcast_S50000_S50000x1_0 v (ix2 r (0 : Fin 1)) (ix1 r) (fun a => match a with
    | ⟨0, _⟩ => by show r.val = if (50000 : Nat) = 1 then 0 else r.val; rw [if_neg (by decide)])

/-- A column spread over the 64 columns, read at (r, q): the column's entry in row r. -/
theorem spread_50000_64_apply (v : FVec Ideal S50000x1 .f32) (r : Fin 50000) (q : Fin 64) :
    broadcastInDim S50000x64 ![0, 1] bcast_S50000x1_S50000x64_0_1 v (ix2 r q) = v (ix2 r (0 : Fin 1)) :=
  broadcastInDim_apply _ bcast_S50000x1_S50000x64_0_1 v (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- The sum of a [50000,64] array along its rows from the zero word, read at r: the sum over the 64 columns of row r. -/
theorem rowSum_50000_64_apply (x : FVec Ideal S50000x64 .f32) (r : Fin 50000) :
    Host.reduceAdd x (constant (F := Ideal) S_ .f32 0x00000000#32) reducesTo_S50000x64_S50000_d1 h_S_ (ix1 r) = ∑ k : Fin 64, x (ix2 r k) := by
  simp only [Host.reduceAdd, Ideal.hostReduceAdd_def]
  rw [Ideal.hostReduceAdd_single reducesTo_S50000x64_S50000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The activation array of one convolution, as the program composes it. -/
def actRef_50000_64 (hn hdst : FVec Ideal S50000x128 .f32) (Wn Ws : FVec Ideal S128x64 .f32) (bn bs : FVec Ideal S64 .f32) : FVec Ideal S50000x64 .f32 :=
  maximumf (addf (addf (addf (Host.dotGeneral dot_S50000x128_S128x64_S50000x64_1_0_0_1_n_n none hn Wn) (broadcastInDim S50000x64 ![0, 1] bcast_S1x64_S50000x64_0_1 (broadcastInDim S1x64 ![1] bcast_S64_S1x64_1 bn))) (Host.dotGeneral dot_S50000x128_S128x64_S50000x64_1_0_0_1_n_n none hdst Ws)) (broadcastInDim S50000x64 ![0, 1] bcast_S1x64_S50000x64_0_1 (broadcastInDim S1x64 ![1] bcast_S64_S1x64_1 bs))) (broadcastInDim S50000x64 ![] bcast_S_S50000x64 (constant S_ .f32 0x00000000#32))

/-- One convolution's result: the activation array over its clamped row norms. -/
def convRef_50000_64 (hn hdst : FVec Ideal S50000x128 .f32) (Wn Ws : FVec Ideal S128x64 .f32) (bn bs : FVec Ideal S64 .f32) : FVec Ideal S50000x64 .f32 :=
  Host.divf (actRef_50000_64 hn hdst Wn Ws bn bs) (broadcastInDim S50000x64 ![0, 1] bcast_S50000x1_S50000x64_0_1 (maximumf (Host.sqrt (broadcastInDim S50000x1 ![0] bcast_S50000_S50000x1_0 (Host.reduceAdd (mulf (actRef_50000_64 hn hdst Wn Ws bn bs) (actRef_50000_64 hn hdst Wn Ws bn bs)) (constant S_ .f32 0x00000000#32) reducesTo_S50000x64_S50000_d1 h_S_))) (broadcastInDim S50000x1 ![] bcast_S_S50000x1 (constant S_ .f32 0x2B8CBCCC#32))))

/-- The activation array at (r, q) is the row activation of row r in column q. -/
theorem actRef_50000_64_apply (hn hdst : FVec Ideal S50000x128 .f32) (Wn Ws : FVec Ideal S128x64 .f32) (bn bs : FVec Ideal S64 .f32) (r : Fin 50000) (q : Fin 64) :
    actRef_50000_64 hn hdst Wn Ws bn bs (ix2 r q)
      = rowAct (fun k => hn (ix2 r k)) (fun k => hdst (ix2 r k)) (fun k j => Wn (ix2 k j)) (fun k j => Ws (ix2 k j))
          (fun j => bn (ix1 j)) (fun j => bs (ix1 j)) q := by
  unfold actRef_50000_64
  rw [maximumf_apply, addf_apply, addf_apply, addf_apply, dot_50000_64_apply, dot_50000_64_apply, bias_50000_64_apply, bias_50000_64_apply, zeros_50000_64_apply]
  rfl

/-- THE CONVOLUTION at (r, q): the layer's output for row r, column q. -/
theorem convRef_50000_64_apply (hn hdst : FVec Ideal S50000x128 .f32) (Wn Ws : FVec Ideal S128x64 .f32) (bn bs : FVec Ideal S64 .f32) (r : Fin 50000) (q : Fin 64) :
    convRef_50000_64 hn hdst Wn Ws bn bs (ix2 r q)
      = rowOut (fun k => hn (ix2 r k)) (fun k => hdst (ix2 r k)) (fun k j => Wn (ix2 k j)) (fun k j => Ws (ix2 k j))
          (fun j => bn (ix1 j)) (fun j => bs (ix1 j)) q := by
  unfold convRef_50000_64
  have hs : Host.reduceAdd (mulf (actRef_50000_64 hn hdst Wn Ws bn bs) (actRef_50000_64 hn hdst Wn Ws bn bs)) (constant (F := Ideal) S_ .f32 0x00000000#32) reducesTo_S50000x64_S50000_d1 h_S_ (ix1 r)
      = ∑ j : Fin 64, rowAct (fun k => hn (ix2 r k)) (fun k => hdst (ix2 r k)) (fun k j => Wn (ix2 k j)) (fun k j => Ws (ix2 k j))
          (fun j => bn (ix1 j)) (fun j => bs (ix1 j)) j * rowAct (fun k => hn (ix2 r k)) (fun k => hdst (ix2 r k)) (fun k j => Wn (ix2 k j)) (fun k j => Ws (ix2 k j))
          (fun j => bn (ix1 j)) (fun j => bs (ix1 j)) j := by
    rw [rowSum_50000_64_apply]
    refine Finset.sum_congr rfl fun j _ => ?_
    rw [mulf_apply, actRef_50000_64_apply]
  rw [hostDivf_apply, spread_50000_64_apply, actRef_50000_64_apply, maximumf_apply, hostSqrt_apply, col_50000_64_apply, eps_50000_64_apply, hs]
  rfl

/-! ## 100000 rows, 64 output columns -/

theorem lhs_100000_64_0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_100000_64_1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem rhs_100000_64_0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem rhs_100000_64_1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- A [100000,128] × [128,64] product read at (r, q): the sum over the 128 shared coordinates. -/
theorem dot_100000_64_apply (a : FVec Ideal S100000x128 .f32) (b : FVec Ideal S128x64 .f32) (r : Fin 100000) (q : Fin 64) :
    Host.dotGeneral dot_S100000x128_S128x64_S100000x64_1_0_0_1_n_n none a b (ix2 r q) = ∑ k : Fin 128, a (ix2 r k) * b (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r q) ((ValueIdx.contrEquiv1 dot_S100000x128_S128x64_S100000x64_1_0_0_1_n_n 128 rfl rfl).symm k) = ix2 r k := funext fun a => Fin.ext (by
    match a with
    | ⟨0, _⟩ => exact lhs_100000_64_0 _ _
    | ⟨1, _⟩ => exact (lhs_100000_64_1 _ _).trans hk)
  have er : dot_S100000x128_S128x64_S100000x64_1_0_0_1_n_n.rhsIdx (ix2 r q) ((ValueIdx.contrEquiv1 dot_S100000x128_S128x64_S100000x64_1_0_0_1_n_n 128 rfl rfl).symm k) = ix2 k q := funext fun a => Fin.ext (by
    match a with
    | ⟨0, _⟩ => exact (rhs_100000_64_0 _ _).trans hk
    | ⟨1, _⟩ => exact rhs_100000_64_1 _ _)
  rw [el, er]

/-- A bias vector made a row and spread over the 100000 rows, read at (r, q): the bias in column q. -/
theorem bias_100000_64_apply (b : FVec Ideal S64 .f32) (r : Fin 100000) (q : Fin 64) :
    broadcastInDim S100000x64 ![0, 1] bcast_S1x64_S100000x64_0_1 (broadcastInDim S1x64 ![1] bcast_S64_S1x64_1 b) (ix2 r q) = b (ix1 q) := by
  refine (broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The zero spread over the whole array, read anywhere. -/
theorem zeros_100000_64_apply (r : Fin 100000) (q : Fin 64) :
    broadcastInDim S100000x64 ![] bcast_S_S100000x64 (constant (F := Ideal) S_ .f32 0x00000000#32) (ix2 r q) = zero32 :=
  broadcastInDim_apply _ bcast_S_S100000x64 _ (ix2 r q) ix0 (fun a => a.elim0)

/-- The clamp spread over a column, read anywhere. -/
theorem eps_100000_64_apply (r : Fin 100000) :
    broadcastInDim S100000x1 ![] bcast_S_S100000x1 (constant (F := Ideal) S_ .f32 0x2B8CBCCC#32) (ix2 r (0 : Fin 1)) = eps32 :=
  broadcastInDim_apply _ bcast_S_S100000x1 _ (ix2 r (0 : Fin 1)) ix0 (fun a => a.elim0)

/-- A vector made a column, read at (r, 0): its entry r. -/
theorem col_100000_64_apply (v : FVec Ideal S100000 .f32) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- A column spread over the 64 columns, read at (r, q): the column's entry in row r. -/
theorem spread_100000_64_apply (v : FVec Ideal S100000x1 .f32) (r : Fin 100000) (q : Fin 64) :
    broadcastInDim S100000x64 ![0, 1] bcast_S100000x1_S100000x64_0_1 v (ix2 r q) = v (ix2 r (0 : Fin 1)) :=
  broadcastInDim_apply _ bcast_S100000x1_S100000x64_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The sum of a [100000,64] array along its rows from the zero word, read at r: the sum over the 64 columns of row r. -/
theorem rowSum_100000_64_apply (x : FVec Ideal S100000x64 .f32) (r : Fin 100000) :
    Host.reduceAdd x (constant (F := Ideal) S_ .f32 0x00000000#32) reducesTo_S100000x64_S100000_d1 h_S_ (ix1 r) = ∑ k : Fin 64, x (ix2 r k) := by
  simp only [Host.reduceAdd, Ideal.hostReduceAdd_def]
  rw [Ideal.hostReduceAdd_single reducesTo_S100000x64_S100000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The activation array of one convolution, as the program composes it. -/
def actRef_100000_64 (hn hdst : FVec Ideal S100000x128 .f32) (Wn Ws : FVec Ideal S128x64 .f32) (bn bs : FVec Ideal S64 .f32) : FVec Ideal S100000x64 .f32 :=
  maximumf (addf (addf (addf (Host.dotGeneral dot_S100000x128_S128x64_S100000x64_1_0_0_1_n_n none hn Wn) (broadcastInDim S100000x64 ![0, 1] bcast_S1x64_S100000x64_0_1 (broadcastInDim S1x64 ![1] bcast_S64_S1x64_1 bn))) (Host.dotGeneral dot_S100000x128_S128x64_S100000x64_1_0_0_1_n_n none hdst Ws)) (broadcastInDim S100000x64 ![0, 1] bcast_S1x64_S100000x64_0_1 (broadcastInDim S1x64 ![1] bcast_S64_S1x64_1 bs))) (broadcastInDim S100000x64 ![] bcast_S_S100000x64 (constant S_ .f32 0x00000000#32))

/-- One convolution's result: the activation array over its clamped row norms. -/
def convRef_100000_64 (hn hdst : FVec Ideal S100000x128 .f32) (Wn Ws : FVec Ideal S128x64 .f32) (bn bs : FVec Ideal S64 .f32) : FVec Ideal S100000x64 .f32 :=
  Host.divf (actRef_100000_64 hn hdst Wn Ws bn bs) (broadcastInDim S100000x64 ![0, 1] bcast_S100000x1_S100000x64_0_1 (maximumf (Host.sqrt (broadcastInDim S100000x1 ![0] bcast_S100000_S100000x1_0 (Host.reduceAdd (mulf (actRef_100000_64 hn hdst Wn Ws bn bs) (actRef_100000_64 hn hdst Wn Ws bn bs)) (constant S_ .f32 0x00000000#32) reducesTo_S100000x64_S100000_d1 h_S_))) (broadcastInDim S100000x1 ![] bcast_S_S100000x1 (constant S_ .f32 0x2B8CBCCC#32))))

/-- The activation array at (r, q) is the row activation of row r in column q. -/
theorem actRef_100000_64_apply (hn hdst : FVec Ideal S100000x128 .f32) (Wn Ws : FVec Ideal S128x64 .f32) (bn bs : FVec Ideal S64 .f32) (r : Fin 100000) (q : Fin 64) :
    actRef_100000_64 hn hdst Wn Ws bn bs (ix2 r q)
      = rowAct (fun k => hn (ix2 r k)) (fun k => hdst (ix2 r k)) (fun k j => Wn (ix2 k j)) (fun k j => Ws (ix2 k j))
          (fun j => bn (ix1 j)) (fun j => bs (ix1 j)) q := by
  unfold actRef_100000_64
  rw [maximumf_apply, addf_apply, addf_apply, addf_apply, dot_100000_64_apply, dot_100000_64_apply, bias_100000_64_apply, bias_100000_64_apply, zeros_100000_64_apply]
  rfl

/-- THE CONVOLUTION at (r, q): the layer's output for row r, column q. -/
theorem convRef_100000_64_apply (hn hdst : FVec Ideal S100000x128 .f32) (Wn Ws : FVec Ideal S128x64 .f32) (bn bs : FVec Ideal S64 .f32) (r : Fin 100000) (q : Fin 64) :
    convRef_100000_64 hn hdst Wn Ws bn bs (ix2 r q)
      = rowOut (fun k => hn (ix2 r k)) (fun k => hdst (ix2 r k)) (fun k j => Wn (ix2 k j)) (fun k j => Ws (ix2 k j))
          (fun j => bn (ix1 j)) (fun j => bs (ix1 j)) q := by
  unfold convRef_100000_64
  have hs : Host.reduceAdd (mulf (actRef_100000_64 hn hdst Wn Ws bn bs) (actRef_100000_64 hn hdst Wn Ws bn bs)) (constant (F := Ideal) S_ .f32 0x00000000#32) reducesTo_S100000x64_S100000_d1 h_S_ (ix1 r)
      = ∑ j : Fin 64, rowAct (fun k => hn (ix2 r k)) (fun k => hdst (ix2 r k)) (fun k j => Wn (ix2 k j)) (fun k j => Ws (ix2 k j))
          (fun j => bn (ix1 j)) (fun j => bs (ix1 j)) j * rowAct (fun k => hn (ix2 r k)) (fun k => hdst (ix2 r k)) (fun k j => Wn (ix2 k j)) (fun k j => Ws (ix2 k j))
          (fun j => bn (ix1 j)) (fun j => bs (ix1 j)) j := by
    rw [rowSum_100000_64_apply]
    refine Finset.sum_congr rfl fun j _ => ?_
    rw [mulf_apply, actRef_100000_64_apply]
  rw [hostDivf_apply, spread_100000_64_apply, actRef_100000_64_apply, maximumf_apply, hostSqrt_apply, col_100000_64_apply, eps_100000_64_apply, hs]
  rfl

end Cert.ReferenceIdeal.RefConv

end
-- ==== Proof.Spec.lean ====
/-
  The function both programs compute, as whole-array terms.

  Three rounds of message passing on the bipartite user–item graph. In each round the item table is rebuilt from the mean
  of the user rows along the user→item edges and the items' own rows (`aggI`, then one convolution step), and the user
  table from the mean of the item rows along the item→user edges and the users' own rows (`aggU`, then one convolution
  step); both rebuilds of a round read the tables of the round before. Rounds one and two keep 128 features and take
  their weights from the [2,2,…] arrays (round, edge type); round three maps to 64 features with the [2,…] arrays. The
  two final tables are normalised row by row (`l2nU`, `l2nI`) and a candidate pair (u, i) is scored by the dot product
  of its two normalised rows (`score`). The mean aggregation is carried as ONE function of its table and its two edge
  lists: nothing below ever opens the gather or the scatter it is made of.
-/
import proofs.«153211_j15264313770095_1_alg».proof.Proof.RefConv

noncomputable section

namespace Cert.Spec

open Idealize.ShloMosaic Cert.ReferenceIdeal Cert.ReferenceIdeal.Gen Cert.ReferenceIdeal.RefConv

/-- A float array and an index array of a given shape, at the exact instance. -/
abbrev TF (S : Shape) := FVec Ideal S .f32
abbrev TI (S : Shape) := IVec S 32

/-- The eighteen argument arrays. -/
structure Args where
  a0 : TF S100000x128
  a1 : TF S50000x128
  a2 : TF S2x2x128x128
  a3 : TF S2x2x128
  a4 : TF S2x2x128x128
  a5 : TF S2x2x128
  a6 : TF S2x128x64
  a7 : TF S2x64
  a8 : TF S2x128x64
  a9 : TF S2x64
  e10 : TI S1000000
  e11 : TI S1000000
  e12 : TI S1000000
  e13 : TI S1000000
  p14 : TI S500000
  p15 : TI S500000
  p16 : TI S500000
  p17 : TI S500000

/-- Mean of the user rows `h` along the edges (src → dst) into the 50000 items: the rows gathered at the (wrapped) sources,
    summed into their destinations, divided by the destination's in-degree clamped at one. -/
def aggI (h : TF S100000x128) (src dst : TI S1000000) : TF S50000x128 :=
  Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 dst) (Host.gather gather_S100000x128_S1000000x1_S1000000x128_1_0_n_n_0_1_1128 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 dst) (broadcastInDim S1000000 ![] bcast_S_S1000000 (constant S_ .f32 0x3F800000#32))) (broadcastInDim S50000 ![] bcast_S_S50000 (constant S_ .f32 0x3F800000#32)))))

/-- Mean of the item rows `h` along the edges (src → dst) into the 100000 users. -/
def aggU (h : TF S50000x128) (src dst : TI S1000000) : TF S100000x128 :=
  Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 dst) (Host.gather gather_S50000x128_S1000000x1_S1000000x128_1_0_n_n_0_1_1128 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 50000#32))) src)))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 dst) (broadcastInDim S1000000 ![] bcast_S_S1000000 (constant S_ .f32 0x3F800000#32))) (broadcastInDim S100000 ![] bcast_S_S100000 (constant S_ .f32 0x3F800000#32)))))

/-- Round one. -/
def hi1 (A : Args) : TF S50000x128 :=
  convRef_50000_128 (aggI A.a0 A.e10 A.e11) A.a1 (shapeCast _ (extractStridedSlice S1x1x128x128 ![0, 0, 0, 0] A.a2 slices_S2x2x128x128_S1x1x128x128_0_0_0_0) shapeCasts_S1x1x128x128_S128x128) (shapeCast _ (extractStridedSlice S1x1x128x128 ![0, 0, 0, 0] A.a4 slices_S2x2x128x128_S1x1x128x128_0_0_0_0) shapeCasts_S1x1x128x128_S128x128) (shapeCast _ (extractStridedSlice S1x1x128 ![0, 0, 0] A.a3 slices_S2x2x128_S1x1x128_0_0_0) shapeCasts_S1x1x128_S128) (shapeCast _ (extractStridedSlice S1x1x128 ![0, 0, 0] A.a5 slices_S2x2x128_S1x1x128_0_0_0) shapeCasts_S1x1x128_S128)
def hu1 (A : Args) : TF S100000x128 :=
  convRef_100000_128 (aggU A.a1 A.e12 A.e13) A.a0 (shapeCast _ (extractStridedSlice S1x1x128x128 ![0, 1, 0, 0] A.a2 slices_S2x2x128x128_S1x1x128x128_0_1_0_0) shapeCasts_S1x1x128x128_S128x128) (shapeCast _ (extractStridedSlice S1x1x128x128 ![0, 1, 0, 0] A.a4 slices_S2x2x128x128_S1x1x128x128_0_1_0_0) shapeCasts_S1x1x128x128_S128x128) (shapeCast _ (extractStridedSlice S1x1x128 ![0, 1, 0] A.a3 slices_S2x2x128_S1x1x128_0_1_0) shapeCasts_S1x1x128_S128) (shapeCast _ (extractStridedSlice S1x1x128 ![0, 1, 0] A.a5 slices_S2x2x128_S1x1x128_0_1_0) shapeCasts_S1x1x128_S128)

/-- Round two. -/
def hi2 (A : Args) : TF S50000x128 :=
  convRef_50000_128 (aggI (hu1 A) A.e10 A.e11) (hi1 A) (shapeCast _ (extractStridedSlice S1x1x128x128 ![1, 0, 0, 0] A.a2 slices_S2x2x128x128_S1x1x128x128_1_0_0_0) shapeCasts_S1x1x128x128_S128x128) (shapeCast _ (extractStridedSlice S1x1x128x128 ![1, 0, 0, 0] A.a4 slices_S2x2x128x128_S1x1x128x128_1_0_0_0) shapeCasts_S1x1x128x128_S128x128) (shapeCast _ (extractStridedSlice S1x1x128 ![1, 0, 0] A.a3 slices_S2x2x128_S1x1x128_1_0_0) shapeCasts_S1x1x128_S128) (shapeCast _ (extractStridedSlice S1x1x128 ![1, 0, 0] A.a5 slices_S2x2x128_S1x1x128_1_0_0) shapeCasts_S1x1x128_S128)
def hu2 (A : Args) : TF S100000x128 :=
  convRef_100000_128 (aggU (hi1 A) A.e12 A.e13) (hu1 A) (shapeCast _ (extractStridedSlice S1x1x128x128 ![1, 1, 0, 0] A.a2 slices_S2x2x128x128_S1x1x128x128_1_1_0_0) shapeCasts_S1x1x128x128_S128x128) (shapeCast _ (extractStridedSlice S1x1x128x128 ![1, 1, 0, 0] A.a4 slices_S2x2x128x128_S1x1x128x128_1_1_0_0) shapeCasts_S1x1x128x128_S128x128) (shapeCast _ (extractStridedSlice S1x1x128 ![1, 1, 0] A.a3 slices_S2x2x128_S1x1x128_1_1_0) shapeCasts_S1x1x128_S128) (shapeCast _ (extractStridedSlice S1x1x128 ![1, 1, 0] A.a5 slices_S2x2x128_S1x1x128_1_1_0) shapeCasts_S1x1x128_S128)

/-- Round three, to 64 features. -/
def hi3 (A : Args) : TF S50000x64 :=
  convRef_50000_64 (aggI (hu2 A) A.e10 A.e11) (hi2 A) (shapeCast _ (extractStridedSlice S1x128x64 ![0, 0, 0] A.a6 slices_S2x128x64_S1x128x64_0_0_0) shapeCasts_S1x128x64_S128x64) (shapeCast _ (extractStridedSlice S1x128x64 ![0, 0, 0] A.a8 slices_S2x128x64_S1x128x64_0_0_0) shapeCasts_S1x128x64_S128x64) (shapeCast _ (extractStridedSlice S1x64 ![0, 0] A.a7 slices_S2x64_S1x64_0_0) shapeCasts_S1x64_S64) (shapeCast _ (extractStridedSlice S1x64 ![0, 0] A.a9 slices_S2x64_S1x64_0_0) shapeCasts_S1x64_S64)
def hu3 (A : Args) : TF S100000x64 :=
  convRef_100000_64 (aggU (hi2 A) A.e12 A.e13) (hu2 A) (shapeCast _ (extractStridedSlice S1x128x64 ![1, 0, 0] A.a6 slices_S2x128x64_S1x128x64_1_0_0) shapeCasts_S1x128x64_S128x64) (shapeCast _ (extractStridedSlice S1x128x64 ![1, 0, 0] A.a8 slices_S2x128x64_S1x128x64_1_0_0) shapeCasts_S1x128x64_S128x64) (shapeCast _ (extractStridedSlice S1x64 ![1, 0] A.a7 slices_S2x64_S1x64_1_0) shapeCasts_S1x64_S64) (shapeCast _ (extractStridedSlice S1x64 ![1, 0] A.a9 slices_S2x64_S1x64_1_0) shapeCasts_S1x64_S64)

/-- A table's rows over the larger of their Euclidean norm and ε. -/
def l2nU (x : TF S100000x64) : TF S100000x64 :=
  Host.divf x (broadcastInDim S100000x64 ![0, 1] bcast_S100000x1_S100000x64_0_1 (maximumf (Host.sqrt (broadcastInDim S100000x1 ![0] bcast_S100000_S100000x1_0 (Host.reduceAdd (mulf x x) (constant S_ .f32 0x00000000#32) reducesTo_S100000x64_S100000_d1 h_S_))) (broadcastInDim S100000x1 ![] bcast_S_S100000x1 (constant S_ .f32 0x2B8CBCCC#32))))
def l2nI (x : TF S50000x64) : TF S50000x64 :=
  Host.divf x (broadcastInDim S50000x64 ![0, 1] bcast_S50000x1_S50000x64_0_1 (maximumf (Host.sqrt (broadcastInDim S50000x1 ![0] bcast_S50000_S50000x1_0 (Host.reduceAdd (mulf x x) (constant S_ .f32 0x00000000#32) reducesTo_S50000x64_S50000_d1 h_S_))) (broadcastInDim S50000x1 ![] bcast_S_S50000x1 (constant S_ .f32 0x2B8CBCCC#32))))

/-- The rows of the normalised user table at the (wrapped) user indices `p`, and of the item table at the item indices. -/
def rowsU (nu : TF S100000x64) (p : TI S500000) : TF S500000x64 :=
  Host.gather gather_S100000x64_S500000x1_S500000x64_1_0_n_n_0_1_164 nu (broadcastInDim S500000x1 ![0] bcast_S500000_S500000x1_0 (select (cmpi .slt p (broadcastInDim S500000 ![] bcast_S_S500000 (constantI S_ 32 0#32))) (addi p (broadcastInDim S500000 ![] bcast_S_S500000 (constantI S_ 32 100000#32))) p))
def rowsI (ni : TF S50000x64) (p : TI S500000) : TF S500000x64 :=
  Host.gather gather_S50000x64_S500000x1_S500000x64_1_0_n_n_0_1_164 ni (broadcastInDim S500000x1 ![0] bcast_S500000_S500000x1_0 (select (cmpi .slt p (broadcastInDim S500000 ![] bcast_S_S500000 (constantI S_ 32 0#32))) (addi p (broadcastInDim S500000 ![] bcast_S_S500000 (constantI S_ 32 50000#32))) p))

/-- The score of each candidate pair: the dot product of its two rows. -/
def score (ru ri : TF S500000x64) : TF S500000 :=
  Host.reduceAdd (mulf ru ri) (constant S_ .f32 0x00000000#32) reducesTo_S500000x64_S500000_d1 h_S_

def pos (A : Args) : TF S500000 := score (rowsU (l2nU (hu3 A)) A.p14) (rowsI (l2nI (hi3 A)) A.p15)
def neg (A : Args) : TF S500000 := score (rowsU (l2nU (hu3 A)) A.p16) (rowsI (l2nI (hi3 A)) A.p17)

end Cert.Spec

end
-- ==== Proof.ScoreTail.lean ====
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Score

open Idealize.ShloMosaic Idealize.ShloMosaic.ValueIdx

/-- Row e of a against row e of b: the sum over the 64 lanes of the products, the same value at
    every lane j of row e. -/
def rowDots (a b : (⟨2, ![1000000, 64]⟩ : Shape).Idx → EReal) : (⟨2, ![1000000, 64]⟩ : Shape).Idx → EReal :=
  fun i => ∑ k : Fin 64, a (ix2 (i 0 : Fin 1000000) k) * b (ix2 (i 0 : Fin 1000000) k)

theorem rowDots_apply (a b : (⟨2, ![1000000, 64]⟩ : Shape).Idx → EReal) (e : Fin 1000000) (j : Fin 64) :
    rowDots a b (ix2 e j) = ∑ k : Fin 64, a (ix2 e k) * b (ix2 e k) := rfl

/-- The host's sum over the lanes of a [500000, 64] array from the zero word, at row e. -/
theorem hostRowSum_apply (x : (⟨2, ![500000, 64]⟩ : Shape).Idx → EReal)
    (hR : (⟨2, ![500000, 64]⟩ : Shape).ReducesTo [1] ⟨1, ![500000]⟩) (hu : 0 < (⟨0, ![]⟩ : Shape).numel) (e : Fin 500000) :
    Host.reduceAdd (F := Ideal) (φ := .f32) x (constant (F := Ideal) ⟨0, ![]⟩ .f32 0x00000000#32) hR hu (ix1 e)
      = ∑ k : Fin 64, x (ix2 e k) := by
  simp only [Host.reduceAdd, Ideal.hostReduceAdd_def]
  rw [Ideal.hostReduceAdd_single hR (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- Lane 0 of row E of a [1000000, 64] array, flattened: the column slice, the reshape to a vector
    and a slice of that vector from offset o read the array at (o + e, 0). -/
theorem column0_apply (X : (⟨2, ![1000000, 64]⟩ : Shape).Idx → EReal) (o : Nat)
    (hs : (⟨2, ![1000000, 64]⟩ : Shape).Slices ![0, 0] ⟨2, ![1000000, 1]⟩)
    (hr : (⟨2, ![1000000, 1]⟩ : Shape).ShapeCasts ⟨1, ![1000000]⟩)
    (hp : (⟨1, ![1000000]⟩ : Shape).Slices ![o] ⟨1, ![500000]⟩)
    (e : Fin 500000) (E : Fin 1000000) (hE : E.val = o + e.val) :
    extractStridedSlice ⟨1, ![500000]⟩ ![o]
        (shapeCast ⟨1, ![1000000]⟩ (extractStridedSlice ⟨2, ![1000000, 1]⟩ ![0, 0] X hs) hr) hp (ix1 e)
      = X (ix2 E (0 : Fin 64)) := by
  refine (extractStridedSlice_apply _ _ hp (ix1 e) (ix1 E) fun a => ?_).trans ?_
  · match a with
    | ⟨0, _⟩ => exact hE
  refine (shapeCast_apply _ hr (ix1 E) (ix2 E (0 : Fin 1)) ?_).trans ?_
  · rw [Shape.rowMajor_val_two, Shape.rowMajor_val_one]
    show E.val * 1 + 0 = E.val
    omega
  refine extractStridedSlice_apply _ _ hs (ix2 E (0 : Fin 1)) (ix2 E (0 : Fin 64)) fun a => ?_
  match a with
  | ⟨0, _⟩ => exact (Nat.zero_add _).symm
  | ⟨1, _⟩ => rfl

/-- Two [500000, 64] arrays stacked along the rows, read in the upper half. -/
theorem stack_upper (a b : (⟨2, ![500000, 64]⟩ : Shape).Idx → EReal)
    (hc : Shape.Concatenates [⟨2, ![500000, 64]⟩, ⟨2, ![500000, 64]⟩] ⟨2, ![1000000, 64]⟩ 0)
    (e : Fin 500000) (E : Fin 1000000) (hE : E.val = e.val) (k : Fin 64) :
    concatenate ⟨2, ![1000000, 64]⟩ 0 [⟨⟨2, ![500000, 64]⟩, a⟩, ⟨⟨2, ![500000, 64]⟩, b⟩] hc (ix2 E k) = a (ix2 e k) := by
  refine concatenate_pair_apply_left (0 : Fin 2) a b hc (ix2 E k) rfl (ix2 e k) fun c => ?_
  match c with
  | ⟨0, _⟩ => exact hE.symm
  | ⟨1, _⟩ => rfl

/-- … and in the lower half. -/
theorem stack_lower (a b : (⟨2, ![500000, 64]⟩ : Shape).Idx → EReal)
    (hc : Shape.Concatenates [⟨2, ![500000, 64]⟩, ⟨2, ![500000, 64]⟩] ⟨2, ![1000000, 64]⟩ 0)
    (e : Fin 500000) (E : Fin 1000000) (hE : E.val = 500000 + e.val) (k : Fin 64) :
    concatenate ⟨2, ![1000000, 64]⟩ 0 [⟨⟨2, ![500000, 64]⟩, a⟩, ⟨⟨2, ![500000, 64]⟩, b⟩] hc (ix2 E k) = b (ix2 e k) := by
  refine concatenate_pair_apply_right (0 : Fin 2) a b hc (ix2 E k) rfl rfl (ix2 e k) (fun c hne => ?_) ?_
  · match c with
    | ⟨0, _⟩ => exact absurd rfl hne
    | ⟨1, _⟩ => rfl
  · show e.val + 500000 = E.val
    omega

/-- THE POSITIVE HALF. Lane 0 of the row dots of the stacked pairs, rows 0 … 499999, is the host's lane sum
    of the products of the two upper pieces. -/
theorem tail_upper (a b a' b' : (⟨2, ![500000, 64]⟩ : Shape).Idx → EReal)
    (hc : Shape.Concatenates [⟨2, ![500000, 64]⟩, ⟨2, ![500000, 64]⟩] ⟨2, ![1000000, 64]⟩ 0)
    (hs : (⟨2, ![1000000, 64]⟩ : Shape).Slices ![0, 0] ⟨2, ![1000000, 1]⟩)
    (hr : (⟨2, ![1000000, 1]⟩ : Shape).ShapeCasts ⟨1, ![1000000]⟩)
    (hp : (⟨1, ![1000000]⟩ : Shape).Slices ![0] ⟨1, ![500000]⟩)
    (hR : (⟨2, ![500000, 64]⟩ : Shape).ReducesTo [1] ⟨1, ![500000]⟩) (hu : 0 < (⟨0, ![]⟩ : Shape).numel) :
    extractStridedSlice ⟨1, ![500000]⟩ ![0]
        (shapeCast ⟨1, ![1000000]⟩ (extractStridedSlice ⟨2, ![1000000, 1]⟩ ![0, 0]
          (rowDots (concatenate ⟨2, ![1000000, 64]⟩ 0 [⟨⟨2, ![500000, 64]⟩, a⟩, ⟨⟨2, ![500000, 64]⟩, b⟩] hc)
                   (concatenate ⟨2, ![1000000, 64]⟩ 0 [⟨⟨2, ![500000, 64]⟩, a'⟩, ⟨⟨2, ![500000, 64]⟩, b'⟩] hc)) hs) hr) hp
      = Host.reduceAdd (F := Ideal) (φ := .f32) (mulf (F := Ideal) a a') (constant (F := Ideal) ⟨0, ![]⟩ .f32 0x00000000#32) hR hu := by
  funext i
  obtain ⟨e, rfl⟩ : ∃ e : Fin 500000, i = ix1 e := ⟨i 0, eq_ix1 i⟩
  have hE : e.val < 1000000 := by have := e.isLt; omega
  rw [column0_apply _ 0 hs hr hp e ⟨e.val, hE⟩ (Nat.zero_add _).symm, rowDots_apply, hostRowSum_apply]
  refine Finset.sum_congr rfl fun k _ => ?_
  rw [stack_upper a b hc e ⟨e.val, hE⟩ rfl k, stack_upper a' b' hc e ⟨e.val, hE⟩ rfl k]
  rfl

/-- THE NEGATIVE HALF: rows 500000 … 999999 against the two lower pieces. -/
theorem tail_lower (a b a' b' : (⟨2, ![500000, 64]⟩ : Shape).Idx → EReal)
    (hc : Shape.Concatenates [⟨2, ![500000, 64]⟩, ⟨2, ![500000, 64]⟩] ⟨2, ![1000000, 64]⟩ 0)
    (hs : (⟨2, ![1000000, 64]⟩ : Shape).Slices ![0, 0] ⟨2, ![1000000, 1]⟩)
    (hr : (⟨2, ![1000000, 1]⟩ : Shape).ShapeCasts ⟨1, ![1000000]⟩)
    (hp : (⟨1, ![1000000]⟩ : Shape).Slices ![500000] ⟨1, ![500000]⟩)
    (hR : (⟨2, ![500000, 64]⟩ : Shape).ReducesTo [1] ⟨1, ![500000]⟩) (hu : 0 < (⟨0, ![]⟩ : Shape).numel) :
    extractStridedSlice ⟨1, ![500000]⟩ ![500000]
        (shapeCast ⟨1, ![1000000]⟩ (extractStridedSlice ⟨2, ![1000000, 1]⟩ ![0, 0]
          (rowDots (concatenate ⟨2, ![1000000, 64]⟩ 0 [⟨⟨2, ![500000, 64]⟩, a⟩, ⟨⟨2, ![500000, 64]⟩, b⟩] hc)
                   (concatenate ⟨2, ![1000000, 64]⟩ 0 [⟨⟨2, ![500000, 64]⟩, a'⟩, ⟨⟨2, ![500000, 64]⟩, b'⟩] hc)) hs) hr) hp
      = Host.reduceAdd (F := Ideal) (φ := .f32) (mulf (F := Ideal) b b') (constant (F := Ideal) ⟨0, ![]⟩ .f32 0x00000000#32) hR hu := by
  funext i
  obtain ⟨e, rfl⟩ : ∃ e : Fin 500000, i = ix1 e := ⟨i 0, eq_ix1 i⟩
  have hE : 500000 + e.val < 1000000 := by have := e.isLt; omega
  rw [column0_apply _ 500000 hs hr hp e ⟨500000 + e.val, hE⟩ rfl, rowDots_apply, hostRowSum_apply]
  refine Finset.sum_congr rfl fun k _ => ?_
  rw [stack_lower a b hc e ⟨500000 + e.val, hE⟩ rfl k, stack_lower a' b' hc e ⟨500000 + e.val, hE⟩ rfl k]
  rfl

end Cert.KernelIdeal.Score

end
-- ==== Proof.ScoreRegion.lean ====
/- The score region's value. The body multiplies its two [5000, 64] blocks entry by entry, sums each row over its 64
   lanes, and stores that sum at every lane of the row; the 200 blocks of 5000 rows tile the [1000000, 64] arrays. So
   after the last point the output array holds, at (e, j), the dot product of row e of the first array with row e of the
   second, for every lane j: rowDots. Stated for arbitrary contents of the arrays at the region's entry. -/
import proofs.«153211_j15264313770095_1_alg».proof.Proof.Gen.KernelIdeal.Frame
import proofs.«153211_j15264313770095_1_alg».proof.Proof.ScoreTail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Score

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The reduced index p with lane k put back is (p, k). -/
theorem lift_lane (h : (⟨2, ![5000, 64]⟩ : Shape).Reduces [1] ⟨1, ![5000]⟩) (p : Fin 5000) (k : Fin 64) :
    h.lift (ix1 p) k = ix2 p k := by
  funext c; apply Fin.ext
  fin_cases c <;> rfl

/-- The body's stored value as one chain of operations of its two loaded blocks. -/
theorem pay_eq (x0 x1 : Vec Ideal S5000x64 .f32) :
    k6_pay1 (F := Ideal) x0 x1
      = broadcastTo S5000x64 (shapeCast S5000x1 (multiReduction (F := Ideal) .add [1] S5000 (mulf (F := Ideal) x0 x1) 0x00000000#32
          reduces_S5000x64_S5000 (.inl rfl) rfl) shapeCasts_S5000_S5000x1) broadcasts_S5000x1_S5000x64 := by
  unfold k6_pay1
  simp only [shapeCast_self]

/-- The body's stored value at (p, q): row p of the first block against row p of the second. -/
theorem pay_apply (x0 x1 : Vec Ideal S5000x64 .f32) (p : Fin 5000) (q : Fin 64) :
    k6_pay1 (F := Ideal) x0 x1 (ix2 p q) = ∑ k : Fin 64, x0 (ix2 p k) * x1 (ix2 p k) := by
  rw [pay_eq]
  refine (broadcastTo_apply _ broadcasts_S5000x1_S5000x64 (ix2 p q) (ix2 p (0 : Fin 1)) fun a => ?_).trans ?_
  · match a with
    | ⟨0, _⟩ => rfl
    | ⟨1, _⟩ => rfl
  refine (shapeCast_apply _ shapeCasts_S5000_S5000x1 (ix2 p (0 : Fin 1)) (ix1 p) ?_).trans ?_
  · rw [Shape.rowMajor_val_two, Shape.rowMajor_val_one]
    show p.val = p.val * 1 + 0
    omega
  refine (Ideal.multiReduction_add_single _ 0x00000000#32 reduces_S5000x64_S5000 (.inl rfl) rfl (ix1 p)).trans ?_
  refine Finset.sum_congr rfl fun k _ => ?_
  exact congrArg (fun i => x0 i * x1 i) (lift_lane reduces_S5000x64_S5000 p k)

variable (V : (c : Dev nD) → (b : Ref sig .tc) → Buf (Elt Ideal) ((c : Thread nD τ).loc b))

/-- The printed index maps, decided once over the 200 grid points: at point t every window's block is row block t,
    column block 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The first input window's block at point t is rows 5000 t … 5000 t + 4999 of its array. -/
theorem iblk0_apply (c : Dev nD) (t : Fin cfg6.N) (p : Fin 5000) (k : Fin 64) (E : Fin 1000000)
    (hE : E.val = 5000 * t.val + p.val) :
    (iblk6 V c 0 t : Vec Ideal S5000x64 .f32) (ix2 p k) = (V c main_v204 : S1000000x64.Idx → EReal) (ix2 E k) := by
  obtain ⟨e0, e1, -, -, -, -⟩ := idx_facts t
  unfold iblk6
  rw [View.read_apply]
  show V c main_v204 _ = V c main_v204 _
  congr 1
  funext a
  apply Fin.ext
  match a with
  | ⟨0, _⟩ => show win6_0.index t 0 * 5000 + 1 * p.val = E.val; rw [e0, hE]; omega
  | ⟨1, _⟩ => show win6_0.index t 1 * 64 + 1 * k.val = k.val; rw [e1]; omega

/-- The second input window's block likewise. -/
theorem iblk1_apply (c : Dev nD) (t : Fin cfg6.N) (p : Fin 5000) (k : Fin 64) (E : Fin 1000000)
    (hE : E.val = 5000 * t.val + p.val) :
    (iblk6 V c 1 t : Vec Ideal S5000x64 .f32) (ix2 p k) = (V c main_v219 : S1000000x64.Idx → EReal) (ix2 E k) := by
  obtain ⟨-, -, e2, e3, -, -⟩ := idx_facts t
  unfold iblk6
  rw [View.read_apply]
  show V c main_v219 _ = V c main_v219 _
  congr 1
  funext a
  apply Fin.ext
  match a with
  | ⟨0, _⟩ => show win6_1.index t 0 * 5000 + 1 * p.val = E.val; rw [e2, hE]; omega
  | ⟨1, _⟩ => show win6_1.index t 1 * 64 + 1 * k.val = k.val; rw [e3]; omega

/-- What the body stores at (p, q) of point t's block is the row dots of the two arrays at row 5000 t + p. -/
theorem stored_apply (c : Dev nD) (t : Fin cfg6.N) (p : Fin 5000) (q : Fin 64) (E : Fin 1000000)
    (hE : E.val = 5000 * t.val + p.val) :
    k6_pay1 (F := Ideal) (iblk6 V c 0 t) (iblk6 V c 1 t) (ix2 p q)
      = rowDots (V c main_v204) (V c main_v219) (ix2 E q) := by
  refine (pay_apply _ _ p q).trans ?_
  rw [rowDots_apply]
  refine Finset.sum_congr rfl fun k _ => ?_
  rw [iblk0_apply V c t p k E hE, iblk1_apply V c t p k E hE]

/-- WHAT POINT t WRITES BACK is block t of the row dots of the two arrays as the region finds them. -/
theorem flushed_eq (c : Dev nD) (t : Fin cfg6.N) :
    (dat6 V c).flushed 2 t
      = ((cfg6.win 2).blk t).view.read (Elt Ideal) (rowDots (V c main_v204) (V c main_v219)) := by
  show (cfg6.win 2).cut (grid6.coords t) ((dat6 V c).after 2 t) = _
  rw [after6_2]
  unfold out6_2
  rw [View.canon_unit_zero hz]
  simp only [View.ld_unit_zero (S := S5000x64) hz]
  obtain ⟨-, -, -, -, e4, e5⟩ := idx_facts t
  funext j
  obtain ⟨p, q, rfl⟩ : ∃ (p : Fin 5000) (q : Fin 64), j = ix2 p q := ⟨j 0, j 1, eq_ix2 j⟩
  have hp : p.val < 5000 := p.isLt
  have ht : t.val < 200 := lt_of_lt_of_eq t.isLt N_6
  show k6_pay1 (F := Ideal) (iblk6 V c 0 t) (iblk6 V c 1 t) (ix2 p q)
    = rowDots (V c main_v204) (V c main_v219) (((cfg6.win 2).blk t).view.emb (ix2 p q))
  rw [stored_apply V c t p q ⟨5000 * t.val + p.val, by omega⟩ rfl]
  congr 1
  funext a
  apply Fin.ext
  match a with
  | ⟨0, _⟩ => show 5000 * t.val + p.val = win6_2.index t 0 * 5000 + 1 * p.val; rw [e4]; omega
  | ⟨1, _⟩ => show q.val = win6_2.index t 1 * 64 + 1 * q.val; rw [e5]; omega

/-- An index of the array is in point t's block iff each coordinate is in the block's range on its axis. -/
theorem mem_blk (t : Fin cfg6.N) (i : S1000000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v220).slice (win6_2.rect t)).set ↔ _
  rw [View.set_slice_whole, Rect.mem_set_unit]
  exact Iff.rfl

/-- Row r of the array lies in the block of point r / 5000: the 200 blocks tile the array. -/
theorem cover (i : S1000000x64.Idx) :
    ∃ t : Fin cfg6.N, (cfg6.win 2).flush t = true ∧ i ∈ ((cfg6.win 2).blk t).view.set := by
  have hi0 : (i 0).val < 1000000 := (i 0).isLt
  have hi1 : (i 1).val < 64 := (i 1).isLt
  have hN : cfg6.N = 200 := N_6
  obtain ⟨t, ht⟩ : ∃ t : Fin cfg6.N, t.val = (i 0).val / 5000 := ⟨⟨(i 0).val / 5000, by rw [hN]; omega⟩, rfl⟩
  obtain ⟨-, -, -, -, e4, e5⟩ := idx_facts t
  refine ⟨t, flush6_2 t, ?_⟩
  rw [mem_blk]
  intro a
  match a with
  | ⟨0, _⟩ =>
    show win6_2.index t (0 : Fin 2) * 5000 ≤ (i 0).val ∧ (i 0).val < win6_2.index t (0 : Fin 2) * 5000 + 5000
    rw [e4, ht]; omega
  | ⟨1, _⟩ =>
    show win6_2.index t (1 : Fin 2) * 64 ≤ (i 1).val ∧ (i 1).val < win6_2.index t (1 : Fin 2) * 64 + 64
    rw [e5]; omega

/-- THE OUTPUT ARRAY of the region after its last point: the row dots of its two input arrays as the region
    finds them, whatever those are. -/
theorem score_out (c : Dev nD) :
    (dat6 V c).arrAt 2 cfg6.N = rowDots (V c main_v204) (V c main_v219) :=
  (dat6 V c).arrAt_eq_of_cover 2 (rowDots (V c main_v204) (V c main_v219)) (fun t _ => flushed_eq V c t) cover

/-- The same with the windows' arrays named by their window numbers. -/
theorem score_out' (c : Dev nD) :
    (dat6 V c).arrAt 2 cfg6.N = rowDots (V c (Pipeline.arrRef spec6 0)) (V c (Pipeline.arrRef spec6 1)) :=
  score_out V c

end Cert.KernelIdeal.Score

end
-- ==== Proof.ScoreRun.lean ====
/- The score's tail. After the score region the program keeps lane 0 of its output, flattens it, and cuts it into the
   first and the second 500000 rows. With the region's output read as the row dots of its two input arrays, and those
   arrays two stacks [A; B] and [A'; B'], the two results are the lane sums of A times A' and of B times B'. -/
import proofs.«153211_j15264313770095_1_alg».proof.Proof.Gen.KernelIdeal.Frame
import proofs.«153211_j15264313770095_1_alg».proof.Proof.ScoreRegion
import Idealize.ShloMosaic.Lib.StableHlo.Run

set_option maxRecDepth 16384

noncomputable section

namespace Cert.KernelIdeal.Score

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first result of the tail: lane 0 of the region's output, rows 0 … 499999. -/
theorem W18_v223 (c : Dev nD) :
    (W18 m ρ c (Proc.devRef .tc main_v223) : S500000.Idx → EReal)
      = extractStridedSlice S500000 ![0] (shapeCast S1000000 (extractStridedSlice S1000000x1 ![0, 0]
          (W17 m ρ c (Proc.devRef .tc main_v220) : S1000000x64.Idx → EReal)
          slices_S1000000x64_S1000000x1_0_0) shapeCasts_S1000000x1_S1000000) slices_S1000000_S500000_0 := by
  show StableHlo.after hostOps7 _ (Proc.devRef .tc main_v223) = _
  after_results
  rfl

theorem W18_v224 (c : Dev nD) :
    (W18 m ρ c (Proc.devRef .tc main_v224) : S500000.Idx → EReal)
      = extractStridedSlice S500000 ![500000] (shapeCast S1000000 (extractStridedSlice S1000000x1 ![0, 0]
          (W17 m ρ c (Proc.devRef .tc main_v220) : S1000000x64.Idx → EReal)
          slices_S1000000x64_S1000000x1_0_0) shapeCasts_S1000000x1_S1000000) slices_S1000000_S500000_500000 := by
  show StableHlo.after hostOps7 _ (Proc.devRef .tc main_v224) = _
  after_results
  rfl

/-- The region's output array after its run, in the valuation the tail starts from. -/
theorem W17_v220 (c : Dev nD) :
    (W17 m ρ c (Proc.devRef .tc main_v220) : S1000000x64.Idx → EReal)
      = rowDots (V16 m ρ c main_v204) (V16 m ρ c main_v219) :=
  (W17_arr m ρ c 2).trans (score_out (V16 m ρ) c)

/-- THE POSITIVE SCORES. If the region's two input arrays are the stacks [A; B] and [A'; B'], the first result of the
    tail is the host's lane sum of A times A'. -/
theorem pos_score (c : Dev nD) (A B A' B' : FVec Ideal S500000x64 .f32)
    (h204 : (V16 m ρ c main_v204 : S1000000x64.Idx → EReal)
      = concatenate S1000000x64 0 [⟨S500000x64, A⟩, ⟨S500000x64, B⟩] concatenates_S500000x64_S500000x64_S1000000x64_d0)
    (h219 : (V16 m ρ c main_v219 : S1000000x64.Idx → EReal)
      = concatenate S1000000x64 0 [⟨S500000x64, A'⟩, ⟨S500000x64, B'⟩] concatenates_S500000x64_S500000x64_S1000000x64_d0)
    (hR : S500000x64.ReducesTo [1] S500000) (hu : 0 < S_.numel) :
    (W18 m ρ c (Proc.devRef .tc main_v223) : S500000.Idx → EReal)
      = Host.reduceAdd (F := Ideal) (mulf (F := Ideal) A A') (constant (F := Ideal) S_ .f32 0x00000000#32) hR hu := by
  rw [W18_v223, W17_v220, h204, h219]
  exact tail_upper A B A' B' _ _ _ _ hR hu

/-- THE NEGATIVE SCORES: the second result of the tail is the host's lane sum of B times B'. -/
theorem neg_score (c : Dev nD) (A B A' B' : FVec Ideal S500000x64 .f32)
    (h204 : (V16 m ρ c main_v204 : S1000000x64.Idx → EReal)
      = concatenate S1000000x64 0 [⟨S500000x64, A⟩, ⟨S500000x64, B⟩] concatenates_S500000x64_S500000x64_S1000000x64_d0)
    (h219 : (V16 m ρ c main_v219 : S1000000x64.Idx → EReal)
      = concatenate S1000000x64 0 [⟨S500000x64, A'⟩, ⟨S500000x64, B'⟩] concatenates_S500000x64_S500000x64_S1000000x64_d0)
    (hR : S500000x64.ReducesTo [1] S500000) (hu : 0 < S_.numel) :
    (W18 m ρ c (Proc.devRef .tc main_v224) : S500000.Idx → EReal)
      = Host.reduceAdd (F := Ideal) (mulf (F := Ideal) B B') (constant (F := Ideal) S_ .f32 0x00000000#32) hR hu := by
  rw [W18_v224, W17_v220, h204, h219]
  exact tail_lower A B A' B' _ _ _ _ hR hu

end Cert.KernelIdeal.Score

end
-- ==== Proof.ConvPayload.lean ====
/-
  The convolution kernel's body, read at an index.

  The body loads a block of 5000 rows of aggregated neighbour features and of the nodes' own features, the two weight
  matrices and the two bias rows; it forms the activation block (two matrix products into zero accumulators, the biases
  spread over the rows, the clamp at zero), sums each row's squares along the lanes, takes the square root, clamps it at ε
  and divides. A change of float format is the identity on extended reals, so at every (p, q) the stored value is
  `ConvRow.rowOut` of row p of the two feature blocks: the matrix product at (p, q) is the sum over the 128 shared
  coordinates, a bias row spread over the rows reads its column, the lane sum at p is the sum over the row, and the norm
  column spread over the lanes reads its row.
-/
import proofs.«153211_j15264313770095_1_alg».proof.Proof.Gen.KernelIdeal.Skeleton
import proofs.«153211_j15264313770095_1_alg».proof.Proof.ConvRow
import Idealize.ShloMosaic.Lib.Pipeline.Value
import Idealize.ShloMosaic.Lib.ValueIdx
import Idealize.ShloMosaic.PureOps.Ideal.Laws

noncomputable section

namespace Cert.KernelIdeal.ConvPayload

open Idealize.ShloMosaic Idealize.ShloMosaic.ValueIdx Cert.KernelIdeal Cert.KernelIdeal.Gen Cert.ConvRow

/-! ## Blocks of 128 output columns: the operations that are not pointwise, read at an index -/

theorem lhsIdx128_0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsIdx128_1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
theorem rhsIdx128_0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
theorem rhsIdx128_1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into a zero accumulator, read at (p, q): the sum over the 128 shared coordinates. -/
theorem mm128_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsIdx128_0 _ _
    | ⟨1, _⟩ => exact (lhsIdx128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsIdx128_0 _ _).trans hk
    | ⟨1, _⟩ => exact rhsIdx128_1 _ _)
  rw [el, er]

/-- A bias row [1,128] spread over 5000 rows, read at (p, q): the bias in column q. -/
theorem biasRow128_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A column [5000,1] spread over 128 columns, read at (p, q): the column's entry in row p. -/
theorem normCol128_apply (v : FVec Ideal S5000x1 .f32) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The sum of a [5000,128] block along its rows, read at p: the sum over the 128 columns of row p. -/
theorem laneSum128_apply (v : FVec Ideal S5000x128 .f32) (hφ : FKind.Formats .f32) (hacc : (0x00000000#32 : BitVec 32) = FKind.add.neutral .f32 hφ) (p : Fin 5000) :
    multiReduction .add [1] S5000 v 0x00000000#32 reduces_S5000x128_S5000 hφ hacc (ix1 p) = ∑ k : Fin 128, v (ix2 p k) := by
  refine (Ideal.multiReduction_add_single v 0x00000000#32 reduces_S5000x128_S5000 hφ hacc (ix1 p)).trans ?_
  refine Finset.sum_congr rfl fun k _ => congrArg v (funext fun a => Fin.ext ?_)
  rw [Shape.Reduces.lift_val]
  match a with
  | ⟨0, _⟩ => rfl
  | ⟨1, _⟩ => rfl

/-! ## Blocks of 64 output columns: the operations that are not pointwise, read at an index -/

theorem lhsIdx64_0 (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsIdx64_1 (i : S5000x64.Idx) (k : dot_S5000x128_S128x64_S5000x64_1_0_0_1_n_n.contr.Idx) : (dot_S5000x128_S128x64_S5000x64_1_0_0_1_n_n.lhsIdx i k 1).val = (k ⟨0, by decide⟩).val :=
  dot_S5000x128_S128x64_S5000x64_1_0_0_1_n_n.lhsIdx_val_of_single rfl i k
theorem rhsIdx64_0 (i : S5000x64.Idx) (k : dot_S5000x128_S128x64_S5000x64_1_0_0_1_n_n.contr.Idx) : (dot_S5000x128_S128x64_S5000x64_1_0_0_1_n_n.rhsIdx i k 0).val = (k ⟨0, by decide⟩).val :=
  dot_S5000x128_S128x64_S5000x64_1_0_0_1_n_n.rhsIdx_val_of_single rfl i k
theorem rhsIdx64_1 (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000,128] × [128,64] product into a zero accumulator, read at (p, q): the sum over the 128 shared coordinates. -/
theorem mm64_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhsIdx64_0 _ _
    | ⟨1, _⟩ => exact (lhsIdx64_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhsIdx64_0 _ _).trans hk
    | ⟨1, _⟩ => exact rhsIdx64_1 _ _)
  rw [el, er]

/-- A bias row [1,64] spread over 5000 rows, read at (p, q): the bias in column q. -/
theorem biasRow64_apply (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A column [5000,1] spread over 64 columns, read at (p, q): the column's entry in row p. -/
theorem normCol64_apply (v : FVec Ideal S5000x1 .f32) (p : Fin 5000) (q : Fin 64) :
    broadcastTo S5000x64 v broadcasts_S5000x1_S5000x64 (ix2 p q) = v (ix2 p 0) :=
  broadcastTo_apply v broadcasts_S5000x1_S5000x64 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The sum of a [5000,64] block along its rows, read at p: the sum over the 64 columns of row p. -/
theorem laneSum64_apply (v : FVec Ideal S5000x64 .f32) (hφ : FKind.Formats .f32) (hacc : (0x00000000#32 : BitVec 32) = FKind.add.neutral .f32 hφ) (p : Fin 5000) :
    multiReduction .add [1] S5000 v 0x00000000#32 reduces_S5000x64_S5000 hφ hacc (ix1 p) = ∑ k : Fin 64, v (ix2 p k) := by
  refine (Ideal.multiReduction_add_single v 0x00000000#32 reduces_S5000x64_S5000 hφ hacc (ix1 p)).trans ?_
  refine Finset.sum_congr rfl fun k _ => congrArg v (funext fun a => Fin.ext ?_)
  rw [Shape.Reduces.lift_val]
  match a with
  | ⟨0, _⟩ => rfl
  | ⟨1, _⟩ => rfl

/-! ## The body of launches 0, 1 (128 output columns) -/

/-- The activation array of one block, as the body builds it from its six loaded blocks. -/
def actBlock128a (x0 x1 : Vec Ideal S5000x128 .f32) (w0 w1 : Vec Ideal S128x128 .f32) (b0 b1 : Vec Ideal S1x128 .f32) : FVec Ideal S5000x128 .f32 :=
  maximumf (addf (addf (addf
      (matmul dot_S5000x128_S128x128_S5000x128_1_0_0_1_n_n none (truncf .bf16 (shapeCast S5000x128 x0 shapeCasts_S5000x128_S5000x128) bitsLt_bf16_f32)
        (truncf .bf16 (shapeCast S128x128 w0 shapeCasts_S128x128_S128x128) bitsLt_bf16_f32) (constant S5000x128 .f32 0x00000000#32))
      (broadcastTo S5000x128 (shapeCast S1x128 b0 shapeCasts_S1x128_S1x128) broadcasts_S1x128_S5000x128))
      (matmul dot_S5000x128_S128x128_S5000x128_1_0_0_1_n_n none (truncf .bf16 x1 bitsLt_bf16_f32)
        (truncf .bf16 (shapeCast S128x128 w1 shapeCasts_S128x128_S128x128) bitsLt_bf16_f32) (constant S5000x128 .f32 0x00000000#32)))
      (broadcastTo S5000x128 (shapeCast S1x128 b1 shapeCasts_S1x128_S1x128) broadcasts_S1x128_S5000x128))
    (broadcast S5000x128 (Scalar.ofBits .f32 0x00000000#32))

/-- The block the body stores: the activation block over its clamped row norms. -/
def normBlock128a (x0 x1 : Vec Ideal S5000x128 .f32) (w0 w1 : Vec Ideal S128x128 .f32) (b0 b1 : Vec Ideal S1x128 .f32) : FVec Ideal S5000x128 .f32 :=
  divf (actBlock128a x0 x1 w0 w1 b0 b1)
    (broadcastTo S5000x128
      (maximumf (sqrt (shapeCast S5000x1
          (multiReduction .add [1] S5000 (mulf (actBlock128a x0 x1 w0 w1 b0 b1) (actBlock128a x0 x1 w0 w1 b0 b1)) 0x00000000#32 reduces_S5000x128_S5000 (.inl rfl) rfl)
          shapeCasts_S5000_S5000x1))
        (broadcast S5000x1 (Scalar.ofBits .f32 0x2B8CBCCC#32)))
      broadcasts_S5000x1_S5000x128)

theorem pay0_eq (x0 x1 : Vec Ideal S5000x128 .f32) (w0 w1 : Vec Ideal S128x128 .f32) (b0 b1 : Vec Ideal S1x128 .f32) : k0_pay1 x0 x1 w0 w1 b0 b1 = normBlock128a x0 x1 w0 w1 b0 b1 := rfl
theorem pay1_eq (x0 x1 : Vec Ideal S5000x128 .f32) (w0 w1 : Vec Ideal S128x128 .f32) (b0 b1 : Vec Ideal S1x128 .f32) : k1_pay1 x0 x1 w0 w1 b0 b1 = normBlock128a x0 x1 w0 w1 b0 b1 := rfl

/-- The activation block at (p, q) is the row activation of row p in column q. -/
theorem actBlock128a_apply (x0 x1 : Vec Ideal S5000x128 .f32) (w0 w1 : Vec Ideal S128x128 .f32) (b0 b1 : Vec Ideal S1x128 .f32) (p : Fin 5000) (q : Fin 128) :
    actBlock128a x0 x1 w0 w1 b0 b1 (ix2 p q)
      = rowAct (fun k => x0 (ix2 p k)) (fun k => x1 (ix2 p k)) (fun k j => w0 (ix2 k j)) (fun k j => w1 (ix2 k j))
          (fun j => b0 (ix2 0 j)) (fun j => b1 (ix2 0 j)) q := by
  unfold actBlock128a
  rw [maximumf_apply, addf_apply, addf_apply, addf_apply, mm128_apply, mm128_apply, biasRow128_apply, biasRow128_apply]
  simp only [shapeCast_self]
  rfl

/-- THE STORED BLOCK at (p, q): the layer's output for row p of the block, column q. -/
theorem normBlock128a_apply (x0 x1 : Vec Ideal S5000x128 .f32) (w0 w1 : Vec Ideal S128x128 .f32) (b0 b1 : Vec Ideal S1x128 .f32) (p : Fin 5000) (q : Fin 128) :
    normBlock128a x0 x1 w0 w1 b0 b1 (ix2 p q)
      = rowOut (fun k => x0 (ix2 p k)) (fun k => x1 (ix2 p k)) (fun k j => w0 (ix2 k j)) (fun k j => w1 (ix2 k j))
          (fun j => b0 (ix2 0 j)) (fun j => b1 (ix2 0 j)) q := by
  unfold normBlock128a
  rw [divf_apply, normCol128_apply, actBlock128a_apply, maximumf_apply]
  have hs : shapeCast S5000x1 (multiReduction .add [1] S5000 (mulf (actBlock128a x0 x1 w0 w1 b0 b1) (actBlock128a x0 x1 w0 w1 b0 b1)) 0x00000000#32 reduces_S5000x128_S5000 (.inl rfl) rfl) shapeCasts_S5000_S5000x1 (ix2 p 0)
      = ∑ j : Fin 128, rowAct (fun k => x0 (ix2 p k)) (fun k => x1 (ix2 p k)) (fun k j => w0 (ix2 k j)) (fun k j => w1 (ix2 k j))
          (fun j => b0 (ix2 0 j)) (fun j => b1 (ix2 0 j)) j * rowAct (fun k => x0 (ix2 p k)) (fun k => x1 (ix2 p k)) (fun k j => w0 (ix2 k j)) (fun k j => w1 (ix2 k j))
          (fun j => b0 (ix2 0 j)) (fun j => b1 (ix2 0 j)) j := by
    refine (shapeCast_apply _ shapeCasts_S5000_S5000x1 (ix2 p 0) (ix1 p) (by
      rw [Shape.rowMajor_val_one, Shape.rowMajor_val_two]
      show p.val = p.val * 1 + 0
      omega)).trans ?_
    refine (laneSum128_apply _ (.inl rfl) rfl p).trans ?_
    refine Finset.sum_congr rfl fun j _ => ?_
    rw [mulf_apply, actBlock128a_apply]
  show Ideal.div _ (max (Ideal.sqrt (shapeCast S5000x1 _ shapeCasts_S5000_S5000x1 (ix2 p 0))) _) = _
  rw [hs]
  rfl

/-! ## The body of launches 2, 3 (128 output columns; the nodes' own features pass an identity reshape first) -/

/-- The activation array of one block, as the body builds it from its six loaded blocks. -/
def actBlock128b (x0 x1 : Vec Ideal S5000x128 .f32) (w0 w1 : Vec Ideal S128x128 .f32) (b0 b1 : Vec Ideal S1x128 .f32) : FVec Ideal S5000x128 .f32 :=
  maximumf (addf (addf (addf
      (matmul dot_S5000x128_S128x128_S5000x128_1_0_0_1_n_n none (truncf .bf16 (shapeCast S5000x128 x0 shapeCasts_S5000x128_S5000x128) bitsLt_bf16_f32)
        (truncf .bf16 (shapeCast S128x128 w0 shapeCasts_S128x128_S128x128) bitsLt_bf16_f32) (constant S5000x128 .f32 0x00000000#32))
      (broadcastTo S5000x128 (shapeCast S1x128 b0 shapeCasts_S1x128_S1x128) broadcasts_S1x128_S5000x128))
      (matmul dot_S5000x128_S128x128_S5000x128_1_0_0_1_n_n none (truncf .bf16 (shapeCast S5000x128 x1 shapeCasts_S5000x128_S5000x128) bitsLt_bf16_f32)
        (truncf .bf16 (shapeCast S128x128 w1 shapeCasts_S128x128_S128x128) bitsLt_bf16_f32) (constant S5000x128 .f32 0x00000000#32)))
      (broadcastTo S5000x128 (shapeCast S1x128 b1 shapeCasts_S1x128_S1x128) broadcasts_S1x128_S5000x128))
    (broadcast S5000x128 (Scalar.ofBits .f32 0x00000000#32))

/-- The block the body stores: the activation block over its clamped row norms. -/
def normBlock128b (x0 x1 : Vec Ideal S5000x128 .f32) (w0 w1 : Vec Ideal S128x128 .f32) (b0 b1 : Vec Ideal S1x128 .f32) : FVec Ideal S5000x128 .f32 :=
  divf (actBlock128b x0 x1 w0 w1 b0 b1)
    (broadcastTo S5000x128
      (maximumf (sqrt (shapeCast S5000x1
          (multiReduction .add [1] S5000 (mulf (actBlock128b x0 x1 w0 w1 b0 b1) (actBlock128b x0 x1 w0 w1 b0 b1)) 0x00000000#32 reduces_S5000x128_S5000 (.inl rfl) rfl)
          shapeCasts_S5000_S5000x1))
        (broadcast S5000x1 (Scalar.ofBits .f32 0x2B8CBCCC#32)))
      broadcasts_S5000x1_S5000x128)

theorem pay2_eq (x0 x1 : Vec Ideal S5000x128 .f32) (w0 w1 : Vec Ideal S128x128 .f32) (b0 b1 : Vec Ideal S1x128 .f32) : k2_pay1 x0 x1 w0 w1 b0 b1 = normBlock128b x0 x1 w0 w1 b0 b1 := rfl
theorem pay3_eq (x0 x1 : Vec Ideal S5000x128 .f32) (w0 w1 : Vec Ideal S128x128 .f32) (b0 b1 : Vec Ideal S1x128 .f32) : k3_pay1 x0 x1 w0 w1 b0 b1 = normBlock128b x0 x1 w0 w1 b0 b1 := rfl

/-- The activation block at (p, q) is the row activation of row p in column q. -/
theorem actBlock128b_apply (x0 x1 : Vec Ideal S5000x128 .f32) (w0 w1 : Vec Ideal S128x128 .f32) (b0 b1 : Vec Ideal S1x128 .f32) (p : Fin 5000) (q : Fin 128) :
    actBlock128b x0 x1 w0 w1 b0 b1 (ix2 p q)
      = rowAct (fun k => x0 (ix2 p k)) (fun k => x1 (ix2 p k)) (fun k j => w0 (ix2 k j)) (fun k j => w1 (ix2 k j))
          (fun j => b0 (ix2 0 j)) (fun j => b1 (ix2 0 j)) q := by
  unfold actBlock128b
  rw [maximumf_apply, addf_apply, addf_apply, addf_apply, mm128_apply, mm128_apply, biasRow128_apply, biasRow128_apply]
  simp only [shapeCast_self]
  rfl

/-- THE STORED BLOCK at (p, q): the layer's output for row p of the block, column q. -/
theorem normBlock128b_apply (x0 x1 : Vec Ideal S5000x128 .f32) (w0 w1 : Vec Ideal S128x128 .f32) (b0 b1 : Vec Ideal S1x128 .f32) (p : Fin 5000) (q : Fin 128) :
    normBlock128b x0 x1 w0 w1 b0 b1 (ix2 p q)
      = rowOut (fun k => x0 (ix2 p k)) (fun k => x1 (ix2 p k)) (fun k j => w0 (ix2 k j)) (fun k j => w1 (ix2 k j))
          (fun j => b0 (ix2 0 j)) (fun j => b1 (ix2 0 j)) q := by
  unfold normBlock128b
  rw [divf_apply, normCol128_apply, actBlock128b_apply, maximumf_apply]
  have hs : shapeCast S5000x1 (multiReduction .add [1] S5000 (mulf (actBlock128b x0 x1 w0 w1 b0 b1) (actBlock128b x0 x1 w0 w1 b0 b1)) 0x00000000#32 reduces_S5000x128_S5000 (.inl rfl) rfl) shapeCasts_S5000_S5000x1 (ix2 p 0)
      = ∑ j : Fin 128, rowAct (fun k => x0 (ix2 p k)) (fun k => x1 (ix2 p k)) (fun k j => w0 (ix2 k j)) (fun k j => w1 (ix2 k j))
          (fun j => b0 (ix2 0 j)) (fun j => b1 (ix2 0 j)) j * rowAct (fun k => x0 (ix2 p k)) (fun k => x1 (ix2 p k)) (fun k j => w0 (ix2 k j)) (fun k j => w1 (ix2 k j))
          (fun j => b0 (ix2 0 j)) (fun j => b1 (ix2 0 j)) j := by
    refine (shapeCast_apply _ shapeCasts_S5000_S5000x1 (ix2 p 0) (ix1 p) (by
      rw [Shape.rowMajor_val_one, Shape.rowMajor_val_two]
      show p.val = p.val * 1 + 0
      omega)).trans ?_
    refine (laneSum128_apply _ (.inl rfl) rfl p).trans ?_
    refine Finset.sum_congr rfl fun j _ => ?_
    rw [mulf_apply, actBlock128b_apply]
  show Ideal.div _ (max (Ideal.sqrt (shapeCast S5000x1 _ shapeCasts_S5000_S5000x1 (ix2 p 0))) _) = _
  rw [hs]
  rfl

/-! ## The body of launches 4, 5 (64 output columns; the nodes' own features pass an identity reshape first) -/

/-- The activation array of one block, as the body builds it from its six loaded blocks. -/
def actBlock64 (x0 x1 : Vec Ideal S5000x128 .f32) (w0 w1 : Vec Ideal S128x64 .f32) (b0 b1 : Vec Ideal S1x64 .f32) : FVec Ideal S5000x64 .f32 :=
  maximumf (addf (addf (addf
      (matmul dot_S5000x128_S128x64_S5000x64_1_0_0_1_n_n none (truncf .bf16 (shapeCast S5000x128 x0 shapeCasts_S5000x128_S5000x128) bitsLt_bf16_f32)
        (truncf .bf16 (shapeCast S128x64 w0 shapeCasts_S128x64_S128x64) bitsLt_bf16_f32) (constant S5000x64 .f32 0x00000000#32))
      (broadcastTo S5000x64 (shapeCast S1x64 b0 shapeCasts_S1x64_S1x64) broadcasts_S1x64_S5000x64))
      (matmul dot_S5000x128_S128x64_S5000x64_1_0_0_1_n_n none (truncf .bf16 (shapeCast S5000x128 x1 shapeCasts_S5000x128_S5000x128) bitsLt_bf16_f32)
        (truncf .bf16 (shapeCast S128x64 w1 shapeCasts_S128x64_S128x64) bitsLt_bf16_f32) (constant S5000x64 .f32 0x00000000#32)))
      (broadcastTo S5000x64 (shapeCast S1x64 b1 shapeCasts_S1x64_S1x64) broadcasts_S1x64_S5000x64))
    (broadcast S5000x64 (Scalar.ofBits .f32 0x00000000#32))

/-- The block the body stores: the activation block over its clamped row norms. -/
def normBlock64 (x0 x1 : Vec Ideal S5000x128 .f32) (w0 w1 : Vec Ideal S128x64 .f32) (b0 b1 : Vec Ideal S1x64 .f32) : FVec Ideal S5000x64 .f32 :=
  divf (actBlock64 x0 x1 w0 w1 b0 b1)
    (broadcastTo S5000x64
      (maximumf (sqrt (shapeCast S5000x1
          (multiReduction .add [1] S5000 (mulf (actBlock64 x0 x1 w0 w1 b0 b1) (actBlock64 x0 x1 w0 w1 b0 b1)) 0x00000000#32 reduces_S5000x64_S5000 (.inl rfl) rfl)
          shapeCasts_S5000_S5000x1))
        (broadcast S5000x1 (Scalar.ofBits .f32 0x2B8CBCCC#32)))
      broadcasts_S5000x1_S5000x64)

theorem pay4_eq (x0 x1 : Vec Ideal S5000x128 .f32) (w0 w1 : Vec Ideal S128x64 .f32) (b0 b1 : Vec Ideal S1x64 .f32) : k4_pay1 x0 x1 w0 w1 b0 b1 = normBlock64 x0 x1 w0 w1 b0 b1 := rfl
theorem pay5_eq (x0 x1 : Vec Ideal S5000x128 .f32) (w0 w1 : Vec Ideal S128x64 .f32) (b0 b1 : Vec Ideal S1x64 .f32) : k5_pay1 x0 x1 w0 w1 b0 b1 = normBlock64 x0 x1 w0 w1 b0 b1 := rfl

/-- The activation block at (p, q) is the row activation of row p in column q. -/
theorem actBlock64_apply (x0 x1 : Vec Ideal S5000x128 .f32) (w0 w1 : Vec Ideal S128x64 .f32) (b0 b1 : Vec Ideal S1x64 .f32) (p : Fin 5000) (q : Fin 64) :
    actBlock64 x0 x1 w0 w1 b0 b1 (ix2 p q)
      = rowAct (fun k => x0 (ix2 p k)) (fun k => x1 (ix2 p k)) (fun k j => w0 (ix2 k j)) (fun k j => w1 (ix2 k j))
          (fun j => b0 (ix2 0 j)) (fun j => b1 (ix2 0 j)) q := by
  unfold actBlock64
  rw [maximumf_apply, addf_apply, addf_apply, addf_apply, mm64_apply, mm64_apply, biasRow64_apply, biasRow64_apply]
  simp only [shapeCast_self]
  rfl

/-- THE STORED BLOCK at (p, q): the layer's output for row p of the block, column q. -/
theorem normBlock64_apply (x0 x1 : Vec Ideal S5000x128 .f32) (w0 w1 : Vec Ideal S128x64 .f32) (b0 b1 : Vec Ideal S1x64 .f32) (p : Fin 5000) (q : Fin 64) :
    normBlock64 x0 x1 w0 w1 b0 b1 (ix2 p q)
      = rowOut (fun k => x0 (ix2 p k)) (fun k => x1 (ix2 p k)) (fun k j => w0 (ix2 k j)) (fun k j => w1 (ix2 k j))
          (fun j => b0 (ix2 0 j)) (fun j => b1 (ix2 0 j)) q := by
  unfold normBlock64
  rw [divf_apply, normCol64_apply, actBlock64_apply, maximumf_apply]
  have hs : shapeCast S5000x1 (multiReduction .add [1] S5000 (mulf (actBlock64 x0 x1 w0 w1 b0 b1) (actBlock64 x0 x1 w0 w1 b0 b1)) 0x00000000#32 reduces_S5000x64_S5000 (.inl rfl) rfl) shapeCasts_S5000_S5000x1 (ix2 p 0)
      = ∑ j : Fin 64, rowAct (fun k => x0 (ix2 p k)) (fun k => x1 (ix2 p k)) (fun k j => w0 (ix2 k j)) (fun k j => w1 (ix2 k j))
          (fun j => b0 (ix2 0 j)) (fun j => b1 (ix2 0 j)) j * rowAct (fun k => x0 (ix2 p k)) (fun k => x1 (ix2 p k)) (fun k j => w0 (ix2 k j)) (fun k j => w1 (ix2 k j))
          (fun j => b0 (ix2 0 j)) (fun j => b1 (ix2 0 j)) j := by
    refine (shapeCast_apply _ shapeCasts_S5000_S5000x1 (ix2 p 0) (ix1 p) (by
      rw [Shape.rowMajor_val_one, Shape.rowMajor_val_two]
      show p.val = p.val * 1 + 0
      omega)).trans ?_
    refine (laneSum64_apply _ (.inl rfl) rfl p).trans ?_
    refine Finset.sum_congr rfl fun j _ => ?_
    rw [mulf_apply, actBlock64_apply]
  show Ideal.div _ (max (Ideal.sqrt (shapeCast S5000x1 _ shapeCasts_S5000_S5000x1 (ix2 p 0))) _) = _
  rw [hs]
  rfl

end Cert.KernelIdeal.ConvPayload

end
-- ==== Proof.ConvRegion0.lean ====
/-
  Convolution launch 0: what its output array holds when the launch ends.

  The launch walks 10 blocks of 5000 rows. At block t it reads rows 5000·t … 5000·t + 4999 of the aggregated neighbour
  features and of the nodes' own features, the whole weight matrices and bias rows, and writes back rows
  5000·t … 5000·t + 4999 of the output. Each output row is a function of the same row of the two feature arrays
  (`ConvRow.rowOut`), so the block written at t is block t of ANY array `Z` that is row by row that function of the
  arrays the launch finds; the 10 blocks tile the [50000, 128] array (row r lies in block r / 5000), so the array ends
  equal to `Z`.
-/
import proofs.«153211_j15264313770095_1_alg».proof.Proof.Gen.KernelIdeal.Frame
import proofs.«153211_j15264313770095_1_alg».proof.Proof.ConvPayload
import Idealize.ShloMosaic.Lib.Pipeline.Value
import Idealize.ShloMosaic.Lib.ValueIdx

set_option maxRecDepth 16384

noncomputable section

namespace Cert.KernelIdeal.ConvRegion0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.ConvPayload Cert.ConvRow

theorem origin_zero : (![0, 0] : Fin 2 → Nat) = fun _ => 0 := funext fun a => by fin_cases a <;> rfl

/-- The printed index maps, decided over the grid: the two feature windows and the output window sit at block row t,
    block column 0; the weights and biases at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Feature window 0's block at point t is rows 5000·t … 5000·t + 4999 of its array. -/
theorem feat0_apply (c : Dev nD) (t : Fin cfg0.N) (p : Fin 5000) (k : Fin 128) (E : Fin 50000) (hE : E.val = t.val * 5000 + p.val) :
    (iblk0 V c 0 t : Vec Ideal S5000x128 .f32) (ix2 p k) = (V c main_v18 : S50000x128.Idx → EReal) (ix2 E k) := by
  obtain ⟨e00, e01, e10, e11, e20, e21, e30, e31, e40, e41, e50, e51, e60, e61⟩ := block_index t
  unfold iblk0
  rw [View.read_apply]
  show V c main_v18 _ = V c main_v18 _
  congr 1
  funext a
  apply Fin.ext
  match a with
  | ⟨0, _⟩ => show win0_0.index t 0 * 5000 + 1 * p.val = E.val; rw [e00, hE]; omega
  | ⟨1, _⟩ => show win0_0.index t 1 * 128 + 1 * k.val = k.val; rw [e01]; omega

/-- Feature window 1's block at point t is rows 5000·t … 5000·t + 4999 of its array. -/
theorem feat1_apply (c : Dev nD) (t : Fin cfg0.N) (p : Fin 5000) (k : Fin 128) (E : Fin 50000) (hE : E.val = t.val * 5000 + p.val) :
    (iblk0 V c 1 t : Vec Ideal S5000x128 .f32) (ix2 p k) = (V c main_arg1 : S50000x128.Idx → EReal) (ix2 E k) := by
  obtain ⟨e00, e01, e10, e11, e20, e21, e30, e31, e40, e41, e50, e51, e60, e61⟩ := block_index t
  unfold iblk0
  rw [View.read_apply]
  show V c main_arg1 _ = V c main_arg1 _
  congr 1
  funext a
  apply Fin.ext
  match a with
  | ⟨0, _⟩ => show win0_1.index t 0 * 5000 + 1 * p.val = E.val; rw [e10, hE]; omega
  | ⟨1, _⟩ => show win0_1.index t 1 * 128 + 1 * k.val = k.val; rw [e11]; omega

/-- Weight window 2's block at every point is its whole array. -/
theorem weight2_apply (c : Dev nD) (t : Fin cfg0.N) (k : Fin 128) (j : Fin 128) :
    (iblk0 V c 2 t : Vec Ideal S128x128 .f32) (ix2 k j) = (V c main_v20 : S128x128.Idx → EReal) (ix2 k j) := by
  obtain ⟨e00, e01, e10, e11, e20, e21, e30, e31, e40, e41, e50, e51, e60, e61⟩ := block_index t
  unfold iblk0
  rw [View.read_apply]
  show V c main_v20 _ = V c main_v20 _
  congr 1
  funext a
  apply Fin.ext
  match a with
  | ⟨0, _⟩ => show win0_2.index t 0 * 128 + 1 * k.val = k.val; rw [e20]; omega
  | ⟨1, _⟩ => show win0_2.index t 1 * 128 + 1 * j.val = j.val; rw [e21]; omega

/-- Weight window 4's block at every point is its whole array. -/
theorem weight4_apply (c : Dev nD) (t : Fin cfg0.N) (k : Fin 128) (j : Fin 128) :
    (iblk0 V c 4 t : Vec Ideal S128x128 .f32) (ix2 k j) = (V c main_v24 : S128x128.Idx → EReal) (ix2 k j) := by
  obtain ⟨e00, e01, e10, e11, e20, e21, e30, e31, e40, e41, e50, e51, e60, e61⟩ := block_index t
  unfold iblk0
  rw [View.read_apply]
  show V c main_v24 _ = V c main_v24 _
  congr 1
  funext a
  apply Fin.ext
  match a with
  | ⟨0, _⟩ => show win0_4.index t 0 * 128 + 1 * k.val = k.val; rw [e40]; omega
  | ⟨1, _⟩ => show win0_4.index t 1 * 128 + 1 * j.val = j.val; rw [e41]; omega

/-- Bias window 3's block at every point is its whole one-row array. -/
theorem bias3_apply (c : Dev nD) (t : Fin cfg0.N) (j : Fin 128) :
    (iblk0 V c 3 t : Vec Ideal S1x128 .f32) (ix2 (0 : Fin 1) j) = (V c main_v27 : S1x128.Idx → EReal) (ix2 (0 : Fin 1) j) := by
  obtain ⟨e00, e01, e10, e11, e20, e21, e30, e31, e40, e41, e50, e51, e60, e61⟩ := block_index t
  unfold iblk0
  rw [View.read_apply]
  show V c main_v27 _ = V c main_v27 _
  congr 1
  funext a
  apply Fin.ext
  match a with
  | ⟨0, _⟩ => show win0_3.index t 0 * 1 + 1 * 0 = 0; rw [e30]
  | ⟨1, _⟩ => show win0_3.index t 1 * 128 + 1 * j.val = j.val; rw [e31]; omega

/-- Bias window 5's block at every point is its whole one-row array. -/
theorem bias5_apply (c : Dev nD) (t : Fin cfg0.N) (j : Fin 128) :
    (iblk0 V c 5 t : Vec Ideal S1x128 .f32) (ix2 (0 : Fin 1) j) = (V c main_v28 : S1x128.Idx → EReal) (ix2 (0 : Fin 1) j) := by
  obtain ⟨e00, e01, e10, e11, e20, e21, e30, e31, e40, e41, e50, e51, e60, e61⟩ := block_index t
  unfold iblk0
  rw [View.read_apply]
  show V c main_v28 _ = V c main_v28 _
  congr 1
  funext a
  apply Fin.ext
  match a with
  | ⟨0, _⟩ => show win0_5.index t 0 * 1 + 1 * 0 = 0; rw [e50]
  | ⟨1, _⟩ => show win0_5.index t 1 * 128 + 1 * j.val = j.val; rw [e51]; omega

/-- What the body stores at (p, q) of point t's block is the layer's output for row 5000·t + p of the arrays the
    launch finds, column q. -/
theorem stored_apply (c : Dev nD) (t : Fin cfg0.N) (p : Fin 5000) (q : Fin 128) (E : Fin 50000) (hE : E.val = t.val * 5000 + p.val) :
    k0_pay1 (F := Ideal) (iblk0 V c 0 t) (iblk0 V c 1 t) (iblk0 V c 2 t) (iblk0 V c 4 t) (iblk0 V c 3 t) (iblk0 V c 5 t) (ix2 p q)
      = rowOut (fun k => (V c main_v18 : S50000x128.Idx → EReal) (ix2 E k)) (fun k => (V c main_arg1 : S50000x128.Idx → EReal) (ix2 E k))
          (fun k j => (V c main_v20 : S128x128.Idx → EReal) (ix2 k j)) (fun k j => (V c main_v24 : S128x128.Idx → EReal) (ix2 k j))
          (fun j => (V c main_v27 : S1x128.Idx → EReal) (ix2 (0 : Fin 1) j)) (fun j => (V c main_v28 : S1x128.Idx → EReal) (ix2 (0 : Fin 1) j)) q := by
  rw [pay0_eq]
  refine (normBlock128a_apply _ _ _ _ _ _ p q).trans ?_
  simp only [feat0_apply V c t p _ E hE, feat1_apply V c t p _ E hE, weight2_apply V c t, weight4_apply V c t, bias3_apply V c t, bias5_apply V c t]

/-- WHAT POINT t WRITES BACK is block t of any array that is, row by row, the layer's output of the arrays the launch
    finds. -/
theorem flushed_eq (c : Dev nD)
    (A0 A1 : S50000x128.Idx → EReal) (A2 A4 : S128x128.Idx → EReal) (A3 A5 : S1x128.Idx → EReal)
    (h0 : (V c main_v18 : S50000x128.Idx → EReal) = A0) (h1 : (V c main_arg1 : S50000x128.Idx → EReal) = A1)
    (h2 : (V c main_v20 : S128x128.Idx → EReal) = A2) (h3 : (V c main_v27 : S1x128.Idx → EReal) = A3)
    (h4 : (V c main_v24 : S128x128.Idx → EReal) = A4) (h5 : (V c main_v28 : S1x128.Idx → EReal) = A5)
    (Z : S50000x128.Idx → EReal)
    (hZ : ∀ (r : Fin 50000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q)
    (t : Fin cfg0.N) :
    (dat0 V c).flushed 6 t = ((cfg0.win 6).blk t).view.read (Elt Ideal) Z := by
  show (cfg0.win 6).cut (grid0.coords t) ((dat0 V c).after 6 t) = _
  rw [after0_6]
  unfold out0_6
  rw [View.canon_unit_zero origin_zero]
  simp only [View.ld_unit_zero (S := S5000x128) origin_zero, View.ld_unit_zero (S := S128x128) origin_zero, View.ld_unit_zero (S := S1x128) origin_zero]
  obtain ⟨e00, e01, e10, e11, e20, e21, e30, e31, e40, e41, e50, e51, e60, e61⟩ := block_index t
  funext j
  obtain ⟨p, q, rfl⟩ : ∃ (p : Fin 5000) (q : Fin 128), j = ix2 p q := ⟨j 0, j 1, eq_ix2 j⟩
  have hp : p.val < 5000 := p.isLt
  have ht : t.val < 10 := lt_of_lt_of_eq t.isLt N_0
  show k0_pay1 (F := Ideal) (iblk0 V c 0 t) (iblk0 V c 1 t) (iblk0 V c 2 t) (iblk0 V c 4 t) (iblk0 V c 3 t) (iblk0 V c 5 t) (ix2 p q)
    = Z (((cfg0.win 6).blk t).view.emb (ix2 p q))
  rw [stored_apply V c t p q ⟨t.val * 5000 + p.val, by omega⟩ rfl, h0, h1, h2, h3, h4, h5, ← hZ]
  congr 1
  funext a
  apply Fin.ext
  match a with
  | ⟨0, _⟩ => show t.val * 5000 + p.val = win0_6.index t 0 * 5000 + 1 * p.val; rw [e60]; omega
  | ⟨1, _⟩ => show q.val = win0_6.index t 1 * 128 + 1 * q.val; rw [e61]; omega

/-- An index of the array is in point t's block iff each coordinate is in the block's range on its axis. -/
theorem mem_block (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v29).slice (win0_6.rect t)).set ↔ _
  rw [View.set_slice_whole, Rect.mem_set_unit]
  exact Iff.rfl

/-- The blocks tile the array: row r lies in the block of point r / 5000. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41, e50, e51, e60, e61⟩ := block_index t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    rw [e60, ht]; omega
  | ⟨1, _⟩ =>
    show win0_6.index t (1 : Fin 2) * 128 ≤ (i 1).val ∧ (i 1).val < win0_6.index t (1 : Fin 2) * 128 + 128
    rw [e61]; omega

/-- THE OUTPUT ARRAY when the launch ends: any array that is, row by row, the layer's output of the arrays the launch
    finds. -/
theorem out_eq (c : Dev nD)
    (A0 A1 : S50000x128.Idx → EReal) (A2 A4 : S128x128.Idx → EReal) (A3 A5 : S1x128.Idx → EReal)
    (h0 : (V c main_v18 : S50000x128.Idx → EReal) = A0) (h1 : (V c main_arg1 : S50000x128.Idx → EReal) = A1)
    (h2 : (V c main_v20 : S128x128.Idx → EReal) = A2) (h3 : (V c main_v27 : S1x128.Idx → EReal) = A3)
    (h4 : (V c main_v24 : S128x128.Idx → EReal) = A4) (h5 : (V c main_v28 : S1x128.Idx → EReal) = A5)
    (Z : S50000x128.Idx → EReal)
    (hZ : ∀ (r : Fin 50000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q) :
    (dat0 V c).arrAt 6 cfg0.N = Z :=
  (dat0 V c).arrAt_eq_of_cover 6 Z (fun t _ => flushed_eq V c A0 A1 A2 A4 A3 A5 h0 h1 h2 h3 h4 h5 Z hZ t) covered

end Cert.KernelIdeal.ConvRegion0

end
-- ==== Proof.ConvRegion1.lean ====
/-
  Convolution launch 1: what its output array holds when the launch ends.

  The launch walks 20 blocks of 5000 rows. At block t it reads rows 5000·t … 5000·t + 4999 of the aggregated neighbour
  features and of the nodes' own features, the whole weight matrices and bias rows, and writes back rows
  5000·t … 5000·t + 4999 of the output. Each output row is a function of the same row of the two feature arrays
  (`ConvRow.rowOut`), so the block written at t is block t of ANY array `Z` that is row by row that function of the
  arrays the launch finds; the 20 blocks tile the [100000, 128] array (row r lies in block r / 5000), so the array ends
  equal to `Z`.
-/
import proofs.«153211_j15264313770095_1_alg».proof.Proof.Gen.KernelIdeal.Frame
import proofs.«153211_j15264313770095_1_alg».proof.Proof.ConvPayload
import Idealize.ShloMosaic.Lib.Pipeline.Value
import Idealize.ShloMosaic.Lib.ValueIdx

set_option maxRecDepth 16384

noncomputable section

namespace Cert.KernelIdeal.ConvRegion1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.ConvPayload Cert.ConvRow

theorem origin_zero : (![0, 0] : Fin 2 → Nat) = fun _ => 0 := funext fun a => by fin_cases a <;> rfl

/-- The printed index maps, decided over the grid: the two feature windows and the output window sit at block row t,
    block column 0; the weights and biases at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- Feature window 0's block at point t is rows 5000·t … 5000·t + 4999 of its array. -/
theorem feat0_apply (c : Dev nD) (t : Fin cfg1.N) (p : Fin 5000) (k : Fin 128) (E : Fin 100000) (hE : E.val = t.val * 5000 + p.val) :
    (iblk1 V c 0 t : Vec Ideal S5000x128 .f32) (ix2 p k) = (V c main_v48 : S100000x128.Idx → EReal) (ix2 E k) := by
  obtain ⟨e00, e01, e10, e11, e20, e21, e30, e31, e40, e41, e50, e51, e60, e61⟩ := block_index t
  unfold iblk1
  rw [View.read_apply]
  show V c main_v48 _ = V c main_v48 _
  congr 1
  funext a
  apply Fin.ext
  match a with
  | ⟨0, _⟩ => show win1_0.index t 0 * 5000 + 1 * p.val = E.val; rw [e00, hE]; omega
  | ⟨1, _⟩ => show win1_0.index t 1 * 128 + 1 * k.val = k.val; rw [e01]; omega

/-- Feature window 1's block at point t is rows 5000·t … 5000·t + 4999 of its array. -/
theorem feat1_apply (c : Dev nD) (t : Fin cfg1.N) (p : Fin 5000) (k : Fin 128) (E : Fin 100000) (hE : E.val = t.val * 5000 + p.val) :
    (iblk1 V c 1 t : Vec Ideal S5000x128 .f32) (ix2 p k) = (V c main_arg0 : S100000x128.Idx → EReal) (ix2 E k) := by
  obtain ⟨e00, e01, e10, e11, e20, e21, e30, e31, e40, e41, e50, e51, e60, e61⟩ := block_index t
  unfold iblk1
  rw [View.read_apply]
  show V c main_arg0 _ = V c main_arg0 _
  congr 1
  funext a
  apply Fin.ext
  match a with
  | ⟨0, _⟩ => show win1_1.index t 0 * 5000 + 1 * p.val = E.val; rw [e10, hE]; omega
  | ⟨1, _⟩ => show win1_1.index t 1 * 128 + 1 * k.val = k.val; rw [e11]; omega

/-- Weight window 2's block at every point is its whole array. -/
theorem weight2_apply (c : Dev nD) (t : Fin cfg1.N) (k : Fin 128) (j : Fin 128) :
    (iblk1 V c 2 t : Vec Ideal S128x128 .f32) (ix2 k j) = (V c main_v50 : S128x128.Idx → EReal) (ix2 k j) := by
  obtain ⟨e00, e01, e10, e11, e20, e21, e30, e31, e40, e41, e50, e51, e60, e61⟩ := block_index t
  unfold iblk1
  rw [View.read_apply]
  show V c main_v50 _ = V c main_v50 _
  congr 1
  funext a
  apply Fin.ext
  match a with
  | ⟨0, _⟩ => show win1_2.index t 0 * 128 + 1 * k.val = k.val; rw [e20]; omega
  | ⟨1, _⟩ => show win1_2.index t 1 * 128 + 1 * j.val = j.val; rw [e21]; omega

/-- Weight window 4's block at every point is its whole array. -/
theorem weight4_apply (c : Dev nD) (t : Fin cfg1.N) (k : Fin 128) (j : Fin 128) :
    (iblk1 V c 4 t : Vec Ideal S128x128 .f32) (ix2 k j) = (V c main_v54 : S128x128.Idx → EReal) (ix2 k j) := by
  obtain ⟨e00, e01, e10, e11, e20, e21, e30, e31, e40, e41, e50, e51, e60, e61⟩ := block_index t
  unfold iblk1
  rw [View.read_apply]
  show V c main_v54 _ = V c main_v54 _
  congr 1
  funext a
  apply Fin.ext
  match a with
  | ⟨0, _⟩ => show win1_4.index t 0 * 128 + 1 * k.val = k.val; rw [e40]; omega
  | ⟨1, _⟩ => show win1_4.index t 1 * 128 + 1 * j.val = j.val; rw [e41]; omega

/-- Bias window 3's block at every point is its whole one-row array. -/
theorem bias3_apply (c : Dev nD) (t : Fin cfg1.N) (j : Fin 128) :
    (iblk1 V c 3 t : Vec Ideal S1x128 .f32) (ix2 (0 : Fin 1) j) = (V c main_v57 : S1x128.Idx → EReal) (ix2 (0 : Fin 1) j) := by
  obtain ⟨e00, e01, e10, e11, e20, e21, e30, e31, e40, e41, e50, e51, e60, e61⟩ := block_index t
  unfold iblk1
  rw [View.read_apply]
  show V c main_v57 _ = V c main_v57 _
  congr 1
  funext a
  apply Fin.ext
  match a with
  | ⟨0, _⟩ => show win1_3.index t 0 * 1 + 1 * 0 = 0; rw [e30]
  | ⟨1, _⟩ => show win1_3.index t 1 * 128 + 1 * j.val = j.val; rw [e31]; omega

/-- Bias window 5's block at every point is its whole one-row array. -/
theorem bias5_apply (c : Dev nD) (t : Fin cfg1.N) (j : Fin 128) :
    (iblk1 V c 5 t : Vec Ideal S1x128 .f32) (ix2 (0 : Fin 1) j) = (V c main_v58 : S1x128.Idx → EReal) (ix2 (0 : Fin 1) j) := by
  obtain ⟨e00, e01, e10, e11, e20, e21, e30, e31, e40, e41, e50, e51, e60, e61⟩ := block_index t
  unfold iblk1
  rw [View.read_apply]
  show V c main_v58 _ = V c main_v58 _
  congr 1
  funext a
  apply Fin.ext
  match a with
  | ⟨0, _⟩ => show win1_5.index t 0 * 1 + 1 * 0 = 0; rw [e50]
  | ⟨1, _⟩ => show win1_5.index t 1 * 128 + 1 * j.val = j.val; rw [e51]; omega

/-- What the body stores at (p, q) of point t's block is the layer's output for row 5000·t + p of the arrays the
    launch finds, column q. -/
theorem stored_apply (c : Dev nD) (t : Fin cfg1.N) (p : Fin 5000) (q : Fin 128) (E : Fin 100000) (hE : E.val = t.val * 5000 + p.val) :
    k1_pay1 (F := Ideal) (iblk1 V c 0 t) (iblk1 V c 1 t) (iblk1 V c 2 t) (iblk1 V c 4 t) (iblk1 V c 3 t) (iblk1 V c 5 t) (ix2 p q)
      = rowOut (fun k => (V c main_v48 : S100000x128.Idx → EReal) (ix2 E k)) (fun k => (V c main_arg0 : S100000x128.Idx → EReal) (ix2 E k))
          (fun k j => (V c main_v50 : S128x128.Idx → EReal) (ix2 k j)) (fun k j => (V c main_v54 : S128x128.Idx → EReal) (ix2 k j))
          (fun j => (V c main_v57 : S1x128.Idx → EReal) (ix2 (0 : Fin 1) j)) (fun j => (V c main_v58 : S1x128.Idx → EReal) (ix2 (0 : Fin 1) j)) q := by
  rw [pay1_eq]
  refine (normBlock128a_apply _ _ _ _ _ _ p q).trans ?_
  simp only [feat0_apply V c t p _ E hE, feat1_apply V c t p _ E hE, weight2_apply V c t, weight4_apply V c t, bias3_apply V c t, bias5_apply V c t]

/-- WHAT POINT t WRITES BACK is block t of any array that is, row by row, the layer's output of the arrays the launch
    finds. -/
theorem flushed_eq (c : Dev nD)
    (A0 A1 : S100000x128.Idx → EReal) (A2 A4 : S128x128.Idx → EReal) (A3 A5 : S1x128.Idx → EReal)
    (h0 : (V c main_v48 : S100000x128.Idx → EReal) = A0) (h1 : (V c main_arg0 : S100000x128.Idx → EReal) = A1)
    (h2 : (V c main_v50 : S128x128.Idx → EReal) = A2) (h3 : (V c main_v57 : S1x128.Idx → EReal) = A3)
    (h4 : (V c main_v54 : S128x128.Idx → EReal) = A4) (h5 : (V c main_v58 : S1x128.Idx → EReal) = A5)
    (Z : S100000x128.Idx → EReal)
    (hZ : ∀ (r : Fin 100000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q)
    (t : Fin cfg1.N) :
    (dat1 V c).flushed 6 t = ((cfg1.win 6).blk t).view.read (Elt Ideal) Z := by
  show (cfg1.win 6).cut (grid1.coords t) ((dat1 V c).after 6 t) = _
  rw [after1_6]
  unfold out1_6
  rw [View.canon_unit_zero origin_zero]
  simp only [View.ld_unit_zero (S := S5000x128) origin_zero, View.ld_unit_zero (S := S128x128) origin_zero, View.ld_unit_zero (S := S1x128) origin_zero]
  obtain ⟨e00, e01, e10, e11, e20, e21, e30, e31, e40, e41, e50, e51, e60, e61⟩ := block_index t
  funext j
  obtain ⟨p, q, rfl⟩ : ∃ (p : Fin 5000) (q : Fin 128), j = ix2 p q := ⟨j 0, j 1, eq_ix2 j⟩
  have hp : p.val < 5000 := p.isLt
  have ht : t.val < 20 := lt_of_lt_of_eq t.isLt N_1
  show k1_pay1 (F := Ideal) (iblk1 V c 0 t) (iblk1 V c 1 t) (iblk1 V c 2 t) (iblk1 V c 4 t) (iblk1 V c 3 t) (iblk1 V c 5 t) (ix2 p q)
    = Z (((cfg1.win 6).blk t).view.emb (ix2 p q))
  rw [stored_apply V c t p q ⟨t.val * 5000 + p.val, by omega⟩ rfl, h0, h1, h2, h3, h4, h5, ← hZ]
  congr 1
  funext a
  apply Fin.ext
  match a with
  | ⟨0, _⟩ => show t.val * 5000 + p.val = win1_6.index t 0 * 5000 + 1 * p.val; rw [e60]; omega
  | ⟨1, _⟩ => show q.val = win1_6.index t 1 * 128 + 1 * q.val; rw [e61]; omega

/-- An index of the array is in point t's block iff each coordinate is in the block's range on its axis. -/
theorem mem_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v59).slice (win1_6.rect t)).set ↔ _
  rw [View.set_slice_whole, Rect.mem_set_unit]
  exact Iff.rfl

/-- The blocks tile the array: row r lies in the block of point r / 5000. -/
theorem covered (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51, e60, e61⟩ := block_index t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    rw [e60, ht]; omega
  | ⟨1, _⟩ =>
    show win1_6.index t (1 : Fin 2) * 128 ≤ (i 1).val ∧ (i 1).val < win1_6.index t (1 : Fin 2) * 128 + 128
    rw [e61]; omega

/-- THE OUTPUT ARRAY when the launch ends: any array that is, row by row, the layer's output of the arrays the launch
    finds. -/
theorem out_eq (c : Dev nD)
    (A0 A1 : S100000x128.Idx → EReal) (A2 A4 : S128x128.Idx → EReal) (A3 A5 : S1x128.Idx → EReal)
    (h0 : (V c main_v48 : S100000x128.Idx → EReal) = A0) (h1 : (V c main_arg0 : S100000x128.Idx → EReal) = A1)
    (h2 : (V c main_v50 : S128x128.Idx → EReal) = A2) (h3 : (V c main_v57 : S1x128.Idx → EReal) = A3)
    (h4 : (V c main_v54 : S128x128.Idx → EReal) = A4) (h5 : (V c main_v58 : S1x128.Idx → EReal) = A5)
    (Z : S100000x128.Idx → EReal)
    (hZ : ∀ (r : Fin 100000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q) :
    (dat1 V c).arrAt 6 cfg1.N = Z :=
  (dat1 V c).arrAt_eq_of_cover 6 Z (fun t _ => flushed_eq V c A0 A1 A2 A4 A3 A5 h0 h1 h2 h3 h4 h5 Z hZ t) covered

end Cert.KernelIdeal.ConvRegion1

end
-- ==== Proof.ConvRegion2.lean ====
/-
  Convolution launch 2: what its output array holds when the launch ends.

  The launch walks 10 blocks of 5000 rows. At block t it reads rows 5000·t … 5000·t + 4999 of the aggregated neighbour
  features and of the nodes' own features, the whole weight matrices and bias rows, and writes back rows
  5000·t … 5000·t + 4999 of the output. Each output row is a function of the same row of the two feature arrays
  (`ConvRow.rowOut`), so the block written at t is block t of ANY array `Z` that is row by row that function of the
  arrays the launch finds; the 10 blocks tile the [50000, 128] array (row r lies in block r / 5000), so the array ends
  equal to `Z`.
-/
import proofs.«153211_j15264313770095_1_alg».proof.Proof.Gen.KernelIdeal.Frame
import proofs.«153211_j15264313770095_1_alg».proof.Proof.ConvPayload
import Idealize.ShloMosaic.Lib.Pipeline.Value
import Idealize.ShloMosaic.Lib.ValueIdx

set_option maxRecDepth 16384

noncomputable section

namespace Cert.KernelIdeal.ConvRegion2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.ConvPayload Cert.ConvRow

theorem origin_zero : (![0, 0] : Fin 2 → Nat) = fun _ => 0 := funext fun a => by fin_cases a <;> rfl

/-- The printed index maps, decided over the grid: the two feature windows and the output window sit at block row t,
    block column 0; the weights and biases at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- Feature window 0's block at point t is rows 5000·t … 5000·t + 4999 of its array. -/
theorem feat0_apply (c : Dev nD) (t : Fin cfg2.N) (p : Fin 5000) (k : Fin 128) (E : Fin 50000) (hE : E.val = t.val * 5000 + p.val) :
    (iblk2 V c 0 t : Vec Ideal S5000x128 .f32) (ix2 p k) = (V c main_v78 : S50000x128.Idx → EReal) (ix2 E k) := by
  obtain ⟨e00, e01, e10, e11, e20, e21, e30, e31, e40, e41, e50, e51, e60, e61⟩ := block_index t
  unfold iblk2
  rw [View.read_apply]
  show V c main_v78 _ = V c main_v78 _
  congr 1
  funext a
  apply Fin.ext
  match a with
  | ⟨0, _⟩ => show win2_0.index t 0 * 5000 + 1 * p.val = E.val; rw [e00, hE]; omega
  | ⟨1, _⟩ => show win2_0.index t 1 * 128 + 1 * k.val = k.val; rw [e01]; omega

/-- Feature window 1's block at point t is rows 5000·t … 5000·t + 4999 of its array. -/
theorem feat1_apply (c : Dev nD) (t : Fin cfg2.N) (p : Fin 5000) (k : Fin 128) (E : Fin 50000) (hE : E.val = t.val * 5000 + p.val) :
    (iblk2 V c 1 t : Vec Ideal S5000x128 .f32) (ix2 p k) = (V c main_v29 : S50000x128.Idx → EReal) (ix2 E k) := by
  obtain ⟨e00, e01, e10, e11, e20, e21, e30, e31, e40, e41, e50, e51, e60, e61⟩ := block_index t
  unfold iblk2
  rw [View.read_apply]
  show V c main_v29 _ = V c main_v29 _
  congr 1
  funext a
  apply Fin.ext
  match a with
  | ⟨0, _⟩ => show win2_1.index t 0 * 5000 + 1 * p.val = E.val; rw [e10, hE]; omega
  | ⟨1, _⟩ => show win2_1.index t 1 * 128 + 1 * k.val = k.val; rw [e11]; omega

/-- Weight window 2's block at every point is its whole array. -/
theorem weight2_apply (c : Dev nD) (t : Fin cfg2.N) (k : Fin 128) (j : Fin 128) :
    (iblk2 V c 2 t : Vec Ideal S128x128 .f32) (ix2 k j) = (V c main_v80 : S128x128.Idx → EReal) (ix2 k j) := by
  obtain ⟨e00, e01, e10, e11, e20, e21, e30, e31, e40, e41, e50, e51, e60, e61⟩ := block_index t
  unfold iblk2
  rw [View.read_apply]
  show V c main_v80 _ = V c main_v80 _
  congr 1
  funext a
  apply Fin.ext
  match a with
  | ⟨0, _⟩ => show win2_2.index t 0 * 128 + 1 * k.val = k.val; rw [e20]; omega
  | ⟨1, _⟩ => show win2_2.index t 1 * 128 + 1 * j.val = j.val; rw [e21]; omega

/-- Weight window 4's block at every point is its whole array. -/
theorem weight4_apply (c : Dev nD) (t : Fin cfg2.N) (k : Fin 128) (j : Fin 128) :
    (iblk2 V c 4 t : Vec Ideal S128x128 .f32) (ix2 k j) = (V c main_v84 : S128x128.Idx → EReal) (ix2 k j) := by
  obtain ⟨e00, e01, e10, e11, e20, e21, e30, e31, e40, e41, e50, e51, e60, e61⟩ := block_index t
  unfold iblk2
  rw [View.read_apply]
  show V c main_v84 _ = V c main_v84 _
  congr 1
  funext a
  apply Fin.ext
  match a with
  | ⟨0, _⟩ => show win2_4.index t 0 * 128 + 1 * k.val = k.val; rw [e40]; omega
  | ⟨1, _⟩ => show win2_4.index t 1 * 128 + 1 * j.val = j.val; rw [e41]; omega

/-- Bias window 3's block at every point is its whole one-row array. -/
theorem bias3_apply (c : Dev nD) (t : Fin cfg2.N) (j : Fin 128) :
    (iblk2 V c 3 t : Vec Ideal S1x128 .f32) (ix2 (0 : Fin 1) j) = (V c main_v87 : S1x128.Idx → EReal) (ix2 (0 : Fin 1) j) := by
  obtain ⟨e00, e01, e10, e11, e20, e21, e30, e31, e40, e41, e50, e51, e60, e61⟩ := block_index t
  unfold iblk2
  rw [View.read_apply]
  show V c main_v87 _ = V c main_v87 _
  congr 1
  funext a
  apply Fin.ext
  match a with
  | ⟨0, _⟩ => show win2_3.index t 0 * 1 + 1 * 0 = 0; rw [e30]
  | ⟨1, _⟩ => show win2_3.index t 1 * 128 + 1 * j.val = j.val; rw [e31]; omega

/-- Bias window 5's block at every point is its whole one-row array. -/
theorem bias5_apply (c : Dev nD) (t : Fin cfg2.N) (j : Fin 128) :
    (iblk2 V c 5 t : Vec Ideal S1x128 .f32) (ix2 (0 : Fin 1) j) = (V c main_v88 : S1x128.Idx → EReal) (ix2 (0 : Fin 1) j) := by
  obtain ⟨e00, e01, e10, e11, e20, e21, e30, e31, e40, e41, e50, e51, e60, e61⟩ := block_index t
  unfold iblk2
  rw [View.read_apply]
  show V c main_v88 _ = V c main_v88 _
  congr 1
  funext a
  apply Fin.ext
  match a with
  | ⟨0, _⟩ => show win2_5.index t 0 * 1 + 1 * 0 = 0; rw [e50]
  | ⟨1, _⟩ => show win2_5.index t 1 * 128 + 1 * j.val = j.val; rw [e51]; omega

/-- What the body stores at (p, q) of point t's block is the layer's output for row 5000·t + p of the arrays the
    launch finds, column q. -/
theorem stored_apply (c : Dev nD) (t : Fin cfg2.N) (p : Fin 5000) (q : Fin 128) (E : Fin 50000) (hE : E.val = t.val * 5000 + p.val) :
    k2_pay1 (F := Ideal) (iblk2 V c 0 t) (iblk2 V c 1 t) (iblk2 V c 2 t) (iblk2 V c 4 t) (iblk2 V c 3 t) (iblk2 V c 5 t) (ix2 p q)
      = rowOut (fun k => (V c main_v78 : S50000x128.Idx → EReal) (ix2 E k)) (fun k => (V c main_v29 : S50000x128.Idx → EReal) (ix2 E k))
          (fun k j => (V c main_v80 : S128x128.Idx → EReal) (ix2 k j)) (fun k j => (V c main_v84 : S128x128.Idx → EReal) (ix2 k j))
          (fun j => (V c main_v87 : S1x128.Idx → EReal) (ix2 (0 : Fin 1) j)) (fun j => (V c main_v88 : S1x128.Idx → EReal) (ix2 (0 : Fin 1) j)) q := by
  rw [pay2_eq]
  refine (normBlock128b_apply _ _ _ _ _ _ p q).trans ?_
  simp only [feat0_apply V c t p _ E hE, feat1_apply V c t p _ E hE, weight2_apply V c t, weight4_apply V c t, bias3_apply V c t, bias5_apply V c t]

/-- WHAT POINT t WRITES BACK is block t of any array that is, row by row, the layer's output of the arrays the launch
    finds. -/
theorem flushed_eq (c : Dev nD)
    (A0 A1 : S50000x128.Idx → EReal) (A2 A4 : S128x128.Idx → EReal) (A3 A5 : S1x128.Idx → EReal)
    (h0 : (V c main_v78 : S50000x128.Idx → EReal) = A0) (h1 : (V c main_v29 : S50000x128.Idx → EReal) = A1)
    (h2 : (V c main_v80 : S128x128.Idx → EReal) = A2) (h3 : (V c main_v87 : S1x128.Idx → EReal) = A3)
    (h4 : (V c main_v84 : S128x128.Idx → EReal) = A4) (h5 : (V c main_v88 : S1x128.Idx → EReal) = A5)
    (Z : S50000x128.Idx → EReal)
    (hZ : ∀ (r : Fin 50000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q)
    (t : Fin cfg2.N) :
    (dat2 V c).flushed 6 t = ((cfg2.win 6).blk t).view.read (Elt Ideal) Z := by
  show (cfg2.win 6).cut (grid2.coords t) ((dat2 V c).after 6 t) = _
  rw [after2_6]
  unfold out2_6
  rw [View.canon_unit_zero origin_zero]
  simp only [View.ld_unit_zero (S := S5000x128) origin_zero, View.ld_unit_zero (S := S128x128) origin_zero, View.ld_unit_zero (S := S1x128) origin_zero]
  obtain ⟨e00, e01, e10, e11, e20, e21, e30, e31, e40, e41, e50, e51, e60, e61⟩ := block_index t
  funext j
  obtain ⟨p, q, rfl⟩ : ∃ (p : Fin 5000) (q : Fin 128), j = ix2 p q := ⟨j 0, j 1, eq_ix2 j⟩
  have hp : p.val < 5000 := p.isLt
  have ht : t.val < 10 := lt_of_lt_of_eq t.isLt N_2
  show k2_pay1 (F := Ideal) (iblk2 V c 0 t) (iblk2 V c 1 t) (iblk2 V c 2 t) (iblk2 V c 4 t) (iblk2 V c 3 t) (iblk2 V c 5 t) (ix2 p q)
    = Z (((cfg2.win 6).blk t).view.emb (ix2 p q))
  rw [stored_apply V c t p q ⟨t.val * 5000 + p.val, by omega⟩ rfl, h0, h1, h2, h3, h4, h5, ← hZ]
  congr 1
  funext a
  apply Fin.ext
  match a with
  | ⟨0, _⟩ => show t.val * 5000 + p.val = win2_6.index t 0 * 5000 + 1 * p.val; rw [e60]; omega
  | ⟨1, _⟩ => show q.val = win2_6.index t 1 * 128 + 1 * q.val; rw [e61]; omega

/-- An index of the array is in point t's block iff each coordinate is in the block's range on its axis. -/
theorem mem_block (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v89).slice (win2_6.rect t)).set ↔ _
  rw [View.set_slice_whole, Rect.mem_set_unit]
  exact Iff.rfl

/-- The blocks tile the array: row r lies in the block of point r / 5000. -/
theorem covered (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e00, e01, e10, e11, e20, e21, e30, e31, e40, e41, e50, e51, e60, e61⟩ := block_index t
  refine ⟨t, flush2_6 t, ?_⟩
  rw [mem_block]
  intro a
  match a with
  | ⟨0, _⟩ =>
    show win2_6.index t (0 : Fin 2) * 5000 ≤ (i 0).val ∧ (i 0).val < win2_6.index t (0 : Fin 2) * 5000 + 5000
    rw [e60, ht]; omega
  | ⟨1, _⟩ =>
    show win2_6.index t (1 : Fin 2) * 128 ≤ (i 1).val ∧ (i 1).val < win2_6.index t (1 : Fin 2) * 128 + 128
    rw [e61]; omega

/-- THE OUTPUT ARRAY when the launch ends: any array that is, row by row, the layer's output of the arrays the launch
    finds. -/
theorem out_eq (c : Dev nD)
    (A0 A1 : S50000x128.Idx → EReal) (A2 A4 : S128x128.Idx → EReal) (A3 A5 : S1x128.Idx → EReal)
    (h0 : (V c main_v78 : S50000x128.Idx → EReal) = A0) (h1 : (V c main_v29 : S50000x128.Idx → EReal) = A1)
    (h2 : (V c main_v80 : S128x128.Idx → EReal) = A2) (h3 : (V c main_v87 : S1x128.Idx → EReal) = A3)
    (h4 : (V c main_v84 : S128x128.Idx → EReal) = A4) (h5 : (V c main_v88 : S1x128.Idx → EReal) = A5)
    (Z : S50000x128.Idx → EReal)
    (hZ : ∀ (r : Fin 50000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q) :
    (dat2 V c).arrAt 6 cfg2.N = Z :=
  (dat2 V c).arrAt_eq_of_cover 6 Z (fun t _ => flushed_eq V c A0 A1 A2 A4 A3 A5 h0 h1 h2 h3 h4 h5 Z hZ t) covered

end Cert.KernelIdeal.ConvRegion2

end
-- ==== Proof.ConvRegion3.lean ====
/-
  Convolution launch 3: what its output array holds when the launch ends.

  The launch walks 20 blocks of 5000 rows. At block t it reads rows 5000·t … 5000·t + 4999 of the aggregated neighbour
  features and of the nodes' own features, the whole weight matrices and bias rows, and writes back rows
  5000·t … 5000·t + 4999 of the output. Each output row is a function of the same row of the two feature arrays
  (`ConvRow.rowOut`), so the block written at t is block t of ANY array `Z` that is row by row that function of the
  arrays the launch finds; the 20 blocks tile the [100000, 128] array (row r lies in block r / 5000), so the array ends
  equal to `Z`.
-/
import proofs.«153211_j15264313770095_1_alg».proof.Proof.Gen.KernelIdeal.Frame
import proofs.«153211_j15264313770095_1_alg».proof.Proof.ConvPayload
import Idealize.ShloMosaic.Lib.Pipeline.Value
import Idealize.ShloMosaic.Lib.ValueIdx

set_option maxRecDepth 16384

noncomputable section

namespace Cert.KernelIdeal.ConvRegion3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.ConvPayload Cert.ConvRow

theorem origin_zero : (![0, 0] : Fin 2 → Nat) = fun _ => 0 := funext fun a => by fin_cases a <;> rfl

/-- The printed index maps, decided over the grid: the two feature windows and the output window sit at block row t,
    block column 0; the weights and biases at block (0, 0). -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- Feature window 0's block at point t is rows 5000·t … 5000·t + 4999 of its array. -/
theorem feat0_apply (c : Dev nD) (t : Fin cfg3.N) (p : Fin 5000) (k : Fin 128) (E : Fin 100000) (hE : E.val = t.val * 5000 + p.val) :
    (iblk3 V c 0 t : Vec Ideal S5000x128 .f32) (ix2 p k) = (V c main_v108 : S100000x128.Idx → EReal) (ix2 E k) := by
  obtain ⟨e00, e01, e10, e11, e20, e21, e30, e31, e40, e41, e50, e51, e60, e61⟩ := block_index t
  unfold iblk3
  rw [View.read_apply]
  show V c main_v108 _ = V c main_v108 _
  congr 1
  funext a
  apply Fin.ext
  match a with
  | ⟨0, _⟩ => show win3_0.index t 0 * 5000 + 1 * p.val = E.val; rw [e00, hE]; omega
  | ⟨1, _⟩ => show win3_0.index t 1 * 128 + 1 * k.val = k.val; rw [e01]; omega

/-- Feature window 1's block at point t is rows 5000·t … 5000·t + 4999 of its array. -/
theorem feat1_apply (c : Dev nD) (t : Fin cfg3.N) (p : Fin 5000) (k : Fin 128) (E : Fin 100000) (hE : E.val = t.val * 5000 + p.val) :
    (iblk3 V c 1 t : Vec Ideal S5000x128 .f32) (ix2 p k) = (V c main_v59 : S100000x128.Idx → EReal) (ix2 E k) := by
  obtain ⟨e00, e01, e10, e11, e20, e21, e30, e31, e40, e41, e50, e51, e60, e61⟩ := block_index t
  unfold iblk3
  rw [View.read_apply]
  show V c main_v59 _ = V c main_v59 _
  congr 1
  funext a
  apply Fin.ext
  match a with
  | ⟨0, _⟩ => show win3_1.index t 0 * 5000 + 1 * p.val = E.val; rw [e10, hE]; omega
  | ⟨1, _⟩ => show win3_1.index t 1 * 128 + 1 * k.val = k.val; rw [e11]; omega

/-- Weight window 2's block at every point is its whole array. -/
theorem weight2_apply (c : Dev nD) (t : Fin cfg3.N) (k : Fin 128) (j : Fin 128) :
    (iblk3 V c 2 t : Vec Ideal S128x128 .f32) (ix2 k j) = (V c main_v110 : S128x128.Idx → EReal) (ix2 k j) := by
  obtain ⟨e00, e01, e10, e11, e20, e21, e30, e31, e40, e41, e50, e51, e60, e61⟩ := block_index t
  unfold iblk3
  rw [View.read_apply]
  show V c main_v110 _ = V c main_v110 _
  congr 1
  funext a
  apply Fin.ext
  match a with
  | ⟨0, _⟩ => show win3_2.index t 0 * 128 + 1 * k.val = k.val; rw [e20]; omega
  | ⟨1, _⟩ => show win3_2.index t 1 * 128 + 1 * j.val = j.val; rw [e21]; omega

/-- Weight window 4's block at every point is its whole array. -/
theorem weight4_apply (c : Dev nD) (t : Fin cfg3.N) (k : Fin 128) (j : Fin 128) :
    (iblk3 V c 4 t : Vec Ideal S128x128 .f32) (ix2 k j) = (V c main_v114 : S128x128.Idx → EReal) (ix2 k j) := by
  obtain ⟨e00, e01, e10, e11, e20, e21, e30, e31, e40, e41, e50, e51, e60, e61⟩ := block_index t
  unfold iblk3
  rw [View.read_apply]
  show V c main_v114 _ = V c main_v114 _
  congr 1
  funext a
  apply Fin.ext
  match a with
  | ⟨0, _⟩ => show win3_4.index t 0 * 128 + 1 * k.val = k.val; rw [e40]; omega
  | ⟨1, _⟩ => show win3_4.index t 1 * 128 + 1 * j.val = j.val; rw [e41]; omega

/-- Bias window 3's block at every point is its whole one-row array. -/
theorem bias3_apply (c : Dev nD) (t : Fin cfg3.N) (j : Fin 128) :
    (iblk3 V c 3 t : Vec Ideal S1x128 .f32) (ix2 (0 : Fin 1) j) = (V c main_v117 : S1x128.Idx → EReal) (ix2 (0 : Fin 1) j) := by
  obtain ⟨e00, e01, e10, e11, e20, e21, e30, e31, e40, e41, e50, e51, e60, e61⟩ := block_index t
  unfold iblk3
  rw [View.read_apply]
  show V c main_v117 _ = V c main_v117 _
  congr 1
  funext a
  apply Fin.ext
  match a with
  | ⟨0, _⟩ => show win3_3.index t 0 * 1 + 1 * 0 = 0; rw [e30]
  | ⟨1, _⟩ => show win3_3.index t 1 * 128 + 1 * j.val = j.val; rw [e31]; omega

/-- Bias window 5's block at every point is its whole one-row array. -/
theorem bias5_apply (c : Dev nD) (t : Fin cfg3.N) (j : Fin 128) :
    (iblk3 V c 5 t : Vec Ideal S1x128 .f32) (ix2 (0 : Fin 1) j) = (V c main_v118 : S1x128.Idx → EReal) (ix2 (0 : Fin 1) j) := by
  obtain ⟨e00, e01, e10, e11, e20, e21, e30, e31, e40, e41, e50, e51, e60, e61⟩ := block_index t
  unfold iblk3
  rw [View.read_apply]
  show V c main_v118 _ = V c main_v118 _
  congr 1
  funext a
  apply Fin.ext
  match a with
  | ⟨0, _⟩ => show win3_5.index t 0 * 1 + 1 * 0 = 0; rw [e50]
  | ⟨1, _⟩ => show win3_5.index t 1 * 128 + 1 * j.val = j.val; rw [e51]; omega

/-- What the body stores at (p, q) of point t's block is the layer's output for row 5000·t + p of the arrays the
    launch finds, column q. -/
theorem stored_apply (c : Dev nD) (t : Fin cfg3.N) (p : Fin 5000) (q : Fin 128) (E : Fin 100000) (hE : E.val = t.val * 5000 + p.val) :
    k3_pay1 (F := Ideal) (iblk3 V c 0 t) (iblk3 V c 1 t) (iblk3 V c 2 t) (iblk3 V c 4 t) (iblk3 V c 3 t) (iblk3 V c 5 t) (ix2 p q)
      = rowOut (fun k => (V c main_v108 : S100000x128.Idx → EReal) (ix2 E k)) (fun k => (V c main_v59 : S100000x128.Idx → EReal) (ix2 E k))
          (fun k j => (V c main_v110 : S128x128.Idx → EReal) (ix2 k j)) (fun k j => (V c main_v114 : S128x128.Idx → EReal) (ix2 k j))
          (fun j => (V c main_v117 : S1x128.Idx → EReal) (ix2 (0 : Fin 1) j)) (fun j => (V c main_v118 : S1x128.Idx → EReal) (ix2 (0 : Fin 1) j)) q := by
  rw [pay3_eq]
  refine (normBlock128b_apply _ _ _ _ _ _ p q).trans ?_
  simp only [feat0_apply V c t p _ E hE, feat1_apply V c t p _ E hE, weight2_apply V c t, weight4_apply V c t, bias3_apply V c t, bias5_apply V c t]

/-- WHAT POINT t WRITES BACK is block t of any array that is, row by row, the layer's output of the arrays the launch
    finds. -/
theorem flushed_eq (c : Dev nD)
    (A0 A1 : S100000x128.Idx → EReal) (A2 A4 : S128x128.Idx → EReal) (A3 A5 : S1x128.Idx → EReal)
    (h0 : (V c main_v108 : S100000x128.Idx → EReal) = A0) (h1 : (V c main_v59 : S100000x128.Idx → EReal) = A1)
    (h2 : (V c main_v110 : S128x128.Idx → EReal) = A2) (h3 : (V c main_v117 : S1x128.Idx → EReal) = A3)
    (h4 : (V c main_v114 : S128x128.Idx → EReal) = A4) (h5 : (V c main_v118 : S1x128.Idx → EReal) = A5)
    (Z : S100000x128.Idx → EReal)
    (hZ : ∀ (r : Fin 100000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q)
    (t : Fin cfg3.N) :
    (dat3 V c).flushed 6 t = ((cfg3.win 6).blk t).view.read (Elt Ideal) Z := by
  show (cfg3.win 6).cut (grid3.coords t) ((dat3 V c).after 6 t) = _
  rw [after3_6]
  unfold out3_6
  rw [View.canon_unit_zero origin_zero]
  simp only [View.ld_unit_zero (S := S5000x128) origin_zero, View.ld_unit_zero (S := S128x128) origin_zero, View.ld_unit_zero (S := S1x128) origin_zero]
  obtain ⟨e00, e01, e10, e11, e20, e21, e30, e31, e40, e41, e50, e51, e60, e61⟩ := block_index t
  funext j
  obtain ⟨p, q, rfl⟩ : ∃ (p : Fin 5000) (q : Fin 128), j = ix2 p q := ⟨j 0, j 1, eq_ix2 j⟩
  have hp : p.val < 5000 := p.isLt
  have ht : t.val < 20 := lt_of_lt_of_eq t.isLt N_3
  show k3_pay1 (F := Ideal) (iblk3 V c 0 t) (iblk3 V c 1 t) (iblk3 V c 2 t) (iblk3 V c 4 t) (iblk3 V c 3 t) (iblk3 V c 5 t) (ix2 p q)
    = Z (((cfg3.win 6).blk t).view.emb (ix2 p q))
  rw [stored_apply V c t p q ⟨t.val * 5000 + p.val, by omega⟩ rfl, h0, h1, h2, h3, h4, h5, ← hZ]
  congr 1
  funext a
  apply Fin.ext
  match a with
  | ⟨0, _⟩ => show t.val * 5000 + p.val = win3_6.index t 0 * 5000 + 1 * p.val; rw [e60]; omega
  | ⟨1, _⟩ => show q.val = win3_6.index t 1 * 128 + 1 * q.val; rw [e61]; omega

/-- An index of the array is in point t's block iff each coordinate is in the block's range on its axis. -/
theorem mem_block (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v119).slice (win3_6.rect t)).set ↔ _
  rw [View.set_slice_whole, Rect.mem_set_unit]
  exact Iff.rfl

/-- The blocks tile the array: row r lies in the block of point r / 5000. -/
theorem covered (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41, e50, e51, e60, e61⟩ := block_index t
  refine ⟨t, flush3_6 t, ?_⟩
  rw [mem_block]
  intro a
  match a with
  | ⟨0, _⟩ =>
    show win3_6.index t (0 : Fin 2) * 5000 ≤ (i 0).val ∧ (i 0).val < win3_6.index t (0 : Fin 2) * 5000 + 5000
    rw [e60, ht]; omega
  | ⟨1, _⟩ =>
    show win3_6.index t (1 : Fin 2) * 128 ≤ (i 1).val ∧ (i 1).val < win3_6.index t (1 : Fin 2) * 128 + 128
    rw [e61]; omega

/-- THE OUTPUT ARRAY when the launch ends: any array that is, row by row, the layer's output of the arrays the launch
    finds. -/
theorem out_eq (c : Dev nD)
    (A0 A1 : S100000x128.Idx → EReal) (A2 A4 : S128x128.Idx → EReal) (A3 A5 : S1x128.Idx → EReal)
    (h0 : (V c main_v108 : S100000x128.Idx → EReal) = A0) (h1 : (V c main_v59 : S100000x128.Idx → EReal) = A1)
    (h2 : (V c main_v110 : S128x128.Idx → EReal) = A2) (h3 : (V c main_v117 : S1x128.Idx → EReal) = A3)
    (h4 : (V c main_v114 : S128x128.Idx → EReal) = A4) (h5 : (V c main_v118 : S1x128.Idx → EReal) = A5)
    (Z : S100000x128.Idx → EReal)
    (hZ : ∀ (r : Fin 100000) (q : Fin 128), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q) :
    (dat3 V c).arrAt 6 cfg3.N = Z :=
  (dat3 V c).arrAt_eq_of_cover 6 Z (fun t _ => flushed_eq V c A0 A1 A2 A4 A3 A5 h0 h1 h2 h3 h4 h5 Z hZ t) covered

end Cert.KernelIdeal.ConvRegion3

end
-- ==== Proof.ConvRegion4.lean ====
/-
  Convolution launch 4: what its output array holds when the launch ends.

  The launch walks 10 blocks of 5000 rows. At block t it reads rows 5000·t … 5000·t + 4999 of the aggregated neighbour
  features and of the nodes' own features, the whole weight matrices and bias rows, and writes back rows
  5000·t … 5000·t + 4999 of the output. Each output row is a function of the same row of the two feature arrays
  (`ConvRow.rowOut`), so the block written at t is block t of ANY array `Z` that is row by row that function of the
  arrays the launch finds; the 10 blocks tile the [50000, 64] array (row r lies in block r / 5000), so the array ends
  equal to `Z`.
-/
import proofs.«153211_j15264313770095_1_alg».proof.Proof.Gen.KernelIdeal.Frame
import proofs.«153211_j15264313770095_1_alg».proof.Proof.ConvPayload
import Idealize.ShloMosaic.Lib.Pipeline.Value
import Idealize.ShloMosaic.Lib.ValueIdx

set_option maxRecDepth 16384

noncomputable section

namespace Cert.KernelIdeal.ConvRegion4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.ConvPayload Cert.ConvRow

theorem origin_zero : (![0, 0] : Fin 2 → Nat) = fun _ => 0 := funext fun a => by fin_cases a <;> rfl

/-- The printed index maps, decided over the grid: the two feature windows and the output window sit at block row t,
    block column 0; the weights and biases at block (0, 0). -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b))

/-- Feature window 0's block at point t is rows 5000·t … 5000·t + 4999 of its array. -/
theorem feat0_apply (c : Dev nD) (t : Fin cfg4.N) (p : Fin 5000) (k : Fin 128) (E : Fin 50000) (hE : E.val = t.val * 5000 + p.val) :
    (iblk4 V c 0 t : Vec Ideal S5000x128 .f32) (ix2 p k) = (V c main_v138 : S50000x128.Idx → EReal) (ix2 E k) := by
  obtain ⟨e00, e01, e10, e11, e20, e21, e30, e31, e40, e41, e50, e51, e60, e61⟩ := block_index t
  unfold iblk4
  rw [View.read_apply]
  show V c main_v138 _ = V c main_v138 _
  congr 1
  funext a
  apply Fin.ext
  match a with
  | ⟨0, _⟩ => show win4_0.index t 0 * 5000 + 1 * p.val = E.val; rw [e00, hE]; omega
  | ⟨1, _⟩ => show win4_0.index t 1 * 128 + 1 * k.val = k.val; rw [e01]; omega

/-- Feature window 1's block at point t is rows 5000·t … 5000·t + 4999 of its array. -/
theorem feat1_apply (c : Dev nD) (t : Fin cfg4.N) (p : Fin 5000) (k : Fin 128) (E : Fin 50000) (hE : E.val = t.val * 5000 + p.val) :
    (iblk4 V c 1 t : Vec Ideal S5000x128 .f32) (ix2 p k) = (V c main_v89 : S50000x128.Idx → EReal) (ix2 E k) := by
  obtain ⟨e00, e01, e10, e11, e20, e21, e30, e31, e40, e41, e50, e51, e60, e61⟩ := block_index t
  unfold iblk4
  rw [View.read_apply]
  show V c main_v89 _ = V c main_v89 _
  congr 1
  funext a
  apply Fin.ext
  match a with
  | ⟨0, _⟩ => show win4_1.index t 0 * 5000 + 1 * p.val = E.val; rw [e10, hE]; omega
  | ⟨1, _⟩ => show win4_1.index t 1 * 128 + 1 * k.val = k.val; rw [e11]; omega

/-- Weight window 2's block at every point is its whole array. -/
theorem weight2_apply (c : Dev nD) (t : Fin cfg4.N) (k : Fin 128) (j : Fin 64) :
    (iblk4 V c 2 t : Vec Ideal S128x64 .f32) (ix2 k j) = (V c main_v140 : S128x64.Idx → EReal) (ix2 k j) := by
  obtain ⟨e00, e01, e10, e11, e20, e21, e30, e31, e40, e41, e50, e51, e60, e61⟩ := block_index t
  unfold iblk4
  rw [View.read_apply]
  show V c main_v140 _ = V c main_v140 _
  congr 1
  funext a
  apply Fin.ext
  match a with
  | ⟨0, _⟩ => show win4_2.index t 0 * 128 + 1 * k.val = k.val; rw [e20]; omega
  | ⟨1, _⟩ => show win4_2.index t 1 * 64 + 1 * j.val = j.val; rw [e21]; omega

/-- Weight window 4's block at every point is its whole array. -/
theorem weight4_apply (c : Dev nD) (t : Fin cfg4.N) (k : Fin 128) (j : Fin 64) :
    (iblk4 V c 4 t : Vec Ideal S128x64 .f32) (ix2 k j) = (V c main_v144 : S128x64.Idx → EReal) (ix2 k j) := by
  obtain ⟨e00, e01, e10, e11, e20, e21, e30, e31, e40, e41, e50, e51, e60, e61⟩ := block_index t
  unfold iblk4
  rw [View.read_apply]
  show V c main_v144 _ = V c main_v144 _
  congr 1
  funext a
  apply Fin.ext
  match a with
  | ⟨0, _⟩ => show win4_4.index t 0 * 128 + 1 * k.val = k.val; rw [e40]; omega
  | ⟨1, _⟩ => show win4_4.index t 1 * 64 + 1 * j.val = j.val; rw [e41]; omega

/-- Bias window 3's block at every point is its whole one-row array. -/
theorem bias3_apply (c : Dev nD) (t : Fin cfg4.N) (j : Fin 64) :
    (iblk4 V c 3 t : Vec Ideal S1x64 .f32) (ix2 (0 : Fin 1) j) = (V c main_v147 : S1x64.Idx → EReal) (ix2 (0 : Fin 1) j) := by
  obtain ⟨e00, e01, e10, e11, e20, e21, e30, e31, e40, e41, e50, e51, e60, e61⟩ := block_index t
  unfold iblk4
  rw [View.read_apply]
  show V c main_v147 _ = V c main_v147 _
  congr 1
  funext a
  apply Fin.ext
  match a with
  | ⟨0, _⟩ => show win4_3.index t 0 * 1 + 1 * 0 = 0; rw [e30]
  | ⟨1, _⟩ => show win4_3.index t 1 * 64 + 1 * j.val = j.val; rw [e31]; omega

/-- Bias window 5's block at every point is its whole one-row array. -/
theorem bias5_apply (c : Dev nD) (t : Fin cfg4.N) (j : Fin 64) :
    (iblk4 V c 5 t : Vec Ideal S1x64 .f32) (ix2 (0 : Fin 1) j) = (V c main_v148 : S1x64.Idx → EReal) (ix2 (0 : Fin 1) j) := by
  obtain ⟨e00, e01, e10, e11, e20, e21, e30, e31, e40, e41, e50, e51, e60, e61⟩ := block_index t
  unfold iblk4
  rw [View.read_apply]
  show V c main_v148 _ = V c main_v148 _
  congr 1
  funext a
  apply Fin.ext
  match a with
  | ⟨0, _⟩ => show win4_5.index t 0 * 1 + 1 * 0 = 0; rw [e50]
  | ⟨1, _⟩ => show win4_5.index t 1 * 64 + 1 * j.val = j.val; rw [e51]; omega

/-- What the body stores at (p, q) of point t's block is the layer's output for row 5000·t + p of the arrays the
    launch finds, column q. -/
theorem stored_apply (c : Dev nD) (t : Fin cfg4.N) (p : Fin 5000) (q : Fin 64) (E : Fin 50000) (hE : E.val = t.val * 5000 + p.val) :
    k4_pay1 (F := Ideal) (iblk4 V c 0 t) (iblk4 V c 1 t) (iblk4 V c 2 t) (iblk4 V c 4 t) (iblk4 V c 3 t) (iblk4 V c 5 t) (ix2 p q)
      = rowOut (fun k => (V c main_v138 : S50000x128.Idx → EReal) (ix2 E k)) (fun k => (V c main_v89 : S50000x128.Idx → EReal) (ix2 E k))
          (fun k j => (V c main_v140 : S128x64.Idx → EReal) (ix2 k j)) (fun k j => (V c main_v144 : S128x64.Idx → EReal) (ix2 k j))
          (fun j => (V c main_v147 : S1x64.Idx → EReal) (ix2 (0 : Fin 1) j)) (fun j => (V c main_v148 : S1x64.Idx → EReal) (ix2 (0 : Fin 1) j)) q := by
  rw [pay4_eq]
  refine (normBlock64_apply _ _ _ _ _ _ p q).trans ?_
  simp only [feat0_apply V c t p _ E hE, feat1_apply V c t p _ E hE, weight2_apply V c t, weight4_apply V c t, bias3_apply V c t, bias5_apply V c t]

/-- WHAT POINT t WRITES BACK is block t of any array that is, row by row, the layer's output of the arrays the launch
    finds. -/
theorem flushed_eq (c : Dev nD)
    (A0 A1 : S50000x128.Idx → EReal) (A2 A4 : S128x64.Idx → EReal) (A3 A5 : S1x64.Idx → EReal)
    (h0 : (V c main_v138 : S50000x128.Idx → EReal) = A0) (h1 : (V c main_v89 : S50000x128.Idx → EReal) = A1)
    (h2 : (V c main_v140 : S128x64.Idx → EReal) = A2) (h3 : (V c main_v147 : S1x64.Idx → EReal) = A3)
    (h4 : (V c main_v144 : S128x64.Idx → EReal) = A4) (h5 : (V c main_v148 : S1x64.Idx → EReal) = A5)
    (Z : S50000x64.Idx → EReal)
    (hZ : ∀ (r : Fin 50000) (q : Fin 64), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q)
    (t : Fin cfg4.N) :
    (dat4 V c).flushed 6 t = ((cfg4.win 6).blk t).view.read (Elt Ideal) Z := by
  show (cfg4.win 6).cut (grid4.coords t) ((dat4 V c).after 6 t) = _
  rw [after4_6]
  unfold out4_6
  rw [View.canon_unit_zero origin_zero]
  simp only [View.ld_unit_zero (S := S5000x128) origin_zero, View.ld_unit_zero (S := S128x64) origin_zero, View.ld_unit_zero (S := S1x64) origin_zero]
  obtain ⟨e00, e01, e10, e11, e20, e21, e30, e31, e40, e41, e50, e51, e60, e61⟩ := block_index t
  funext j
  obtain ⟨p, q, rfl⟩ : ∃ (p : Fin 5000) (q : Fin 64), j = ix2 p q := ⟨j 0, j 1, eq_ix2 j⟩
  have hp : p.val < 5000 := p.isLt
  have ht : t.val < 10 := lt_of_lt_of_eq t.isLt N_4
  show k4_pay1 (F := Ideal) (iblk4 V c 0 t) (iblk4 V c 1 t) (iblk4 V c 2 t) (iblk4 V c 4 t) (iblk4 V c 3 t) (iblk4 V c 5 t) (ix2 p q)
    = Z (((cfg4.win 6).blk t).view.emb (ix2 p q))
  rw [stored_apply V c t p q ⟨t.val * 5000 + p.val, by omega⟩ rfl, h0, h1, h2, h3, h4, h5, ← hZ]
  congr 1
  funext a
  apply Fin.ext
  match a with
  | ⟨0, _⟩ => show t.val * 5000 + p.val = win4_6.index t 0 * 5000 + 1 * p.val; rw [e60]; omega
  | ⟨1, _⟩ => show q.val = win4_6.index t 1 * 64 + 1 * q.val; rw [e61]; omega

/-- An index of the array is in point t's block iff each coordinate is in the block's range on its axis. -/
theorem mem_block (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v149).slice (win4_6.rect t)).set ↔ _
  rw [View.set_slice_whole, Rect.mem_set_unit]
  exact Iff.rfl

/-- The blocks tile the array: row r lies in the block of point r / 5000. -/
theorem covered (i : S50000x64.Idx) : ∃ t : Fin cfg4.N, (cfg4.win 6).flush t = true ∧ i ∈ ((cfg4.win 6).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e00, e01, e10, e11, e20, e21, e30, e31, e40, e41, e50, e51, e60, e61⟩ := block_index t
  refine ⟨t, flush4_6 t, ?_⟩
  rw [mem_block]
  intro a
  match a with
  | ⟨0, _⟩ =>
    show win4_6.index t (0 : Fin 2) * 5000 ≤ (i 0).val ∧ (i 0).val < win4_6.index t (0 : Fin 2) * 5000 + 5000
    rw [e60, ht]; omega
  | ⟨1, _⟩ =>
    show win4_6.index t (1 : Fin 2) * 64 ≤ (i 1).val ∧ (i 1).val < win4_6.index t (1 : Fin 2) * 64 + 64
    rw [e61]; omega

/-- THE OUTPUT ARRAY when the launch ends: any array that is, row by row, the layer's output of the arrays the launch
    finds. -/
theorem out_eq (c : Dev nD)
    (A0 A1 : S50000x128.Idx → EReal) (A2 A4 : S128x64.Idx → EReal) (A3 A5 : S1x64.Idx → EReal)
    (h0 : (V c main_v138 : S50000x128.Idx → EReal) = A0) (h1 : (V c main_v89 : S50000x128.Idx → EReal) = A1)
    (h2 : (V c main_v140 : S128x64.Idx → EReal) = A2) (h3 : (V c main_v147 : S1x64.Idx → EReal) = A3)
    (h4 : (V c main_v144 : S128x64.Idx → EReal) = A4) (h5 : (V c main_v148 : S1x64.Idx → EReal) = A5)
    (Z : S50000x64.Idx → EReal)
    (hZ : ∀ (r : Fin 50000) (q : Fin 64), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q) :
    (dat4 V c).arrAt 6 cfg4.N = Z :=
  (dat4 V c).arrAt_eq_of_cover 6 Z (fun t _ => flushed_eq V c A0 A1 A2 A4 A3 A5 h0 h1 h2 h3 h4 h5 Z hZ t) covered

end Cert.KernelIdeal.ConvRegion4

end
-- ==== Proof.ConvRegion5.lean ====
/-
  Convolution launch 5: what its output array holds when the launch ends.

  The launch walks 20 blocks of 5000 rows. At block t it reads rows 5000·t … 5000·t + 4999 of the aggregated neighbour
  features and of the nodes' own features, the whole weight matrices and bias rows, and writes back rows
  5000·t … 5000·t + 4999 of the output. Each output row is a function of the same row of the two feature arrays
  (`ConvRow.rowOut`), so the block written at t is block t of ANY array `Z` that is row by row that function of the
  arrays the launch finds; the 20 blocks tile the [100000, 64] array (row r lies in block r / 5000), so the array ends
  equal to `Z`.
-/
import proofs.«153211_j15264313770095_1_alg».proof.Proof.Gen.KernelIdeal.Frame
import proofs.«153211_j15264313770095_1_alg».proof.Proof.ConvPayload
import Idealize.ShloMosaic.Lib.Pipeline.Value
import Idealize.ShloMosaic.Lib.ValueIdx

set_option maxRecDepth 16384

noncomputable section

namespace Cert.KernelIdeal.ConvRegion5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.ConvPayload Cert.ConvRow

theorem origin_zero : (![0, 0] : Fin 2 → Nat) = fun _ => 0 := funext fun a => by fin_cases a <;> rfl

/-- The printed index maps, decided over the grid: the two feature windows and the output window sit at block row t,
    block column 0; the weights and biases at block (0, 0). -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b))

/-- Feature window 0's block at point t is rows 5000·t … 5000·t + 4999 of its array. -/
theorem feat0_apply (c : Dev nD) (t : Fin cfg5.N) (p : Fin 5000) (k : Fin 128) (E : Fin 100000) (hE : E.val = t.val * 5000 + p.val) :
    (iblk5 V c 0 t : Vec Ideal S5000x128 .f32) (ix2 p k) = (V c main_v168 : S100000x128.Idx → EReal) (ix2 E k) := by
  obtain ⟨e00, e01, e10, e11, e20, e21, e30, e31, e40, e41, e50, e51, e60, e61⟩ := block_index t
  unfold iblk5
  rw [View.read_apply]
  show V c main_v168 _ = V c main_v168 _
  congr 1
  funext a
  apply Fin.ext
  match a with
  | ⟨0, _⟩ => show win5_0.index t 0 * 5000 + 1 * p.val = E.val; rw [e00, hE]; omega
  | ⟨1, _⟩ => show win5_0.index t 1 * 128 + 1 * k.val = k.val; rw [e01]; omega

/-- Feature window 1's block at point t is rows 5000·t … 5000·t + 4999 of its array. -/
theorem feat1_apply (c : Dev nD) (t : Fin cfg5.N) (p : Fin 5000) (k : Fin 128) (E : Fin 100000) (hE : E.val = t.val * 5000 + p.val) :
    (iblk5 V c 1 t : Vec Ideal S5000x128 .f32) (ix2 p k) = (V c main_v119 : S100000x128.Idx → EReal) (ix2 E k) := by
  obtain ⟨e00, e01, e10, e11, e20, e21, e30, e31, e40, e41, e50, e51, e60, e61⟩ := block_index t
  unfold iblk5
  rw [View.read_apply]
  show V c main_v119 _ = V c main_v119 _
  congr 1
  funext a
  apply Fin.ext
  match a with
  | ⟨0, _⟩ => show win5_1.index t 0 * 5000 + 1 * p.val = E.val; rw [e10, hE]; omega
  | ⟨1, _⟩ => show win5_1.index t 1 * 128 + 1 * k.val = k.val; rw [e11]; omega

/-- Weight window 2's block at every point is its whole array. -/
theorem weight2_apply (c : Dev nD) (t : Fin cfg5.N) (k : Fin 128) (j : Fin 64) :
    (iblk5 V c 2 t : Vec Ideal S128x64 .f32) (ix2 k j) = (V c main_v170 : S128x64.Idx → EReal) (ix2 k j) := by
  obtain ⟨e00, e01, e10, e11, e20, e21, e30, e31, e40, e41, e50, e51, e60, e61⟩ := block_index t
  unfold iblk5
  rw [View.read_apply]
  show V c main_v170 _ = V c main_v170 _
  congr 1
  funext a
  apply Fin.ext
  match a with
  | ⟨0, _⟩ => show win5_2.index t 0 * 128 + 1 * k.val = k.val; rw [e20]; omega
  | ⟨1, _⟩ => show win5_2.index t 1 * 64 + 1 * j.val = j.val; rw [e21]; omega

/-- Weight window 4's block at every point is its whole array. -/
theorem weight4_apply (c : Dev nD) (t : Fin cfg5.N) (k : Fin 128) (j : Fin 64) :
    (iblk5 V c 4 t : Vec Ideal S128x64 .f32) (ix2 k j) = (V c main_v174 : S128x64.Idx → EReal) (ix2 k j) := by
  obtain ⟨e00, e01, e10, e11, e20, e21, e30, e31, e40, e41, e50, e51, e60, e61⟩ := block_index t
  unfold iblk5
  rw [View.read_apply]
  show V c main_v174 _ = V c main_v174 _
  congr 1
  funext a
  apply Fin.ext
  match a with
  | ⟨0, _⟩ => show win5_4.index t 0 * 128 + 1 * k.val = k.val; rw [e40]; omega
  | ⟨1, _⟩ => show win5_4.index t 1 * 64 + 1 * j.val = j.val; rw [e41]; omega

/-- Bias window 3's block at every point is its whole one-row array. -/
theorem bias3_apply (c : Dev nD) (t : Fin cfg5.N) (j : Fin 64) :
    (iblk5 V c 3 t : Vec Ideal S1x64 .f32) (ix2 (0 : Fin 1) j) = (V c main_v177 : S1x64.Idx → EReal) (ix2 (0 : Fin 1) j) := by
  obtain ⟨e00, e01, e10, e11, e20, e21, e30, e31, e40, e41, e50, e51, e60, e61⟩ := block_index t
  unfold iblk5
  rw [View.read_apply]
  show V c main_v177 _ = V c main_v177 _
  congr 1
  funext a
  apply Fin.ext
  match a with
  | ⟨0, _⟩ => show win5_3.index t 0 * 1 + 1 * 0 = 0; rw [e30]
  | ⟨1, _⟩ => show win5_3.index t 1 * 64 + 1 * j.val = j.val; rw [e31]; omega

/-- Bias window 5's block at every point is its whole one-row array. -/
theorem bias5_apply (c : Dev nD) (t : Fin cfg5.N) (j : Fin 64) :
    (iblk5 V c 5 t : Vec Ideal S1x64 .f32) (ix2 (0 : Fin 1) j) = (V c main_v178 : S1x64.Idx → EReal) (ix2 (0 : Fin 1) j) := by
  obtain ⟨e00, e01, e10, e11, e20, e21, e30, e31, e40, e41, e50, e51, e60, e61⟩ := block_index t
  unfold iblk5
  rw [View.read_apply]
  show V c main_v178 _ = V c main_v178 _
  congr 1
  funext a
  apply Fin.ext
  match a with
  | ⟨0, _⟩ => show win5_5.index t 0 * 1 + 1 * 0 = 0; rw [e50]
  | ⟨1, _⟩ => show win5_5.index t 1 * 64 + 1 * j.val = j.val; rw [e51]; omega

/-- What the body stores at (p, q) of point t's block is the layer's output for row 5000·t + p of the arrays the
    launch finds, column q. -/
theorem stored_apply (c : Dev nD) (t : Fin cfg5.N) (p : Fin 5000) (q : Fin 64) (E : Fin 100000) (hE : E.val = t.val * 5000 + p.val) :
    k5_pay1 (F := Ideal) (iblk5 V c 0 t) (iblk5 V c 1 t) (iblk5 V c 2 t) (iblk5 V c 4 t) (iblk5 V c 3 t) (iblk5 V c 5 t) (ix2 p q)
      = rowOut (fun k => (V c main_v168 : S100000x128.Idx → EReal) (ix2 E k)) (fun k => (V c main_v119 : S100000x128.Idx → EReal) (ix2 E k))
          (fun k j => (V c main_v170 : S128x64.Idx → EReal) (ix2 k j)) (fun k j => (V c main_v174 : S128x64.Idx → EReal) (ix2 k j))
          (fun j => (V c main_v177 : S1x64.Idx → EReal) (ix2 (0 : Fin 1) j)) (fun j => (V c main_v178 : S1x64.Idx → EReal) (ix2 (0 : Fin 1) j)) q := by
  rw [pay5_eq]
  refine (normBlock64_apply _ _ _ _ _ _ p q).trans ?_
  simp only [feat0_apply V c t p _ E hE, feat1_apply V c t p _ E hE, weight2_apply V c t, weight4_apply V c t, bias3_apply V c t, bias5_apply V c t]

/-- WHAT POINT t WRITES BACK is block t of any array that is, row by row, the layer's output of the arrays the launch
    finds. -/
theorem flushed_eq (c : Dev nD)
    (A0 A1 : S100000x128.Idx → EReal) (A2 A4 : S128x64.Idx → EReal) (A3 A5 : S1x64.Idx → EReal)
    (h0 : (V c main_v168 : S100000x128.Idx → EReal) = A0) (h1 : (V c main_v119 : S100000x128.Idx → EReal) = A1)
    (h2 : (V c main_v170 : S128x64.Idx → EReal) = A2) (h3 : (V c main_v177 : S1x64.Idx → EReal) = A3)
    (h4 : (V c main_v174 : S128x64.Idx → EReal) = A4) (h5 : (V c main_v178 : S1x64.Idx → EReal) = A5)
    (Z : S100000x64.Idx → EReal)
    (hZ : ∀ (r : Fin 100000) (q : Fin 64), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q)
    (t : Fin cfg5.N) :
    (dat5 V c).flushed 6 t = ((cfg5.win 6).blk t).view.read (Elt Ideal) Z := by
  show (cfg5.win 6).cut (grid5.coords t) ((dat5 V c).after 6 t) = _
  rw [after5_6]
  unfold out5_6
  rw [View.canon_unit_zero origin_zero]
  simp only [View.ld_unit_zero (S := S5000x128) origin_zero, View.ld_unit_zero (S := S128x64) origin_zero, View.ld_unit_zero (S := S1x64) origin_zero]
  obtain ⟨e00, e01, e10, e11, e20, e21, e30, e31, e40, e41, e50, e51, e60, e61⟩ := block_index t
  funext j
  obtain ⟨p, q, rfl⟩ : ∃ (p : Fin 5000) (q : Fin 64), j = ix2 p q := ⟨j 0, j 1, eq_ix2 j⟩
  have hp : p.val < 5000 := p.isLt
  have ht : t.val < 20 := lt_of_lt_of_eq t.isLt N_5
  show k5_pay1 (F := Ideal) (iblk5 V c 0 t) (iblk5 V c 1 t) (iblk5 V c 2 t) (iblk5 V c 4 t) (iblk5 V c 3 t) (iblk5 V c 5 t) (ix2 p q)
    = Z (((cfg5.win 6).blk t).view.emb (ix2 p q))
  rw [stored_apply V c t p q ⟨t.val * 5000 + p.val, by omega⟩ rfl, h0, h1, h2, h3, h4, h5, ← hZ]
  congr 1
  funext a
  apply Fin.ext
  match a with
  | ⟨0, _⟩ => show t.val * 5000 + p.val = win5_6.index t 0 * 5000 + 1 * p.val; rw [e60]; omega
  | ⟨1, _⟩ => show q.val = win5_6.index t 1 * 64 + 1 * q.val; rw [e61]; omega

/-- An index of the array is in point t's block iff each coordinate is in the block's range on its axis. -/
theorem mem_block (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v179).slice (win5_6.rect t)).set ↔ _
  rw [View.set_slice_whole, Rect.mem_set_unit]
  exact Iff.rfl

/-- The blocks tile the array: row r lies in the block of point r / 5000. -/
theorem covered (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨e00, e01, e10, e11, e20, e21, e30, e31, e40, e41, e50, e51, e60, e61⟩ := block_index t
  refine ⟨t, flush5_6 t, ?_⟩
  rw [mem_block]
  intro a
  match a with
  | ⟨0, _⟩ =>
    show win5_6.index t (0 : Fin 2) * 5000 ≤ (i 0).val ∧ (i 0).val < win5_6.index t (0 : Fin 2) * 5000 + 5000
    rw [e60, ht]; omega
  | ⟨1, _⟩ =>
    show win5_6.index t (1 : Fin 2) * 64 ≤ (i 1).val ∧ (i 1).val < win5_6.index t (1 : Fin 2) * 64 + 64
    rw [e61]; omega

/-- THE OUTPUT ARRAY when the launch ends: any array that is, row by row, the layer's output of the arrays the launch
    finds. -/
theorem out_eq (c : Dev nD)
    (A0 A1 : S100000x128.Idx → EReal) (A2 A4 : S128x64.Idx → EReal) (A3 A5 : S1x64.Idx → EReal)
    (h0 : (V c main_v168 : S100000x128.Idx → EReal) = A0) (h1 : (V c main_v119 : S100000x128.Idx → EReal) = A1)
    (h2 : (V c main_v170 : S128x64.Idx → EReal) = A2) (h3 : (V c main_v177 : S1x64.Idx → EReal) = A3)
    (h4 : (V c main_v174 : S128x64.Idx → EReal) = A4) (h5 : (V c main_v178 : S1x64.Idx → EReal) = A5)
    (Z : S100000x64.Idx → EReal)
    (hZ : ∀ (r : Fin 100000) (q : Fin 64), Z (ix2 r q) = rowOut (fun k => A0 (ix2 r k)) (fun k => A1 (ix2 r k)) (fun k j => A2 (ix2 k j)) (fun k j => A4 (ix2 k j))
          (fun j => A3 (ix2 (0 : Fin 1) j)) (fun j => A5 (ix2 (0 : Fin 1) j)) q) :
    (dat5 V c).arrAt 6 cfg5.N = Z :=
  (dat5 V c).arrAt_eq_of_cover 6 Z (fun t _ => flushed_eq V c A0 A1 A2 A4 A3 A5 h0 h1 h2 h3 h4 h5 Z hZ t) covered

end Cert.KernelIdeal.ConvRegion5

end
-- ==== Proof.KernelValue.lean ====
/-
  The idealized kernel program computes `Spec`.

  Layer by layer: a convolution launch finds, in its six input arrays, the mean aggregation of the previous round's
  table of the other node type, the previous round's table of its own node type, and its slices of the weights and
  biases (the host stretch before it); the launch's output array is then, row by row, the convolution step of those
  arrays, which is what `Spec` names. The kernel sees a bias as a one-row matrix, the reference as a vector: the row's
  entry in column j is the vector's entry j. The score launch leaves the row-wise dot products of its two stacked
  tables, of which the two halves of column 0 are the scores of the positive and of the negative pairs.
-/
import proofs.«153211_j15264313770095_1_alg».proof.Proof.HostChain
import proofs.«153211_j15264313770095_1_alg».proof.Proof.Spec
import proofs.«153211_j15264313770095_1_alg».proof.Proof.ScoreRun
import proofs.«153211_j15264313770095_1_alg».proof.Proof.ConvRegion0
import proofs.«153211_j15264313770095_1_alg».proof.Proof.ConvRegion1
import proofs.«153211_j15264313770095_1_alg».proof.Proof.ConvRegion2
import proofs.«153211_j15264313770095_1_alg».proof.Proof.ConvRegion3
import proofs.«153211_j15264313770095_1_alg».proof.Proof.ConvRegion4
import proofs.«153211_j15264313770095_1_alg».proof.Proof.ConvRegion5

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The launch contents of the eighteen arguments on core `c`. -/
def kArgs (c : Dev nD) : Spec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16), m ((c.tc : Thread nD τ).loc main_arg17)⟩

/-- A vector of 128 numbers recast as a one-row matrix, read at (0, j): the vector's entry j. -/
theorem biasRow128 {α : Type} (b : S128.Idx → α) (j : Fin 128) :
    shapeCast S1x128 b shapeCasts_S128_S1x128 (ix2 (0 : Fin 1) j) = b (ix1 j) :=
  shapeCast_apply b shapeCasts_S128_S1x128 (ix2 (0 : Fin 1) j) (ix1 j) (by
    rw [Shape.rowMajor_val_one, Shape.rowMajor_val_two]
    show j.val = 0 * 128 + j.val
    omega)

/-- The same for 64 numbers. -/
theorem biasRow64 {α : Type} (b : S64.Idx → α) (j : Fin 64) :
    shapeCast S1x64 b shapeCasts_S64_S1x64 (ix2 (0 : Fin 1) j) = b (ix1 j) :=
  shapeCast_apply b shapeCasts_S64_S1x64 (ix2 (0 : Fin 1) j) (ix1 j) (by
    rw [Shape.rowMajor_val_one, Shape.rowMajor_val_two]
    show j.val = 0 * 64 + j.val
    omega)

/-- Launch 0 leaves `Spec.hi1` of the arguments in its output array. -/
theorem out0_eq (c : Dev nD) : HostChain.out0 (F := Ideal) m ρ c = Spec.hi1 (kArgs m c) := by
  unfold HostChain.out0
  refine ConvRegion0.out_eq (Gen.V1 m ρ) c _ _ _ _ _ _
    (HostChain.entry0_0 m ρ c) (HostChain.entry0_1 m ρ c) (HostChain.entry0_2 m ρ c) (HostChain.entry0_3 m ρ c)
    (HostChain.entry0_4 m ρ c) (HostChain.entry0_5 m ρ c) (Spec.hi1 (kArgs m c)) ?_
  intro r q
  unfold Spec.hi1
  rw [Cert.ReferenceIdeal.RefConv.convRef_50000_128_apply]
  simp only [biasRow128, Spec.aggI, kArgs]
  rfl

/-- Launch 1 leaves `Spec.hu1` of the arguments in its output array. -/
theorem out1_eq (c : Dev nD) : HostChain.out1 (F := Ideal) m ρ c = Spec.hu1 (kArgs m c) := by
  unfold HostChain.out1
  refine ConvRegion1.out_eq (Gen.V3 m ρ) c _ _ _ _ _ _
    (HostChain.entry1_0 m ρ c) (HostChain.entry1_1 m ρ c) (HostChain.entry1_2 m ρ c) (HostChain.entry1_3 m ρ c)
    (HostChain.entry1_4 m ρ c) (HostChain.entry1_5 m ρ c) (Spec.hu1 (kArgs m c)) ?_
  intro r q
  unfold Spec.hu1
  rw [Cert.ReferenceIdeal.RefConv.convRef_100000_128_apply]
  simp only [biasRow128, Spec.aggU, kArgs]
  rfl

/-- Launch 2 leaves `Spec.hi2` of the arguments in its output array. -/
theorem out2_eq (c : Dev nD) : HostChain.out2 (F := Ideal) m ρ c = Spec.hi2 (kArgs m c) := by
  unfold HostChain.out2
  refine ConvRegion2.out_eq (Gen.V5 m ρ) c _ _ _ _ _ _
    (HostChain.entry2_0 m ρ c) (HostChain.entry2_1 m ρ c) (HostChain.entry2_2 m ρ c) (HostChain.entry2_3 m ρ c)
    (HostChain.entry2_4 m ρ c) (HostChain.entry2_5 m ρ c) (Spec.hi2 (kArgs m c)) ?_
  intro r q
  rw [out0_eq m ρ c, out1_eq m ρ c]
  unfold Spec.hi2
  rw [Cert.ReferenceIdeal.RefConv.convRef_50000_128_apply]
  simp only [biasRow128, Spec.aggI, kArgs]
  rfl

/-- Launch 3 leaves `Spec.hu2` of the arguments in its output array. -/
theorem out3_eq (c : Dev nD) : HostChain.out3 (F := Ideal) m ρ c = Spec.hu2 (kArgs m c) := by
  unfold HostChain.out3
  refine ConvRegion3.out_eq (Gen.V7 m ρ) c _ _ _ _ _ _
    (HostChain.entry3_0 m ρ c) (HostChain.entry3_1 m ρ c) (HostChain.entry3_2 m ρ c) (HostChain.entry3_3 m ρ c)
    (HostChain.entry3_4 m ρ c) (HostChain.entry3_5 m ρ c) (Spec.hu2 (kArgs m c)) ?_
  intro r q
  rw [out0_eq m ρ c, out1_eq m ρ c]
  unfold Spec.hu2
  rw [Cert.ReferenceIdeal.RefConv.convRef_100000_128_apply]
  simp only [biasRow128, Spec.aggU, kArgs]
  rfl

/-- Launch 4 leaves `Spec.hi3` of the arguments in its output array. -/
theorem out4_eq (c : Dev nD) : HostChain.out4 (F := Ideal) m ρ c = Spec.hi3 (kArgs m c) := by
  unfold HostChain.out4
  refine ConvRegion4.out_eq (Gen.V9 m ρ) c _ _ _ _ _ _
    (HostChain.entry4_0 m ρ c) (HostChain.entry4_1 m ρ c) (HostChain.entry4_2 m ρ c) (HostChain.entry4_3 m ρ c)
    (HostChain.entry4_4 m ρ c) (HostChain.entry4_5 m ρ c) (Spec.hi3 (kArgs m c)) ?_
  intro r q
  rw [out2_eq m ρ c, out3_eq m ρ c]
  unfold Spec.hi3
  rw [Cert.ReferenceIdeal.RefConv.convRef_50000_64_apply]
  simp only [biasRow64, Spec.aggI, kArgs]
  rfl

/-- Launch 5 leaves `Spec.hu3` of the arguments in its output array. -/
theorem out5_eq (c : Dev nD) : HostChain.out5 (F := Ideal) m ρ c = Spec.hu3 (kArgs m c) := by
  unfold HostChain.out5
  refine ConvRegion5.out_eq (Gen.V11 m ρ) c _ _ _ _ _ _
    (HostChain.entry5_0 m ρ c) (HostChain.entry5_1 m ρ c) (HostChain.entry5_2 m ρ c) (HostChain.entry5_3 m ρ c)
    (HostChain.entry5_4 m ρ c) (HostChain.entry5_5 m ρ c) (Spec.hu3 (kArgs m c)) ?_
  intro r q
  rw [out2_eq m ρ c, out3_eq m ρ c]
  unfold Spec.hu3
  rw [Cert.ReferenceIdeal.RefConv.convRef_100000_64_apply]
  simp only [biasRow64, Spec.aggU, kArgs]
  rfl

/-! ## The four results -/

theorem v179_eq (c : Dev nD) : Gen.W18 m ρ c (Proc.devRef .tc main_v179) = Spec.hu3 (kArgs m c) :=
  (HostChain.result_v179 m ρ c).trans (out5_eq m ρ c)

theorem v149_eq (c : Dev nD) : Gen.W18 m ρ c (Proc.devRef .tc main_v149) = Spec.hi3 (kArgs m c) :=
  (HostChain.result_v149 m ρ c).trans (out4_eq m ρ c)

/-- The score launch finds the two stacks of normalised rows at the positive and then the negative pairs; the first
    half of its dot products is the positive scores. -/
theorem v223_eq (c : Dev nD) : (Gen.W18 m ρ c (Proc.devRef .tc main_v223) : S500000.Idx → EReal) = Spec.pos (kArgs m c) := by
  refine (Score.pos_score m ρ c _ _ _ _ (HostChain.entry6_0 m ρ c) (HostChain.entry6_1 m ρ c)
    Cert.ReferenceIdeal.Gen.reducesTo_S500000x64_S500000_d1 Cert.ReferenceIdeal.Gen.h_S_).trans ?_
  rw [out5_eq, out4_eq]
  rfl

/-- The second half is the negative scores. -/
theorem v224_eq (c : Dev nD) : (Gen.W18 m ρ c (Proc.devRef .tc main_v224) : S500000.Idx → EReal) = Spec.neg (kArgs m c) := by
  refine (Score.neg_score m ρ c _ _ _ _ (HostChain.entry6_0 m ρ c) (HostChain.entry6_1 m ρ c)
    Cert.ReferenceIdeal.Gen.reducesTo_S500000x64_S500000_d1 Cert.ReferenceIdeal.Gen.h_S_).trans ?_
  rw [out5_eq, out4_eq]
  rfl

/-- THE KERNEL PROGRAM'S RUN: every weakly fair execution ends with the four results at `Spec` of the arguments and
    the arguments unchanged. -/
theorem run : θ_run defs (onTc (τ := τ) (main (F := Ideal))) ⟨m, fun _ => 0, ρ⟩ (fun r => ∀ c : Dev nD,
      r.2.mem ((c.tc : Thread nD τ).loc main_v179) = Spec.hu3 (kArgs m c)
      ∧ r.2.mem ((c.tc : Thread nD τ).loc main_v149) = Spec.hi3 (kArgs m c)
      ∧ r.2.mem ((c.tc : Thread nD τ).loc main_v223) = Spec.pos (kArgs m c)
      ∧ r.2.mem ((c.tc : Thread nD τ).loc main_v224) = Spec.neg (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
      ⟨(h c).1.trans (v179_eq m ρ c), (h c).2.1.trans (v149_eq m ρ c), (h c).2.2.1.trans (v223_eq m ρ c),
       (h c).2.2.2.1.trans (v224_eq m ρ c), (h c).2.2.2.2⟩)
    (RunAll.run_all m ρ)

end Cert.KernelIdeal.KernelValue

end
-- ==== Proof.RefOps.lean ====
/- The reference program's run, read as a fold of its host operations.

   The reference is one straight line of 392 host operations.  They are listed here in seven consecutive chunks: one per
   combine step of the three layers (each ends with the write of that step's normalised features) and a last one for the
   scores (the two row normalisations, the four gathers, the two sums of products).  The program is the line of the seven
   chunks one after the other, so every weakly fair execution terminates, without a fault, with every buffer at the fold
   of the operations' results over its launch contents; and the fold of a concatenation is the fold of the second list
   over the fold of the first. -/
import proofs.«153211_j15264313770095_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of a concatenation is the fold of the second list over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Operations 0 … 54 of @main: the items' combine step of layer 0 (ends with the write of `main_v41`). -/
abbrev opsC0 : List (HloOp τ sig (Elt F)) :=
  [ unary main_arg2 main_v0 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v0 main_v1 rfl shapeCasts_S1x1x128x128_S128x128,
    unary main_arg3 main_v2 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v2 main_v3 rfl shapeCasts_S1x1x128_S128,
    unary main_arg4 main_v4 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v4 main_v5 rfl shapeCasts_S1x1x128x128_S128x128,
    unary main_arg5 main_v6 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v6 main_v7 rfl shapeCasts_S1x1x128_S128,
    nullary main_c (constantI S_ 32 0#32),
    unary main_c main_v8 (broadcastInDim S1000000 ![] bcast_S_S1000000 : (⟨S_, .i32⟩ : BufTy).Contents (Elt F) → (⟨S1000000, .i32⟩ : BufTy).Contents (Elt F)),
    binary main_arg10 main_v8 main_v9 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v10 (broadcastInDim S1000000 ![] bcast_S_S1000000 : (⟨S_, .i32⟩ : BufTy).Contents (Elt F) → (⟨S1000000, .i32⟩ : BufTy).Contents (Elt F)),
    binary main_arg10 main_v10 main_v11 (addi : (⟨S1000000, .i32⟩ : BufTy).Contents (Elt F) → (⟨S1000000, .i32⟩ : BufTy).Contents (Elt F) → (⟨S1000000, .i32⟩ : BufTy).Contents (Elt F)),
    ternary main_v9 main_v11 main_arg10 main_v12 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v12 main_v13 (broadcastInDim S1000000x1 ![0] bcast_S1000000_S1000000x1_0 : (⟨S1000000, .i32⟩ : BufTy).Contents (Elt F) → (⟨S1000000x1, .i32⟩ : BufTy).Contents (Elt F)),
    binary main_arg0 main_v13 main_v14 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_arg11 main_v16 (broadcastInDim S1000000x1 ![0] bcast_S1000000_S1000000x1_0 : (⟨S1000000, .i32⟩ : BufTy).Contents (Elt F) → (⟨S1000000x1, .i32⟩ : BufTy).Contents (Elt F)),
    ternary main_v15 main_v16 main_v14 main_v17 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    nullary main_cst_1 (constant S_ .f32 0x3F800000#32),
    unary main_cst_1 main_v18 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v19 (broadcastInDim S50000 ![] bcast_S_S50000 : (⟨S_, .f32⟩ : BufTy).Contents (Elt F) → (⟨S50000, .f32⟩ : BufTy).Contents (Elt F)),
    unary main_arg11 main_v20 (broadcastInDim S1000000x1 ![0] bcast_S1000000_S1000000x1_0 : (⟨S1000000, .i32⟩ : BufTy).Contents (Elt F) → (⟨S1000000x1, .i32⟩ : BufTy).Contents (Elt F)),
    ternary main_v19 main_v20 main_v18 main_v21 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_cst_3 (constant S_ .f32 0x3F800000#32),
    unary main_cst_3 main_v22 (broadcastInDim S50000 ![] bcast_S_S50000 : (⟨S_, .f32⟩ : BufTy).Contents (Elt F) → (⟨S50000, .f32⟩ : BufTy).Contents (Elt F)),
    binary main_v21 main_v22 main_v23 (maximumf : (⟨S50000, .f32⟩ : BufTy).Contents (Elt F) → (⟨S50000, .f32⟩ : BufTy).Contents (Elt F) → (⟨S50000, .f32⟩ : BufTy).Contents (Elt F)),
    unary main_v23 main_v24 (broadcastInDim S50000x1 ![0] bcast_S50000_S50000x1_0 : (⟨S50000, .f32⟩ : BufTy).Contents (Elt F) → (⟨S50000x1, .f32⟩ : BufTy).Contents (Elt F)),
    unary main_v24 main_v25 (broadcastInDim S50000x128 ![0, 1] bcast_S50000x1_S50000x128_0_1 : (⟨S50000x1, .f32⟩ : BufTy).Contents (Elt F) → (⟨S50000x128, .f32⟩ : BufTy).Contents (Elt F)),
    binary main_v17 main_v25 main_v26 (Host.divf : (⟨S50000x128, .f32⟩ : BufTy).Contents (Elt F) → (⟨S50000x128, .f32⟩ : BufTy).Contents (Elt F) → (⟨S50000x128, .f32⟩ : BufTy).Contents (Elt F)),
    binary main_v26 main_v1 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v3 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    binary main_arg1 main_v5 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v30 main_v31 main_v32 (addf : (⟨S50000x128, .f32⟩ : BufTy).Contents (Elt F) → (⟨S50000x128, .f32⟩ : BufTy).Contents (Elt F) → (⟨S50000x128, .f32⟩ : BufTy).Contents (Elt F)),
    unary main_v7 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v35) (TRef.of (T := ⟨S50000x128, .f32⟩) main_call0_v0) (TRef.of (T := ⟨S50000x128, .f32⟩) main_v36) maximumf,
    TRef.binary (TRef.of (T := ⟨S50000x128, .f32⟩) main_v36) (TRef.of (T := ⟨S50000x128, .f32⟩) main_v36) (TRef.of (T := ⟨S50000x128, .f32⟩) main_call1_v0) mulf,
    TRef.nullary (TRef.of (T := ⟨S_, .f32⟩) main_call1_cst) (constant S_ .f32 0x00000000#32),
    TRef.binary (TRef.of (T := ⟨S50000x128, .f32⟩) main_call1_v0) (TRef.of (T := ⟨S_, .f32⟩) main_call1_cst) (TRef.of (T := ⟨S50000, .f32⟩) main_call1_v1) (fun x v => Host.reduceAdd x v reducesTo_S50000x128_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v37) Host.sqrt,
    nullary main_cst_4 (constant S_ .f32 0x2B8CBCCC#32),
    unary main_cst_4 main_v38 (broadcastInDim S50000x1 ![] bcast_S_S50000x1 : (⟨S_, .f32⟩ : BufTy).Contents (Elt F) → (⟨S50000x1, .f32⟩ : BufTy).Contents (Elt F)),
    binary main_v37 main_v38 main_v39 (maximumf : (⟨S50000x1, .f32⟩ : BufTy).Contents (Elt F) → (⟨S50000x1, .f32⟩ : BufTy).Contents (Elt F) → (⟨S50000x1, .f32⟩ : BufTy).Contents (Elt F)),
    unary main_v39 main_v40 (broadcastInDim S50000x128 ![0, 1] bcast_S50000x1_S50000x128_0_1 : (⟨S50000x1, .f32⟩ : BufTy).Contents (Elt F) → (⟨S50000x128, .f32⟩ : BufTy).Contents (Elt F)),
    binary main_v36 main_v40 main_v41 (Host.divf : (⟨S50000x128, .f32⟩ : BufTy).Contents (Elt F) → (⟨S50000x128, .f32⟩ : BufTy).Contents (Elt F) → (⟨S50000x128, .f32⟩ : BufTy).Contents (Elt F)) ]
theorem opsC0_sub : (opsC0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsC0_fresh : (opsC0 : List (HloOp τ sig (Elt F))).Forall fun op => op.fresh = ∅ := by
  simp only [List.Forall]; repeat' constructor

/-- Operations 55 … 109 of @main: the users' combine step of layer 0 (ends with `main_v83`). -/
abbrev opsC1 : List (HloOp τ sig (Elt F)) :=
  [ unary main_arg2 main_v42 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v42 main_v43 rfl shapeCasts_S1x1x128x128_S128x128,
    unary main_arg3 main_v44 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v44 main_v45 rfl shapeCasts_S1x1x128_S128,
    unary main_arg4 main_v46 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v46 main_v47 rfl shapeCasts_S1x1x128x128_S128x128,
    unary main_arg5 main_v48 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v48 main_v49 rfl shapeCasts_S1x1x128_S128,
    nullary main_c_5 (constantI S_ 32 0#32),
    unary main_c_5 main_v50 (broadcastInDim S1000000 ![] bcast_S_S1000000 : (⟨S_, .i32⟩ : BufTy).Contents (Elt F) → (⟨S1000000, .i32⟩ : BufTy).Contents (Elt F)),
    binary main_arg12 main_v50 main_v51 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 50000#32),
    unary main_c_6 main_v52 (broadcastInDim S1000000 ![] bcast_S_S1000000 : (⟨S_, .i32⟩ : BufTy).Contents (Elt F) → (⟨S1000000, .i32⟩ : BufTy).Contents (Elt F)),
    binary main_arg12 main_v52 main_v53 (addi : (⟨S1000000, .i32⟩ : BufTy).Contents (Elt F) → (⟨S1000000, .i32⟩ : BufTy).Contents (Elt F) → (⟨S1000000, .i32⟩ : BufTy).Contents (Elt F)),
    ternary main_v51 main_v53 main_arg12 main_v54 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v54 main_v55 (broadcastInDim S1000000x1 ![0] bcast_S1000000_S1000000x1_0 : (⟨S1000000, .i32⟩ : BufTy).Contents (Elt F) → (⟨S1000000x1, .i32⟩ : BufTy).Contents (Elt F)),
    binary main_arg1 main_v55 main_v56 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_cst_7 (constant S_ .f32 0x00000000#32),
    unary main_cst_7 main_v57 (broadcastInDim S100000x128 ![] bcast_S_S100000x128 : (⟨S_, .f32⟩ : BufTy).Contents (Elt F) → (⟨S100000x128, .f32⟩ : BufTy).Contents (Elt F)),
    unary main_arg13 main_v58 (broadcastInDim S1000000x1 ![0] bcast_S1000000_S1000000x1_0 : (⟨S1000000, .i32⟩ : BufTy).Contents (Elt F) → (⟨S1000000x1, .i32⟩ : BufTy).Contents (Elt F)),
    ternary main_v57 main_v58 main_v56 main_v59 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_8 (constant S_ .f32 0x3F800000#32),
    unary main_cst_8 main_v60 (broadcastInDim S1000000 ![] bcast_S_S1000000 : (⟨S_, .f32⟩ : BufTy).Contents (Elt F) → (⟨S1000000, .f32⟩ : BufTy).Contents (Elt F)),
    nullary main_cst_9 (constant S_ .f32 0x00000000#32),
    unary main_cst_9 main_v61 (broadcastInDim S100000 ![] bcast_S_S100000 : (⟨S_, .f32⟩ : BufTy).Contents (Elt F) → (⟨S100000, .f32⟩ : BufTy).Contents (Elt F)),
    unary main_arg13 main_v62 (broadcastInDim S1000000x1 ![0] bcast_S1000000_S1000000x1_0 : (⟨S1000000, .i32⟩ : BufTy).Contents (Elt F) → (⟨S1000000x1, .i32⟩ : BufTy).Contents (Elt F)),
    ternary main_v61 main_v62 main_v60 main_v63 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_10 (constant S_ .f32 0x3F800000#32),
    unary main_cst_10 main_v64 (broadcastInDim S100000 ![] bcast_S_S100000 : (⟨S_, .f32⟩ : BufTy).Contents (Elt F) → (⟨S100000, .f32⟩ : BufTy).Contents (Elt F)),
    binary main_v63 main_v64 main_v65 (maximumf : (⟨S100000, .f32⟩ : BufTy).Contents (Elt F) → (⟨S100000, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    unary main_v66 main_v67 (broadcastInDim S100000x128 ![0, 1] bcast_S100000x1_S100000x128_0_1 : (⟨S100000x1, .f32⟩ : BufTy).Contents (Elt F) → (⟨S100000x128, .f32⟩ : BufTy).Contents (Elt F)),
    binary main_v59 main_v67 main_v68 (Host.divf : (⟨S100000x128, .f32⟩ : BufTy).Contents (Elt F) → (⟨S100000x128, .f32⟩ : BufTy).Contents (Elt F) → (⟨S100000x128, .f32⟩ : BufTy).Contents (Elt F)),
    binary main_v68 main_v43 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v45 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    binary main_arg0 main_v47 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v72 main_v73 main_v74 (addf : (⟨S100000x128, .f32⟩ : BufTy).Contents (Elt F) → (⟨S100000x128, .f32⟩ : BufTy).Contents (Elt F) → (⟨S100000x128, .f32⟩ : BufTy).Contents (Elt F)),
    unary main_v49 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v77) (TRef.of (T := ⟨S100000x128, .f32⟩) main_call2_v0) (TRef.of (T := ⟨S100000x128, .f32⟩) main_v78) maximumf,
    TRef.binary (TRef.of (T := ⟨S100000x128, .f32⟩) main_v78) (TRef.of (T := ⟨S100000x128, .f32⟩) main_v78) (TRef.of (T := ⟨S100000x128, .f32⟩) main_call3_v0) mulf,
    TRef.nullary (TRef.of (T := ⟨S_, .f32⟩) main_call3_cst) (constant S_ .f32 0x00000000#32),
    TRef.binary (TRef.of (T := ⟨S100000x128, .f32⟩) main_call3_v0) (TRef.of (T := ⟨S_, .f32⟩) main_call3_cst) (TRef.of (T := ⟨S100000, .f32⟩) main_call3_v1) (fun x v => Host.reduceAdd x v reducesTo_S100000x128_S100000_d1 h_S_),
    TRef.unary (TRef.of (T := ⟨S100000, .f32⟩) main_call3_v1) (TRef.of (T := ⟨S100000x1, .f32⟩) main_call3_v2) (broadcastInDim S100000x1 ![0] bcast_S100000_S100000x1_0),
    TRef.unary (TRef.of (T := ⟨S100000x1, .f32⟩) main_call3_v2) (TRef.of (T := ⟨S100000x1, .f32⟩) main_v79) Host.sqrt,
    nullary main_cst_11 (constant S_ .f32 0x2B8CBCCC#32),
    unary main_cst_11 main_v80 (broadcastInDim S100000x1 ![] bcast_S_S100000x1 : (⟨S_, .f32⟩ : BufTy).Contents (Elt F) → (⟨S100000x1, .f32⟩ : BufTy).Contents (Elt F)),
    binary main_v79 main_v80 main_v81 (maximumf : (⟨S100000x1, .f32⟩ : BufTy).Contents (Elt F) → (⟨S100000x1, .f32⟩ : BufTy).Contents (Elt F) → (⟨S100000x1, .f32⟩ : BufTy).Contents (Elt F)),
    unary main_v81 main_v82 (broadcastInDim S100000x128 ![0, 1] bcast_S100000x1_S100000x128_0_1 : (⟨S100000x1, .f32⟩ : BufTy).Contents (Elt F) → (⟨S100000x128, .f32⟩ : BufTy).Contents (Elt F)),
    binary main_v78 main_v82 main_v83 (Host.divf : (⟨S100000x128, .f32⟩ : BufTy).Contents (Elt F) → (⟨S100000x128, .f32⟩ : BufTy).Contents (Elt F) → (⟨S100000x128, .f32⟩ : BufTy).Contents (Elt F)) ]
theorem opsC1_sub : (opsC1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsC1_fresh : (opsC1 : List (HloOp τ sig (Elt F))).Forall fun op => op.fresh = ∅ := by
  simp only [List.Forall]; repeat' constructor

/-- Operations 110 … 164 of @main: the items' combine step of layer 1 (ends with `main_v125`). -/
abbrev opsC2 : List (HloOp τ sig (Elt F)) :=
  [ unary main_arg2 main_v84 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v84 main_v85 rfl shapeCasts_S1x1x128x128_S128x128,
    unary main_arg3 main_v86 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v86 main_v87 rfl shapeCasts_S1x1x128_S128,
    unary main_arg4 main_v88 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v88 main_v89 rfl shapeCasts_S1x1x128x128_S128x128,
    unary main_arg5 main_v90 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v90 main_v91 rfl shapeCasts_S1x1x128_S128,
    nullary main_c_12 (constantI S_ 32 0#32),
    unary main_c_12 main_v92 (broadcastInDim S1000000 ![] bcast_S_S1000000 : (⟨S_, .i32⟩ : BufTy).Contents (Elt F) → (⟨S1000000, .i32⟩ : BufTy).Contents (Elt F)),
    binary main_arg10 main_v92 main_v93 (cmpi .slt : (⟨S1000000, .i32⟩ : BufTy).Contents (Elt F) → (⟨S1000000, .i32⟩ : BufTy).Contents (Elt F) → (⟨S1000000, .i1⟩ : BufTy).Contents (Elt F)),
    nullary main_c_13 (constantI S_ 32 100000#32),
    unary main_c_13 main_v94 (broadcastInDim S1000000 ![] bcast_S_S1000000 : (⟨S_, .i32⟩ : BufTy).Contents (Elt F) → (⟨S1000000, .i32⟩ : BufTy).Contents (Elt F)),
    binary main_arg10 main_v94 main_v95 (addi : (⟨S1000000, .i32⟩ : BufTy).Contents (Elt F) → (⟨S1000000, .i32⟩ : BufTy).Contents (Elt F) → (⟨S1000000, .i32⟩ : BufTy).Contents (Elt F)),
    ternary main_v93 main_v95 main_arg10 main_v96 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v96 main_v97 (broadcastInDim S1000000x1 ![0] bcast_S1000000_S1000000x1_0 : (⟨S1000000, .i32⟩ : BufTy).Contents (Elt F) → (⟨S1000000x1, .i32⟩ : BufTy).Contents (Elt F)),
    binary main_v83 main_v97 main_v98 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_14 (constant S_ .f32 0x00000000#32),
    unary main_cst_14 main_v99 (broadcastInDim S50000x128 ![] bcast_S_S50000x128 : (⟨S_, .f32⟩ : BufTy).Contents (Elt F) → (⟨S50000x128, .f32⟩ : BufTy).Contents (Elt F)),
    unary main_arg11 main_v100 (broadcastInDim S1000000x1 ![0] bcast_S1000000_S1000000x1_0 : (⟨S1000000, .i32⟩ : BufTy).Contents (Elt F) → (⟨S1000000x1, .i32⟩ : BufTy).Contents (Elt F)),
    ternary main_v99 main_v100 main_v98 main_v101 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    nullary main_cst_15 (constant S_ .f32 0x3F800000#32),
    unary main_cst_15 main_v102 (broadcastInDim S1000000 ![] bcast_S_S1000000 : (⟨S_, .f32⟩ : BufTy).Contents (Elt F) → (⟨S1000000, .f32⟩ : BufTy).Contents (Elt F)),
    nullary main_cst_16 (constant S_ .f32 0x00000000#32),
    unary main_cst_16 main_v103 (broadcastInDim S50000 ![] bcast_S_S50000 : (⟨S_, .f32⟩ : BufTy).Contents (Elt F) → (⟨S50000, .f32⟩ : BufTy).Contents (Elt F)),
    unary main_arg11 main_v104 (broadcastInDim S1000000x1 ![0] bcast_S1000000_S1000000x1_0 : (⟨S1000000, .i32⟩ : BufTy).Contents (Elt F) → (⟨S1000000x1, .i32⟩ : BufTy).Contents (Elt F)),
    ternary main_v103 main_v104 main_v102 main_v105 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_cst_17 (constant S_ .f32 0x3F800000#32),
    unary main_cst_17 main_v106 (broadcastInDim S50000 ![] bcast_S_S50000 : (⟨S_, .f32⟩ : BufTy).Contents (Elt F) → (⟨S50000, .f32⟩ : BufTy).Contents (Elt F)),
    binary main_v105 main_v106 main_v107 (maximumf : (⟨S50000, .f32⟩ : BufTy).Contents (Elt F) → (⟨S50000, .f32⟩ : BufTy).Contents (Elt F) → (⟨S50000, .f32⟩ : BufTy).Contents (Elt F)),
    unary main_v107 main_v108 (broadcastInDim S50000x1 ![0] bcast_S50000_S50000x1_0 : (⟨S50000, .f32⟩ : BufTy).Contents (Elt F) → (⟨S50000x1, .f32⟩ : BufTy).Contents (Elt F)),
    unary main_v108 main_v109 (broadcastInDim S50000x128 ![0, 1] bcast_S50000x1_S50000x128_0_1 : (⟨S50000x1, .f32⟩ : BufTy).Contents (Elt F) → (⟨S50000x128, .f32⟩ : BufTy).Contents (Elt F)),
    binary main_v101 main_v109 main_v110 (Host.divf : (⟨S50000x128, .f32⟩ : BufTy).Contents (Elt F) → (⟨S50000x128, .f32⟩ : BufTy).Contents (Elt F) → (⟨S50000x128, .f32⟩ : BufTy).Contents (Elt F)),
    binary main_v110 main_v85 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v87 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v111 main_v113 main_v114 (addf : (⟨S50000x128, .f32⟩ : BufTy).Contents (Elt F) → (⟨S50000x128, .f32⟩ : BufTy).Contents (Elt F) → (⟨S50000x128, .f32⟩ : BufTy).Contents (Elt F)),
    binary main_v41 main_v89 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v114 main_v115 main_v116 (addf : (⟨S50000x128, .f32⟩ : BufTy).Contents (Elt F) → (⟨S50000x128, .f32⟩ : BufTy).Contents (Elt F) → (⟨S50000x128, .f32⟩ : BufTy).Contents (Elt F)),
    unary main_v91 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v119) (TRef.of (T := ⟨S50000x128, .f32⟩) main_call4_v0) (TRef.of (T := ⟨S50000x128, .f32⟩) main_v120) maximumf,
    TRef.binary (TRef.of (T := ⟨S50000x128, .f32⟩) main_v120) (TRef.of (T := ⟨S50000x128, .f32⟩) main_v120) (TRef.of (T := ⟨S50000x128, .f32⟩) main_call5_v0) mulf,
    TRef.nullary (TRef.of (T := ⟨S_, .f32⟩) main_call5_cst) (constant S_ .f32 0x00000000#32),
    TRef.binary (TRef.of (T := ⟨S50000x128, .f32⟩) main_call5_v0) (TRef.of (T := ⟨S_, .f32⟩) main_call5_cst) (TRef.of (T := ⟨S50000, .f32⟩) main_call5_v1) (fun x v => Host.reduceAdd x v reducesTo_S50000x128_S50000_d1 h_S_),
    TRef.unary (TRef.of (T := ⟨S50000, .f32⟩) main_call5_v1) (TRef.of (T := ⟨S50000x1, .f32⟩) main_call5_v2) (broadcastInDim S50000x1 ![0] bcast_S50000_S50000x1_0),
    TRef.unary (TRef.of (T := ⟨S50000x1, .f32⟩) main_call5_v2) (TRef.of (T := ⟨S50000x1, .f32⟩) main_v121) Host.sqrt,
    nullary main_cst_18 (constant S_ .f32 0x2B8CBCCC#32),
    unary main_cst_18 main_v122 (broadcastInDim S50000x1 ![] bcast_S_S50000x1 : (⟨S_, .f32⟩ : BufTy).Contents (Elt F) → (⟨S50000x1, .f32⟩ : BufTy).Contents (Elt F)),
    binary main_v121 main_v122 main_v123 (maximumf : (⟨S50000x1, .f32⟩ : BufTy).Contents (Elt F) → (⟨S50000x1, .f32⟩ : BufTy).Contents (Elt F) → (⟨S50000x1, .f32⟩ : BufTy).Contents (Elt F)),
    unary main_v123 main_v124 (broadcastInDim S50000x128 ![0, 1] bcast_S50000x1_S50000x128_0_1 : (⟨S50000x1, .f32⟩ : BufTy).Contents (Elt F) → (⟨S50000x128, .f32⟩ : BufTy).Contents (Elt F)),
    binary main_v120 main_v124 main_v125 (Host.divf : (⟨S50000x128, .f32⟩ : BufTy).Contents (Elt F) → (⟨S50000x128, .f32⟩ : BufTy).Contents (Elt F) → (⟨S50000x128, .f32⟩ : BufTy).Contents (Elt F)) ]
theorem opsC2_sub : (opsC2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsC2_fresh : (opsC2 : List (HloOp τ sig (Elt F))).Forall fun op => op.fresh = ∅ := by
  simp only [List.Forall]; repeat' constructor

/-- Operations 165 … 219 of @main: the users' combine step of layer 1 (ends with `main_v167`). -/
abbrev opsC3 : List (HloOp τ sig (Elt F)) :=
  [ unary main_arg2 main_v126 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v126 main_v127 rfl shapeCasts_S1x1x128x128_S128x128,
    unary main_arg3 main_v128 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v128 main_v129 rfl shapeCasts_S1x1x128_S128,
    unary main_arg4 main_v130 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v130 main_v131 rfl shapeCasts_S1x1x128x128_S128x128,
    unary main_arg5 main_v132 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v132 main_v133 rfl shapeCasts_S1x1x128_S128,
    nullary main_c_19 (constantI S_ 32 0#32),
    unary main_c_19 main_v134 (broadcastInDim S1000000 ![] bcast_S_S1000000 : (⟨S_, .i32⟩ : BufTy).Contents (Elt F) → (⟨S1000000, .i32⟩ : BufTy).Contents (Elt F)),
    binary main_arg12 main_v134 main_v135 (cmpi .slt : (⟨S1000000, .i32⟩ : BufTy).Contents (Elt F) → (⟨S1000000, .i32⟩ : BufTy).Contents (Elt F) → (⟨S1000000, .i1⟩ : BufTy).Contents (Elt F)),
    nullary main_c_20 (constantI S_ 32 50000#32),
    unary main_c_20 main_v136 (broadcastInDim S1000000 ![] bcast_S_S1000000 : (⟨S_, .i32⟩ : BufTy).Contents (Elt F) → (⟨S1000000, .i32⟩ : BufTy).Contents (Elt F)),
    binary main_arg12 main_v136 main_v137 (addi : (⟨S1000000, .i32⟩ : BufTy).Contents (Elt F) → (⟨S1000000, .i32⟩ : BufTy).Contents (Elt F) → (⟨S1000000, .i32⟩ : BufTy).Contents (Elt F)),
    ternary main_v135 main_v137 main_arg12 main_v138 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v138 main_v139 (broadcastInDim S1000000x1 ![0] bcast_S1000000_S1000000x1_0 : (⟨S1000000, .i32⟩ : BufTy).Contents (Elt F) → (⟨S1000000x1, .i32⟩ : BufTy).Contents (Elt F)),
    binary main_v41 main_v139 main_v140 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_cst_21 (constant S_ .f32 0x00000000#32),
    unary main_cst_21 main_v141 (broadcastInDim S100000x128 ![] bcast_S_S100000x128 : (⟨S_, .f32⟩ : BufTy).Contents (Elt F) → (⟨S100000x128, .f32⟩ : BufTy).Contents (Elt F)),
    unary main_arg13 main_v142 (broadcastInDim S1000000x1 ![0] bcast_S1000000_S1000000x1_0 : (⟨S1000000, .i32⟩ : BufTy).Contents (Elt F) → (⟨S1000000x1, .i32⟩ : BufTy).Contents (Elt F)),
    ternary main_v141 main_v142 main_v140 main_v143 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_22 (constant S_ .f32 0x3F800000#32),
    unary main_cst_22 main_v144 (broadcastInDim S1000000 ![] bcast_S_S1000000 : (⟨S_, .f32⟩ : BufTy).Contents (Elt F) → (⟨S1000000, .f32⟩ : BufTy).Contents (Elt F)),
    nullary main_cst_23 (constant S_ .f32 0x00000000#32),
    unary main_cst_23 main_v145 (broadcastInDim S100000 ![] bcast_S_S100000 : (⟨S_, .f32⟩ : BufTy).Contents (Elt F) → (⟨S100000, .f32⟩ : BufTy).Contents (Elt F)),
    unary main_arg13 main_v146 (broadcastInDim S1000000x1 ![0] bcast_S1000000_S1000000x1_0 : (⟨S1000000, .i32⟩ : BufTy).Contents (Elt F) → (⟨S1000000x1, .i32⟩ : BufTy).Contents (Elt F)),
    ternary main_v145 main_v146 main_v144 main_v147 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_24 (constant S_ .f32 0x3F800000#32),
    unary main_cst_24 main_v148 (broadcastInDim S100000 ![] bcast_S_S100000 : (⟨S_, .f32⟩ : BufTy).Contents (Elt F) → (⟨S100000, .f32⟩ : BufTy).Contents (Elt F)),
    binary main_v147 main_v148 main_v149 (maximumf : (⟨S100000, .f32⟩ : BufTy).Contents (Elt F) → (⟨S100000, .f32⟩ : BufTy).Contents (Elt F) → (⟨S100000, .f32⟩ : BufTy).Contents (Elt F)),
    unary main_v149 main_v150 (broadcastInDim S100000x1 ![0] bcast_S100000_S100000x1_0 : (⟨S100000, .f32⟩ : BufTy).Contents (Elt F) → (⟨S100000x1, .f32⟩ : BufTy).Contents (Elt F)),
    unary main_v150 main_v151 (broadcastInDim S100000x128 ![0, 1] bcast_S100000x1_S100000x128_0_1 : (⟨S100000x1, .f32⟩ : BufTy).Contents (Elt F) → (⟨S100000x128, .f32⟩ : BufTy).Contents (Elt F)),
    binary main_v143 main_v151 main_v152 (Host.divf : (⟨S100000x128, .f32⟩ : BufTy).Contents (Elt F) → (⟨S100000x128, .f32⟩ : BufTy).Contents (Elt F) → (⟨S100000x128, .f32⟩ : BufTy).Contents (Elt F)),
    binary main_v152 main_v127 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v129 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v153 main_v155 main_v156 (addf : (⟨S100000x128, .f32⟩ : BufTy).Contents (Elt F) → (⟨S100000x128, .f32⟩ : BufTy).Contents (Elt F) → (⟨S100000x128, .f32⟩ : BufTy).Contents (Elt F)),
    binary main_v83 main_v131 main_v157 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v156 main_v157 main_v158 (addf : (⟨S100000x128, .f32⟩ : BufTy).Contents (Elt F) → (⟨S100000x128, .f32⟩ : BufTy).Contents (Elt F) → (⟨S100000x128, .f32⟩ : BufTy).Contents (Elt F)),
    unary main_v133 main_v159 (broadcastInDim S1x128 ![1] bcast_S128_S1x128_1 : (⟨S128, .f32⟩ : BufTy).Contents (Elt F) → (⟨S1x128, .f32⟩ : BufTy).Contents (Elt F)),
    unary main_v159 main_v160 (broadcastInDim S100000x128 ![0, 1] bcast_S1x128_S100000x128_0_1 : (⟨S1x128, .f32⟩ : BufTy).Contents (Elt F) → (⟨S100000x128, .f32⟩ : BufTy).Contents (Elt F)),
    binary main_v158 main_v160 main_v161 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v161) (TRef.of (T := ⟨S100000x128, .f32⟩) main_call6_v0) (TRef.of (T := ⟨S100000x128, .f32⟩) main_v162) maximumf,
    TRef.binary (TRef.of (T := ⟨S100000x128, .f32⟩) main_v162) (TRef.of (T := ⟨S100000x128, .f32⟩) main_v162) (TRef.of (T := ⟨S100000x128, .f32⟩) main_call7_v0) mulf,
    TRef.nullary (TRef.of (T := ⟨S_, .f32⟩) main_call7_cst) (constant S_ .f32 0x00000000#32),
    TRef.binary (TRef.of (T := ⟨S100000x128, .f32⟩) main_call7_v0) (TRef.of (T := ⟨S_, .f32⟩) main_call7_cst) (TRef.of (T := ⟨S100000, .f32⟩) main_call7_v1) (fun x v => Host.reduceAdd x v reducesTo_S100000x128_S100000_d1 h_S_),
    TRef.unary (TRef.of (T := ⟨S100000, .f32⟩) main_call7_v1) (TRef.of (T := ⟨S100000x1, .f32⟩) main_call7_v2) (broadcastInDim S100000x1 ![0] bcast_S100000_S100000x1_0),
    TRef.unary (TRef.of (T := ⟨S100000x1, .f32⟩) main_call7_v2) (TRef.of (T := ⟨S100000x1, .f32⟩) main_v163) Host.sqrt,
    nullary main_cst_25 (constant S_ .f32 0x2B8CBCCC#32),
    unary main_cst_25 main_v164 (broadcastInDim S100000x1 ![] bcast_S_S100000x1 : (⟨S_, .f32⟩ : BufTy).Contents (Elt F) → (⟨S100000x1, .f32⟩ : BufTy).Contents (Elt F)),
    binary main_v163 main_v164 main_v165 (maximumf : (⟨S100000x1, .f32⟩ : BufTy).Contents (Elt F) → (⟨S100000x1, .f32⟩ : BufTy).Contents (Elt F) → (⟨S100000x1, .f32⟩ : BufTy).Contents (Elt F)),
    unary main_v165 main_v166 (broadcastInDim S100000x128 ![0, 1] bcast_S100000x1_S100000x128_0_1 : (⟨S100000x1, .f32⟩ : BufTy).Contents (Elt F) → (⟨S100000x128, .f32⟩ : BufTy).Contents (Elt F)),
    binary main_v162 main_v166 main_v167 (Host.divf : (⟨S100000x128, .f32⟩ : BufTy).Contents (Elt F) → (⟨S100000x128, .f32⟩ : BufTy).Contents (Elt F) → (⟨S100000x128, .f32⟩ : BufTy).Contents (Elt F)) ]
theorem opsC3_sub : (opsC3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsC3_fresh : (opsC3 : List (HloOp τ sig (Elt F))).Forall fun op => op.fresh = ∅ := by
  simp only [List.Forall]; repeat' constructor

/-- Operations 220 … 274 of @main: the items' combine step of layer 2 (ends with `main_v209`). -/
abbrev opsC4 : List (HloOp τ sig (Elt F)) :=
  [ unary main_arg6 main_v168 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v168 main_v169 rfl shapeCasts_S1x128x64_S128x64,
    unary main_arg7 main_v170 ((extractStridedSlice S1x64 ![0, 0] · slices_S2x64_S1x64_0_0) : (⟨S2x64, .f32⟩ : BufTy).Contents (Elt F) → (⟨S1x64, .f32⟩ : BufTy).Contents (Elt F)),
    reshape main_v170 main_v171 rfl shapeCasts_S1x64_S64,
    unary main_arg8 main_v172 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v172 main_v173 rfl shapeCasts_S1x128x64_S128x64,
    unary main_arg9 main_v174 ((extractStridedSlice S1x64 ![0, 0] · slices_S2x64_S1x64_0_0) : (⟨S2x64, .f32⟩ : BufTy).Contents (Elt F) → (⟨S1x64, .f32⟩ : BufTy).Contents (Elt F)),
    reshape main_v174 main_v175 rfl shapeCasts_S1x64_S64,
    nullary main_c_26 (constantI S_ 32 0#32),
    unary main_c_26 main_v176 (broadcastInDim S1000000 ![] bcast_S_S1000000 : (⟨S_, .i32⟩ : BufTy).Contents (Elt F) → (⟨S1000000, .i32⟩ : BufTy).Contents (Elt F)),
    binary main_arg10 main_v176 main_v177 (cmpi .slt : (⟨S1000000, .i32⟩ : BufTy).Contents (Elt F) → (⟨S1000000, .i32⟩ : BufTy).Contents (Elt F) → (⟨S1000000, .i1⟩ : BufTy).Contents (Elt F)),
    nullary main_c_27 (constantI S_ 32 100000#32),
    unary main_c_27 main_v178 (broadcastInDim S1000000 ![] bcast_S_S1000000 : (⟨S_, .i32⟩ : BufTy).Contents (Elt F) → (⟨S1000000, .i32⟩ : BufTy).Contents (Elt F)),
    binary main_arg10 main_v178 main_v179 (addi : (⟨S1000000, .i32⟩ : BufTy).Contents (Elt F) → (⟨S1000000, .i32⟩ : BufTy).Contents (Elt F) → (⟨S1000000, .i32⟩ : BufTy).Contents (Elt F)),
    ternary main_v177 main_v179 main_arg10 main_v180 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v180 main_v181 (broadcastInDim S1000000x1 ![0] bcast_S1000000_S1000000x1_0 : (⟨S1000000, .i32⟩ : BufTy).Contents (Elt F) → (⟨S1000000x1, .i32⟩ : BufTy).Contents (Elt F)),
    binary main_v167 main_v181 main_v182 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_28 (constant S_ .f32 0x00000000#32),
    unary main_cst_28 main_v183 (broadcastInDim S50000x128 ![] bcast_S_S50000x128 : (⟨S_, .f32⟩ : BufTy).Contents (Elt F) → (⟨S50000x128, .f32⟩ : BufTy).Contents (Elt F)),
    unary main_arg11 main_v184 (broadcastInDim S1000000x1 ![0] bcast_S1000000_S1000000x1_0 : (⟨S1000000, .i32⟩ : BufTy).Contents (Elt F) → (⟨S1000000x1, .i32⟩ : BufTy).Contents (Elt F)),
    ternary main_v183 main_v184 main_v182 main_v185 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    nullary main_cst_29 (constant S_ .f32 0x3F800000#32),
    unary main_cst_29 main_v186 (broadcastInDim S1000000 ![] bcast_S_S1000000 : (⟨S_, .f32⟩ : BufTy).Contents (Elt F) → (⟨S1000000, .f32⟩ : BufTy).Contents (Elt F)),
    nullary main_cst_30 (constant S_ .f32 0x00000000#32),
    unary main_cst_30 main_v187 (broadcastInDim S50000 ![] bcast_S_S50000 : (⟨S_, .f32⟩ : BufTy).Contents (Elt F) → (⟨S50000, .f32⟩ : BufTy).Contents (Elt F)),
    unary main_arg11 main_v188 (broadcastInDim S1000000x1 ![0] bcast_S1000000_S1000000x1_0 : (⟨S1000000, .i32⟩ : BufTy).Contents (Elt F) → (⟨S1000000x1, .i32⟩ : BufTy).Contents (Elt F)),
    ternary main_v187 main_v188 main_v186 main_v189 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_cst_31 (constant S_ .f32 0x3F800000#32),
    unary main_cst_31 main_v190 (broadcastInDim S50000 ![] bcast_S_S50000 : (⟨S_, .f32⟩ : BufTy).Contents (Elt F) → (⟨S50000, .f32⟩ : BufTy).Contents (Elt F)),
    binary main_v189 main_v190 main_v191 (maximumf : (⟨S50000, .f32⟩ : BufTy).Contents (Elt F) → (⟨S50000, .f32⟩ : BufTy).Contents (Elt F) → (⟨S50000, .f32⟩ : BufTy).Contents (Elt F)),
    unary main_v191 main_v192 (broadcastInDim S50000x1 ![0] bcast_S50000_S50000x1_0 : (⟨S50000, .f32⟩ : BufTy).Contents (Elt F) → (⟨S50000x1, .f32⟩ : BufTy).Contents (Elt F)),
    unary main_v192 main_v193 (broadcastInDim S50000x128 ![0, 1] bcast_S50000x1_S50000x128_0_1 : (⟨S50000x1, .f32⟩ : BufTy).Contents (Elt F) → (⟨S50000x128, .f32⟩ : BufTy).Contents (Elt F)),
    binary main_v185 main_v193 main_v194 (Host.divf : (⟨S50000x128, .f32⟩ : BufTy).Contents (Elt F) → (⟨S50000x128, .f32⟩ : BufTy).Contents (Elt F) → (⟨S50000x128, .f32⟩ : BufTy).Contents (Elt F)),
    binary main_v194 main_v169 main_v195 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v171 main_v196 (broadcastInDim S1x64 ![1] bcast_S64_S1x64_1 : (⟨S64, .f32⟩ : BufTy).Contents (Elt F) → (⟨S1x64, .f32⟩ : BufTy).Contents (Elt F)),
    unary main_v196 main_v197 (broadcastInDim S50000x64 ![0, 1] bcast_S1x64_S50000x64_0_1 : (⟨S1x64, .f32⟩ : BufTy).Contents (Elt F) → (⟨S50000x64, .f32⟩ : BufTy).Contents (Elt F)),
    binary main_v195 main_v197 main_v198 (addf : (⟨S50000x64, .f32⟩ : BufTy).Contents (Elt F) → (⟨S50000x64, .f32⟩ : BufTy).Contents (Elt F) → (⟨S50000x64, .f32⟩ : BufTy).Contents (Elt F)),
    binary main_v125 main_v173 main_v199 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v198 main_v199 main_v200 (addf : (⟨S50000x64, .f32⟩ : BufTy).Contents (Elt F) → (⟨S50000x64, .f32⟩ : BufTy).Contents (Elt F) → (⟨S50000x64, .f32⟩ : BufTy).Contents (Elt F)),
    unary main_v175 main_v201 (broadcastInDim S1x64 ![1] bcast_S64_S1x64_1 : (⟨S64, .f32⟩ : BufTy).Contents (Elt F) → (⟨S1x64, .f32⟩ : BufTy).Contents (Elt F)),
    unary main_v201 main_v202 (broadcastInDim S50000x64 ![0, 1] bcast_S1x64_S50000x64_0_1 : (⟨S1x64, .f32⟩ : BufTy).Contents (Elt F) → (⟨S50000x64, .f32⟩ : BufTy).Contents (Elt F)),
    binary main_v200 main_v202 main_v203 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x64, .f32⟩) main_call8_v0) (broadcastInDim S50000x64 ![] bcast_S_S50000x64),
    TRef.binary (TRef.of (T := ⟨S50000x64, .f32⟩) main_v203) (TRef.of (T := ⟨S50000x64, .f32⟩) main_call8_v0) (TRef.of (T := ⟨S50000x64, .f32⟩) main_v204) maximumf,
    TRef.binary (TRef.of (T := ⟨S50000x64, .f32⟩) main_v204) (TRef.of (T := ⟨S50000x64, .f32⟩) main_v204) (TRef.of (T := ⟨S50000x64, .f32⟩) main_call9_v0) mulf,
    TRef.nullary (TRef.of (T := ⟨S_, .f32⟩) main_call9_cst) (constant S_ .f32 0x00000000#32),
    TRef.binary (TRef.of (T := ⟨S50000x64, .f32⟩) main_call9_v0) (TRef.of (T := ⟨S_, .f32⟩) main_call9_cst) (TRef.of (T := ⟨S50000, .f32⟩) main_call9_v1) (fun x v => Host.reduceAdd x v reducesTo_S50000x64_S50000_d1 h_S_),
    TRef.unary (TRef.of (T := ⟨S50000, .f32⟩) main_call9_v1) (TRef.of (T := ⟨S50000x1, .f32⟩) main_call9_v2) (broadcastInDim S50000x1 ![0] bcast_S50000_S50000x1_0),
    TRef.unary (TRef.of (T := ⟨S50000x1, .f32⟩) main_call9_v2) (TRef.of (T := ⟨S50000x1, .f32⟩) main_v205) Host.sqrt,
    nullary main_cst_32 (constant S_ .f32 0x2B8CBCCC#32),
    unary main_cst_32 main_v206 (broadcastInDim S50000x1 ![] bcast_S_S50000x1 : (⟨S_, .f32⟩ : BufTy).Contents (Elt F) → (⟨S50000x1, .f32⟩ : BufTy).Contents (Elt F)),
    binary main_v205 main_v206 main_v207 (maximumf : (⟨S50000x1, .f32⟩ : BufTy).Contents (Elt F) → (⟨S50000x1, .f32⟩ : BufTy).Contents (Elt F) → (⟨S50000x1, .f32⟩ : BufTy).Contents (Elt F)),
    unary main_v207 main_v208 (broadcastInDim S50000x64 ![0, 1] bcast_S50000x1_S50000x64_0_1 : (⟨S50000x1, .f32⟩ : BufTy).Contents (Elt F) → (⟨S50000x64, .f32⟩ : BufTy).Contents (Elt F)),
    binary main_v204 main_v208 main_v209 (Host.divf : (⟨S50000x64, .f32⟩ : BufTy).Contents (Elt F) → (⟨S50000x64, .f32⟩ : BufTy).Contents (Elt F) → (⟨S50000x64, .f32⟩ : BufTy).Contents (Elt F)) ]
theorem opsC4_sub : (opsC4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsC4_fresh : (opsC4 : List (HloOp τ sig (Elt F))).Forall fun op => op.fresh = ∅ := by
  simp only [List.Forall]; repeat' constructor

/-- Operations 275 … 329 of @main: the users' combine step of layer 2 (ends with `main_v251`). -/
abbrev opsC5 : List (HloOp τ sig (Elt F)) :=
  [ unary main_arg6 main_v210 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v210 main_v211 rfl shapeCasts_S1x128x64_S128x64,
    unary main_arg7 main_v212 ((extractStridedSlice S1x64 ![1, 0] · slices_S2x64_S1x64_1_0) : (⟨S2x64, .f32⟩ : BufTy).Contents (Elt F) → (⟨S1x64, .f32⟩ : BufTy).Contents (Elt F)),
    reshape main_v212 main_v213 rfl shapeCasts_S1x64_S64,
    unary main_arg8 main_v214 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v214 main_v215 rfl shapeCasts_S1x128x64_S128x64,
    unary main_arg9 main_v216 ((extractStridedSlice S1x64 ![1, 0] · slices_S2x64_S1x64_1_0) : (⟨S2x64, .f32⟩ : BufTy).Contents (Elt F) → (⟨S1x64, .f32⟩ : BufTy).Contents (Elt F)),
    reshape main_v216 main_v217 rfl shapeCasts_S1x64_S64,
    nullary main_c_33 (constantI S_ 32 0#32),
    unary main_c_33 main_v218 (broadcastInDim S1000000 ![] bcast_S_S1000000 : (⟨S_, .i32⟩ : BufTy).Contents (Elt F) → (⟨S1000000, .i32⟩ : BufTy).Contents (Elt F)),
    binary main_arg12 main_v218 main_v219 (cmpi .slt : (⟨S1000000, .i32⟩ : BufTy).Contents (Elt F) → (⟨S1000000, .i32⟩ : BufTy).Contents (Elt F) → (⟨S1000000, .i1⟩ : BufTy).Contents (Elt F)),
    nullary main_c_34 (constantI S_ 32 50000#32),
    unary main_c_34 main_v220 (broadcastInDim S1000000 ![] bcast_S_S1000000 : (⟨S_, .i32⟩ : BufTy).Contents (Elt F) → (⟨S1000000, .i32⟩ : BufTy).Contents (Elt F)),
    binary main_arg12 main_v220 main_v221 (addi : (⟨S1000000, .i32⟩ : BufTy).Contents (Elt F) → (⟨S1000000, .i32⟩ : BufTy).Contents (Elt F) → (⟨S1000000, .i32⟩ : BufTy).Contents (Elt F)),
    ternary main_v219 main_v221 main_arg12 main_v222 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v222 main_v223 (broadcastInDim S1000000x1 ![0] bcast_S1000000_S1000000x1_0 : (⟨S1000000, .i32⟩ : BufTy).Contents (Elt F) → (⟨S1000000x1, .i32⟩ : BufTy).Contents (Elt F)),
    binary main_v125 main_v223 main_v224 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_cst_35 (constant S_ .f32 0x00000000#32),
    unary main_cst_35 main_v225 (broadcastInDim S100000x128 ![] bcast_S_S100000x128 : (⟨S_, .f32⟩ : BufTy).Contents (Elt F) → (⟨S100000x128, .f32⟩ : BufTy).Contents (Elt F)),
    unary main_arg13 main_v226 (broadcastInDim S1000000x1 ![0] bcast_S1000000_S1000000x1_0 : (⟨S1000000, .i32⟩ : BufTy).Contents (Elt F) → (⟨S1000000x1, .i32⟩ : BufTy).Contents (Elt F)),
    ternary main_v225 main_v226 main_v224 main_v227 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_36 (constant S_ .f32 0x3F800000#32),
    unary main_cst_36 main_v228 (broadcastInDim S1000000 ![] bcast_S_S1000000 : (⟨S_, .f32⟩ : BufTy).Contents (Elt F) → (⟨S1000000, .f32⟩ : BufTy).Contents (Elt F)),
    nullary main_cst_37 (constant S_ .f32 0x00000000#32),
    unary main_cst_37 main_v229 (broadcastInDim S100000 ![] bcast_S_S100000 : (⟨S_, .f32⟩ : BufTy).Contents (Elt F) → (⟨S100000, .f32⟩ : BufTy).Contents (Elt F)),
    unary main_arg13 main_v230 (broadcastInDim S1000000x1 ![0] bcast_S1000000_S1000000x1_0 : (⟨S1000000, .i32⟩ : BufTy).Contents (Elt F) → (⟨S1000000x1, .i32⟩ : BufTy).Contents (Elt F)),
    ternary main_v229 main_v230 main_v228 main_v231 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_38 (constant S_ .f32 0x3F800000#32),
    unary main_cst_38 main_v232 (broadcastInDim S100000 ![] bcast_S_S100000 : (⟨S_, .f32⟩ : BufTy).Contents (Elt F) → (⟨S100000, .f32⟩ : BufTy).Contents (Elt F)),
    binary main_v231 main_v232 main_v233 (maximumf : (⟨S100000, .f32⟩ : BufTy).Contents (Elt F) → (⟨S100000, .f32⟩ : BufTy).Contents (Elt F) → (⟨S100000, .f32⟩ : BufTy).Contents (Elt F)),
    unary main_v233 main_v234 (broadcastInDim S100000x1 ![0] bcast_S100000_S100000x1_0 : (⟨S100000, .f32⟩ : BufTy).Contents (Elt F) → (⟨S100000x1, .f32⟩ : BufTy).Contents (Elt F)),
    unary main_v234 main_v235 (broadcastInDim S100000x128 ![0, 1] bcast_S100000x1_S100000x128_0_1 : (⟨S100000x1, .f32⟩ : BufTy).Contents (Elt F) → (⟨S100000x128, .f32⟩ : BufTy).Contents (Elt F)),
    binary main_v227 main_v235 main_v236 (Host.divf : (⟨S100000x128, .f32⟩ : BufTy).Contents (Elt F) → (⟨S100000x128, .f32⟩ : BufTy).Contents (Elt F) → (⟨S100000x128, .f32⟩ : BufTy).Contents (Elt F)),
    binary main_v236 main_v211 main_v237 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v213 main_v238 (broadcastInDim S1x64 ![1] bcast_S64_S1x64_1 : (⟨S64, .f32⟩ : BufTy).Contents (Elt F) → (⟨S1x64, .f32⟩ : BufTy).Contents (Elt F)),
    unary main_v238 main_v239 (broadcastInDim S100000x64 ![0, 1] bcast_S1x64_S100000x64_0_1 : (⟨S1x64, .f32⟩ : BufTy).Contents (Elt F) → (⟨S100000x64, .f32⟩ : BufTy).Contents (Elt F)),
    binary main_v237 main_v239 main_v240 (addf : (⟨S100000x64, .f32⟩ : BufTy).Contents (Elt F) → (⟨S100000x64, .f32⟩ : BufTy).Contents (Elt F) → (⟨S100000x64, .f32⟩ : BufTy).Contents (Elt F)),
    binary main_v167 main_v215 main_v241 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v240 main_v241 main_v242 (addf : (⟨S100000x64, .f32⟩ : BufTy).Contents (Elt F) → (⟨S100000x64, .f32⟩ : BufTy).Contents (Elt F) → (⟨S100000x64, .f32⟩ : BufTy).Contents (Elt F)),
    unary main_v217 main_v243 (broadcastInDim S1x64 ![1] bcast_S64_S1x64_1 : (⟨S64, .f32⟩ : BufTy).Contents (Elt F) → (⟨S1x64, .f32⟩ : BufTy).Contents (Elt F)),
    unary main_v243 main_v244 (broadcastInDim S100000x64 ![0, 1] bcast_S1x64_S100000x64_0_1 : (⟨S1x64, .f32⟩ : BufTy).Contents (Elt F) → (⟨S100000x64, .f32⟩ : BufTy).Contents (Elt F)),
    binary main_v242 main_v244 main_v245 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v245) (TRef.of (T := ⟨S100000x64, .f32⟩) main_call10_v0) (TRef.of (T := ⟨S100000x64, .f32⟩) main_v246) maximumf,
    TRef.binary (TRef.of (T := ⟨S100000x64, .f32⟩) main_v246) (TRef.of (T := ⟨S100000x64, .f32⟩) main_v246) (TRef.of (T := ⟨S100000x64, .f32⟩) main_call11_v0) mulf,
    TRef.nullary (TRef.of (T := ⟨S_, .f32⟩) main_call11_cst) (constant S_ .f32 0x00000000#32),
    TRef.binary (TRef.of (T := ⟨S100000x64, .f32⟩) main_call11_v0) (TRef.of (T := ⟨S_, .f32⟩) main_call11_cst) (TRef.of (T := ⟨S100000, .f32⟩) main_call11_v1) (fun x v => Host.reduceAdd x v reducesTo_S100000x64_S100000_d1 h_S_),
    TRef.unary (TRef.of (T := ⟨S100000, .f32⟩) main_call11_v1) (TRef.of (T := ⟨S100000x1, .f32⟩) main_call11_v2) (broadcastInDim S100000x1 ![0] bcast_S100000_S100000x1_0),
    TRef.unary (TRef.of (T := ⟨S100000x1, .f32⟩) main_call11_v2) (TRef.of (T := ⟨S100000x1, .f32⟩) main_v247) Host.sqrt,
    nullary main_cst_39 (constant S_ .f32 0x2B8CBCCC#32),
    unary main_cst_39 main_v248 (broadcastInDim S100000x1 ![] bcast_S_S100000x1 : (⟨S_, .f32⟩ : BufTy).Contents (Elt F) → (⟨S100000x1, .f32⟩ : BufTy).Contents (Elt F)),
    binary main_v247 main_v248 main_v249 (maximumf : (⟨S100000x1, .f32⟩ : BufTy).Contents (Elt F) → (⟨S100000x1, .f32⟩ : BufTy).Contents (Elt F) → (⟨S100000x1, .f32⟩ : BufTy).Contents (Elt F)),
    unary main_v249 main_v250 (broadcastInDim S100000x64 ![0, 1] bcast_S100000x1_S100000x64_0_1 : (⟨S100000x1, .f32⟩ : BufTy).Contents (Elt F) → (⟨S100000x64, .f32⟩ : BufTy).Contents (Elt F)),
    binary main_v246 main_v250 main_v251 (Host.divf : (⟨S100000x64, .f32⟩ : BufTy).Contents (Elt F) → (⟨S100000x64, .f32⟩ : BufTy).Contents (Elt F) → (⟨S100000x64, .f32⟩ : BufTy).Contents (Elt F)) ]
theorem opsC5_sub : (opsC5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsC5_fresh : (opsC5 : List (HloOp τ sig (Elt F))).Forall fun op => op.fresh = ∅ := by
  simp only [List.Forall]; repeat' constructor

/-- Operations 330 … 391 of @main: the scores: two row normalisations, four gathers, two sums of products. -/
abbrev opsC6 : List (HloOp τ sig (Elt F)) :=
  [ TRef.binary (TRef.of (T := ⟨S100000x64, .f32⟩) main_v251) (TRef.of (T := ⟨S100000x64, .f32⟩) main_v251) (TRef.of (T := ⟨S100000x64, .f32⟩) main_call12_v0) mulf,
    TRef.nullary (TRef.of (T := ⟨S_, .f32⟩) main_call12_cst) (constant S_ .f32 0x00000000#32),
    TRef.binary (TRef.of (T := ⟨S100000x64, .f32⟩) main_call12_v0) (TRef.of (T := ⟨S_, .f32⟩) main_call12_cst) (TRef.of (T := ⟨S100000, .f32⟩) main_call12_v1) (fun x v => Host.reduceAdd x v reducesTo_S100000x64_S100000_d1 h_S_),
    TRef.unary (TRef.of (T := ⟨S100000, .f32⟩) main_call12_v1) (TRef.of (T := ⟨S100000x1, .f32⟩) main_call12_v2) (broadcastInDim S100000x1 ![0] bcast_S100000_S100000x1_0),
    TRef.unary (TRef.of (T := ⟨S100000x1, .f32⟩) main_call12_v2) (TRef.of (T := ⟨S100000x1, .f32⟩) main_v252) Host.sqrt,
    nullary main_cst_40 (constant S_ .f32 0x2B8CBCCC#32),
    unary main_cst_40 main_v253 (broadcastInDim S100000x1 ![] bcast_S_S100000x1 : (⟨S_, .f32⟩ : BufTy).Contents (Elt F) → (⟨S100000x1, .f32⟩ : BufTy).Contents (Elt F)),
    binary main_v252 main_v253 main_v254 (maximumf : (⟨S100000x1, .f32⟩ : BufTy).Contents (Elt F) → (⟨S100000x1, .f32⟩ : BufTy).Contents (Elt F) → (⟨S100000x1, .f32⟩ : BufTy).Contents (Elt F)),
    unary main_v254 main_v255 (broadcastInDim S100000x64 ![0, 1] bcast_S100000x1_S100000x64_0_1 : (⟨S100000x1, .f32⟩ : BufTy).Contents (Elt F) → (⟨S100000x64, .f32⟩ : BufTy).Contents (Elt F)),
    binary main_v251 main_v255 main_v256 (Host.divf : (⟨S100000x64, .f32⟩ : BufTy).Contents (Elt F) → (⟨S100000x64, .f32⟩ : BufTy).Contents (Elt F) → (⟨S100000x64, .f32⟩ : BufTy).Contents (Elt F)),
    TRef.binary (TRef.of (T := ⟨S50000x64, .f32⟩) main_v209) (TRef.of (T := ⟨S50000x64, .f32⟩) main_v209) (TRef.of (T := ⟨S50000x64, .f32⟩) main_call13_v0) mulf,
    TRef.nullary (TRef.of (T := ⟨S_, .f32⟩) main_call13_cst) (constant S_ .f32 0x00000000#32),
    TRef.binary (TRef.of (T := ⟨S50000x64, .f32⟩) main_call13_v0) (TRef.of (T := ⟨S_, .f32⟩) main_call13_cst) (TRef.of (T := ⟨S50000, .f32⟩) main_call13_v1) (fun x v => Host.reduceAdd x v reducesTo_S50000x64_S50000_d1 h_S_),
    TRef.unary (TRef.of (T := ⟨S50000, .f32⟩) main_call13_v1) (TRef.of (T := ⟨S50000x1, .f32⟩) main_call13_v2) (broadcastInDim S50000x1 ![0] bcast_S50000_S50000x1_0),
    TRef.unary (TRef.of (T := ⟨S50000x1, .f32⟩) main_call13_v2) (TRef.of (T := ⟨S50000x1, .f32⟩) main_v257) Host.sqrt,
    nullary main_cst_41 (constant S_ .f32 0x2B8CBCCC#32),
    unary main_cst_41 main_v258 (broadcastInDim S50000x1 ![] bcast_S_S50000x1 : (⟨S_, .f32⟩ : BufTy).Contents (Elt F) → (⟨S50000x1, .f32⟩ : BufTy).Contents (Elt F)),
    binary main_v257 main_v258 main_v259 (maximumf : (⟨S50000x1, .f32⟩ : BufTy).Contents (Elt F) → (⟨S50000x1, .f32⟩ : BufTy).Contents (Elt F) → (⟨S50000x1, .f32⟩ : BufTy).Contents (Elt F)),
    unary main_v259 main_v260 (broadcastInDim S50000x64 ![0, 1] bcast_S50000x1_S50000x64_0_1 : (⟨S50000x1, .f32⟩ : BufTy).Contents (Elt F) → (⟨S50000x64, .f32⟩ : BufTy).Contents (Elt F)),
    binary main_v209 main_v260 main_v261 (Host.divf : (⟨S50000x64, .f32⟩ : BufTy).Contents (Elt F) → (⟨S50000x64, .f32⟩ : BufTy).Contents (Elt F) → (⟨S50000x64, .f32⟩ : BufTy).Contents (Elt F)),
    nullary main_c_42 (constantI S_ 32 0#32),
    unary main_c_42 main_v262 (broadcastInDim S500000 ![] bcast_S_S500000 : (⟨S_, .i32⟩ : BufTy).Contents (Elt F) → (⟨S500000, .i32⟩ : BufTy).Contents (Elt F)),
    binary main_arg14 main_v262 main_v263 (cmpi .slt : (⟨S500000, .i32⟩ : BufTy).Contents (Elt F) → (⟨S500000, .i32⟩ : BufTy).Contents (Elt F) → (⟨S500000, .i1⟩ : BufTy).Contents (Elt F)),
    nullary main_c_43 (constantI S_ 32 100000#32),
    unary main_c_43 main_v264 (broadcastInDim S500000 ![] bcast_S_S500000 : (⟨S_, .i32⟩ : BufTy).Contents (Elt F) → (⟨S500000, .i32⟩ : BufTy).Contents (Elt F)),
    binary main_arg14 main_v264 main_v265 (addi : (⟨S500000, .i32⟩ : BufTy).Contents (Elt F) → (⟨S500000, .i32⟩ : BufTy).Contents (Elt F) → (⟨S500000, .i32⟩ : BufTy).Contents (Elt F)),
    ternary main_v263 main_v265 main_arg14 main_v266 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v266 main_v267 (broadcastInDim S500000x1 ![0] bcast_S500000_S500000x1_0 : (⟨S500000, .i32⟩ : BufTy).Contents (Elt F) → (⟨S500000x1, .i32⟩ : BufTy).Contents (Elt F)),
    binary main_v256 main_v267 main_v268 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_44 (constantI S_ 32 0#32),
    unary main_c_44 main_v269 (broadcastInDim S500000 ![] bcast_S_S500000 : (⟨S_, .i32⟩ : BufTy).Contents (Elt F) → (⟨S500000, .i32⟩ : BufTy).Contents (Elt F)),
    binary main_arg15 main_v269 main_v270 (cmpi .slt : (⟨S500000, .i32⟩ : BufTy).Contents (Elt F) → (⟨S500000, .i32⟩ : BufTy).Contents (Elt F) → (⟨S500000, .i1⟩ : BufTy).Contents (Elt F)),
    nullary main_c_45 (constantI S_ 32 50000#32),
    unary main_c_45 main_v271 (broadcastInDim S500000 ![] bcast_S_S500000 : (⟨S_, .i32⟩ : BufTy).Contents (Elt F) → (⟨S500000, .i32⟩ : BufTy).Contents (Elt F)),
    binary main_arg15 main_v271 main_v272 (addi : (⟨S500000, .i32⟩ : BufTy).Contents (Elt F) → (⟨S500000, .i32⟩ : BufTy).Contents (Elt F) → (⟨S500000, .i32⟩ : BufTy).Contents (Elt F)),
    ternary main_v270 main_v272 main_arg15 main_v273 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v273 main_v274 (broadcastInDim S500000x1 ![0] bcast_S500000_S500000x1_0 : (⟨S500000, .i32⟩ : BufTy).Contents (Elt F) → (⟨S500000x1, .i32⟩ : BufTy).Contents (Elt F)),
    binary main_v261 main_v274 main_v275 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    binary main_v268 main_v275 main_v276 (mulf : (⟨S500000x64, .f32⟩ : BufTy).Contents (Elt F) → (⟨S500000x64, .f32⟩ : BufTy).Contents (Elt F) → (⟨S500000x64, .f32⟩ : BufTy).Contents (Elt F)),
    nullary main_cst_46 (constant S_ .f32 0x00000000#32),
    binary main_v276 main_cst_46 main_v277 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    nullary main_c_47 (constantI S_ 32 0#32),
    unary main_c_47 main_v278 (broadcastInDim S500000 ![] bcast_S_S500000 : (⟨S_, .i32⟩ : BufTy).Contents (Elt F) → (⟨S500000, .i32⟩ : BufTy).Contents (Elt F)),
    binary main_arg16 main_v278 main_v279 (cmpi .slt : (⟨S500000, .i32⟩ : BufTy).Contents (Elt F) → (⟨S500000, .i32⟩ : BufTy).Contents (Elt F) → (⟨S500000, .i1⟩ : BufTy).Contents (Elt F)),
    nullary main_c_48 (constantI S_ 32 100000#32),
    unary main_c_48 main_v280 (broadcastInDim S500000 ![] bcast_S_S500000 : (⟨S_, .i32⟩ : BufTy).Contents (Elt F) → (⟨S500000, .i32⟩ : BufTy).Contents (Elt F)),
    binary main_arg16 main_v280 main_v281 (addi : (⟨S500000, .i32⟩ : BufTy).Contents (Elt F) → (⟨S500000, .i32⟩ : BufTy).Contents (Elt F) → (⟨S500000, .i32⟩ : BufTy).Contents (Elt F)),
    ternary main_v279 main_v281 main_arg16 main_v282 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v282 main_v283 (broadcastInDim S500000x1 ![0] bcast_S500000_S500000x1_0 : (⟨S500000, .i32⟩ : BufTy).Contents (Elt F) → (⟨S500000x1, .i32⟩ : BufTy).Contents (Elt F)),
    binary main_v256 main_v283 main_v284 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_49 (constantI S_ 32 0#32),
    unary main_c_49 main_v285 (broadcastInDim S500000 ![] bcast_S_S500000 : (⟨S_, .i32⟩ : BufTy).Contents (Elt F) → (⟨S500000, .i32⟩ : BufTy).Contents (Elt F)),
    binary main_arg17 main_v285 main_v286 (cmpi .slt : (⟨S500000, .i32⟩ : BufTy).Contents (Elt F) → (⟨S500000, .i32⟩ : BufTy).Contents (Elt F) → (⟨S500000, .i1⟩ : BufTy).Contents (Elt F)),
    nullary main_c_50 (constantI S_ 32 50000#32),
    unary main_c_50 main_v287 (broadcastInDim S500000 ![] bcast_S_S500000 : (⟨S_, .i32⟩ : BufTy).Contents (Elt F) → (⟨S500000, .i32⟩ : BufTy).Contents (Elt F)),
    binary main_arg17 main_v287 main_v288 (addi : (⟨S500000, .i32⟩ : BufTy).Contents (Elt F) → (⟨S500000, .i32⟩ : BufTy).Contents (Elt F) → (⟨S500000, .i32⟩ : BufTy).Contents (Elt F)),
    ternary main_v286 main_v288 main_arg17 main_v289 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v289 main_v290 (broadcastInDim S500000x1 ![0] bcast_S500000_S500000x1_0 : (⟨S500000, .i32⟩ : BufTy).Contents (Elt F) → (⟨S500000x1, .i32⟩ : BufTy).Contents (Elt F)),
    binary main_v261 main_v290 main_v291 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    binary main_v284 main_v291 main_v292 (mulf : (⟨S500000x64, .f32⟩ : BufTy).Contents (Elt F) → (⟨S500000x64, .f32⟩ : BufTy).Contents (Elt F) → (⟨S500000x64, .f32⟩ : BufTy).Contents (Elt F)),
    nullary main_cst_51 (constant S_ .f32 0x00000000#32),
    binary main_v292 main_cst_51 main_v293 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)) ]
theorem opsC6_sub : (opsC6 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩
theorem opsC6_fresh : (opsC6 : List (HloOp τ sig (Elt F))).Forall fun op => op.fresh = ∅ := by
  simp only [List.Forall]; repeat' constructor

/-- @main's 392 operations, in order: the seven chunks one after the other. -/
abbrev ops : List (HloOp τ sig (Elt F)) := opsC0 ++ (opsC1 ++ (opsC2 ++ (opsC3 ++ (opsC4 ++ (opsC5 ++ opsC6)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.mpr ⟨opsC0_sub, List.forall_append.mpr ⟨opsC1_sub, List.forall_append.mpr ⟨opsC2_sub,
    List.forall_append.mpr ⟨opsC3_sub, List.forall_append.mpr ⟨opsC4_sub, List.forall_append.mpr ⟨opsC5_sub, opsC6_sub⟩⟩⟩⟩⟩⟩
theorem ops_fresh : (ops : List (HloOp τ sig (Elt F))).Forall fun op => op.fresh = ∅ :=
  List.forall_append.mpr ⟨opsC0_fresh, List.forall_append.mpr ⟨opsC1_fresh, List.forall_append.mpr ⟨opsC2_fresh,
    List.forall_append.mpr ⟨opsC3_fresh, List.forall_append.mpr ⟨opsC4_fresh, List.forall_append.mpr ⟨opsC5_fresh, opsC6_fresh⟩⟩⟩⟩⟩⟩

/-- On every device, for any float values, from any memory with zero counters: every weakly fair execution of @main
    terminates, without a fault, with every buffer at the fold of the 392 operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefChain.lean ====
/- The reference program's values, chunk by chunk: the features after each of the six combine steps and the four
   results, as explicit terms of the arguments' launch contents and of the earlier steps' features.

   `R0` is the launch contents; `R (k+1)` is chunk `k`'s operations applied in order to `R k`; `R7` is the fold of the whole
   program.  Each combine step reads only arguments and the features the two steps of the layer before it left (for the
   first layer, the input features): the mean of the neighbours' features (a gather along the edges' sources, a
   scatter-add to their destinations, divided by the destination's degree clamped below at one) times one weight matrix,
   plus the own features times another, plus two bias rows, clamped below at zero, each row then divided by its
   Euclidean norm clamped below.  The last chunk normalises the rows of the last layer's two feature tables once more,
   gathers them at the positive and at the negative pairs, and sums the products along each row.

   Three families of statements, for a buffer `b` and a boundary `k`:
   * `skip_C<k>_<b>`: a chunk that does not write `b` leaves it as it was (for any contents before it);
   * `comp_C<k>_<b>`: a chunk that writes `b` leaves there the composed term of its operations, over the contents of
     the buffers the chunk reads from outside (for any contents before it);
   * `rat<k>_<b>`: the contents of `b` at boundary `k`, walked back to the launch contents and to `rout0` … `rout5`.
   From these: `rout<k>_eq`, `ref_v251` …, and `ref_values` (the run with its results at those terms).  Everything holds
   for any float values `F`. -/
import proofs.«153211_j15264313770095_1_alg».proof.Proof.RefOps

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-! ## The boundaries -/

/-- Device `c`'s buffers at launch. -/
def R0 (c : Dev nD) : Valuation τ sig (Elt F) := launchContents m c
/-- After chunk 0. -/
def R1 (c : Dev nD) : Valuation τ sig (Elt F) := after opsC0 (R0 m c)
/-- After chunk 1. -/
def R2 (c : Dev nD) : Valuation τ sig (Elt F) := after opsC1 (R1 m c)
/-- After chunk 2. -/
def R3 (c : Dev nD) : Valuation τ sig (Elt F) := after opsC2 (R2 m c)
/-- After chunk 3. -/
def R4 (c : Dev nD) : Valuation τ sig (Elt F) := after opsC3 (R3 m c)
/-- After chunk 4. -/
def R5 (c : Dev nD) : Valuation τ sig (Elt F) := after opsC4 (R4 m c)
/-- After chunk 5. -/
def R6 (c : Dev nD) : Valuation τ sig (Elt F) := after opsC5 (R5 m c)
/-- After chunk 6. -/
def R7 (c : Dev nD) : Valuation τ sig (Elt F) := after opsC6 (R6 m c)

/-- The fold of the whole program is the last boundary. -/
theorem after_ops (c : Dev nD) : after ops (launchContents m c) = R7 m c := by
  simp only [ops, after_append]; rfl

/-! ## The features after each combine step -/

/-- The features combine step 0 leaves (the contents of `main_v41` after chunk 0). -/
def rout0 (c : Dev nD) : (⟨S50000x128, .f32⟩ : BufTy).Contents (Elt F) := R1 m c (Proc.devRef .tc main_v41)
/-- The features combine step 1 leaves (the contents of `main_v83` after chunk 1). -/
def rout1 (c : Dev nD) : (⟨S100000x128, .f32⟩ : BufTy).Contents (Elt F) := R2 m c (Proc.devRef .tc main_v83)
/-- The features combine step 2 leaves (the contents of `main_v125` after chunk 2). -/
def rout2 (c : Dev nD) : (⟨S50000x128, .f32⟩ : BufTy).Contents (Elt F) := R3 m c (Proc.devRef .tc main_v125)
/-- The features combine step 3 leaves (the contents of `main_v167` after chunk 3). -/
def rout3 (c : Dev nD) : (⟨S100000x128, .f32⟩ : BufTy).Contents (Elt F) := R4 m c (Proc.devRef .tc main_v167)
/-- The features combine step 4 leaves (the contents of `main_v209` after chunk 4). -/
def rout4 (c : Dev nD) : (⟨S50000x64, .f32⟩ : BufTy).Contents (Elt F) := R5 m c (Proc.devRef .tc main_v209)
/-- The features combine step 5 leaves (the contents of `main_v251` after chunk 5). -/
def rout5 (c : Dev nD) : (⟨S100000x64, .f32⟩ : BufTy).Contents (Elt F) := R6 m c (Proc.devRef .tc main_v251)

/-! ## Reading a chunk -/

/-- A buffer that no operation of a stretch writes keeps its contents: the fold peeled one operation at a time. -/
macro "host_skip" : tactic => `(tactic| (after_results_simp))
/-- A buffer a stretch writes holds the composed term of the operations that reach it: the fold peeled one operation at a
    time, each result read at its own buffer; what is left is the same term on both sides. -/
macro "host_line" : tactic => `(tactic| (after_results_simp <;> rfl))

/-! ## The boundaries, buffer by buffer -/

theorem comp_C0_v41 (X : Valuation τ sig (Elt F)) (x_arg11 : (Proc.devRef .tc main_arg11 : DevRef τ sig).ty.Contents (Elt F)) (x_arg0 : (Proc.devRef .tc main_arg0 : DevRef τ sig).ty.Contents (Elt F)) (x_arg10 : (Proc.devRef .tc main_arg10 : DevRef τ sig).ty.Contents (Elt F)) (x_arg2 : (Proc.devRef .tc main_arg2 : DevRef τ sig).ty.Contents (Elt F)) (x_arg3 : (Proc.devRef .tc main_arg3 : DevRef τ sig).ty.Contents (Elt F)) (x_arg1 : (Proc.devRef .tc main_arg1 : DevRef τ sig).ty.Contents (Elt F)) (x_arg4 : (Proc.devRef .tc main_arg4 : DevRef τ sig).ty.Contents (Elt F)) (x_arg5 : (Proc.devRef .tc main_arg5 : DevRef τ sig).ty.Contents (Elt F))
    (h_arg11 : X (Proc.devRef .tc main_arg11) = x_arg11) (h_arg0 : X (Proc.devRef .tc main_arg0) = x_arg0) (h_arg10 : X (Proc.devRef .tc main_arg10) = x_arg10) (h_arg2 : X (Proc.devRef .tc main_arg2) = x_arg2) (h_arg3 : X (Proc.devRef .tc main_arg3) = x_arg3) (h_arg1 : X (Proc.devRef .tc main_arg1) = x_arg1) (h_arg4 : X (Proc.devRef .tc main_arg4) = x_arg4) (h_arg5 : X (Proc.devRef .tc main_arg5) = x_arg5) :
    after opsC0 X (Proc.devRef .tc main_v41) =
      Host.divf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_arg0) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x1x128x128 ![0, 0, 0, 0] (x_arg2) slices_S2x2x128x128_S1x1x128x128_0_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![0, 0, 0] (x_arg3) slices_S2x2x128_S1x1x128_0_0_0) shapeCasts_S1x1x128_S128)))) (Host.dotGeneral dot_S50000x128_S128x128_S50000x128_1_0_0_1_n_n none (x_arg1) (shapeCast _ (extractStridedSlice S1x1x128x128 ![0, 0, 0, 0] (x_arg4) slices_S2x2x128x128_S1x1x128x128_0_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![0, 0, 0] (x_arg5) slices_S2x2x128_S1x1x128_0_0_0) shapeCasts_S1x1x128_S128)))) (broadcastInDim S50000x128 ![] bcast_S_S50000x128 (constant S_ .f32 0x00000000#32))) (broadcastInDim S50000x128 ![0, 1] bcast_S50000x1_S50000x128_0_1 (maximumf (Host.sqrt (broadcastInDim S50000x1 ![0] bcast_S50000_S50000x1_0 (Host.reduceAdd (mulf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_arg0) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x1x128x128 ![0, 0, 0, 0] (x_arg2) slices_S2x2x128x128_S1x1x128x128_0_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![0, 0, 0] (x_arg3) slices_S2x2x128_S1x1x128_0_0_0) shapeCasts_S1x1x128_S128)))) (Host.dotGeneral dot_S50000x128_S128x128_S50000x128_1_0_0_1_n_n none (x_arg1) (shapeCast _ (extractStridedSlice S1x1x128x128 ![0, 0, 0, 0] (x_arg4) slices_S2x2x128x128_S1x1x128x128_0_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![0, 0, 0] (x_arg5) slices_S2x2x128_S1x1x128_0_0_0) shapeCasts_S1x1x128_S128)))) (broadcastInDim S50000x128 ![] bcast_S_S50000x128 (constant S_ .f32 0x00000000#32))) (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_arg0) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x1x128x128 ![0, 0, 0, 0] (x_arg2) slices_S2x2x128x128_S1x1x128x128_0_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![0, 0, 0] (x_arg3) slices_S2x2x128_S1x1x128_0_0_0) shapeCasts_S1x1x128_S128)))) (Host.dotGeneral dot_S50000x128_S128x128_S50000x128_1_0_0_1_n_n none (x_arg1) (shapeCast _ (extractStridedSlice S1x1x128x128 ![0, 0, 0, 0] (x_arg4) slices_S2x2x128x128_S1x1x128x128_0_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![0, 0, 0] (x_arg5) slices_S2x2x128_S1x1x128_0_0_0) shapeCasts_S1x1x128_S128)))) (broadcastInDim S50000x128 ![] bcast_S_S50000x128 (constant S_ .f32 0x00000000#32)))) (constant S_ .f32 0x00000000#32) reducesTo_S50000x128_S50000_d1 h_S_))) (broadcastInDim S50000x1 ![] bcast_S_S50000x1 (constant S_ .f32 0x2B8CBCCC#32)))) := by
  subst h_arg11 h_arg0 h_arg10 h_arg2 h_arg3 h_arg1 h_arg4 h_arg5
  host_line

theorem rat0_arg11 (c : Dev nD) :
    R0 m c (Proc.devRef .tc main_arg11) =
      m ((c.tc : Thread nD τ).loc main_arg11) :=
  rfl

theorem rat0_arg0 (c : Dev nD) :
    R0 m c (Proc.devRef .tc main_arg0) =
      m ((c.tc : Thread nD τ).loc main_arg0) :=
  rfl

theorem rat0_arg10 (c : Dev nD) :
    R0 m c (Proc.devRef .tc main_arg10) =
      m ((c.tc : Thread nD τ).loc main_arg10) :=
  rfl

theorem rat0_arg2 (c : Dev nD) :
    R0 m c (Proc.devRef .tc main_arg2) =
      m ((c.tc : Thread nD τ).loc main_arg2) :=
  rfl

theorem rat0_arg3 (c : Dev nD) :
    R0 m c (Proc.devRef .tc main_arg3) =
      m ((c.tc : Thread nD τ).loc main_arg3) :=
  rfl

theorem rat0_arg1 (c : Dev nD) :
    R0 m c (Proc.devRef .tc main_arg1) =
      m ((c.tc : Thread nD τ).loc main_arg1) :=
  rfl

theorem rat0_arg4 (c : Dev nD) :
    R0 m c (Proc.devRef .tc main_arg4) =
      m ((c.tc : Thread nD τ).loc main_arg4) :=
  rfl

theorem rat0_arg5 (c : Dev nD) :
    R0 m c (Proc.devRef .tc main_arg5) =
      m ((c.tc : Thread nD τ).loc main_arg5) :=
  rfl

/-- The features after combine step 0, as one term of the arguments and of the earlier steps' features. -/
theorem rout0_eq (c : Dev nD) :
    rout0 m c =
      Host.divf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (m ((c.tc : Thread nD τ).loc main_arg0)) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x1x128x128 ![0, 0, 0, 0] (m ((c.tc : Thread nD τ).loc main_arg2)) slices_S2x2x128x128_S1x1x128x128_0_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![0, 0, 0] (m ((c.tc : Thread nD τ).loc main_arg3)) slices_S2x2x128_S1x1x128_0_0_0) shapeCasts_S1x1x128_S128)))) (Host.dotGeneral dot_S50000x128_S128x128_S50000x128_1_0_0_1_n_n none (m ((c.tc : Thread nD τ).loc main_arg1)) (shapeCast _ (extractStridedSlice S1x1x128x128 ![0, 0, 0, 0] (m ((c.tc : Thread nD τ).loc main_arg4)) slices_S2x2x128x128_S1x1x128x128_0_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![0, 0, 0] (m ((c.tc : Thread nD τ).loc main_arg5)) slices_S2x2x128_S1x1x128_0_0_0) shapeCasts_S1x1x128_S128)))) (broadcastInDim S50000x128 ![] bcast_S_S50000x128 (constant S_ .f32 0x00000000#32))) (broadcastInDim S50000x128 ![0, 1] bcast_S50000x1_S50000x128_0_1 (maximumf (Host.sqrt (broadcastInDim S50000x1 ![0] bcast_S50000_S50000x1_0 (Host.reduceAdd (mulf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (m ((c.tc : Thread nD τ).loc main_arg0)) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x1x128x128 ![0, 0, 0, 0] (m ((c.tc : Thread nD τ).loc main_arg2)) slices_S2x2x128x128_S1x1x128x128_0_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![0, 0, 0] (m ((c.tc : Thread nD τ).loc main_arg3)) slices_S2x2x128_S1x1x128_0_0_0) shapeCasts_S1x1x128_S128)))) (Host.dotGeneral dot_S50000x128_S128x128_S50000x128_1_0_0_1_n_n none (m ((c.tc : Thread nD τ).loc main_arg1)) (shapeCast _ (extractStridedSlice S1x1x128x128 ![0, 0, 0, 0] (m ((c.tc : Thread nD τ).loc main_arg4)) slices_S2x2x128x128_S1x1x128x128_0_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![0, 0, 0] (m ((c.tc : Thread nD τ).loc main_arg5)) slices_S2x2x128_S1x1x128_0_0_0) shapeCasts_S1x1x128_S128)))) (broadcastInDim S50000x128 ![] bcast_S_S50000x128 (constant S_ .f32 0x00000000#32))) (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (m ((c.tc : Thread nD τ).loc main_arg0)) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x1x128x128 ![0, 0, 0, 0] (m ((c.tc : Thread nD τ).loc main_arg2)) slices_S2x2x128x128_S1x1x128x128_0_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![0, 0, 0] (m ((c.tc : Thread nD τ).loc main_arg3)) slices_S2x2x128_S1x1x128_0_0_0) shapeCasts_S1x1x128_S128)))) (Host.dotGeneral dot_S50000x128_S128x128_S50000x128_1_0_0_1_n_n none (m ((c.tc : Thread nD τ).loc main_arg1)) (shapeCast _ (extractStridedSlice S1x1x128x128 ![0, 0, 0, 0] (m ((c.tc : Thread nD τ).loc main_arg4)) slices_S2x2x128x128_S1x1x128x128_0_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![0, 0, 0] (m ((c.tc : Thread nD τ).loc main_arg5)) slices_S2x2x128_S1x1x128_0_0_0) shapeCasts_S1x1x128_S128)))) (broadcastInDim S50000x128 ![] bcast_S_S50000x128 (constant S_ .f32 0x00000000#32)))) (constant S_ .f32 0x00000000#32) reducesTo_S50000x128_S50000_d1 h_S_))) (broadcastInDim S50000x1 ![] bcast_S_S50000x1 (constant S_ .f32 0x2B8CBCCC#32)))) :=
  comp_C0_v41 (R0 m c) _ _ _ _ _ _ _ _ (rat0_arg11 m c) (rat0_arg0 m c) (rat0_arg10 m c) (rat0_arg2 m c) (rat0_arg3 m c) (rat0_arg1 m c) (rat0_arg4 m c) (rat0_arg5 m c)

theorem comp_C1_v83 (X : Valuation τ sig (Elt F)) (x_arg13 : (Proc.devRef .tc main_arg13 : DevRef τ sig).ty.Contents (Elt F)) (x_arg1 : (Proc.devRef .tc main_arg1 : DevRef τ sig).ty.Contents (Elt F)) (x_arg12 : (Proc.devRef .tc main_arg12 : DevRef τ sig).ty.Contents (Elt F)) (x_arg2 : (Proc.devRef .tc main_arg2 : DevRef τ sig).ty.Contents (Elt F)) (x_arg3 : (Proc.devRef .tc main_arg3 : DevRef τ sig).ty.Contents (Elt F)) (x_arg0 : (Proc.devRef .tc main_arg0 : DevRef τ sig).ty.Contents (Elt F)) (x_arg4 : (Proc.devRef .tc main_arg4 : DevRef τ sig).ty.Contents (Elt F)) (x_arg5 : (Proc.devRef .tc main_arg5 : DevRef τ sig).ty.Contents (Elt F))
    (h_arg13 : X (Proc.devRef .tc main_arg13) = x_arg13) (h_arg1 : X (Proc.devRef .tc main_arg1) = x_arg1) (h_arg12 : X (Proc.devRef .tc main_arg12) = x_arg12) (h_arg2 : X (Proc.devRef .tc main_arg2) = x_arg2) (h_arg3 : X (Proc.devRef .tc main_arg3) = x_arg3) (h_arg0 : X (Proc.devRef .tc main_arg0) = x_arg0) (h_arg4 : X (Proc.devRef .tc main_arg4) = x_arg4) (h_arg5 : X (Proc.devRef .tc main_arg5) = x_arg5) :
    after opsC1 X (Proc.devRef .tc main_v83) =
      Host.divf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_arg1) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x1x128x128 ![0, 1, 0, 0] (x_arg2) slices_S2x2x128x128_S1x1x128x128_0_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![0, 1, 0] (x_arg3) slices_S2x2x128_S1x1x128_0_1_0) shapeCasts_S1x1x128_S128)))) (Host.dotGeneral dot_S100000x128_S128x128_S100000x128_1_0_0_1_n_n none (x_arg0) (shapeCast _ (extractStridedSlice S1x1x128x128 ![0, 1, 0, 0] (x_arg4) slices_S2x2x128x128_S1x1x128x128_0_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![0, 1, 0] (x_arg5) slices_S2x2x128_S1x1x128_0_1_0) shapeCasts_S1x1x128_S128)))) (broadcastInDim S100000x128 ![] bcast_S_S100000x128 (constant S_ .f32 0x00000000#32))) (broadcastInDim S100000x128 ![0, 1] bcast_S100000x1_S100000x128_0_1 (maximumf (Host.sqrt (broadcastInDim S100000x1 ![0] bcast_S100000_S100000x1_0 (Host.reduceAdd (mulf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_arg1) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x1x128x128 ![0, 1, 0, 0] (x_arg2) slices_S2x2x128x128_S1x1x128x128_0_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![0, 1, 0] (x_arg3) slices_S2x2x128_S1x1x128_0_1_0) shapeCasts_S1x1x128_S128)))) (Host.dotGeneral dot_S100000x128_S128x128_S100000x128_1_0_0_1_n_n none (x_arg0) (shapeCast _ (extractStridedSlice S1x1x128x128 ![0, 1, 0, 0] (x_arg4) slices_S2x2x128x128_S1x1x128x128_0_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![0, 1, 0] (x_arg5) slices_S2x2x128_S1x1x128_0_1_0) shapeCasts_S1x1x128_S128)))) (broadcastInDim S100000x128 ![] bcast_S_S100000x128 (constant S_ .f32 0x00000000#32))) (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_arg1) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x1x128x128 ![0, 1, 0, 0] (x_arg2) slices_S2x2x128x128_S1x1x128x128_0_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![0, 1, 0] (x_arg3) slices_S2x2x128_S1x1x128_0_1_0) shapeCasts_S1x1x128_S128)))) (Host.dotGeneral dot_S100000x128_S128x128_S100000x128_1_0_0_1_n_n none (x_arg0) (shapeCast _ (extractStridedSlice S1x1x128x128 ![0, 1, 0, 0] (x_arg4) slices_S2x2x128x128_S1x1x128x128_0_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![0, 1, 0] (x_arg5) slices_S2x2x128_S1x1x128_0_1_0) shapeCasts_S1x1x128_S128)))) (broadcastInDim S100000x128 ![] bcast_S_S100000x128 (constant S_ .f32 0x00000000#32)))) (constant S_ .f32 0x00000000#32) reducesTo_S100000x128_S100000_d1 h_S_))) (broadcastInDim S100000x1 ![] bcast_S_S100000x1 (constant S_ .f32 0x2B8CBCCC#32)))) := by
  subst h_arg13 h_arg1 h_arg12 h_arg2 h_arg3 h_arg0 h_arg4 h_arg5
  host_line

theorem rat0_arg13 (c : Dev nD) :
    R0 m c (Proc.devRef .tc main_arg13) =
      m ((c.tc : Thread nD τ).loc main_arg13) :=
  rfl

theorem skip_C0_arg13 (X : Valuation τ sig (Elt F)) :
    after opsC0 X (Proc.devRef .tc main_arg13) = X (Proc.devRef .tc main_arg13) := by
  host_skip

theorem rat1_arg13 (c : Dev nD) :
    R1 m c (Proc.devRef .tc main_arg13) =
      m ((c.tc : Thread nD τ).loc main_arg13) :=
  (skip_C0_arg13 (R0 m c)).trans (rat0_arg13 m c)

theorem skip_C0_arg1 (X : Valuation τ sig (Elt F)) :
    after opsC0 X (Proc.devRef .tc main_arg1) = X (Proc.devRef .tc main_arg1) := by
  host_skip

theorem rat1_arg1 (c : Dev nD) :
    R1 m c (Proc.devRef .tc main_arg1) =
      m ((c.tc : Thread nD τ).loc main_arg1) :=
  (skip_C0_arg1 (R0 m c)).trans (rat0_arg1 m c)

theorem rat0_arg12 (c : Dev nD) :
    R0 m c (Proc.devRef .tc main_arg12) =
      m ((c.tc : Thread nD τ).loc main_arg12) :=
  rfl

theorem skip_C0_arg12 (X : Valuation τ sig (Elt F)) :
    after opsC0 X (Proc.devRef .tc main_arg12) = X (Proc.devRef .tc main_arg12) := by
  host_skip

theorem rat1_arg12 (c : Dev nD) :
    R1 m c (Proc.devRef .tc main_arg12) =
      m ((c.tc : Thread nD τ).loc main_arg12) :=
  (skip_C0_arg12 (R0 m c)).trans (rat0_arg12 m c)

theorem skip_C0_arg2 (X : Valuation τ sig (Elt F)) :
    after opsC0 X (Proc.devRef .tc main_arg2) = X (Proc.devRef .tc main_arg2) := by
  host_skip

theorem rat1_arg2 (c : Dev nD) :
    R1 m c (Proc.devRef .tc main_arg2) =
      m ((c.tc : Thread nD τ).loc main_arg2) :=
  (skip_C0_arg2 (R0 m c)).trans (rat0_arg2 m c)

theorem skip_C0_arg3 (X : Valuation τ sig (Elt F)) :
    after opsC0 X (Proc.devRef .tc main_arg3) = X (Proc.devRef .tc main_arg3) := by
  host_skip

theorem rat1_arg3 (c : Dev nD) :
    R1 m c (Proc.devRef .tc main_arg3) =
      m ((c.tc : Thread nD τ).loc main_arg3) :=
  (skip_C0_arg3 (R0 m c)).trans (rat0_arg3 m c)

theorem skip_C0_arg0 (X : Valuation τ sig (Elt F)) :
    after opsC0 X (Proc.devRef .tc main_arg0) = X (Proc.devRef .tc main_arg0) := by
  host_skip

theorem rat1_arg0 (c : Dev nD) :
    R1 m c (Proc.devRef .tc main_arg0) =
      m ((c.tc : Thread nD τ).loc main_arg0) :=
  (skip_C0_arg0 (R0 m c)).trans (rat0_arg0 m c)

theorem skip_C0_arg4 (X : Valuation τ sig (Elt F)) :
    after opsC0 X (Proc.devRef .tc main_arg4) = X (Proc.devRef .tc main_arg4) := by
  host_skip

theorem rat1_arg4 (c : Dev nD) :
    R1 m c (Proc.devRef .tc main_arg4) =
      m ((c.tc : Thread nD τ).loc main_arg4) :=
  (skip_C0_arg4 (R0 m c)).trans (rat0_arg4 m c)

theorem skip_C0_arg5 (X : Valuation τ sig (Elt F)) :
    after opsC0 X (Proc.devRef .tc main_arg5) = X (Proc.devRef .tc main_arg5) := by
  host_skip

theorem rat1_arg5 (c : Dev nD) :
    R1 m c (Proc.devRef .tc main_arg5) =
      m ((c.tc : Thread nD τ).loc main_arg5) :=
  (skip_C0_arg5 (R0 m c)).trans (rat0_arg5 m c)

/-- The features after combine step 1, as one term of the arguments and of the earlier steps' features. -/
theorem rout1_eq (c : Dev nD) :
    rout1 m c =
      Host.divf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (m ((c.tc : Thread nD τ).loc main_arg1)) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x1x128x128 ![0, 1, 0, 0] (m ((c.tc : Thread nD τ).loc main_arg2)) slices_S2x2x128x128_S1x1x128x128_0_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![0, 1, 0] (m ((c.tc : Thread nD τ).loc main_arg3)) slices_S2x2x128_S1x1x128_0_1_0) shapeCasts_S1x1x128_S128)))) (Host.dotGeneral dot_S100000x128_S128x128_S100000x128_1_0_0_1_n_n none (m ((c.tc : Thread nD τ).loc main_arg0)) (shapeCast _ (extractStridedSlice S1x1x128x128 ![0, 1, 0, 0] (m ((c.tc : Thread nD τ).loc main_arg4)) slices_S2x2x128x128_S1x1x128x128_0_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![0, 1, 0] (m ((c.tc : Thread nD τ).loc main_arg5)) slices_S2x2x128_S1x1x128_0_1_0) shapeCasts_S1x1x128_S128)))) (broadcastInDim S100000x128 ![] bcast_S_S100000x128 (constant S_ .f32 0x00000000#32))) (broadcastInDim S100000x128 ![0, 1] bcast_S100000x1_S100000x128_0_1 (maximumf (Host.sqrt (broadcastInDim S100000x1 ![0] bcast_S100000_S100000x1_0 (Host.reduceAdd (mulf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (m ((c.tc : Thread nD τ).loc main_arg1)) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x1x128x128 ![0, 1, 0, 0] (m ((c.tc : Thread nD τ).loc main_arg2)) slices_S2x2x128x128_S1x1x128x128_0_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![0, 1, 0] (m ((c.tc : Thread nD τ).loc main_arg3)) slices_S2x2x128_S1x1x128_0_1_0) shapeCasts_S1x1x128_S128)))) (Host.dotGeneral dot_S100000x128_S128x128_S100000x128_1_0_0_1_n_n none (m ((c.tc : Thread nD τ).loc main_arg0)) (shapeCast _ (extractStridedSlice S1x1x128x128 ![0, 1, 0, 0] (m ((c.tc : Thread nD τ).loc main_arg4)) slices_S2x2x128x128_S1x1x128x128_0_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![0, 1, 0] (m ((c.tc : Thread nD τ).loc main_arg5)) slices_S2x2x128_S1x1x128_0_1_0) shapeCasts_S1x1x128_S128)))) (broadcastInDim S100000x128 ![] bcast_S_S100000x128 (constant S_ .f32 0x00000000#32))) (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (m ((c.tc : Thread nD τ).loc main_arg1)) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x1x128x128 ![0, 1, 0, 0] (m ((c.tc : Thread nD τ).loc main_arg2)) slices_S2x2x128x128_S1x1x128x128_0_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![0, 1, 0] (m ((c.tc : Thread nD τ).loc main_arg3)) slices_S2x2x128_S1x1x128_0_1_0) shapeCasts_S1x1x128_S128)))) (Host.dotGeneral dot_S100000x128_S128x128_S100000x128_1_0_0_1_n_n none (m ((c.tc : Thread nD τ).loc main_arg0)) (shapeCast _ (extractStridedSlice S1x1x128x128 ![0, 1, 0, 0] (m ((c.tc : Thread nD τ).loc main_arg4)) slices_S2x2x128x128_S1x1x128x128_0_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![0, 1, 0] (m ((c.tc : Thread nD τ).loc main_arg5)) slices_S2x2x128_S1x1x128_0_1_0) shapeCasts_S1x1x128_S128)))) (broadcastInDim S100000x128 ![] bcast_S_S100000x128 (constant S_ .f32 0x00000000#32)))) (constant S_ .f32 0x00000000#32) reducesTo_S100000x128_S100000_d1 h_S_))) (broadcastInDim S100000x1 ![] bcast_S_S100000x1 (constant S_ .f32 0x2B8CBCCC#32)))) :=
  comp_C1_v83 (R1 m c) _ _ _ _ _ _ _ _ (rat1_arg13 m c) (rat1_arg1 m c) (rat1_arg12 m c) (rat1_arg2 m c) (rat1_arg3 m c) (rat1_arg0 m c) (rat1_arg4 m c) (rat1_arg5 m c)

theorem comp_C2_v125 (X : Valuation τ sig (Elt F)) (x_arg11 : (Proc.devRef .tc main_arg11 : DevRef τ sig).ty.Contents (Elt F)) (x_v83 : (Proc.devRef .tc main_v83 : DevRef τ sig).ty.Contents (Elt F)) (x_arg10 : (Proc.devRef .tc main_arg10 : DevRef τ sig).ty.Contents (Elt F)) (x_arg2 : (Proc.devRef .tc main_arg2 : DevRef τ sig).ty.Contents (Elt F)) (x_arg3 : (Proc.devRef .tc main_arg3 : DevRef τ sig).ty.Contents (Elt F)) (x_v41 : (Proc.devRef .tc main_v41 : DevRef τ sig).ty.Contents (Elt F)) (x_arg4 : (Proc.devRef .tc main_arg4 : DevRef τ sig).ty.Contents (Elt F)) (x_arg5 : (Proc.devRef .tc main_arg5 : DevRef τ sig).ty.Contents (Elt F))
    (h_arg11 : X (Proc.devRef .tc main_arg11) = x_arg11) (h_v83 : X (Proc.devRef .tc main_v83) = x_v83) (h_arg10 : X (Proc.devRef .tc main_arg10) = x_arg10) (h_arg2 : X (Proc.devRef .tc main_arg2) = x_arg2) (h_arg3 : X (Proc.devRef .tc main_arg3) = x_arg3) (h_v41 : X (Proc.devRef .tc main_v41) = x_v41) (h_arg4 : X (Proc.devRef .tc main_arg4) = x_arg4) (h_arg5 : X (Proc.devRef .tc main_arg5) = x_arg5) :
    after opsC2 X (Proc.devRef .tc main_v125) =
      Host.divf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v83) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x1x128x128 ![1, 0, 0, 0] (x_arg2) slices_S2x2x128x128_S1x1x128x128_1_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![1, 0, 0] (x_arg3) slices_S2x2x128_S1x1x128_1_0_0) shapeCasts_S1x1x128_S128)))) (Host.dotGeneral dot_S50000x128_S128x128_S50000x128_1_0_0_1_n_n none (x_v41) (shapeCast _ (extractStridedSlice S1x1x128x128 ![1, 0, 0, 0] (x_arg4) slices_S2x2x128x128_S1x1x128x128_1_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![1, 0, 0] (x_arg5) slices_S2x2x128_S1x1x128_1_0_0) shapeCasts_S1x1x128_S128)))) (broadcastInDim S50000x128 ![] bcast_S_S50000x128 (constant S_ .f32 0x00000000#32))) (broadcastInDim S50000x128 ![0, 1] bcast_S50000x1_S50000x128_0_1 (maximumf (Host.sqrt (broadcastInDim S50000x1 ![0] bcast_S50000_S50000x1_0 (Host.reduceAdd (mulf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v83) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x1x128x128 ![1, 0, 0, 0] (x_arg2) slices_S2x2x128x128_S1x1x128x128_1_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![1, 0, 0] (x_arg3) slices_S2x2x128_S1x1x128_1_0_0) shapeCasts_S1x1x128_S128)))) (Host.dotGeneral dot_S50000x128_S128x128_S50000x128_1_0_0_1_n_n none (x_v41) (shapeCast _ (extractStridedSlice S1x1x128x128 ![1, 0, 0, 0] (x_arg4) slices_S2x2x128x128_S1x1x128x128_1_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![1, 0, 0] (x_arg5) slices_S2x2x128_S1x1x128_1_0_0) shapeCasts_S1x1x128_S128)))) (broadcastInDim S50000x128 ![] bcast_S_S50000x128 (constant S_ .f32 0x00000000#32))) (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v83) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x1x128x128 ![1, 0, 0, 0] (x_arg2) slices_S2x2x128x128_S1x1x128x128_1_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![1, 0, 0] (x_arg3) slices_S2x2x128_S1x1x128_1_0_0) shapeCasts_S1x1x128_S128)))) (Host.dotGeneral dot_S50000x128_S128x128_S50000x128_1_0_0_1_n_n none (x_v41) (shapeCast _ (extractStridedSlice S1x1x128x128 ![1, 0, 0, 0] (x_arg4) slices_S2x2x128x128_S1x1x128x128_1_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![1, 0, 0] (x_arg5) slices_S2x2x128_S1x1x128_1_0_0) shapeCasts_S1x1x128_S128)))) (broadcastInDim S50000x128 ![] bcast_S_S50000x128 (constant S_ .f32 0x00000000#32)))) (constant S_ .f32 0x00000000#32) reducesTo_S50000x128_S50000_d1 h_S_))) (broadcastInDim S50000x1 ![] bcast_S_S50000x1 (constant S_ .f32 0x2B8CBCCC#32)))) := by
  subst h_arg11 h_v83 h_arg10 h_arg2 h_arg3 h_v41 h_arg4 h_arg5
  host_line

theorem skip_C0_arg11 (X : Valuation τ sig (Elt F)) :
    after opsC0 X (Proc.devRef .tc main_arg11) = X (Proc.devRef .tc main_arg11) := by
  host_skip

theorem rat1_arg11 (c : Dev nD) :
    R1 m c (Proc.devRef .tc main_arg11) =
      m ((c.tc : Thread nD τ).loc main_arg11) :=
  (skip_C0_arg11 (R0 m c)).trans (rat0_arg11 m c)

theorem skip_C1_arg11 (X : Valuation τ sig (Elt F)) :
    after opsC1 X (Proc.devRef .tc main_arg11) = X (Proc.devRef .tc main_arg11) := by
  host_skip

theorem rat2_arg11 (c : Dev nD) :
    R2 m c (Proc.devRef .tc main_arg11) =
      m ((c.tc : Thread nD τ).loc main_arg11) :=
  (skip_C1_arg11 (R1 m c)).trans (rat1_arg11 m c)

theorem rat2_v83 (c : Dev nD) :
    R2 m c (Proc.devRef .tc main_v83) =
      rout1 m c :=
  rfl

theorem skip_C0_arg10 (X : Valuation τ sig (Elt F)) :
    after opsC0 X (Proc.devRef .tc main_arg10) = X (Proc.devRef .tc main_arg10) := by
  host_skip

theorem rat1_arg10 (c : Dev nD) :
    R1 m c (Proc.devRef .tc main_arg10) =
      m ((c.tc : Thread nD τ).loc main_arg10) :=
  (skip_C0_arg10 (R0 m c)).trans (rat0_arg10 m c)

theorem skip_C1_arg10 (X : Valuation τ sig (Elt F)) :
    after opsC1 X (Proc.devRef .tc main_arg10) = X (Proc.devRef .tc main_arg10) := by
  host_skip

theorem rat2_arg10 (c : Dev nD) :
    R2 m c (Proc.devRef .tc main_arg10) =
      m ((c.tc : Thread nD τ).loc main_arg10) :=
  (skip_C1_arg10 (R1 m c)).trans (rat1_arg10 m c)

theorem skip_C1_arg2 (X : Valuation τ sig (Elt F)) :
    after opsC1 X (Proc.devRef .tc main_arg2) = X (Proc.devRef .tc main_arg2) := by
  host_skip

theorem rat2_arg2 (c : Dev nD) :
    R2 m c (Proc.devRef .tc main_arg2) =
      m ((c.tc : Thread nD τ).loc main_arg2) :=
  (skip_C1_arg2 (R1 m c)).trans (rat1_arg2 m c)

theorem skip_C1_arg3 (X : Valuation τ sig (Elt F)) :
    after opsC1 X (Proc.devRef .tc main_arg3) = X (Proc.devRef .tc main_arg3) := by
  host_skip

theorem rat2_arg3 (c : Dev nD) :
    R2 m c (Proc.devRef .tc main_arg3) =
      m ((c.tc : Thread nD τ).loc main_arg3) :=
  (skip_C1_arg3 (R1 m c)).trans (rat1_arg3 m c)

theorem rat1_v41 (c : Dev nD) :
    R1 m c (Proc.devRef .tc main_v41) =
      rout0 m c :=
  rfl

theorem skip_C1_v41 (X : Valuation τ sig (Elt F)) :
    after opsC1 X (Proc.devRef .tc main_v41) = X (Proc.devRef .tc main_v41) := by
  host_skip

theorem rat2_v41 (c : Dev nD) :
    R2 m c (Proc.devRef .tc main_v41) =
      rout0 m c :=
  (skip_C1_v41 (R1 m c)).trans (rat1_v41 m c)

theorem skip_C1_arg4 (X : Valuation τ sig (Elt F)) :
    after opsC1 X (Proc.devRef .tc main_arg4) = X (Proc.devRef .tc main_arg4) := by
  host_skip

theorem rat2_arg4 (c : Dev nD) :
    R2 m c (Proc.devRef .tc main_arg4) =
      m ((c.tc : Thread nD τ).loc main_arg4) :=
  (skip_C1_arg4 (R1 m c)).trans (rat1_arg4 m c)

theorem skip_C1_arg5 (X : Valuation τ sig (Elt F)) :
    after opsC1 X (Proc.devRef .tc main_arg5) = X (Proc.devRef .tc main_arg5) := by
  host_skip

theorem rat2_arg5 (c : Dev nD) :
    R2 m c (Proc.devRef .tc main_arg5) =
      m ((c.tc : Thread nD τ).loc main_arg5) :=
  (skip_C1_arg5 (R1 m c)).trans (rat1_arg5 m c)

/-- The features after combine step 2, as one term of the arguments and of the earlier steps' features. -/
theorem rout2_eq (c : Dev nD) :
    rout2 m c =
      Host.divf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (rout1 m c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x1x128x128 ![1, 0, 0, 0] (m ((c.tc : Thread nD τ).loc main_arg2)) slices_S2x2x128x128_S1x1x128x128_1_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![1, 0, 0] (m ((c.tc : Thread nD τ).loc main_arg3)) slices_S2x2x128_S1x1x128_1_0_0) shapeCasts_S1x1x128_S128)))) (Host.dotGeneral dot_S50000x128_S128x128_S50000x128_1_0_0_1_n_n none (rout0 m c) (shapeCast _ (extractStridedSlice S1x1x128x128 ![1, 0, 0, 0] (m ((c.tc : Thread nD τ).loc main_arg4)) slices_S2x2x128x128_S1x1x128x128_1_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![1, 0, 0] (m ((c.tc : Thread nD τ).loc main_arg5)) slices_S2x2x128_S1x1x128_1_0_0) shapeCasts_S1x1x128_S128)))) (broadcastInDim S50000x128 ![] bcast_S_S50000x128 (constant S_ .f32 0x00000000#32))) (broadcastInDim S50000x128 ![0, 1] bcast_S50000x1_S50000x128_0_1 (maximumf (Host.sqrt (broadcastInDim S50000x1 ![0] bcast_S50000_S50000x1_0 (Host.reduceAdd (mulf (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (rout1 m c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x1x128x128 ![1, 0, 0, 0] (m ((c.tc : Thread nD τ).loc main_arg2)) slices_S2x2x128x128_S1x1x128x128_1_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![1, 0, 0] (m ((c.tc : Thread nD τ).loc main_arg3)) slices_S2x2x128_S1x1x128_1_0_0) shapeCasts_S1x1x128_S128)))) (Host.dotGeneral dot_S50000x128_S128x128_S50000x128_1_0_0_1_n_n none (rout0 m c) (shapeCast _ (extractStridedSlice S1x1x128x128 ![1, 0, 0, 0] (m ((c.tc : Thread nD τ).loc main_arg4)) slices_S2x2x128x128_S1x1x128x128_1_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![1, 0, 0] (m ((c.tc : Thread nD τ).loc main_arg5)) slices_S2x2x128_S1x1x128_1_0_0) shapeCasts_S1x1x128_S128)))) (broadcastInDim S50000x128 ![] bcast_S_S50000x128 (constant S_ .f32 0x00000000#32))) (maximumf (addf (addf (addf (Host.dotGeneral dot_S50000x128_S128x128_S50000x128_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (rout1 m c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x1x128x128 ![1, 0, 0, 0] (m ((c.tc : Thread nD τ).loc main_arg2)) slices_S2x2x128x128_S1x1x128x128_1_0_0_0) shapeCasts_S1x1x128x128_S128x128)) (broadcastInDim S50000x128 ![0, 1] bcast_S1x128_S50000x128_0_1 (broadcastInDim S1x128 ![1] bcast_S128_S1x128_1 (shapeCast _ (extractStridedSlice S1x1x128 ![1, 0, 0] (m ((c.tc : Thread nD τ).loc main_arg3)) slices_S2x2x128_S1x1x128_1_0_0) shapeCasts_S1x1x128_S128)))) (Host.dotGeneral dot_S50000x128_S128x128_S50000x128_1_0_0_1_n_n none (rout0 m c) (shapeCast _ (extractStridedSlice S1x1x128x128 ![1, 0, 0, 0] (m ((c.tc : Thread nD τ).loc main_arg4)) slices_S2x2x128x128_S1x1x128x128_1_0_0_0) shapeCasts_S1x1x128x128_S128x128))) (broadcastInDim S50000x128 ![0, 1] bcast_S1x128_S50000x128_0_1 (broadcastInDim S1x128 ![1] bcast_S128_S1x128_1 (shapeCast _ (extractStridedSlice S1x1x128 ![1, 0, 0] (m ((c.tc : Thread nD τ).loc main_arg5)) slices_S2x2x128_S1x1x128_1_0_0) shapeCasts_S1x1x128_S128)))) (broadcastInDim S50000x128 ![] bcast_S_S50000x128 (constant S_ .f32 0x00000000#32)))) (constant S_ .f32 0x00000000#32) reducesTo_S50000x128_S50000_d1 h_S_))) (broadcastInDim S50000x1 ![] bcast_S_S50000x1 (constant S_ .f32 0x2B8CBCCC#32)))) :=
  comp_C2_v125 (R2 m c) _ _ _ _ _ _ _ _ (rat2_arg11 m c) (rat2_v83 m c) (rat2_arg10 m c) (rat2_arg2 m c) (rat2_arg3 m c) (rat2_v41 m c) (rat2_arg4 m c) (rat2_arg5 m c)

theorem comp_C3_v167 (X : Valuation τ sig (Elt F)) (x_arg13 : (Proc.devRef .tc main_arg13 : DevRef τ sig).ty.Contents (Elt F)) (x_v41 : (Proc.devRef .tc main_v41 : DevRef τ sig).ty.Contents (Elt F)) (x_arg12 : (Proc.devRef .tc main_arg12 : DevRef τ sig).ty.Contents (Elt F)) (x_arg2 : (Proc.devRef .tc main_arg2 : DevRef τ sig).ty.Contents (Elt F)) (x_arg3 : (Proc.devRef .tc main_arg3 : DevRef τ sig).ty.Contents (Elt F)) (x_v83 : (Proc.devRef .tc main_v83 : DevRef τ sig).ty.Contents (Elt F)) (x_arg4 : (Proc.devRef .tc main_arg4 : DevRef τ sig).ty.Contents (Elt F)) (x_arg5 : (Proc.devRef .tc main_arg5 : DevRef τ sig).ty.Contents (Elt F))
    (h_arg13 : X (Proc.devRef .tc main_arg13) = x_arg13) (h_v41 : X (Proc.devRef .tc main_v41) = x_v41) (h_arg12 : X (Proc.devRef .tc main_arg12) = x_arg12) (h_arg2 : X (Proc.devRef .tc main_arg2) = x_arg2) (h_arg3 : X (Proc.devRef .tc main_arg3) = x_arg3) (h_v83 : X (Proc.devRef .tc main_v83) = x_v83) (h_arg4 : X (Proc.devRef .tc main_arg4) = x_arg4) (h_arg5 : X (Proc.devRef .tc main_arg5) = x_arg5) :
    after opsC3 X (Proc.devRef .tc main_v167) =
      Host.divf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v41) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x1x128x128 ![1, 1, 0, 0] (x_arg2) slices_S2x2x128x128_S1x1x128x128_1_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![1, 1, 0] (x_arg3) slices_S2x2x128_S1x1x128_1_1_0) shapeCasts_S1x1x128_S128)))) (Host.dotGeneral dot_S100000x128_S128x128_S100000x128_1_0_0_1_n_n none (x_v83) (shapeCast _ (extractStridedSlice S1x1x128x128 ![1, 1, 0, 0] (x_arg4) slices_S2x2x128x128_S1x1x128x128_1_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![1, 1, 0] (x_arg5) slices_S2x2x128_S1x1x128_1_1_0) shapeCasts_S1x1x128_S128)))) (broadcastInDim S100000x128 ![] bcast_S_S100000x128 (constant S_ .f32 0x00000000#32))) (broadcastInDim S100000x128 ![0, 1] bcast_S100000x1_S100000x128_0_1 (maximumf (Host.sqrt (broadcastInDim S100000x1 ![0] bcast_S100000_S100000x1_0 (Host.reduceAdd (mulf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v41) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x1x128x128 ![1, 1, 0, 0] (x_arg2) slices_S2x2x128x128_S1x1x128x128_1_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![1, 1, 0] (x_arg3) slices_S2x2x128_S1x1x128_1_1_0) shapeCasts_S1x1x128_S128)))) (Host.dotGeneral dot_S100000x128_S128x128_S100000x128_1_0_0_1_n_n none (x_v83) (shapeCast _ (extractStridedSlice S1x1x128x128 ![1, 1, 0, 0] (x_arg4) slices_S2x2x128x128_S1x1x128x128_1_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![1, 1, 0] (x_arg5) slices_S2x2x128_S1x1x128_1_1_0) shapeCasts_S1x1x128_S128)))) (broadcastInDim S100000x128 ![] bcast_S_S100000x128 (constant S_ .f32 0x00000000#32))) (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v41) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x1x128x128 ![1, 1, 0, 0] (x_arg2) slices_S2x2x128x128_S1x1x128x128_1_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![1, 1, 0] (x_arg3) slices_S2x2x128_S1x1x128_1_1_0) shapeCasts_S1x1x128_S128)))) (Host.dotGeneral dot_S100000x128_S128x128_S100000x128_1_0_0_1_n_n none (x_v83) (shapeCast _ (extractStridedSlice S1x1x128x128 ![1, 1, 0, 0] (x_arg4) slices_S2x2x128x128_S1x1x128x128_1_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![1, 1, 0] (x_arg5) slices_S2x2x128_S1x1x128_1_1_0) shapeCasts_S1x1x128_S128)))) (broadcastInDim S100000x128 ![] bcast_S_S100000x128 (constant S_ .f32 0x00000000#32)))) (constant S_ .f32 0x00000000#32) reducesTo_S100000x128_S100000_d1 h_S_))) (broadcastInDim S100000x1 ![] bcast_S_S100000x1 (constant S_ .f32 0x2B8CBCCC#32)))) := by
  subst h_arg13 h_v41 h_arg12 h_arg2 h_arg3 h_v83 h_arg4 h_arg5
  host_line

theorem skip_C1_arg13 (X : Valuation τ sig (Elt F)) :
    after opsC1 X (Proc.devRef .tc main_arg13) = X (Proc.devRef .tc main_arg13) := by
  host_skip

theorem rat2_arg13 (c : Dev nD) :
    R2 m c (Proc.devRef .tc main_arg13) =
      m ((c.tc : Thread nD τ).loc main_arg13) :=
  (skip_C1_arg13 (R1 m c)).trans (rat1_arg13 m c)

theorem skip_C2_arg13 (X : Valuation τ sig (Elt F)) :
    after opsC2 X (Proc.devRef .tc main_arg13) = X (Proc.devRef .tc main_arg13) := by
  host_skip

theorem rat3_arg13 (c : Dev nD) :
    R3 m c (Proc.devRef .tc main_arg13) =
      m ((c.tc : Thread nD τ).loc main_arg13) :=
  (skip_C2_arg13 (R2 m c)).trans (rat2_arg13 m c)

theorem skip_C2_v41 (X : Valuation τ sig (Elt F)) :
    after opsC2 X (Proc.devRef .tc main_v41) = X (Proc.devRef .tc main_v41) := by
  host_skip

theorem rat3_v41 (c : Dev nD) :
    R3 m c (Proc.devRef .tc main_v41) =
      rout0 m c :=
  (skip_C2_v41 (R2 m c)).trans (rat2_v41 m c)

theorem skip_C1_arg12 (X : Valuation τ sig (Elt F)) :
    after opsC1 X (Proc.devRef .tc main_arg12) = X (Proc.devRef .tc main_arg12) := by
  host_skip

theorem rat2_arg12 (c : Dev nD) :
    R2 m c (Proc.devRef .tc main_arg12) =
      m ((c.tc : Thread nD τ).loc main_arg12) :=
  (skip_C1_arg12 (R1 m c)).trans (rat1_arg12 m c)

theorem skip_C2_arg12 (X : Valuation τ sig (Elt F)) :
    after opsC2 X (Proc.devRef .tc main_arg12) = X (Proc.devRef .tc main_arg12) := by
  host_skip

theorem rat3_arg12 (c : Dev nD) :
    R3 m c (Proc.devRef .tc main_arg12) =
      m ((c.tc : Thread nD τ).loc main_arg12) :=
  (skip_C2_arg12 (R2 m c)).trans (rat2_arg12 m c)

theorem skip_C2_arg2 (X : Valuation τ sig (Elt F)) :
    after opsC2 X (Proc.devRef .tc main_arg2) = X (Proc.devRef .tc main_arg2) := by
  host_skip

theorem rat3_arg2 (c : Dev nD) :
    R3 m c (Proc.devRef .tc main_arg2) =
      m ((c.tc : Thread nD τ).loc main_arg2) :=
  (skip_C2_arg2 (R2 m c)).trans (rat2_arg2 m c)

theorem skip_C2_arg3 (X : Valuation τ sig (Elt F)) :
    after opsC2 X (Proc.devRef .tc main_arg3) = X (Proc.devRef .tc main_arg3) := by
  host_skip

theorem rat3_arg3 (c : Dev nD) :
    R3 m c (Proc.devRef .tc main_arg3) =
      m ((c.tc : Thread nD τ).loc main_arg3) :=
  (skip_C2_arg3 (R2 m c)).trans (rat2_arg3 m c)

theorem skip_C2_v83 (X : Valuation τ sig (Elt F)) :
    after opsC2 X (Proc.devRef .tc main_v83) = X (Proc.devRef .tc main_v83) := by
  host_skip

theorem rat3_v83 (c : Dev nD) :
    R3 m c (Proc.devRef .tc main_v83) =
      rout1 m c :=
  (skip_C2_v83 (R2 m c)).trans (rat2_v83 m c)

theorem skip_C2_arg4 (X : Valuation τ sig (Elt F)) :
    after opsC2 X (Proc.devRef .tc main_arg4) = X (Proc.devRef .tc main_arg4) := by
  host_skip

theorem rat3_arg4 (c : Dev nD) :
    R3 m c (Proc.devRef .tc main_arg4) =
      m ((c.tc : Thread nD τ).loc main_arg4) :=
  (skip_C2_arg4 (R2 m c)).trans (rat2_arg4 m c)

theorem skip_C2_arg5 (X : Valuation τ sig (Elt F)) :
    after opsC2 X (Proc.devRef .tc main_arg5) = X (Proc.devRef .tc main_arg5) := by
  host_skip

theorem rat3_arg5 (c : Dev nD) :
    R3 m c (Proc.devRef .tc main_arg5) =
      m ((c.tc : Thread nD τ).loc main_arg5) :=
  (skip_C2_arg5 (R2 m c)).trans (rat2_arg5 m c)

/-- The features after combine step 3, as one term of the arguments and of the earlier steps' features. -/
theorem rout3_eq (c : Dev nD) :
    rout3 m c =
      Host.divf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (rout0 m c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x1x128x128 ![1, 1, 0, 0] (m ((c.tc : Thread nD τ).loc main_arg2)) slices_S2x2x128x128_S1x1x128x128_1_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![1, 1, 0] (m ((c.tc : Thread nD τ).loc main_arg3)) slices_S2x2x128_S1x1x128_1_1_0) shapeCasts_S1x1x128_S128)))) (Host.dotGeneral dot_S100000x128_S128x128_S100000x128_1_0_0_1_n_n none (rout1 m c) (shapeCast _ (extractStridedSlice S1x1x128x128 ![1, 1, 0, 0] (m ((c.tc : Thread nD τ).loc main_arg4)) slices_S2x2x128x128_S1x1x128x128_1_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![1, 1, 0] (m ((c.tc : Thread nD τ).loc main_arg5)) slices_S2x2x128_S1x1x128_1_1_0) shapeCasts_S1x1x128_S128)))) (broadcastInDim S100000x128 ![] bcast_S_S100000x128 (constant S_ .f32 0x00000000#32))) (broadcastInDim S100000x128 ![0, 1] bcast_S100000x1_S100000x128_0_1 (maximumf (Host.sqrt (broadcastInDim S100000x1 ![0] bcast_S100000_S100000x1_0 (Host.reduceAdd (mulf (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (rout0 m c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x1x128x128 ![1, 1, 0, 0] (m ((c.tc : Thread nD τ).loc main_arg2)) slices_S2x2x128x128_S1x1x128x128_1_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![1, 1, 0] (m ((c.tc : Thread nD τ).loc main_arg3)) slices_S2x2x128_S1x1x128_1_1_0) shapeCasts_S1x1x128_S128)))) (Host.dotGeneral dot_S100000x128_S128x128_S100000x128_1_0_0_1_n_n none (rout1 m c) (shapeCast _ (extractStridedSlice S1x1x128x128 ![1, 1, 0, 0] (m ((c.tc : Thread nD τ).loc main_arg4)) slices_S2x2x128x128_S1x1x128x128_1_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![1, 1, 0] (m ((c.tc : Thread nD τ).loc main_arg5)) slices_S2x2x128_S1x1x128_1_1_0) shapeCasts_S1x1x128_S128)))) (broadcastInDim S100000x128 ![] bcast_S_S100000x128 (constant S_ .f32 0x00000000#32))) (maximumf (addf (addf (addf (Host.dotGeneral dot_S100000x128_S128x128_S100000x128_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (rout0 m c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x1x128x128 ![1, 1, 0, 0] (m ((c.tc : Thread nD τ).loc main_arg2)) slices_S2x2x128x128_S1x1x128x128_1_1_0_0) shapeCasts_S1x1x128x128_S128x128)) (broadcastInDim S100000x128 ![0, 1] bcast_S1x128_S100000x128_0_1 (broadcastInDim S1x128 ![1] bcast_S128_S1x128_1 (shapeCast _ (extractStridedSlice S1x1x128 ![1, 1, 0] (m ((c.tc : Thread nD τ).loc main_arg3)) slices_S2x2x128_S1x1x128_1_1_0) shapeCasts_S1x1x128_S128)))) (Host.dotGeneral dot_S100000x128_S128x128_S100000x128_1_0_0_1_n_n none (rout1 m c) (shapeCast _ (extractStridedSlice S1x1x128x128 ![1, 1, 0, 0] (m ((c.tc : Thread nD τ).loc main_arg4)) slices_S2x2x128x128_S1x1x128x128_1_1_0_0) shapeCasts_S1x1x128x128_S128x128))) (broadcastInDim S100000x128 ![0, 1] bcast_S1x128_S100000x128_0_1 (broadcastInDim S1x128 ![1] bcast_S128_S1x128_1 (shapeCast _ (extractStridedSlice S1x1x128 ![1, 1, 0] (m ((c.tc : Thread nD τ).loc main_arg5)) slices_S2x2x128_S1x1x128_1_1_0) shapeCasts_S1x1x128_S128)))) (broadcastInDim S100000x128 ![] bcast_S_S100000x128 (constant S_ .f32 0x00000000#32)))) (constant S_ .f32 0x00000000#32) reducesTo_S100000x128_S100000_d1 h_S_))) (broadcastInDim S100000x1 ![] bcast_S_S100000x1 (constant S_ .f32 0x2B8CBCCC#32)))) :=
  comp_C3_v167 (R3 m c) _ _ _ _ _ _ _ _ (rat3_arg13 m c) (rat3_v41 m c) (rat3_arg12 m c) (rat3_arg2 m c) (rat3_arg3 m c) (rat3_v83 m c) (rat3_arg4 m c) (rat3_arg5 m c)

theorem comp_C4_v209 (X : Valuation τ sig (Elt F)) (x_arg11 : (Proc.devRef .tc main_arg11 : DevRef τ sig).ty.Contents (Elt F)) (x_v167 : (Proc.devRef .tc main_v167 : DevRef τ sig).ty.Contents (Elt F)) (x_arg10 : (Proc.devRef .tc main_arg10 : DevRef τ sig).ty.Contents (Elt F)) (x_arg6 : (Proc.devRef .tc main_arg6 : DevRef τ sig).ty.Contents (Elt F)) (x_arg7 : (Proc.devRef .tc main_arg7 : DevRef τ sig).ty.Contents (Elt F)) (x_v125 : (Proc.devRef .tc main_v125 : DevRef τ sig).ty.Contents (Elt F)) (x_arg8 : (Proc.devRef .tc main_arg8 : DevRef τ sig).ty.Contents (Elt F)) (x_arg9 : (Proc.devRef .tc main_arg9 : DevRef τ sig).ty.Contents (Elt F))
    (h_arg11 : X (Proc.devRef .tc main_arg11) = x_arg11) (h_v167 : X (Proc.devRef .tc main_v167) = x_v167) (h_arg10 : X (Proc.devRef .tc main_arg10) = x_arg10) (h_arg6 : X (Proc.devRef .tc main_arg6) = x_arg6) (h_arg7 : X (Proc.devRef .tc main_arg7) = x_arg7) (h_v125 : X (Proc.devRef .tc main_v125) = x_v125) (h_arg8 : X (Proc.devRef .tc main_arg8) = x_arg8) (h_arg9 : X (Proc.devRef .tc main_arg9) = x_arg9) :
    after opsC4 X (Proc.devRef .tc main_v209) =
      Host.divf (maximumf (addf (addf (addf (Host.dotGeneral dot_S50000x128_S128x64_S50000x64_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v167) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x128x64 ![0, 0, 0] (x_arg6) slices_S2x128x64_S1x128x64_0_0_0) shapeCasts_S1x128x64_S128x64)) (broadcastInDim S50000x64 ![0, 1] bcast_S1x64_S50000x64_0_1 (broadcastInDim S1x64 ![1] bcast_S64_S1x64_1 (shapeCast _ (extractStridedSlice S1x64 ![0, 0] (x_arg7) slices_S2x64_S1x64_0_0) shapeCasts_S1x64_S64)))) (Host.dotGeneral dot_S50000x128_S128x64_S50000x64_1_0_0_1_n_n none (x_v125) (shapeCast _ (extractStridedSlice S1x128x64 ![0, 0, 0] (x_arg8) slices_S2x128x64_S1x128x64_0_0_0) shapeCasts_S1x128x64_S128x64))) (broadcastInDim S50000x64 ![0, 1] bcast_S1x64_S50000x64_0_1 (broadcastInDim S1x64 ![1] bcast_S64_S1x64_1 (shapeCast _ (extractStridedSlice S1x64 ![0, 0] (x_arg9) slices_S2x64_S1x64_0_0) shapeCasts_S1x64_S64)))) (broadcastInDim S50000x64 ![] bcast_S_S50000x64 (constant S_ .f32 0x00000000#32))) (broadcastInDim S50000x64 ![0, 1] bcast_S50000x1_S50000x64_0_1 (maximumf (Host.sqrt (broadcastInDim S50000x1 ![0] bcast_S50000_S50000x1_0 (Host.reduceAdd (mulf (maximumf (addf (addf (addf (Host.dotGeneral dot_S50000x128_S128x64_S50000x64_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v167) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x128x64 ![0, 0, 0] (x_arg6) slices_S2x128x64_S1x128x64_0_0_0) shapeCasts_S1x128x64_S128x64)) (broadcastInDim S50000x64 ![0, 1] bcast_S1x64_S50000x64_0_1 (broadcastInDim S1x64 ![1] bcast_S64_S1x64_1 (shapeCast _ (extractStridedSlice S1x64 ![0, 0] (x_arg7) slices_S2x64_S1x64_0_0) shapeCasts_S1x64_S64)))) (Host.dotGeneral dot_S50000x128_S128x64_S50000x64_1_0_0_1_n_n none (x_v125) (shapeCast _ (extractStridedSlice S1x128x64 ![0, 0, 0] (x_arg8) slices_S2x128x64_S1x128x64_0_0_0) shapeCasts_S1x128x64_S128x64))) (broadcastInDim S50000x64 ![0, 1] bcast_S1x64_S50000x64_0_1 (broadcastInDim S1x64 ![1] bcast_S64_S1x64_1 (shapeCast _ (extractStridedSlice S1x64 ![0, 0] (x_arg9) slices_S2x64_S1x64_0_0) shapeCasts_S1x64_S64)))) (broadcastInDim S50000x64 ![] bcast_S_S50000x64 (constant S_ .f32 0x00000000#32))) (maximumf (addf (addf (addf (Host.dotGeneral dot_S50000x128_S128x64_S50000x64_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (x_arg11)) (Host.gather gather_S100000x128_S1000000x1_S1000000x128_1_0_n_n_0_1_1128 (x_v167) (broadcastInDim S1000000x1 ![0] bcast_S1000000_S1000000x1_0 (select (cmpi .slt (x_arg10) (broadcastInDim S1000000 ![] bcast_S_S1000000 (constantI S_ 32 0#32))) (addi (x_arg10) (broadcastInDim S1000000 ![] bcast_S_S1000000 (constantI S_ 32 100000#32))) (x_arg10))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (x_arg11)) (broadcastInDim S1000000 ![] bcast_S_S1000000 (constant S_ .f32 0x3F800000#32))) (broadcastInDim S50000 ![] bcast_S_S50000 (constant S_ .f32 0x3F800000#32)))))) (shapeCast _ (extractStridedSlice S1x128x64 ![0, 0, 0] (x_arg6) slices_S2x128x64_S1x128x64_0_0_0) shapeCasts_S1x128x64_S128x64)) (broadcastInDim S50000x64 ![0, 1] bcast_S1x64_S50000x64_0_1 (broadcastInDim S1x64 ![1] bcast_S64_S1x64_1 (shapeCast _ (extractStridedSlice S1x64 ![0, 0] (x_arg7) slices_S2x64_S1x64_0_0) shapeCasts_S1x64_S64)))) (Host.dotGeneral dot_S50000x128_S128x64_S50000x64_1_0_0_1_n_n none (x_v125) (shapeCast _ (extractStridedSlice S1x128x64 ![0, 0, 0] (x_arg8) slices_S2x128x64_S1x128x64_0_0_0) shapeCasts_S1x128x64_S128x64))) (broadcastInDim S50000x64 ![0, 1] bcast_S1x64_S50000x64_0_1 (broadcastInDim S1x64 ![1] bcast_S64_S1x64_1 (shapeCast _ (extractStridedSlice S1x64 ![0, 0] (x_arg9) slices_S2x64_S1x64_0_0) shapeCasts_S1x64_S64)))) (broadcastInDim S50000x64 ![] bcast_S_S50000x64 (constant S_ .f32 0x00000000#32)))) (constant S_ .f32 0x00000000#32) reducesTo_S50000x64_S50000_d1 h_S_))) (broadcastInDim S50000x1 ![] bcast_S_S50000x1 (constant S_ .f32 0x2B8CBCCC#32)))) := by
  subst h_arg11 h_v167 h_arg10 h_arg6 h_arg7 h_v125 h_arg8 h_arg9
  host_line

theorem skip_C2_arg11 (X : Valuation τ sig (Elt F)) :
    after opsC2 X (Proc.devRef .tc main_arg11) = X (Proc.devRef .tc main_arg11) := by
  host_skip

theorem rat3_arg11 (c : Dev nD) :
    R3 m c (Proc.devRef .tc main_arg11) =
      m ((c.tc : Thread nD τ).loc main_arg11) :=
  (skip_C2_arg11 (R2 m c)).trans (rat2_arg11 m c)

theorem skip_C3_arg11 (X : Valuation τ sig (Elt F)) :
    after opsC3 X (Proc.devRef .tc main_arg11) = X (Proc.devRef .tc main_arg11) := by
  host_skip

theorem rat4_arg11 (c : Dev nD) :
    R4 m c (Proc.devRef .tc main_arg11) =
      m ((c.tc : Thread nD τ).loc main_arg11) :=
  (skip_C3_arg11 (R3 m c)).trans (rat3_arg11 m c)

theorem rat4_v167 (c : Dev nD) :
    R4 m c (Proc.devRef .tc main_v167) =
      rout3 m c :=
  rfl

theorem skip_C2_arg10 (X : Valuation τ sig (Elt F)) :
    after opsC2 X (Proc.devRef .tc main_arg10) = X (Proc.devRef .tc main_arg10) := by
  host_skip

theorem rat3_arg10 (c : Dev nD) :
    R3 m c (Proc.devRef .tc main_arg10) =
      m ((c.tc : Thread nD τ).loc main_arg10) :=
  (skip_C2_arg10 (R2 m c)).trans (rat2_arg10 m c)

theorem skip_C3_arg10 (X : Valuation τ sig (Elt F)) :
    after opsC3 X (Proc.devRef .tc main_arg10) = X (Proc.devRef .tc main_arg10) := by
  host_skip

theorem rat4_arg10 (c : Dev nD) :
    R4 m c (Proc.devRef .tc main_arg10) =
      m ((c.tc : Thread nD τ).loc main_arg10) :=
  (skip_C3_arg10 (R3 m c)).trans (rat3_arg10 m c)

theorem rat0_arg6 (c : Dev nD) :
    R0 m c (Proc.devRef .tc main_arg6) =
      m ((c.tc : Thread nD τ).loc main_arg6) :=
  rfl

theorem skip_C0_arg6 (X : Valuation τ sig (Elt F)) :
    after opsC0 X (Proc.devRef .tc main_arg6) = X (Proc.devRef .tc main_arg6) := by
  host_skip

theorem rat1_arg6 (c : Dev nD) :
    R1 m c (Proc.devRef .tc main_arg6) =
      m ((c.tc : Thread nD τ).loc main_arg6) :=
  (skip_C0_arg6 (R0 m c)).trans (rat0_arg6 m c)

theorem skip_C1_arg6 (X : Valuation τ sig (Elt F)) :
    after opsC1 X (Proc.devRef .tc main_arg6) = X (Proc.devRef .tc main_arg6) := by
  host_skip

theorem rat2_arg6 (c : Dev nD) :
    R2 m c (Proc.devRef .tc main_arg6) =
      m ((c.tc : Thread nD τ).loc main_arg6) :=
  (skip_C1_arg6 (R1 m c)).trans (rat1_arg6 m c)

theorem skip_C2_arg6 (X : Valuation τ sig (Elt F)) :
    after opsC2 X (Proc.devRef .tc main_arg6) = X (Proc.devRef .tc main_arg6) := by
  host_skip

theorem rat3_arg6 (c : Dev nD) :
    R3 m c (Proc.devRef .tc main_arg6) =
      m ((c.tc : Thread nD τ).loc main_arg6) :=
  (skip_C2_arg6 (R2 m c)).trans (rat2_arg6 m c)

theorem skip_C3_arg6 (X : Valuation τ sig (Elt F)) :
    after opsC3 X (Proc.devRef .tc main_arg6) = X (Proc.devRef .tc main_arg6) := by
  host_skip

theorem rat4_arg6 (c : Dev nD) :
    R4 m c (Proc.devRef .tc main_arg6) =
      m ((c.tc : Thread nD τ).loc main_arg6) :=
  (skip_C3_arg6 (R3 m c)).trans (rat3_arg6 m c)

theorem rat0_arg7 (c : Dev nD) :
    R0 m c (Proc.devRef .tc main_arg7) =
      m ((c.tc : Thread nD τ).loc main_arg7) :=
  rfl

theorem skip_C0_arg7 (X : Valuation τ sig (Elt F)) :
    after opsC0 X (Proc.devRef .tc main_arg7) = X (Proc.devRef .tc main_arg7) := by
  host_skip

theorem rat1_arg7 (c : Dev nD) :
    R1 m c (Proc.devRef .tc main_arg7) =
      m ((c.tc : Thread nD τ).loc main_arg7) :=
  (skip_C0_arg7 (R0 m c)).trans (rat0_arg7 m c)

theorem skip_C1_arg7 (X : Valuation τ sig (Elt F)) :
    after opsC1 X (Proc.devRef .tc main_arg7) = X (Proc.devRef .tc main_arg7) := by
  host_skip

theorem rat2_arg7 (c : Dev nD) :
    R2 m c (Proc.devRef .tc main_arg7) =
      m ((c.tc : Thread nD τ).loc main_arg7) :=
  (skip_C1_arg7 (R1 m c)).trans (rat1_arg7 m c)

theorem skip_C2_arg7 (X : Valuation τ sig (Elt F)) :
    after opsC2 X (Proc.devRef .tc main_arg7) = X (Proc.devRef .tc main_arg7) := by
  host_skip

theorem rat3_arg7 (c : Dev nD) :
    R3 m c (Proc.devRef .tc main_arg7) =
      m ((c.tc : Thread nD τ).loc main_arg7) :=
  (skip_C2_arg7 (R2 m c)).trans (rat2_arg7 m c)

theorem skip_C3_arg7 (X : Valuation τ sig (Elt F)) :
    after opsC3 X (Proc.devRef .tc main_arg7) = X (Proc.devRef .tc main_arg7) := by
  host_skip

theorem rat4_arg7 (c : Dev nD) :
    R4 m c (Proc.devRef .tc main_arg7) =
      m ((c.tc : Thread nD τ).loc main_arg7) :=
  (skip_C3_arg7 (R3 m c)).trans (rat3_arg7 m c)

theorem rat3_v125 (c : Dev nD) :
    R3 m c (Proc.devRef .tc main_v125) =
      rout2 m c :=
  rfl

theorem skip_C3_v125 (X : Valuation τ sig (Elt F)) :
    after opsC3 X (Proc.devRef .tc main_v125) = X (Proc.devRef .tc main_v125) := by
  host_skip

theorem rat4_v125 (c : Dev nD) :
    R4 m c (Proc.devRef .tc main_v125) =
      rout2 m c :=
  (skip_C3_v125 (R3 m c)).trans (rat3_v125 m c)

theorem rat0_arg8 (c : Dev nD) :
    R0 m c (Proc.devRef .tc main_arg8) =
      m ((c.tc : Thread nD τ).loc main_arg8) :=
  rfl

theorem skip_C0_arg8 (X : Valuation τ sig (Elt F)) :
    after opsC0 X (Proc.devRef .tc main_arg8) = X (Proc.devRef .tc main_arg8) := by
  host_skip

theorem rat1_arg8 (c : Dev nD) :
    R1 m c (Proc.devRef .tc main_arg8) =
      m ((c.tc : Thread nD τ).loc main_arg8) :=
  (skip_C0_arg8 (R0 m c)).trans (rat0_arg8 m c)

theorem skip_C1_arg8 (X : Valuation τ sig (Elt F)) :
    after opsC1 X (Proc.devRef .tc main_arg8) = X (Proc.devRef .tc main_arg8) := by
  host_skip

theorem rat2_arg8 (c : Dev nD) :
    R2 m c (Proc.devRef .tc main_arg8) =
      m ((c.tc : Thread nD τ).loc main_arg8) :=
  (skip_C1_arg8 (R1 m c)).trans (rat1_arg8 m c)

theorem skip_C2_arg8 (X : Valuation τ sig (Elt F)) :
    after opsC2 X (Proc.devRef .tc main_arg8) = X (Proc.devRef .tc main_arg8) := by
  host_skip

theorem rat3_arg8 (c : Dev nD) :
    R3 m c (Proc.devRef .tc main_arg8) =
      m ((c.tc : Thread nD τ).loc main_arg8) :=
  (skip_C2_arg8 (R2 m c)).trans (rat2_arg8 m c)

theorem skip_C3_arg8 (X : Valuation τ sig (Elt F)) :
    after opsC3 X (Proc.devRef .tc main_arg8) = X (Proc.devRef .tc main_arg8) := by
  host_skip

theorem rat4_arg8 (c : Dev nD) :
    R4 m c (Proc.devRef .tc main_arg8) =
      m ((c.tc : Thread nD τ).loc main_arg8) :=
  (skip_C3_arg8 (R3 m c)).trans (rat3_arg8 m c)

theorem rat0_arg9 (c : Dev nD) :
    R0 m c (Proc.devRef .tc main_arg9) =
      m ((c.tc : Thread nD τ).loc main_arg9) :=
  rfl

theorem skip_C0_arg9 (X : Valuation τ sig (Elt F)) :
    after opsC0 X (Proc.devRef .tc main_arg9) = X (Proc.devRef .tc main_arg9) := by
  host_skip

theorem rat1_arg9 (c : Dev nD) :
    R1 m c (Proc.devRef .tc main_arg9) =
      m ((c.tc : Thread nD τ).loc main_arg9) :=
  (skip_C0_arg9 (R0 m c)).trans (rat0_arg9 m c)

theorem skip_C1_arg9 (X : Valuation τ sig (Elt F)) :
    after opsC1 X (Proc.devRef .tc main_arg9) = X (Proc.devRef .tc main_arg9) := by
  host_skip

theorem rat2_arg9 (c : Dev nD) :
    R2 m c (Proc.devRef .tc main_arg9) =
      m ((c.tc : Thread nD τ).loc main_arg9) :=
  (skip_C1_arg9 (R1 m c)).trans (rat1_arg9 m c)

theorem skip_C2_arg9 (X : Valuation τ sig (Elt F)) :
    after opsC2 X (Proc.devRef .tc main_arg9) = X (Proc.devRef .tc main_arg9) := by
  host_skip

theorem rat3_arg9 (c : Dev nD) :
    R3 m c (Proc.devRef .tc main_arg9) =
      m ((c.tc : Thread nD τ).loc main_arg9) :=
  (skip_C2_arg9 (R2 m c)).trans (rat2_arg9 m c)

theorem skip_C3_arg9 (X : Valuation τ sig (Elt F)) :
    after opsC3 X (Proc.devRef .tc main_arg9) = X (Proc.devRef .tc main_arg9) := by
  host_skip

theorem rat4_arg9 (c : Dev nD) :
    R4 m c (Proc.devRef .tc main_arg9) =
      m ((c.tc : Thread nD τ).loc main_arg9) :=
  (skip_C3_arg9 (R3 m c)).trans (rat3_arg9 m c)

/-- The features after combine step 4, as one term of the arguments and of the earlier steps' features. -/
theorem rout4_eq (c : Dev nD) :
    rout4 m c =
      Host.divf (maximumf (addf (addf (addf (Host.dotGeneral dot_S50000x128_S128x64_S50000x64_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (rout3 m c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x128x64 ![0, 0, 0] (m ((c.tc : Thread nD τ).loc main_arg6)) slices_S2x128x64_S1x128x64_0_0_0) shapeCasts_S1x128x64_S128x64)) (broadcastInDim S50000x64 ![0, 1] bcast_S1x64_S50000x64_0_1 (broadcastInDim S1x64 ![1] bcast_S64_S1x64_1 (shapeCast _ (extractStridedSlice S1x64 ![0, 0] (m ((c.tc : Thread nD τ).loc main_arg7)) slices_S2x64_S1x64_0_0) shapeCasts_S1x64_S64)))) (Host.dotGeneral dot_S50000x128_S128x64_S50000x64_1_0_0_1_n_n none (rout2 m c) (shapeCast _ (extractStridedSlice S1x128x64 ![0, 0, 0] (m ((c.tc : Thread nD τ).loc main_arg8)) slices_S2x128x64_S1x128x64_0_0_0) shapeCasts_S1x128x64_S128x64))) (broadcastInDim S50000x64 ![0, 1] bcast_S1x64_S50000x64_0_1 (broadcastInDim S1x64 ![1] bcast_S64_S1x64_1 (shapeCast _ (extractStridedSlice S1x64 ![0, 0] (m ((c.tc : Thread nD τ).loc main_arg9)) slices_S2x64_S1x64_0_0) shapeCasts_S1x64_S64)))) (broadcastInDim S50000x64 ![] bcast_S_S50000x64 (constant S_ .f32 0x00000000#32))) (broadcastInDim S50000x64 ![0, 1] bcast_S50000x1_S50000x64_0_1 (maximumf (Host.sqrt (broadcastInDim S50000x1 ![0] bcast_S50000_S50000x1_0 (Host.reduceAdd (mulf (maximumf (addf (addf (addf (Host.dotGeneral dot_S50000x128_S128x64_S50000x64_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (rout3 m c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x128x64 ![0, 0, 0] (m ((c.tc : Thread nD τ).loc main_arg6)) slices_S2x128x64_S1x128x64_0_0_0) shapeCasts_S1x128x64_S128x64)) (broadcastInDim S50000x64 ![0, 1] bcast_S1x64_S50000x64_0_1 (broadcastInDim S1x64 ![1] bcast_S64_S1x64_1 (shapeCast _ (extractStridedSlice S1x64 ![0, 0] (m ((c.tc : Thread nD τ).loc main_arg7)) slices_S2x64_S1x64_0_0) shapeCasts_S1x64_S64)))) (Host.dotGeneral dot_S50000x128_S128x64_S50000x64_1_0_0_1_n_n none (rout2 m c) (shapeCast _ (extractStridedSlice S1x128x64 ![0, 0, 0] (m ((c.tc : Thread nD τ).loc main_arg8)) slices_S2x128x64_S1x128x64_0_0_0) shapeCasts_S1x128x64_S128x64))) (broadcastInDim S50000x64 ![0, 1] bcast_S1x64_S50000x64_0_1 (broadcastInDim S1x64 ![1] bcast_S64_S1x64_1 (shapeCast _ (extractStridedSlice S1x64 ![0, 0] (m ((c.tc : Thread nD τ).loc main_arg9)) slices_S2x64_S1x64_0_0) shapeCasts_S1x64_S64)))) (broadcastInDim S50000x64 ![] bcast_S_S50000x64 (constant S_ .f32 0x00000000#32))) (maximumf (addf (addf (addf (Host.dotGeneral dot_S50000x128_S128x64_S50000x64_1_0_0_1_n_n none (Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 (m ((c.tc : Thread nD τ).loc main_arg11))) (Host.gather gather_S100000x128_S1000000x1_S1000000x128_1_0_n_n_0_1_1128 (rout3 m c) (broadcastInDim S1000000x1 ![0] bcast_S1000000_S1000000x1_0 (select (cmpi .slt (m ((c.tc : Thread nD τ).loc main_arg10)) (broadcastInDim S1000000 ![] bcast_S_S1000000 (constantI S_ 32 0#32))) (addi (m ((c.tc : Thread nD τ).loc main_arg10)) (broadcastInDim S1000000 ![] bcast_S_S1000000 (constantI S_ 32 100000#32))) (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 (m ((c.tc : Thread nD τ).loc main_arg11))) (broadcastInDim S1000000 ![] bcast_S_S1000000 (constant S_ .f32 0x3F800000#32))) (broadcastInDim S50000 ![] bcast_S_S50000 (constant S_ .f32 0x3F800000#32)))))) (shapeCast _ (extractStridedSlice S1x128x64 ![0, 0, 0] (m ((c.tc : Thread nD τ).loc main_arg6)) slices_S2x128x64_S1x128x64_0_0_0) shapeCasts_S1x128x64_S128x64)) (broadcastInDim S50000x64 ![0, 1] bcast_S1x64_S50000x64_0_1 (broadcastInDim S1x64 ![1] bcast_S64_S1x64_1 (shapeCast _ (extractStridedSlice S1x64 ![0, 0] (m ((c.tc : Thread nD τ).loc main_arg7)) slices_S2x64_S1x64_0_0) shapeCasts_S1x64_S64)))) (Host.dotGeneral dot_S50000x128_S128x64_S50000x64_1_0_0_1_n_n none (rout2 m c) (shapeCast _ (extractStridedSlice S1x128x64 ![0, 0, 0] (m ((c.tc : Thread nD τ).loc main_arg8)) slices_S2x128x64_S1x128x64_0_0_0) shapeCasts_S1x128x64_S128x64))) (broadcastInDim S50000x64 ![0, 1] bcast_S1x64_S50000x64_0_1 (broadcastInDim S1x64 ![1] bcast_S64_S1x64_1 (shapeCast _ (extractStridedSlice S1x64 ![0, 0] (m ((c.tc : Thread nD τ).loc main_arg9)) slices_S2x64_S1x64_0_0) shapeCasts_S1x64_S64)))) (broadcastInDim S50000x64 ![] bcast_S_S50000x64 (constant S_ .f32 0x00000000#32)))) (constant S_ .f32 0x00000000#32) reducesTo_S50000x64_S50000_d1 h_S_))) (broadcastInDim S50000x1 ![] bcast_S_S50000x1 (constant S_ .f32 0x2B8CBCCC#32)))) :=
  comp_C4_v209 (R4 m c) _ _ _ _ _ _ _ _ (rat4_arg11 m c) (rat4_v167 m c) (rat4_arg10 m c) (rat4_arg6 m c) (rat4_arg7 m c) (rat4_v125 m c) (rat4_arg8 m c) (rat4_arg9 m c)

theorem comp_C5_v251 (X : Valuation τ sig (Elt F)) (x_arg13 : (Proc.devRef .tc main_arg13 : DevRef τ sig).ty.Contents (Elt F)) (x_v125 : (Proc.devRef .tc main_v125 : DevRef τ sig).ty.Contents (Elt F)) (x_arg12 : (Proc.devRef .tc main_arg12 : DevRef τ sig).ty.Contents (Elt F)) (x_arg6 : (Proc.devRef .tc main_arg6 : DevRef τ sig).ty.Contents (Elt F)) (x_arg7 : (Proc.devRef .tc main_arg7 : DevRef τ sig).ty.Contents (Elt F)) (x_v167 : (Proc.devRef .tc main_v167 : DevRef τ sig).ty.Contents (Elt F)) (x_arg8 : (Proc.devRef .tc main_arg8 : DevRef τ sig).ty.Contents (Elt F)) (x_arg9 : (Proc.devRef .tc main_arg9 : DevRef τ sig).ty.Contents (Elt F))
    (h_arg13 : X (Proc.devRef .tc main_arg13) = x_arg13) (h_v125 : X (Proc.devRef .tc main_v125) = x_v125) (h_arg12 : X (Proc.devRef .tc main_arg12) = x_arg12) (h_arg6 : X (Proc.devRef .tc main_arg6) = x_arg6) (h_arg7 : X (Proc.devRef .tc main_arg7) = x_arg7) (h_v167 : X (Proc.devRef .tc main_v167) = x_v167) (h_arg8 : X (Proc.devRef .tc main_arg8) = x_arg8) (h_arg9 : X (Proc.devRef .tc main_arg9) = x_arg9) :
    after opsC5 X (Proc.devRef .tc main_v251) =
      Host.divf (maximumf (addf (addf (addf (Host.dotGeneral dot_S100000x128_S128x64_S100000x64_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v125) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x128x64 ![1, 0, 0] (x_arg6) slices_S2x128x64_S1x128x64_1_0_0) shapeCasts_S1x128x64_S128x64)) (broadcastInDim S100000x64 ![0, 1] bcast_S1x64_S100000x64_0_1 (broadcastInDim S1x64 ![1] bcast_S64_S1x64_1 (shapeCast _ (extractStridedSlice S1x64 ![1, 0] (x_arg7) slices_S2x64_S1x64_1_0) shapeCasts_S1x64_S64)))) (Host.dotGeneral dot_S100000x128_S128x64_S100000x64_1_0_0_1_n_n none (x_v167) (shapeCast _ (extractStridedSlice S1x128x64 ![1, 0, 0] (x_arg8) slices_S2x128x64_S1x128x64_1_0_0) shapeCasts_S1x128x64_S128x64))) (broadcastInDim S100000x64 ![0, 1] bcast_S1x64_S100000x64_0_1 (broadcastInDim S1x64 ![1] bcast_S64_S1x64_1 (shapeCast _ (extractStridedSlice S1x64 ![1, 0] (x_arg9) slices_S2x64_S1x64_1_0) shapeCasts_S1x64_S64)))) (broadcastInDim S100000x64 ![] bcast_S_S100000x64 (constant S_ .f32 0x00000000#32))) (broadcastInDim S100000x64 ![0, 1] bcast_S100000x1_S100000x64_0_1 (maximumf (Host.sqrt (broadcastInDim S100000x1 ![0] bcast_S100000_S100000x1_0 (Host.reduceAdd (mulf (maximumf (addf (addf (addf (Host.dotGeneral dot_S100000x128_S128x64_S100000x64_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v125) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x128x64 ![1, 0, 0] (x_arg6) slices_S2x128x64_S1x128x64_1_0_0) shapeCasts_S1x128x64_S128x64)) (broadcastInDim S100000x64 ![0, 1] bcast_S1x64_S100000x64_0_1 (broadcastInDim S1x64 ![1] bcast_S64_S1x64_1 (shapeCast _ (extractStridedSlice S1x64 ![1, 0] (x_arg7) slices_S2x64_S1x64_1_0) shapeCasts_S1x64_S64)))) (Host.dotGeneral dot_S100000x128_S128x64_S100000x64_1_0_0_1_n_n none (x_v167) (shapeCast _ (extractStridedSlice S1x128x64 ![1, 0, 0] (x_arg8) slices_S2x128x64_S1x128x64_1_0_0) shapeCasts_S1x128x64_S128x64))) (broadcastInDim S100000x64 ![0, 1] bcast_S1x64_S100000x64_0_1 (broadcastInDim S1x64 ![1] bcast_S64_S1x64_1 (shapeCast _ (extractStridedSlice S1x64 ![1, 0] (x_arg9) slices_S2x64_S1x64_1_0) shapeCasts_S1x64_S64)))) (broadcastInDim S100000x64 ![] bcast_S_S100000x64 (constant S_ .f32 0x00000000#32))) (maximumf (addf (addf (addf (Host.dotGeneral dot_S100000x128_S128x64_S100000x64_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (x_arg13)) (Host.gather gather_S50000x128_S1000000x1_S1000000x128_1_0_n_n_0_1_1128 (x_v125) (broadcastInDim S1000000x1 ![0] bcast_S1000000_S1000000x1_0 (select (cmpi .slt (x_arg12) (broadcastInDim S1000000 ![] bcast_S_S1000000 (constantI S_ 32 0#32))) (addi (x_arg12) (broadcastInDim S1000000 ![] bcast_S_S1000000 (constantI S_ 32 50000#32))) (x_arg12))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (x_arg13)) (broadcastInDim S1000000 ![] bcast_S_S1000000 (constant S_ .f32 0x3F800000#32))) (broadcastInDim S100000 ![] bcast_S_S100000 (constant S_ .f32 0x3F800000#32)))))) (shapeCast _ (extractStridedSlice S1x128x64 ![1, 0, 0] (x_arg6) slices_S2x128x64_S1x128x64_1_0_0) shapeCasts_S1x128x64_S128x64)) (broadcastInDim S100000x64 ![0, 1] bcast_S1x64_S100000x64_0_1 (broadcastInDim S1x64 ![1] bcast_S64_S1x64_1 (shapeCast _ (extractStridedSlice S1x64 ![1, 0] (x_arg7) slices_S2x64_S1x64_1_0) shapeCasts_S1x64_S64)))) (Host.dotGeneral dot_S100000x128_S128x64_S100000x64_1_0_0_1_n_n none (x_v167) (shapeCast _ (extractStridedSlice S1x128x64 ![1, 0, 0] (x_arg8) slices_S2x128x64_S1x128x64_1_0_0) shapeCasts_S1x128x64_S128x64))) (broadcastInDim S100000x64 ![0, 1] bcast_S1x64_S100000x64_0_1 (broadcastInDim S1x64 ![1] bcast_S64_S1x64_1 (shapeCast _ (extractStridedSlice S1x64 ![1, 0] (x_arg9) slices_S2x64_S1x64_1_0) shapeCasts_S1x64_S64)))) (broadcastInDim S100000x64 ![] bcast_S_S100000x64 (constant S_ .f32 0x00000000#32)))) (constant S_ .f32 0x00000000#32) reducesTo_S100000x64_S100000_d1 h_S_))) (broadcastInDim S100000x1 ![] bcast_S_S100000x1 (constant S_ .f32 0x2B8CBCCC#32)))) := by
  subst h_arg13 h_v125 h_arg12 h_arg6 h_arg7 h_v167 h_arg8 h_arg9
  host_line

theorem skip_C3_arg13 (X : Valuation τ sig (Elt F)) :
    after opsC3 X (Proc.devRef .tc main_arg13) = X (Proc.devRef .tc main_arg13) := by
  host_skip

theorem rat4_arg13 (c : Dev nD) :
    R4 m c (Proc.devRef .tc main_arg13) =
      m ((c.tc : Thread nD τ).loc main_arg13) :=
  (skip_C3_arg13 (R3 m c)).trans (rat3_arg13 m c)

theorem skip_C4_arg13 (X : Valuation τ sig (Elt F)) :
    after opsC4 X (Proc.devRef .tc main_arg13) = X (Proc.devRef .tc main_arg13) := by
  host_skip

theorem rat5_arg13 (c : Dev nD) :
    R5 m c (Proc.devRef .tc main_arg13) =
      m ((c.tc : Thread nD τ).loc main_arg13) :=
  (skip_C4_arg13 (R4 m c)).trans (rat4_arg13 m c)

theorem skip_C4_v125 (X : Valuation τ sig (Elt F)) :
    after opsC4 X (Proc.devRef .tc main_v125) = X (Proc.devRef .tc main_v125) := by
  host_skip

theorem rat5_v125 (c : Dev nD) :
    R5 m c (Proc.devRef .tc main_v125) =
      rout2 m c :=
  (skip_C4_v125 (R4 m c)).trans (rat4_v125 m c)

theorem skip_C3_arg12 (X : Valuation τ sig (Elt F)) :
    after opsC3 X (Proc.devRef .tc main_arg12) = X (Proc.devRef .tc main_arg12) := by
  host_skip

theorem rat4_arg12 (c : Dev nD) :
    R4 m c (Proc.devRef .tc main_arg12) =
      m ((c.tc : Thread nD τ).loc main_arg12) :=
  (skip_C3_arg12 (R3 m c)).trans (rat3_arg12 m c)

theorem skip_C4_arg12 (X : Valuation τ sig (Elt F)) :
    after opsC4 X (Proc.devRef .tc main_arg12) = X (Proc.devRef .tc main_arg12) := by
  host_skip

theorem rat5_arg12 (c : Dev nD) :
    R5 m c (Proc.devRef .tc main_arg12) =
      m ((c.tc : Thread nD τ).loc main_arg12) :=
  (skip_C4_arg12 (R4 m c)).trans (rat4_arg12 m c)

theorem skip_C4_arg6 (X : Valuation τ sig (Elt F)) :
    after opsC4 X (Proc.devRef .tc main_arg6) = X (Proc.devRef .tc main_arg6) := by
  host_skip

theorem rat5_arg6 (c : Dev nD) :
    R5 m c (Proc.devRef .tc main_arg6) =
      m ((c.tc : Thread nD τ).loc main_arg6) :=
  (skip_C4_arg6 (R4 m c)).trans (rat4_arg6 m c)

theorem skip_C4_arg7 (X : Valuation τ sig (Elt F)) :
    after opsC4 X (Proc.devRef .tc main_arg7) = X (Proc.devRef .tc main_arg7) := by
  host_skip

theorem rat5_arg7 (c : Dev nD) :
    R5 m c (Proc.devRef .tc main_arg7) =
      m ((c.tc : Thread nD τ).loc main_arg7) :=
  (skip_C4_arg7 (R4 m c)).trans (rat4_arg7 m c)

theorem skip_C4_v167 (X : Valuation τ sig (Elt F)) :
    after opsC4 X (Proc.devRef .tc main_v167) = X (Proc.devRef .tc main_v167) := by
  host_skip

theorem rat5_v167 (c : Dev nD) :
    R5 m c (Proc.devRef .tc main_v167) =
      rout3 m c :=
  (skip_C4_v167 (R4 m c)).trans (rat4_v167 m c)

theorem skip_C4_arg8 (X : Valuation τ sig (Elt F)) :
    after opsC4 X (Proc.devRef .tc main_arg8) = X (Proc.devRef .tc main_arg8) := by
  host_skip

theorem rat5_arg8 (c : Dev nD) :
    R5 m c (Proc.devRef .tc main_arg8) =
      m ((c.tc : Thread nD τ).loc main_arg8) :=
  (skip_C4_arg8 (R4 m c)).trans (rat4_arg8 m c)

theorem skip_C4_arg9 (X : Valuation τ sig (Elt F)) :
    after opsC4 X (Proc.devRef .tc main_arg9) = X (Proc.devRef .tc main_arg9) := by
  host_skip

theorem rat5_arg9 (c : Dev nD) :
    R5 m c (Proc.devRef .tc main_arg9) =
      m ((c.tc : Thread nD τ).loc main_arg9) :=
  (skip_C4_arg9 (R4 m c)).trans (rat4_arg9 m c)

/-- The features after combine step 5, as one term of the arguments and of the earlier steps' features. -/
theorem rout5_eq (c : Dev nD) :
    rout5 m c =
      Host.divf (maximumf (addf (addf (addf (Host.dotGeneral dot_S100000x128_S128x64_S100000x64_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (rout2 m c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x128x64 ![1, 0, 0] (m ((c.tc : Thread nD τ).loc main_arg6)) slices_S2x128x64_S1x128x64_1_0_0) shapeCasts_S1x128x64_S128x64)) (broadcastInDim S100000x64 ![0, 1] bcast_S1x64_S100000x64_0_1 (broadcastInDim S1x64 ![1] bcast_S64_S1x64_1 (shapeCast _ (extractStridedSlice S1x64 ![1, 0] (m ((c.tc : Thread nD τ).loc main_arg7)) slices_S2x64_S1x64_1_0) shapeCasts_S1x64_S64)))) (Host.dotGeneral dot_S100000x128_S128x64_S100000x64_1_0_0_1_n_n none (rout3 m c) (shapeCast _ (extractStridedSlice S1x128x64 ![1, 0, 0] (m ((c.tc : Thread nD τ).loc main_arg8)) slices_S2x128x64_S1x128x64_1_0_0) shapeCasts_S1x128x64_S128x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg9)) slices_S2x64_S1x64_1_0) shapeCasts_S1x64_S64)))) (broadcastInDim S100000x64 ![] bcast_S_S100000x64 (constant S_ .f32 0x00000000#32))) (broadcastInDim S100000x64 ![0, 1] bcast_S100000x1_S100000x64_0_1 (maximumf (Host.sqrt (broadcastInDim S100000x1 ![0] bcast_S100000_S100000x1_0 (Host.reduceAdd (mulf (maximumf (addf (addf (addf (Host.dotGeneral dot_S100000x128_S128x64_S100000x64_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (rout2 m c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x128x64 ![1, 0, 0] (m ((c.tc : Thread nD τ).loc main_arg6)) slices_S2x128x64_S1x128x64_1_0_0) shapeCasts_S1x128x64_S128x64)) (broadcastInDim S100000x64 ![0, 1] bcast_S1x64_S100000x64_0_1 (broadcastInDim S1x64 ![1] bcast_S64_S1x64_1 (shapeCast _ (extractStridedSlice S1x64 ![1, 0] (m ((c.tc : Thread nD τ).loc main_arg7)) slices_S2x64_S1x64_1_0) shapeCasts_S1x64_S64)))) (Host.dotGeneral dot_S100000x128_S128x64_S100000x64_1_0_0_1_n_n none (rout3 m c) (shapeCast _ (extractStridedSlice S1x128x64 ![1, 0, 0] (m ((c.tc : Thread nD τ).loc main_arg8)) slices_S2x128x64_S1x128x64_1_0_0) shapeCasts_S1x128x64_S128x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg9)) slices_S2x64_S1x64_1_0) shapeCasts_S1x64_S64)))) (broadcastInDim S100000x64 ![] bcast_S_S100000x64 (constant S_ .f32 0x00000000#32))) (maximumf (addf (addf (addf (Host.dotGeneral dot_S100000x128_S128x64_S100000x64_1_0_0_1_n_n none (Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 (m ((c.tc : Thread nD τ).loc main_arg13))) (Host.gather gather_S50000x128_S1000000x1_S1000000x128_1_0_n_n_0_1_1128 (rout2 m c) (broadcastInDim S1000000x1 ![0] bcast_S1000000_S1000000x1_0 (select (cmpi .slt (m ((c.tc : Thread nD τ).loc main_arg12)) (broadcastInDim S1000000 ![] bcast_S_S1000000 (constantI S_ 32 0#32))) (addi (m ((c.tc : Thread nD τ).loc main_arg12)) (broadcastInDim S1000000 ![] bcast_S_S1000000 (constantI S_ 32 50000#32))) (m ((c.tc : Thread nD τ).loc main_arg12)))))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (m ((c.tc : Thread nD τ).loc main_arg13))) (broadcastInDim S1000000 ![] bcast_S_S1000000 (constant S_ .f32 0x3F800000#32))) (broadcastInDim S100000 ![] bcast_S_S100000 (constant S_ .f32 0x3F800000#32)))))) (shapeCast _ (extractStridedSlice S1x128x64 ![1, 0, 0] (m ((c.tc : Thread nD τ).loc main_arg6)) slices_S2x128x64_S1x128x64_1_0_0) shapeCasts_S1x128x64_S128x64)) (broadcastInDim S100000x64 ![0, 1] bcast_S1x64_S100000x64_0_1 (broadcastInDim S1x64 ![1] bcast_S64_S1x64_1 (shapeCast _ (extractStridedSlice S1x64 ![1, 0] (m ((c.tc : Thread nD τ).loc main_arg7)) slices_S2x64_S1x64_1_0) shapeCasts_S1x64_S64)))) (Host.dotGeneral dot_S100000x128_S128x64_S100000x64_1_0_0_1_n_n none (rout3 m c) (shapeCast _ (extractStridedSlice S1x128x64 ![1, 0, 0] (m ((c.tc : Thread nD τ).loc main_arg8)) slices_S2x128x64_S1x128x64_1_0_0) shapeCasts_S1x128x64_S128x64))) (broadcastInDim S100000x64 ![0, 1] bcast_S1x64_S100000x64_0_1 (broadcastInDim S1x64 ![1] bcast_S64_S1x64_1 (shapeCast _ (extractStridedSlice S1x64 ![1, 0] (m ((c.tc : Thread nD τ).loc main_arg9)) slices_S2x64_S1x64_1_0) shapeCasts_S1x64_S64)))) (broadcastInDim S100000x64 ![] bcast_S_S100000x64 (constant S_ .f32 0x00000000#32)))) (constant S_ .f32 0x00000000#32) reducesTo_S100000x64_S100000_d1 h_S_))) (broadcastInDim S100000x1 ![] bcast_S_S100000x1 (constant S_ .f32 0x2B8CBCCC#32)))) :=
  comp_C5_v251 (R5 m c) _ _ _ _ _ _ _ _ (rat5_arg13 m c) (rat5_v125 m c) (rat5_arg12 m c) (rat5_arg6 m c) (rat5_arg7 m c) (rat5_v167 m c) (rat5_arg8 m c) (rat5_arg9 m c)

theorem rat6_v251 (c : Dev nD) :
    R6 m c (Proc.devRef .tc main_v251) =
      rout5 m c :=
  rfl

theorem skip_C6_v251 (X : Valuation τ sig (Elt F)) :
    after opsC6 X (Proc.devRef .tc main_v251) = X (Proc.devRef .tc main_v251) := by
  host_skip

theorem rat7_v251 (c : Dev nD) :
    R7 m c (Proc.devRef .tc main_v251) =
      rout5 m c :=
  (skip_C6_v251 (R6 m c)).trans (rat6_v251 m c)

theorem rat5_v209 (c : Dev nD) :
    R5 m c (Proc.devRef .tc main_v209) =
      rout4 m c :=
  rfl

theorem skip_C5_v209 (X : Valuation τ sig (Elt F)) :
    after opsC5 X (Proc.devRef .tc main_v209) = X (Proc.devRef .tc main_v209) := by
  host_skip

theorem rat6_v209 (c : Dev nD) :
    R6 m c (Proc.devRef .tc main_v209) =
      rout4 m c :=
  (skip_C5_v209 (R5 m c)).trans (rat5_v209 m c)

theorem skip_C6_v209 (X : Valuation τ sig (Elt F)) :
    after opsC6 X (Proc.devRef .tc main_v209) = X (Proc.devRef .tc main_v209) := by
  host_skip

theorem rat7_v209 (c : Dev nD) :
    R7 m c (Proc.devRef .tc main_v209) =
      rout4 m c :=
  (skip_C6_v209 (R6 m c)).trans (rat6_v209 m c)

theorem comp_C6_v277 (X : Valuation τ sig (Elt F)) (x_v251 : (Proc.devRef .tc main_v251 : DevRef τ sig).ty.Contents (Elt F)) (x_arg14 : (Proc.devRef .tc main_arg14 : DevRef τ sig).ty.Contents (Elt F)) (x_v209 : (Proc.devRef .tc main_v209 : DevRef τ sig).ty.Contents (Elt F)) (x_arg15 : (Proc.devRef .tc main_arg15 : DevRef τ sig).ty.Contents (Elt F))
    (h_v251 : X (Proc.devRef .tc main_v251) = x_v251) (h_arg14 : X (Proc.devRef .tc main_arg14) = x_arg14) (h_v209 : X (Proc.devRef .tc main_v209) = x_v209) (h_arg15 : X (Proc.devRef .tc main_arg15) = x_arg15) :
    after opsC6 X (Proc.devRef .tc main_v277) =
      Host.reduceAdd (mulf (Host.gather gather_S100000x64_S500000x1_S500000x64_1_0_n_n_0_1_164 (Host.divf (x_v251) (broadcastInDim S100000x64 ![0, 1] bcast_S100000x1_S100000x64_0_1 (maximumf (Host.sqrt (broadcastInDim S100000x1 ![0] bcast_S100000_S100000x1_0 (Host.reduceAdd (mulf (x_v251) (x_v251)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (x_arg14) (broadcastInDim S500000 ![] bcast_S_S500000 (constantI S_ 32 0#32))) (addi (x_arg14) (broadcastInDim S500000 ![] bcast_S_S500000 (constantI S_ 32 100000#32))) (x_arg14)))) (Host.gather gather_S50000x64_S500000x1_S500000x64_1_0_n_n_0_1_164 (Host.divf (x_v209) (broadcastInDim S50000x64 ![0, 1] bcast_S50000x1_S50000x64_0_1 (maximumf (Host.sqrt (broadcastInDim S50000x1 ![0] bcast_S50000_S50000x1_0 (Host.reduceAdd (mulf (x_v209) (x_v209)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (x_arg15) (broadcastInDim S500000 ![] bcast_S_S500000 (constantI S_ 32 0#32))) (addi (x_arg15) (broadcastInDim S500000 ![] bcast_S_S500000 (constantI S_ 32 50000#32))) (x_arg15))))) (constant S_ .f32 0x00000000#32) reducesTo_S500000x64_S500000_d1 h_S_ := by
  subst h_v251 h_arg14 h_v209 h_arg15
  host_line

theorem rat0_arg14 (c : Dev nD) :
    R0 m c (Proc.devRef .tc main_arg14) =
      m ((c.tc : Thread nD τ).loc main_arg14) :=
  rfl

theorem skip_C0_arg14 (X : Valuation τ sig (Elt F)) :
    after opsC0 X (Proc.devRef .tc main_arg14) = X (Proc.devRef .tc main_arg14) := by
  host_skip

theorem rat1_arg14 (c : Dev nD) :
    R1 m c (Proc.devRef .tc main_arg14) =
      m ((c.tc : Thread nD τ).loc main_arg14) :=
  (skip_C0_arg14 (R0 m c)).trans (rat0_arg14 m c)

theorem skip_C1_arg14 (X : Valuation τ sig (Elt F)) :
    after opsC1 X (Proc.devRef .tc main_arg14) = X (Proc.devRef .tc main_arg14) := by
  host_skip

theorem rat2_arg14 (c : Dev nD) :
    R2 m c (Proc.devRef .tc main_arg14) =
      m ((c.tc : Thread nD τ).loc main_arg14) :=
  (skip_C1_arg14 (R1 m c)).trans (rat1_arg14 m c)

theorem skip_C2_arg14 (X : Valuation τ sig (Elt F)) :
    after opsC2 X (Proc.devRef .tc main_arg14) = X (Proc.devRef .tc main_arg14) := by
  host_skip

theorem rat3_arg14 (c : Dev nD) :
    R3 m c (Proc.devRef .tc main_arg14) =
      m ((c.tc : Thread nD τ).loc main_arg14) :=
  (skip_C2_arg14 (R2 m c)).trans (rat2_arg14 m c)

theorem skip_C3_arg14 (X : Valuation τ sig (Elt F)) :
    after opsC3 X (Proc.devRef .tc main_arg14) = X (Proc.devRef .tc main_arg14) := by
  host_skip

theorem rat4_arg14 (c : Dev nD) :
    R4 m c (Proc.devRef .tc main_arg14) =
      m ((c.tc : Thread nD τ).loc main_arg14) :=
  (skip_C3_arg14 (R3 m c)).trans (rat3_arg14 m c)

theorem skip_C4_arg14 (X : Valuation τ sig (Elt F)) :
    after opsC4 X (Proc.devRef .tc main_arg14) = X (Proc.devRef .tc main_arg14) := by
  host_skip

theorem rat5_arg14 (c : Dev nD) :
    R5 m c (Proc.devRef .tc main_arg14) =
      m ((c.tc : Thread nD τ).loc main_arg14) :=
  (skip_C4_arg14 (R4 m c)).trans (rat4_arg14 m c)

theorem skip_C5_arg14 (X : Valuation τ sig (Elt F)) :
    after opsC5 X (Proc.devRef .tc main_arg14) = X (Proc.devRef .tc main_arg14) := by
  host_skip

theorem rat6_arg14 (c : Dev nD) :
    R6 m c (Proc.devRef .tc main_arg14) =
      m ((c.tc : Thread nD τ).loc main_arg14) :=
  (skip_C5_arg14 (R5 m c)).trans (rat5_arg14 m c)

theorem rat0_arg15 (c : Dev nD) :
    R0 m c (Proc.devRef .tc main_arg15) =
      m ((c.tc : Thread nD τ).loc main_arg15) :=
  rfl

theorem skip_C0_arg15 (X : Valuation τ sig (Elt F)) :
    after opsC0 X (Proc.devRef .tc main_arg15) = X (Proc.devRef .tc main_arg15) := by
  host_skip

theorem rat1_arg15 (c : Dev nD) :
    R1 m c (Proc.devRef .tc main_arg15) =
      m ((c.tc : Thread nD τ).loc main_arg15) :=
  (skip_C0_arg15 (R0 m c)).trans (rat0_arg15 m c)

theorem skip_C1_arg15 (X : Valuation τ sig (Elt F)) :
    after opsC1 X (Proc.devRef .tc main_arg15) = X (Proc.devRef .tc main_arg15) := by
  host_skip

theorem rat2_arg15 (c : Dev nD) :
    R2 m c (Proc.devRef .tc main_arg15) =
      m ((c.tc : Thread nD τ).loc main_arg15) :=
  (skip_C1_arg15 (R1 m c)).trans (rat1_arg15 m c)

theorem skip_C2_arg15 (X : Valuation τ sig (Elt F)) :
    after opsC2 X (Proc.devRef .tc main_arg15) = X (Proc.devRef .tc main_arg15) := by
  host_skip

theorem rat3_arg15 (c : Dev nD) :
    R3 m c (Proc.devRef .tc main_arg15) =
      m ((c.tc : Thread nD τ).loc main_arg15) :=
  (skip_C2_arg15 (R2 m c)).trans (rat2_arg15 m c)

theorem skip_C3_arg15 (X : Valuation τ sig (Elt F)) :
    after opsC3 X (Proc.devRef .tc main_arg15) = X (Proc.devRef .tc main_arg15) := by
  host_skip

theorem rat4_arg15 (c : Dev nD) :
    R4 m c (Proc.devRef .tc main_arg15) =
      m ((c.tc : Thread nD τ).loc main_arg15) :=
  (skip_C3_arg15 (R3 m c)).trans (rat3_arg15 m c)

theorem skip_C4_arg15 (X : Valuation τ sig (Elt F)) :
    after opsC4 X (Proc.devRef .tc main_arg15) = X (Proc.devRef .tc main_arg15) := by
  host_skip

theorem rat5_arg15 (c : Dev nD) :
    R5 m c (Proc.devRef .tc main_arg15) =
      m ((c.tc : Thread nD τ).loc main_arg15) :=
  (skip_C4_arg15 (R4 m c)).trans (rat4_arg15 m c)

theorem skip_C5_arg15 (X : Valuation τ sig (Elt F)) :
    after opsC5 X (Proc.devRef .tc main_arg15) = X (Proc.devRef .tc main_arg15) := by
  host_skip

theorem rat6_arg15 (c : Dev nD) :
    R6 m c (Proc.devRef .tc main_arg15) =
      m ((c.tc : Thread nD τ).loc main_arg15) :=
  (skip_C5_arg15 (R5 m c)).trans (rat5_arg15 m c)

theorem rat7_v277 (c : Dev nD) :
    R7 m c (Proc.devRef .tc main_v277) =
      Host.reduceAdd (mulf (Host.gather gather_S100000x64_S500000x1_S500000x64_1_0_n_n_0_1_164 (Host.divf (rout5 m c) (broadcastInDim S100000x64 ![0, 1] bcast_S100000x1_S100000x64_0_1 (maximumf (Host.sqrt (broadcastInDim S100000x1 ![0] bcast_S100000_S100000x1_0 (Host.reduceAdd (mulf (rout5 m c) (rout5 m c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg14)) (broadcastInDim S500000 ![] bcast_S_S500000 (constantI S_ 32 0#32))) (addi (m ((c.tc : Thread nD τ).loc main_arg14)) (broadcastInDim S500000 ![] bcast_S_S500000 (constantI S_ 32 100000#32))) (m ((c.tc : Thread nD τ).loc main_arg14))))) (Host.gather gather_S50000x64_S500000x1_S500000x64_1_0_n_n_0_1_164 (Host.divf (rout4 m c) (broadcastInDim S50000x64 ![0, 1] bcast_S50000x1_S50000x64_0_1 (maximumf (Host.sqrt (broadcastInDim S50000x1 ![0] bcast_S50000_S50000x1_0 (Host.reduceAdd (mulf (rout4 m c) (rout4 m c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg15)) (broadcastInDim S500000 ![] bcast_S_S500000 (constantI S_ 32 0#32))) (addi (m ((c.tc : Thread nD τ).loc main_arg15)) (broadcastInDim S500000 ![] bcast_S_S500000 (constantI S_ 32 50000#32))) (m ((c.tc : Thread nD τ).loc main_arg15)))))) (constant S_ .f32 0x00000000#32) reducesTo_S500000x64_S500000_d1 h_S_ :=
  comp_C6_v277 (R6 m c) _ _ _ _ (rat6_v251 m c) (rat6_arg14 m c) (rat6_v209 m c) (rat6_arg15 m c)

theorem comp_C6_v293 (X : Valuation τ sig (Elt F)) (x_v251 : (Proc.devRef .tc main_v251 : DevRef τ sig).ty.Contents (Elt F)) (x_arg16 : (Proc.devRef .tc main_arg16 : DevRef τ sig).ty.Contents (Elt F)) (x_v209 : (Proc.devRef .tc main_v209 : DevRef τ sig).ty.Contents (Elt F)) (x_arg17 : (Proc.devRef .tc main_arg17 : DevRef τ sig).ty.Contents (Elt F))
    (h_v251 : X (Proc.devRef .tc main_v251) = x_v251) (h_arg16 : X (Proc.devRef .tc main_arg16) = x_arg16) (h_v209 : X (Proc.devRef .tc main_v209) = x_v209) (h_arg17 : X (Proc.devRef .tc main_arg17) = x_arg17) :
    after opsC6 X (Proc.devRef .tc main_v293) =
      Host.reduceAdd (mulf (Host.gather gather_S100000x64_S500000x1_S500000x64_1_0_n_n_0_1_164 (Host.divf (x_v251) (broadcastInDim S100000x64 ![0, 1] bcast_S100000x1_S100000x64_0_1 (maximumf (Host.sqrt (broadcastInDim S100000x1 ![0] bcast_S100000_S100000x1_0 (Host.reduceAdd (mulf (x_v251) (x_v251)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (x_arg16) (broadcastInDim S500000 ![] bcast_S_S500000 (constantI S_ 32 0#32))) (addi (x_arg16) (broadcastInDim S500000 ![] bcast_S_S500000 (constantI S_ 32 100000#32))) (x_arg16)))) (Host.gather gather_S50000x64_S500000x1_S500000x64_1_0_n_n_0_1_164 (Host.divf (x_v209) (broadcastInDim S50000x64 ![0, 1] bcast_S50000x1_S50000x64_0_1 (maximumf (Host.sqrt (broadcastInDim S50000x1 ![0] bcast_S50000_S50000x1_0 (Host.reduceAdd (mulf (x_v209) (x_v209)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (x_arg17) (broadcastInDim S500000 ![] bcast_S_S500000 (constantI S_ 32 0#32))) (addi (x_arg17) (broadcastInDim S500000 ![] bcast_S_S500000 (constantI S_ 32 50000#32))) (x_arg17))))) (constant S_ .f32 0x00000000#32) reducesTo_S500000x64_S500000_d1 h_S_ := by
  subst h_v251 h_arg16 h_v209 h_arg17
  host_line

theorem rat0_arg16 (c : Dev nD) :
    R0 m c (Proc.devRef .tc main_arg16) =
      m ((c.tc : Thread nD τ).loc main_arg16) :=
  rfl

theorem skip_C0_arg16 (X : Valuation τ sig (Elt F)) :
    after opsC0 X (Proc.devRef .tc main_arg16) = X (Proc.devRef .tc main_arg16) := by
  host_skip

theorem rat1_arg16 (c : Dev nD) :
    R1 m c (Proc.devRef .tc main_arg16) =
      m ((c.tc : Thread nD τ).loc main_arg16) :=
  (skip_C0_arg16 (R0 m c)).trans (rat0_arg16 m c)

theorem skip_C1_arg16 (X : Valuation τ sig (Elt F)) :
    after opsC1 X (Proc.devRef .tc main_arg16) = X (Proc.devRef .tc main_arg16) := by
  host_skip

theorem rat2_arg16 (c : Dev nD) :
    R2 m c (Proc.devRef .tc main_arg16) =
      m ((c.tc : Thread nD τ).loc main_arg16) :=
  (skip_C1_arg16 (R1 m c)).trans (rat1_arg16 m c)

theorem skip_C2_arg16 (X : Valuation τ sig (Elt F)) :
    after opsC2 X (Proc.devRef .tc main_arg16) = X (Proc.devRef .tc main_arg16) := by
  host_skip

theorem rat3_arg16 (c : Dev nD) :
    R3 m c (Proc.devRef .tc main_arg16) =
      m ((c.tc : Thread nD τ).loc main_arg16) :=
  (skip_C2_arg16 (R2 m c)).trans (rat2_arg16 m c)

theorem skip_C3_arg16 (X : Valuation τ sig (Elt F)) :
    after opsC3 X (Proc.devRef .tc main_arg16) = X (Proc.devRef .tc main_arg16) := by
  host_skip

theorem rat4_arg16 (c : Dev nD) :
    R4 m c (Proc.devRef .tc main_arg16) =
      m ((c.tc : Thread nD τ).loc main_arg16) :=
  (skip_C3_arg16 (R3 m c)).trans (rat3_arg16 m c)

theorem skip_C4_arg16 (X : Valuation τ sig (Elt F)) :
    after opsC4 X (Proc.devRef .tc main_arg16) = X (Proc.devRef .tc main_arg16) := by
  host_skip

theorem rat5_arg16 (c : Dev nD) :
    R5 m c (Proc.devRef .tc main_arg16) =
      m ((c.tc : Thread nD τ).loc main_arg16) :=
  (skip_C4_arg16 (R4 m c)).trans (rat4_arg16 m c)

theorem skip_C5_arg16 (X : Valuation τ sig (Elt F)) :
    after opsC5 X (Proc.devRef .tc main_arg16) = X (Proc.devRef .tc main_arg16) := by
  host_skip

theorem rat6_arg16 (c : Dev nD) :
    R6 m c (Proc.devRef .tc main_arg16) =
      m ((c.tc : Thread nD τ).loc main_arg16) :=
  (skip_C5_arg16 (R5 m c)).trans (rat5_arg16 m c)

theorem rat0_arg17 (c : Dev nD) :
    R0 m c (Proc.devRef .tc main_arg17) =
      m ((c.tc : Thread nD τ).loc main_arg17) :=
  rfl

theorem skip_C0_arg17 (X : Valuation τ sig (Elt F)) :
    after opsC0 X (Proc.devRef .tc main_arg17) = X (Proc.devRef .tc main_arg17) := by
  host_skip

theorem rat1_arg17 (c : Dev nD) :
    R1 m c (Proc.devRef .tc main_arg17) =
      m ((c.tc : Thread nD τ).loc main_arg17) :=
  (skip_C0_arg17 (R0 m c)).trans (rat0_arg17 m c)

theorem skip_C1_arg17 (X : Valuation τ sig (Elt F)) :
    after opsC1 X (Proc.devRef .tc main_arg17) = X (Proc.devRef .tc main_arg17) := by
  host_skip

theorem rat2_arg17 (c : Dev nD) :
    R2 m c (Proc.devRef .tc main_arg17) =
      m ((c.tc : Thread nD τ).loc main_arg17) :=
  (skip_C1_arg17 (R1 m c)).trans (rat1_arg17 m c)

theorem skip_C2_arg17 (X : Valuation τ sig (Elt F)) :
    after opsC2 X (Proc.devRef .tc main_arg17) = X (Proc.devRef .tc main_arg17) := by
  host_skip

theorem rat3_arg17 (c : Dev nD) :
    R3 m c (Proc.devRef .tc main_arg17) =
      m ((c.tc : Thread nD τ).loc main_arg17) :=
  (skip_C2_arg17 (R2 m c)).trans (rat2_arg17 m c)

theorem skip_C3_arg17 (X : Valuation τ sig (Elt F)) :
    after opsC3 X (Proc.devRef .tc main_arg17) = X (Proc.devRef .tc main_arg17) := by
  host_skip

theorem rat4_arg17 (c : Dev nD) :
    R4 m c (Proc.devRef .tc main_arg17) =
      m ((c.tc : Thread nD τ).loc main_arg17) :=
  (skip_C3_arg17 (R3 m c)).trans (rat3_arg17 m c)

theorem skip_C4_arg17 (X : Valuation τ sig (Elt F)) :
    after opsC4 X (Proc.devRef .tc main_arg17) = X (Proc.devRef .tc main_arg17) := by
  host_skip

theorem rat5_arg17 (c : Dev nD) :
    R5 m c (Proc.devRef .tc main_arg17) =
      m ((c.tc : Thread nD τ).loc main_arg17) :=
  (skip_C4_arg17 (R4 m c)).trans (rat4_arg17 m c)

theorem skip_C5_arg17 (X : Valuation τ sig (Elt F)) :
    after opsC5 X (Proc.devRef .tc main_arg17) = X (Proc.devRef .tc main_arg17) := by
  host_skip

theorem rat6_arg17 (c : Dev nD) :
    R6 m c (Proc.devRef .tc main_arg17) =
      m ((c.tc : Thread nD τ).loc main_arg17) :=
  (skip_C5_arg17 (R5 m c)).trans (rat5_arg17 m c)

theorem rat7_v293 (c : Dev nD) :
    R7 m c (Proc.devRef .tc main_v293) =
      Host.reduceAdd (mulf (Host.gather gather_S100000x64_S500000x1_S500000x64_1_0_n_n_0_1_164 (Host.divf (rout5 m c) (broadcastInDim S100000x64 ![0, 1] bcast_S100000x1_S100000x64_0_1 (maximumf (Host.sqrt (broadcastInDim S100000x1 ![0] bcast_S100000_S100000x1_0 (Host.reduceAdd (mulf (rout5 m c) (rout5 m c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg16)) (broadcastInDim S500000 ![] bcast_S_S500000 (constantI S_ 32 0#32))) (addi (m ((c.tc : Thread nD τ).loc main_arg16)) (broadcastInDim S500000 ![] bcast_S_S500000 (constantI S_ 32 100000#32))) (m ((c.tc : Thread nD τ).loc main_arg16))))) (Host.gather gather_S50000x64_S500000x1_S500000x64_1_0_n_n_0_1_164 (Host.divf (rout4 m c) (broadcastInDim S50000x64 ![0, 1] bcast_S50000x1_S50000x64_0_1 (maximumf (Host.sqrt (broadcastInDim S50000x1 ![0] bcast_S50000_S50000x1_0 (Host.reduceAdd (mulf (rout4 m c) (rout4 m c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg17)) (broadcastInDim S500000 ![] bcast_S_S500000 (constantI S_ 32 0#32))) (addi (m ((c.tc : Thread nD τ).loc main_arg17)) (broadcastInDim S500000 ![] bcast_S_S500000 (constantI S_ 32 50000#32))) (m ((c.tc : Thread nD τ).loc main_arg17)))))) (constant S_ .f32 0x00000000#32) reducesTo_S500000x64_S500000_d1 h_S_ :=
  comp_C6_v293 (R6 m c) _ _ _ _ (rat6_v251 m c) (rat6_arg16 m c) (rat6_v209 m c) (rat6_arg17 m c)

theorem skip_C1_arg0 (X : Valuation τ sig (Elt F)) :
    after opsC1 X (Proc.devRef .tc main_arg0) = X (Proc.devRef .tc main_arg0) := by
  host_skip

theorem rat2_arg0 (c : Dev nD) :
    R2 m c (Proc.devRef .tc main_arg0) =
      m ((c.tc : Thread nD τ).loc main_arg0) :=
  (skip_C1_arg0 (R1 m c)).trans (rat1_arg0 m c)

theorem skip_C2_arg0 (X : Valuation τ sig (Elt F)) :
    after opsC2 X (Proc.devRef .tc main_arg0) = X (Proc.devRef .tc main_arg0) := by
  host_skip

theorem rat3_arg0 (c : Dev nD) :
    R3 m c (Proc.devRef .tc main_arg0) =
      m ((c.tc : Thread nD τ).loc main_arg0) :=
  (skip_C2_arg0 (R2 m c)).trans (rat2_arg0 m c)

theorem skip_C3_arg0 (X : Valuation τ sig (Elt F)) :
    after opsC3 X (Proc.devRef .tc main_arg0) = X (Proc.devRef .tc main_arg0) := by
  host_skip

theorem rat4_arg0 (c : Dev nD) :
    R4 m c (Proc.devRef .tc main_arg0) =
      m ((c.tc : Thread nD τ).loc main_arg0) :=
  (skip_C3_arg0 (R3 m c)).trans (rat3_arg0 m c)

theorem skip_C4_arg0 (X : Valuation τ sig (Elt F)) :
    after opsC4 X (Proc.devRef .tc main_arg0) = X (Proc.devRef .tc main_arg0) := by
  host_skip

theorem rat5_arg0 (c : Dev nD) :
    R5 m c (Proc.devRef .tc main_arg0) =
      m ((c.tc : Thread nD τ).loc main_arg0) :=
  (skip_C4_arg0 (R4 m c)).trans (rat4_arg0 m c)

theorem skip_C5_arg0 (X : Valuation τ sig (Elt F)) :
    after opsC5 X (Proc.devRef .tc main_arg0) = X (Proc.devRef .tc main_arg0) := by
  host_skip

theorem rat6_arg0 (c : Dev nD) :
    R6 m c (Proc.devRef .tc main_arg0) =
      m ((c.tc : Thread nD τ).loc main_arg0) :=
  (skip_C5_arg0 (R5 m c)).trans (rat5_arg0 m c)

theorem skip_C6_arg0 (X : Valuation τ sig (Elt F)) :
    after opsC6 X (Proc.devRef .tc main_arg0) = X (Proc.devRef .tc main_arg0) := by
  host_skip

theorem rat7_arg0 (c : Dev nD) :
    R7 m c (Proc.devRef .tc main_arg0) =
      m ((c.tc : Thread nD τ).loc main_arg0) :=
  (skip_C6_arg0 (R6 m c)).trans (rat6_arg0 m c)

theorem skip_C1_arg1 (X : Valuation τ sig (Elt F)) :
    after opsC1 X (Proc.devRef .tc main_arg1) = X (Proc.devRef .tc main_arg1) := by
  host_skip

theorem rat2_arg1 (c : Dev nD) :
    R2 m c (Proc.devRef .tc main_arg1) =
      m ((c.tc : Thread nD τ).loc main_arg1) :=
  (skip_C1_arg1 (R1 m c)).trans (rat1_arg1 m c)

theorem skip_C2_arg1 (X : Valuation τ sig (Elt F)) :
    after opsC2 X (Proc.devRef .tc main_arg1) = X (Proc.devRef .tc main_arg1) := by
  host_skip

theorem rat3_arg1 (c : Dev nD) :
    R3 m c (Proc.devRef .tc main_arg1) =
      m ((c.tc : Thread nD τ).loc main_arg1) :=
  (skip_C2_arg1 (R2 m c)).trans (rat2_arg1 m c)

theorem skip_C3_arg1 (X : Valuation τ sig (Elt F)) :
    after opsC3 X (Proc.devRef .tc main_arg1) = X (Proc.devRef .tc main_arg1) := by
  host_skip

theorem rat4_arg1 (c : Dev nD) :
    R4 m c (Proc.devRef .tc main_arg1) =
      m ((c.tc : Thread nD τ).loc main_arg1) :=
  (skip_C3_arg1 (R3 m c)).trans (rat3_arg1 m c)

theorem skip_C4_arg1 (X : Valuation τ sig (Elt F)) :
    after opsC4 X (Proc.devRef .tc main_arg1) = X (Proc.devRef .tc main_arg1) := by
  host_skip

theorem rat5_arg1 (c : Dev nD) :
    R5 m c (Proc.devRef .tc main_arg1) =
      m ((c.tc : Thread nD τ).loc main_arg1) :=
  (skip_C4_arg1 (R4 m c)).trans (rat4_arg1 m c)

theorem skip_C5_arg1 (X : Valuation τ sig (Elt F)) :
    after opsC5 X (Proc.devRef .tc main_arg1) = X (Proc.devRef .tc main_arg1) := by
  host_skip

theorem rat6_arg1 (c : Dev nD) :
    R6 m c (Proc.devRef .tc main_arg1) =
      m ((c.tc : Thread nD τ).loc main_arg1) :=
  (skip_C5_arg1 (R5 m c)).trans (rat5_arg1 m c)

theorem skip_C6_arg1 (X : Valuation τ sig (Elt F)) :
    after opsC6 X (Proc.devRef .tc main_arg1) = X (Proc.devRef .tc main_arg1) := by
  host_skip

theorem rat7_arg1 (c : Dev nD) :
    R7 m c (Proc.devRef .tc main_arg1) =
      m ((c.tc : Thread nD τ).loc main_arg1) :=
  (skip_C6_arg1 (R6 m c)).trans (rat6_arg1 m c)

theorem skip_C3_arg2 (X : Valuation τ sig (Elt F)) :
    after opsC3 X (Proc.devRef .tc main_arg2) = X (Proc.devRef .tc main_arg2) := by
  host_skip

theorem rat4_arg2 (c : Dev nD) :
    R4 m c (Proc.devRef .tc main_arg2) =
      m ((c.tc : Thread nD τ).loc main_arg2) :=
  (skip_C3_arg2 (R3 m c)).trans (rat3_arg2 m c)

theorem skip_C4_arg2 (X : Valuation τ sig (Elt F)) :
    after opsC4 X (Proc.devRef .tc main_arg2) = X (Proc.devRef .tc main_arg2) := by
  host_skip

theorem rat5_arg2 (c : Dev nD) :
    R5 m c (Proc.devRef .tc main_arg2) =
      m ((c.tc : Thread nD τ).loc main_arg2) :=
  (skip_C4_arg2 (R4 m c)).trans (rat4_arg2 m c)

theorem skip_C5_arg2 (X : Valuation τ sig (Elt F)) :
    after opsC5 X (Proc.devRef .tc main_arg2) = X (Proc.devRef .tc main_arg2) := by
  host_skip

theorem rat6_arg2 (c : Dev nD) :
    R6 m c (Proc.devRef .tc main_arg2) =
      m ((c.tc : Thread nD τ).loc main_arg2) :=
  (skip_C5_arg2 (R5 m c)).trans (rat5_arg2 m c)

theorem skip_C6_arg2 (X : Valuation τ sig (Elt F)) :
    after opsC6 X (Proc.devRef .tc main_arg2) = X (Proc.devRef .tc main_arg2) := by
  host_skip

theorem rat7_arg2 (c : Dev nD) :
    R7 m c (Proc.devRef .tc main_arg2) =
      m ((c.tc : Thread nD τ).loc main_arg2) :=
  (skip_C6_arg2 (R6 m c)).trans (rat6_arg2 m c)

theorem skip_C3_arg3 (X : Valuation τ sig (Elt F)) :
    after opsC3 X (Proc.devRef .tc main_arg3) = X (Proc.devRef .tc main_arg3) := by
  host_skip

theorem rat4_arg3 (c : Dev nD) :
    R4 m c (Proc.devRef .tc main_arg3) =
      m ((c.tc : Thread nD τ).loc main_arg3) :=
  (skip_C3_arg3 (R3 m c)).trans (rat3_arg3 m c)

theorem skip_C4_arg3 (X : Valuation τ sig (Elt F)) :
    after opsC4 X (Proc.devRef .tc main_arg3) = X (Proc.devRef .tc main_arg3) := by
  host_skip

theorem rat5_arg3 (c : Dev nD) :
    R5 m c (Proc.devRef .tc main_arg3) =
      m ((c.tc : Thread nD τ).loc main_arg3) :=
  (skip_C4_arg3 (R4 m c)).trans (rat4_arg3 m c)

theorem skip_C5_arg3 (X : Valuation τ sig (Elt F)) :
    after opsC5 X (Proc.devRef .tc main_arg3) = X (Proc.devRef .tc main_arg3) := by
  host_skip

theorem rat6_arg3 (c : Dev nD) :
    R6 m c (Proc.devRef .tc main_arg3) =
      m ((c.tc : Thread nD τ).loc main_arg3) :=
  (skip_C5_arg3 (R5 m c)).trans (rat5_arg3 m c)

theorem skip_C6_arg3 (X : Valuation τ sig (Elt F)) :
    after opsC6 X (Proc.devRef .tc main_arg3) = X (Proc.devRef .tc main_arg3) := by
  host_skip

theorem rat7_arg3 (c : Dev nD) :
    R7 m c (Proc.devRef .tc main_arg3) =
      m ((c.tc : Thread nD τ).loc main_arg3) :=
  (skip_C6_arg3 (R6 m c)).trans (rat6_arg3 m c)

theorem skip_C3_arg4 (X : Valuation τ sig (Elt F)) :
    after opsC3 X (Proc.devRef .tc main_arg4) = X (Proc.devRef .tc main_arg4) := by
  host_skip

theorem rat4_arg4 (c : Dev nD) :
    R4 m c (Proc.devRef .tc main_arg4) =
      m ((c.tc : Thread nD τ).loc main_arg4) :=
  (skip_C3_arg4 (R3 m c)).trans (rat3_arg4 m c)

theorem skip_C4_arg4 (X : Valuation τ sig (Elt F)) :
    after opsC4 X (Proc.devRef .tc main_arg4) = X (Proc.devRef .tc main_arg4) := by
  host_skip

theorem rat5_arg4 (c : Dev nD) :
    R5 m c (Proc.devRef .tc main_arg4) =
      m ((c.tc : Thread nD τ).loc main_arg4) :=
  (skip_C4_arg4 (R4 m c)).trans (rat4_arg4 m c)

theorem skip_C5_arg4 (X : Valuation τ sig (Elt F)) :
    after opsC5 X (Proc.devRef .tc main_arg4) = X (Proc.devRef .tc main_arg4) := by
  host_skip

theorem rat6_arg4 (c : Dev nD) :
    R6 m c (Proc.devRef .tc main_arg4) =
      m ((c.tc : Thread nD τ).loc main_arg4) :=
  (skip_C5_arg4 (R5 m c)).trans (rat5_arg4 m c)

theorem skip_C6_arg4 (X : Valuation τ sig (Elt F)) :
    after opsC6 X (Proc.devRef .tc main_arg4) = X (Proc.devRef .tc main_arg4) := by
  host_skip

theorem rat7_arg4 (c : Dev nD) :
    R7 m c (Proc.devRef .tc main_arg4) =
      m ((c.tc : Thread nD τ).loc main_arg4) :=
  (skip_C6_arg4 (R6 m c)).trans (rat6_arg4 m c)

theorem skip_C3_arg5 (X : Valuation τ sig (Elt F)) :
    after opsC3 X (Proc.devRef .tc main_arg5) = X (Proc.devRef .tc main_arg5) := by
  host_skip

theorem rat4_arg5 (c : Dev nD) :
    R4 m c (Proc.devRef .tc main_arg5) =
      m ((c.tc : Thread nD τ).loc main_arg5) :=
  (skip_C3_arg5 (R3 m c)).trans (rat3_arg5 m c)

theorem skip_C4_arg5 (X : Valuation τ sig (Elt F)) :
    after opsC4 X (Proc.devRef .tc main_arg5) = X (Proc.devRef .tc main_arg5) := by
  host_skip

theorem rat5_arg5 (c : Dev nD) :
    R5 m c (Proc.devRef .tc main_arg5) =
      m ((c.tc : Thread nD τ).loc main_arg5) :=
  (skip_C4_arg5 (R4 m c)).trans (rat4_arg5 m c)

theorem skip_C5_arg5 (X : Valuation τ sig (Elt F)) :
    after opsC5 X (Proc.devRef .tc main_arg5) = X (Proc.devRef .tc main_arg5) := by
  host_skip

theorem rat6_arg5 (c : Dev nD) :
    R6 m c (Proc.devRef .tc main_arg5) =
      m ((c.tc : Thread nD τ).loc main_arg5) :=
  (skip_C5_arg5 (R5 m c)).trans (rat5_arg5 m c)

theorem skip_C6_arg5 (X : Valuation τ sig (Elt F)) :
    after opsC6 X (Proc.devRef .tc main_arg5) = X (Proc.devRef .tc main_arg5) := by
  host_skip

theorem rat7_arg5 (c : Dev nD) :
    R7 m c (Proc.devRef .tc main_arg5) =
      m ((c.tc : Thread nD τ).loc main_arg5) :=
  (skip_C6_arg5 (R6 m c)).trans (rat6_arg5 m c)

theorem skip_C5_arg6 (X : Valuation τ sig (Elt F)) :
    after opsC5 X (Proc.devRef .tc main_arg6) = X (Proc.devRef .tc main_arg6) := by
  host_skip

theorem rat6_arg6 (c : Dev nD) :
    R6 m c (Proc.devRef .tc main_arg6) =
      m ((c.tc : Thread nD τ).loc main_arg6) :=
  (skip_C5_arg6 (R5 m c)).trans (rat5_arg6 m c)

theorem skip_C6_arg6 (X : Valuation τ sig (Elt F)) :
    after opsC6 X (Proc.devRef .tc main_arg6) = X (Proc.devRef .tc main_arg6) := by
  host_skip

theorem rat7_arg6 (c : Dev nD) :
    R7 m c (Proc.devRef .tc main_arg6) =
      m ((c.tc : Thread nD τ).loc main_arg6) :=
  (skip_C6_arg6 (R6 m c)).trans (rat6_arg6 m c)

theorem skip_C5_arg7 (X : Valuation τ sig (Elt F)) :
    after opsC5 X (Proc.devRef .tc main_arg7) = X (Proc.devRef .tc main_arg7) := by
  host_skip

theorem rat6_arg7 (c : Dev nD) :
    R6 m c (Proc.devRef .tc main_arg7) =
      m ((c.tc : Thread nD τ).loc main_arg7) :=
  (skip_C5_arg7 (R5 m c)).trans (rat5_arg7 m c)

theorem skip_C6_arg7 (X : Valuation τ sig (Elt F)) :
    after opsC6 X (Proc.devRef .tc main_arg7) = X (Proc.devRef .tc main_arg7) := by
  host_skip

theorem rat7_arg7 (c : Dev nD) :
    R7 m c (Proc.devRef .tc main_arg7) =
      m ((c.tc : Thread nD τ).loc main_arg7) :=
  (skip_C6_arg7 (R6 m c)).trans (rat6_arg7 m c)

theorem skip_C5_arg8 (X : Valuation τ sig (Elt F)) :
    after opsC5 X (Proc.devRef .tc main_arg8) = X (Proc.devRef .tc main_arg8) := by
  host_skip

theorem rat6_arg8 (c : Dev nD) :
    R6 m c (Proc.devRef .tc main_arg8) =
      m ((c.tc : Thread nD τ).loc main_arg8) :=
  (skip_C5_arg8 (R5 m c)).trans (rat5_arg8 m c)

theorem skip_C6_arg8 (X : Valuation τ sig (Elt F)) :
    after opsC6 X (Proc.devRef .tc main_arg8) = X (Proc.devRef .tc main_arg8) := by
  host_skip

theorem rat7_arg8 (c : Dev nD) :
    R7 m c (Proc.devRef .tc main_arg8) =
      m ((c.tc : Thread nD τ).loc main_arg8) :=
  (skip_C6_arg8 (R6 m c)).trans (rat6_arg8 m c)

theorem skip_C5_arg9 (X : Valuation τ sig (Elt F)) :
    after opsC5 X (Proc.devRef .tc main_arg9) = X (Proc.devRef .tc main_arg9) := by
  host_skip

theorem rat6_arg9 (c : Dev nD) :
    R6 m c (Proc.devRef .tc main_arg9) =
      m ((c.tc : Thread nD τ).loc main_arg9) :=
  (skip_C5_arg9 (R5 m c)).trans (rat5_arg9 m c)

theorem skip_C6_arg9 (X : Valuation τ sig (Elt F)) :
    after opsC6 X (Proc.devRef .tc main_arg9) = X (Proc.devRef .tc main_arg9) := by
  host_skip

theorem rat7_arg9 (c : Dev nD) :
    R7 m c (Proc.devRef .tc main_arg9) =
      m ((c.tc : Thread nD τ).loc main_arg9) :=
  (skip_C6_arg9 (R6 m c)).trans (rat6_arg9 m c)

theorem skip_C4_arg10 (X : Valuation τ sig (Elt F)) :
    after opsC4 X (Proc.devRef .tc main_arg10) = X (Proc.devRef .tc main_arg10) := by
  host_skip

theorem rat5_arg10 (c : Dev nD) :
    R5 m c (Proc.devRef .tc main_arg10) =
      m ((c.tc : Thread nD τ).loc main_arg10) :=
  (skip_C4_arg10 (R4 m c)).trans (rat4_arg10 m c)

theorem skip_C5_arg10 (X : Valuation τ sig (Elt F)) :
    after opsC5 X (Proc.devRef .tc main_arg10) = X (Proc.devRef .tc main_arg10) := by
  host_skip

theorem rat6_arg10 (c : Dev nD) :
    R6 m c (Proc.devRef .tc main_arg10) =
      m ((c.tc : Thread nD τ).loc main_arg10) :=
  (skip_C5_arg10 (R5 m c)).trans (rat5_arg10 m c)

theorem skip_C6_arg10 (X : Valuation τ sig (Elt F)) :
    after opsC6 X (Proc.devRef .tc main_arg10) = X (Proc.devRef .tc main_arg10) := by
  host_skip

theorem rat7_arg10 (c : Dev nD) :
    R7 m c (Proc.devRef .tc main_arg10) =
      m ((c.tc : Thread nD τ).loc main_arg10) :=
  (skip_C6_arg10 (R6 m c)).trans (rat6_arg10 m c)

theorem skip_C4_arg11 (X : Valuation τ sig (Elt F)) :
    after opsC4 X (Proc.devRef .tc main_arg11) = X (Proc.devRef .tc main_arg11) := by
  host_skip

theorem rat5_arg11 (c : Dev nD) :
    R5 m c (Proc.devRef .tc main_arg11) =
      m ((c.tc : Thread nD τ).loc main_arg11) :=
  (skip_C4_arg11 (R4 m c)).trans (rat4_arg11 m c)

theorem skip_C5_arg11 (X : Valuation τ sig (Elt F)) :
    after opsC5 X (Proc.devRef .tc main_arg11) = X (Proc.devRef .tc main_arg11) := by
  host_skip

theorem rat6_arg11 (c : Dev nD) :
    R6 m c (Proc.devRef .tc main_arg11) =
      m ((c.tc : Thread nD τ).loc main_arg11) :=
  (skip_C5_arg11 (R5 m c)).trans (rat5_arg11 m c)

theorem skip_C6_arg11 (X : Valuation τ sig (Elt F)) :
    after opsC6 X (Proc.devRef .tc main_arg11) = X (Proc.devRef .tc main_arg11) := by
  host_skip

theorem rat7_arg11 (c : Dev nD) :
    R7 m c (Proc.devRef .tc main_arg11) =
      m ((c.tc : Thread nD τ).loc main_arg11) :=
  (skip_C6_arg11 (R6 m c)).trans (rat6_arg11 m c)

theorem skip_C5_arg12 (X : Valuation τ sig (Elt F)) :
    after opsC5 X (Proc.devRef .tc main_arg12) = X (Proc.devRef .tc main_arg12) := by
  host_skip

theorem rat6_arg12 (c : Dev nD) :
    R6 m c (Proc.devRef .tc main_arg12) =
      m ((c.tc : Thread nD τ).loc main_arg12) :=
  (skip_C5_arg12 (R5 m c)).trans (rat5_arg12 m c)

theorem skip_C6_arg12 (X : Valuation τ sig (Elt F)) :
    after opsC6 X (Proc.devRef .tc main_arg12) = X (Proc.devRef .tc main_arg12) := by
  host_skip

theorem rat7_arg12 (c : Dev nD) :
    R7 m c (Proc.devRef .tc main_arg12) =
      m ((c.tc : Thread nD τ).loc main_arg12) :=
  (skip_C6_arg12 (R6 m c)).trans (rat6_arg12 m c)

theorem skip_C5_arg13 (X : Valuation τ sig (Elt F)) :
    after opsC5 X (Proc.devRef .tc main_arg13) = X (Proc.devRef .tc main_arg13) := by
  host_skip

theorem rat6_arg13 (c : Dev nD) :
    R6 m c (Proc.devRef .tc main_arg13) =
      m ((c.tc : Thread nD τ).loc main_arg13) :=
  (skip_C5_arg13 (R5 m c)).trans (rat5_arg13 m c)

theorem skip_C6_arg13 (X : Valuation τ sig (Elt F)) :
    after opsC6 X (Proc.devRef .tc main_arg13) = X (Proc.devRef .tc main_arg13) := by
  host_skip

theorem rat7_arg13 (c : Dev nD) :
    R7 m c (Proc.devRef .tc main_arg13) =
      m ((c.tc : Thread nD τ).loc main_arg13) :=
  (skip_C6_arg13 (R6 m c)).trans (rat6_arg13 m c)

theorem skip_C6_arg14 (X : Valuation τ sig (Elt F)) :
    after opsC6 X (Proc.devRef .tc main_arg14) = X (Proc.devRef .tc main_arg14) := by
  host_skip

theorem rat7_arg14 (c : Dev nD) :
    R7 m c (Proc.devRef .tc main_arg14) =
      m ((c.tc : Thread nD τ).loc main_arg14) :=
  (skip_C6_arg14 (R6 m c)).trans (rat6_arg14 m c)

theorem skip_C6_arg15 (X : Valuation τ sig (Elt F)) :
    after opsC6 X (Proc.devRef .tc main_arg15) = X (Proc.devRef .tc main_arg15) := by
  host_skip

theorem rat7_arg15 (c : Dev nD) :
    R7 m c (Proc.devRef .tc main_arg15) =
      m ((c.tc : Thread nD τ).loc main_arg15) :=
  (skip_C6_arg15 (R6 m c)).trans (rat6_arg15 m c)

theorem skip_C6_arg16 (X : Valuation τ sig (Elt F)) :
    after opsC6 X (Proc.devRef .tc main_arg16) = X (Proc.devRef .tc main_arg16) := by
  host_skip

theorem rat7_arg16 (c : Dev nD) :
    R7 m c (Proc.devRef .tc main_arg16) =
      m ((c.tc : Thread nD τ).loc main_arg16) :=
  (skip_C6_arg16 (R6 m c)).trans (rat6_arg16 m c)

theorem skip_C6_arg17 (X : Valuation τ sig (Elt F)) :
    after opsC6 X (Proc.devRef .tc main_arg17) = X (Proc.devRef .tc main_arg17) := by
  host_skip

theorem rat7_arg17 (c : Dev nD) :
    R7 m c (Proc.devRef .tc main_arg17) =
      m ((c.tc : Thread nD τ).loc main_arg17) :=
  (skip_C6_arg17 (R6 m c)).trans (rat6_arg17 m c)

/-! ## The results -/

/-- The users' features the program returns. -/
theorem ref_v251 (c : Dev nD) : after ops (launchContents m c) (Proc.devRef .tc main_v251) = rout5 m c :=
  (congrFun (after_ops m c) _).trans (rat7_v251 m c)
/-- The items' features the program returns. -/
theorem ref_v209 (c : Dev nD) : after ops (launchContents m c) (Proc.devRef .tc main_v209) = rout4 m c :=
  (congrFun (after_ops m c) _).trans (rat7_v209 m c)
/-- The scores of the positive pairs. -/
theorem ref_v277 (c : Dev nD) : after ops (launchContents m c) (Proc.devRef .tc main_v277) =
      Host.reduceAdd (mulf (Host.gather gather_S100000x64_S500000x1_S500000x64_1_0_n_n_0_1_164 (Host.divf (rout5 m c) (broadcastInDim S100000x64 ![0, 1] bcast_S100000x1_S100000x64_0_1 (maximumf (Host.sqrt (broadcastInDim S100000x1 ![0] bcast_S100000_S100000x1_0 (Host.reduceAdd (mulf (rout5 m c) (rout5 m c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg14)) (broadcastInDim S500000 ![] bcast_S_S500000 (constantI S_ 32 0#32))) (addi (m ((c.tc : Thread nD τ).loc main_arg14)) (broadcastInDim S500000 ![] bcast_S_S500000 (constantI S_ 32 100000#32))) (m ((c.tc : Thread nD τ).loc main_arg14))))) (Host.gather gather_S50000x64_S500000x1_S500000x64_1_0_n_n_0_1_164 (Host.divf (rout4 m c) (broadcastInDim S50000x64 ![0, 1] bcast_S50000x1_S50000x64_0_1 (maximumf (Host.sqrt (broadcastInDim S50000x1 ![0] bcast_S50000_S50000x1_0 (Host.reduceAdd (mulf (rout4 m c) (rout4 m c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg15)) (broadcastInDim S500000 ![] bcast_S_S500000 (constantI S_ 32 0#32))) (addi (m ((c.tc : Thread nD τ).loc main_arg15)) (broadcastInDim S500000 ![] bcast_S_S500000 (constantI S_ 32 50000#32))) (m ((c.tc : Thread nD τ).loc main_arg15)))))) (constant S_ .f32 0x00000000#32) reducesTo_S500000x64_S500000_d1 h_S_ :=
  (congrFun (after_ops m c) _).trans (rat7_v277 m c)
/-- The scores of the negative pairs. -/
theorem ref_v293 (c : Dev nD) : after ops (launchContents m c) (Proc.devRef .tc main_v293) =
      Host.reduceAdd (mulf (Host.gather gather_S100000x64_S500000x1_S500000x64_1_0_n_n_0_1_164 (Host.divf (rout5 m c) (broadcastInDim S100000x64 ![0, 1] bcast_S100000x1_S100000x64_0_1 (maximumf (Host.sqrt (broadcastInDim S100000x1 ![0] bcast_S100000_S100000x1_0 (Host.reduceAdd (mulf (rout5 m c) (rout5 m c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg16)) (broadcastInDim S500000 ![] bcast_S_S500000 (constantI S_ 32 0#32))) (addi (m ((c.tc : Thread nD τ).loc main_arg16)) (broadcastInDim S500000 ![] bcast_S_S500000 (constantI S_ 32 100000#32))) (m ((c.tc : Thread nD τ).loc main_arg16))))) (Host.gather gather_S50000x64_S500000x1_S500000x64_1_0_n_n_0_1_164 (Host.divf (rout4 m c) (broadcastInDim S50000x64 ![0, 1] bcast_S50000x1_S50000x64_0_1 (maximumf (Host.sqrt (broadcastInDim S50000x1 ![0] bcast_S50000_S50000x1_0 (Host.reduceAdd (mulf (rout4 m c) (rout4 m c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg17)) (broadcastInDim S500000 ![] bcast_S_S500000 (constantI S_ 32 0#32))) (addi (m ((c.tc : Thread nD τ).loc main_arg17)) (broadcastInDim S500000 ![] bcast_S_S500000 (constantI S_ 32 50000#32))) (m ((c.tc : Thread nD τ).loc main_arg17)))))) (constant S_ .f32 0x00000000#32) reducesTo_S500000x64_S500000_d1 h_S_ :=
  (congrFun (after_ops m c) _).trans (rat7_v293 m c)

/-- Every weakly fair execution of the reference terminates without a fault; its four results are the last layer's two
    feature tables and the two score rows, at the terms above, and the arguments end as launched. -/
theorem ref_values (ρ : Dev nD → PrngReg) : θ_run defs (onTc (τ := τ) (main (F := F))) ⟨m, fun _ => 0, ρ⟩ (fun r => ∀ c : Dev nD,
      r.2.mem ((c.tc : Thread nD τ).loc main_v251) = rout5 m c
      ∧ r.2.mem ((c.tc : Thread nD τ).loc main_v209) = rout4 m c
      ∧ r.2.mem ((c.tc : Thread nD τ).loc main_v277) =
          Host.reduceAdd (mulf (Host.gather gather_S100000x64_S500000x1_S500000x64_1_0_n_n_0_1_164 (Host.divf (rout5 m c) (broadcastInDim S100000x64 ![0, 1] bcast_S100000x1_S100000x64_0_1 (maximumf (Host.sqrt (broadcastInDim S100000x1 ![0] bcast_S100000_S100000x1_0 (Host.reduceAdd (mulf (rout5 m c) (rout5 m c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg14)) (broadcastInDim S500000 ![] bcast_S_S500000 (constantI S_ 32 0#32))) (addi (m ((c.tc : Thread nD τ).loc main_arg14)) (broadcastInDim S500000 ![] bcast_S_S500000 (constantI S_ 32 100000#32))) (m ((c.tc : Thread nD τ).loc main_arg14))))) (Host.gather gather_S50000x64_S500000x1_S500000x64_1_0_n_n_0_1_164 (Host.divf (rout4 m c) (broadcastInDim S50000x64 ![0, 1] bcast_S50000x1_S50000x64_0_1 (maximumf (Host.sqrt (broadcastInDim S50000x1 ![0] bcast_S50000_S50000x1_0 (Host.reduceAdd (mulf (rout4 m c) (rout4 m c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg15)) (broadcastInDim S500000 ![] bcast_S_S500000 (constantI S_ 32 0#32))) (addi (m ((c.tc : Thread nD τ).loc main_arg15)) (broadcastInDim S500000 ![] bcast_S_S500000 (constantI S_ 32 50000#32))) (m ((c.tc : Thread nD τ).loc main_arg15)))))) (constant S_ .f32 0x00000000#32) reducesTo_S500000x64_S500000_d1 h_S_
      ∧ r.2.mem ((c.tc : Thread nD τ).loc main_v293) =
          Host.reduceAdd (mulf (Host.gather gather_S100000x64_S500000x1_S500000x64_1_0_n_n_0_1_164 (Host.divf (rout5 m c) (broadcastInDim S100000x64 ![0, 1] bcast_S100000x1_S100000x64_0_1 (maximumf (Host.sqrt (broadcastInDim S100000x1 ![0] bcast_S100000_S100000x1_0 (Host.reduceAdd (mulf (rout5 m c) (rout5 m c)) (constant S_ .f32 0x00000000#32) reducesTo_S100000x64_S100000_d1 h_S_))) (broadcastInDim S100000x1 ![] bcast_S_S100000x1 (constant S_ .f32 0x2B8CBCCC#32))))) (broadcastInDim S500000x1 ![0] bcast_S500000_S500000x1_0 (select (cmpi .slt (m ((c.tc : Thread nD τ).loc main_arg16)) (broadcastInDim S500000 ![] bcast_S_S500000 (constantI S_ 32 0#32))) (addi (m ((c.tc : Thread nD τ).loc main_arg16)) (broadcastInDim S500000 ![] bcast_S_S500000 (constantI S_ 32 100000#32))) (m ((c.tc : Thread nD τ).loc main_arg16))))) (Host.gather gather_S50000x64_S500000x1_S500000x64_1_0_n_n_0_1_164 (Host.divf (rout4 m c) (broadcastInDim S50000x64 ![0, 1] bcast_S50000x1_S50000x64_0_1 (maximumf (Host.sqrt (broadcastInDim S50000x1 ![0] bcast_S50000_S50000x1_0 (Host.reduceAdd (mulf (rout4 m c) (rout4 m c)) (constant S_ .f32 0x00000000#32) reducesTo_S50000x64_S50000_d1 h_S_))) (broadcastInDim S50000x1 ![] bcast_S_S50000x1 (constant S_ .f32 0x2B8CBCCC#32))))) (broadcastInDim S500000x1 ![0] bcast_S500000_S500000x1_0 (select (cmpi .slt (m ((c.tc : Thread nD τ).loc main_arg17)) (broadcastInDim S500000 ![] bcast_S_S500000 (constantI S_ 32 0#32))) (addi (m ((c.tc : Thread nD τ).loc main_arg17)) (broadcastInDim S500000 ![] bcast_S_S500000 (constantI S_ 32 50000#32))) (m ((c.tc : Thread nD τ).loc main_arg17)))))) (constant S_ .f32 0x00000000#32) reducesTo_S500000x64_S500000_d1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c main_v251).trans (ref_v251 m c), (h c main_v209).trans (ref_v209 m c),
     (h c main_v277).trans (ref_v277 m c), (h c main_v293).trans (ref_v293 m c),
     (h c main_arg0).trans ((congrFun (after_ops m c) _).trans (rat7_arg0 m c)),
     (h c main_arg1).trans ((congrFun (after_ops m c) _).trans (rat7_arg1 m c)),
     (h c main_arg2).trans ((congrFun (after_ops m c) _).trans (rat7_arg2 m c)),
     (h c main_arg3).trans ((congrFun (after_ops m c) _).trans (rat7_arg3 m c)),
     (h c main_arg4).trans ((congrFun (after_ops m c) _).trans (rat7_arg4 m c)),
     (h c main_arg5).trans ((congrFun (after_ops m c) _).trans (rat7_arg5 m c)),
     (h c main_arg6).trans ((congrFun (after_ops m c) _).trans (rat7_arg6 m c)),
     (h c main_arg7).trans ((congrFun (after_ops m c) _).trans (rat7_arg7 m c)),
     (h c main_arg8).trans ((congrFun (after_ops m c) _).trans (rat7_arg8 m c)),
     (h c main_arg9).trans ((congrFun (after_ops m c) _).trans (rat7_arg9 m c)),
     (h c main_arg10).trans ((congrFun (after_ops m c) _).trans (rat7_arg10 m c)),
     (h c main_arg11).trans ((congrFun (after_ops m c) _).trans (rat7_arg11 m c)),
     (h c main_arg12).trans ((congrFun (after_ops m c) _).trans (rat7_arg12 m c)),
     (h c main_arg13).trans ((congrFun (after_ops m c) _).trans (rat7_arg13 m c)),
     (h c main_arg14).trans ((congrFun (after_ops m c) _).trans (rat7_arg14 m c)),
     (h c main_arg15).trans ((congrFun (after_ops m c) _).trans (rat7_arg15 m c)),
     (h c main_arg16).trans ((congrFun (after_ops m c) _).trans (rat7_arg16 m c)),
     (h c main_arg17).trans ((congrFun (after_ops m c) _).trans (rat7_arg17 m c))⟩)
    (run_after m ρ)

end Cert.ReferenceIdeal.RefRun

end
-- ==== Proof.RefValue.lean ====
/- The reference program computes the specification: its six feature tables are the three rounds of the
   specification's message passing, and its two score rows are the specification's scores of the positive and of the
   negative pairs, all as functions of the eighteen argument arrays as launched.

   Each step is a reading, not a computation: the term a chunk of the program leaves in a feature table is, symbol for
   symbol, the specification's definition of that round with its small named parts (the mean aggregation, one combine
   step) written out, once the tables of the round before are named by the specification's own terms. -/
import proofs.«153211_j15264313770095_1_alg».proof.Proof.RefChain
import proofs.«153211_j15264313770095_1_alg».proof.Proof.Spec

set_option maxRecDepth 16384

noncomputable section

namespace Cert.ReferenceIdeal.RefValue

open Cert.ReferenceIdeal Cert.ReferenceIdeal.Gen Cert.ReferenceIdeal.RefRun Cert.ReferenceIdeal.RefConv
open Idealize.ShloMosaic Idealize.ShloMosaic.TcCoe Idealize.SL.Sem Idealize.ShloMosaic.StableHlo

variable (m : (ℓ : Loc nD τ sig) → Buf (Elt Ideal) ℓ)

/-- The eighteen argument arrays as launched on device `c`, in the program's order. -/
def rArgs (c : Dev nD) : Spec.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17)⟩

/-- Combine step 0 leaves the items' table after round one. -/
theorem rout0_spec (c : Dev nD) : rout0 (F := Ideal) m c = Spec.hi1 (rArgs m c) := by
  rw [rout0_eq]
  unfold Spec.hi1 Spec.aggI convRef_50000_128 actRef_50000_128
  rfl

/-- Combine step 1 leaves the users' table after round one. -/
theorem rout1_spec (c : Dev nD) : rout1 (F := Ideal) m c = Spec.hu1 (rArgs m c) := by
  rw [rout1_eq]
  unfold Spec.hu1 Spec.aggU convRef_100000_128 actRef_100000_128
  rfl

/-- Combine step 2 leaves the items' table after round two. -/
theorem rout2_spec (c : Dev nD) : rout2 (F := Ideal) m c = Spec.hi2 (rArgs m c) := by
  rw [rout2_eq, rout1_spec, rout0_spec]
  unfold Spec.hi2 Spec.aggI convRef_50000_128 actRef_50000_128
  rfl

/-- Combine step 3 leaves the users' table after round two. -/
theorem rout3_spec (c : Dev nD) : rout3 (F := Ideal) m c = Spec.hu2 (rArgs m c) := by
  rw [rout3_eq, rout0_spec, rout1_spec]
  unfold Spec.hu2 Spec.aggU convRef_100000_128 actRef_100000_128
  rfl

/-- Combine step 4 leaves the items' table after round three. -/
theorem rout4_spec (c : Dev nD) : rout4 (F := Ideal) m c = Spec.hi3 (rArgs m c) := by
  rw [rout4_eq, rout3_spec, rout2_spec]
  unfold Spec.hi3 Spec.aggI convRef_50000_64 actRef_50000_64
  rfl

/-- Combine step 5 leaves the users' table after round three. -/
theorem rout5_spec (c : Dev nD) : rout5 (F := Ideal) m c = Spec.hu3 (rArgs m c) := by
  rw [rout5_eq, rout2_spec, rout3_spec]
  unfold Spec.hu3 Spec.aggU convRef_100000_64 actRef_100000_64
  rfl

/-- The positive pairs' scores. -/
theorem v277_spec (c : Dev nD) :
    after ops (launchContents m c) (Proc.devRef .tc main_v277) = Spec.pos (rArgs m c) := by
  rw [ref_v277, rout5_spec, rout4_spec]
  unfold Spec.pos Spec.score Spec.rowsU Spec.rowsI Spec.l2nU Spec.l2nI
  rfl

/-- The negative pairs' scores. -/
theorem v293_spec (c : Dev nD) :
    after ops (launchContents m c) (Proc.devRef .tc main_v293) = Spec.neg (rArgs m c) := by
  rw [ref_v293, rout5_spec, rout4_spec]
  unfold Spec.neg Spec.score Spec.rowsU Spec.rowsI Spec.l2nU Spec.l2nI
  rfl

/-- Every weakly fair execution of the reference terminates without a fault; it returns the specification's two tables
    of round three and its two score rows, and leaves the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v251) = Spec.hu3 (rArgs m c)
      ∧ r.2.mem ((c.tc : Thread nD τ).loc main_v209) = Spec.hi3 (rArgs m c)
      ∧ r.2.mem ((c.tc : Thread nD τ).loc main_v277) = Spec.pos (rArgs m c)
      ∧ r.2.mem ((c.tc : Thread nD τ).loc main_v293) = Spec.neg (rArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c main_v251).trans ((ref_v251 m c).trans (rout5_spec m c)),
     (h c main_v209).trans ((ref_v209 m c).trans (rout4_spec m c)),
     (h c main_v277).trans (v277_spec m c),
     (h c main_v293).trans (v293_spec m c),
     (h c main_arg0).trans ((congrFun (after_ops m c) _).trans (rat7_arg0 m c)),
     (h c main_arg1).trans ((congrFun (after_ops m c) _).trans (rat7_arg1 m c)),
     (h c main_arg2).trans ((congrFun (after_ops m c) _).trans (rat7_arg2 m c)),
     (h c main_arg3).trans ((congrFun (after_ops m c) _).trans (rat7_arg3 m c)),
     (h c main_arg4).trans ((congrFun (after_ops m c) _).trans (rat7_arg4 m c)),
     (h c main_arg5).trans ((congrFun (after_ops m c) _).trans (rat7_arg5 m c)),
     (h c main_arg6).trans ((congrFun (after_ops m c) _).trans (rat7_arg6 m c)),
     (h c main_arg7).trans ((congrFun (after_ops m c) _).trans (rat7_arg7 m c)),
     (h c main_arg8).trans ((congrFun (after_ops m c) _).trans (rat7_arg8 m c)),
     (h c main_arg9).trans ((congrFun (after_ops m c) _).trans (rat7_arg9 m c)),
     (h c main_arg10).trans ((congrFun (after_ops m c) _).trans (rat7_arg10 m c)),
     (h c main_arg11).trans ((congrFun (after_ops m c) _).trans (rat7_arg11 m c)),
     (h c main_arg12).trans ((congrFun (after_ops m c) _).trans (rat7_arg12 m c)),
     (h c main_arg13).trans ((congrFun (after_ops m c) _).trans (rat7_arg13 m c)),
     (h c main_arg14).trans ((congrFun (after_ops m c) _).trans (rat7_arg14 m c)),
     (h c main_arg15).trans ((congrFun (after_ops m c) _).trans (rat7_arg15 m c)),
     (h c main_arg16).trans ((congrFun (after_ops m c) _).trans (rat7_arg16 m c)),
     (h c main_arg17).trans ((congrFun (after_ops m c) _).trans (rat7_arg17 m c))⟩)
    (run_after m ρ)

end Cert.ReferenceIdeal.RefValue

end
-- ==== Proof.lean ====
/-
  A heterogeneous graph network (users and items, three rounds of mean aggregation along the edges followed by a
  linear step, a clamp at zero and a row normalisation; then cosine scores of candidate pairs) computed two ways: by a
  program that runs each linear step as a row-blocked accelerator kernel and scores all candidate pairs in one stacked
  kernel, and by a plain array program.

  At the exact instance (floats are extended reals, every operation exact, a change of float format the identity) the
  two compute the same arrays, and nothing but the shape of the computation is needed to see it:
  * a linear step's output row depends only on the same row of its two feature tables, so the 5000-row blocks a kernel
    writes are the corresponding rows of the whole-array result, and the blocks tile the table;
  * the matrix products are the same sums over the 128 shared coordinates, the two biases are added in the same order,
    and the row norm is the same sum of squares, clamped by the same ε;
  * the mean aggregation between the steps is one function of a table and two edge lists in both programs, carried
    along unopened;
  * the stacked score kernel's row dot products, cut at row 500000, are the positive and the negative scores.
  So both runs end with the four results at `Spec` of the arguments: no algebraic law of the extended reals is
  needed, and the finiteness of the inputs is never opened. The idealization rewrote no
  operation of the kernel program, so it sanctions itself.
-/
import proofs.«153211_j15264313770095_1_alg».proof.Defs
import proofs.«153211_j15264313770095_1_alg».proof.Proof.Gen.Kernel
import proofs.«153211_j15264313770095_1_alg».proof.Proof.Gen.Kernel.Skeleton
import proofs.«153211_j15264313770095_1_alg».proof.Proof.Gen.Kernel.Launch
import proofs.«153211_j15264313770095_1_alg».proof.Proof.Gen.Kernel.Points
import proofs.«153211_j15264313770095_1_alg».proof.Proof.Gen.Kernel.Frame
import proofs.«153211_j15264313770095_1_alg».proof.Proof.Gen.KernelIdeal
import proofs.«153211_j15264313770095_1_alg».proof.Proof.Gen.KernelIdeal.Skeleton
import proofs.«153211_j15264313770095_1_alg».proof.Proof.Gen.KernelIdeal.Launch
import proofs.«153211_j15264313770095_1_alg».proof.Proof.Gen.KernelIdeal.Points
import proofs.«153211_j15264313770095_1_alg».proof.Proof.Gen.KernelIdeal.Frame
import proofs.«153211_j15264313770095_1_alg».proof.Proof.Gen.ReferenceIdeal
import proofs.«153211_j15264313770095_1_alg».proof.Proof.Gen.Pre_finite_inputs
import proofs.«153211_j15264313770095_1_alg».proof.Proof.KernelValue
import proofs.«153211_j15264313770095_1_alg».proof.Proof.RefValue
import Idealize.ShloMosaic.Adequacy
import Idealize.ShloMosaic.Init

noncomputable section

namespace Cert.Proof

open Idealize.ShloMosaic Idealize.SL.Sem

/-- The kernel program runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its reading at the exact instance. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The array program runs and leaves its arguments as they were: its run with the four results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.RefValue.run m ρ)

/-- From memories that agree on the eighteen arguments, both programs end with the four results at `Spec` of those
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.hu3 (Cert.KernelIdeal.KernelValue.kArgs m c), fun c => Cert.Spec.hi3 (Cert.KernelIdeal.KernelValue.kArgs m c),
    fun c => Cert.Spec.pos (Cert.KernelIdeal.KernelValue.kArgs m c), fun c => Cert.Spec.neg (Cert.KernelIdeal.KernelValue.kArgs m c),
    Cert.KernelIdeal.KernelValue.run m ρ, ?_⟩
  refine (θ_run Cert.ReferenceIdeal.defs _ _).mono (fun r h c => ?_) (Cert.ReferenceIdeal.RefValue.run m' ρ')
  have hA : Cert.ReferenceIdeal.RefValue.rArgs m' c = Cert.KernelIdeal.KernelValue.kArgs m c := by
    obtain ⟨h0, h1, h2, h3, h4, h5, h6, h7, h8, h9, h10, h11, h12, h13, h14, h15, h16, h17⟩ := hagree c
    unfold Cert.ReferenceIdeal.RefValue.rArgs Cert.KernelIdeal.KernelValue.kArgs
    rw [h0, h1, h2, h3, h4, h5, h6, h7, h8, h9, h10, h11, h12, h13, h14, h15, h16, h17]
  have hr := h c
  rw [hA] at hr
  exact hr

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
